-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100001x512 : Shape := ⟨2, ![100001, 512]⟩
abbrev S4x512 : Shape := ⟨2, ![4, 512]⟩
abbrev S50001x512 : Shape := ⟨2, ![50001, 512]⟩
abbrev S21x512 : Shape := ⟨2, ![21, 512]⟩
abbrev S6144x512 : Shape := ⟨2, ![6144, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1024 : Shape := ⟨1, ![1024]⟩
abbrev S1024x100 : Shape := ⟨2, ![1024, 100]⟩
abbrev S_ : Shape := ⟨0, ![]⟩

class Facts : Prop where
  bcast_S_S100001x512 : S_.BroadcastsInDim S100001x512 (![] : Fin 0 → Fin S100001x512.rank)
  reducesTo_S100001x512_S_d0_1 : S100001x512.ReducesTo [0, 1] S_
  h_S_ : 0 < S_.numel
  bcast_S_S4x512 : S_.BroadcastsInDim S4x512 (![] : Fin 0 → Fin S4x512.rank)
  reducesTo_S4x512_S_d0_1 : S4x512.ReducesTo [0, 1] S_
  bcast_S_S50001x512 : S_.BroadcastsInDim S50001x512 (![] : Fin 0 → Fin S50001x512.rank)
  reducesTo_S50001x512_S_d0_1 : S50001x512.ReducesTo [0, 1] S_
  bcast_S_S21x512 : S_.BroadcastsInDim S21x512 (![] : Fin 0 → Fin S21x512.rank)
  reducesTo_S21x512_S_d0_1 : S21x512.ReducesTo [0, 1] S_
  bcast_S_S6144x512 : S_.BroadcastsInDim S6144x512 (![] : Fin 0 → Fin S6144x512.rank)
  reducesTo_S6144x512_S_d0_1 : S6144x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S512x256 .f32) (main_arg15 : FVec F S256 .f32) (main_arg16 : FVec F S256x128 .f32) (main_arg17 : FVec F S128 .f32) (main_v63 : IVec S_ 1) (main_v67 : IVec S_ 1) : IVec S_ 1 :=
  let main_v68 : IVec S_ 1 := andi main_v63 main_v67
  let main_v69 : FVec F S512x256 .f32 := Host.absf main_arg14
  let main_cst_26 : FVec F S_ .f32 := constant S_ .f32 0x7F800000#32
  let main_v70 : FVec F S512x256 .f32 := broadcastInDim S512x256 ![] bcast_S_S512x256 main_cst_26
  let main_v71 : IVec S512x256 1 := cmpf .olt main_v69 main_v70
  let main_c_27 : IVec S_ 1 := constantI S_ 1 1#1
  let main_v72 : IVec S_ 1 := (fun x v => Host.reduce IntOp.andi x v reducesTo_S512x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x128 .f32 := Host.absf main_arg16
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S50001x512 .f32) (main_arg12 : FVec F S6144x512 .f32) (main_arg13 : FVec F S512 .f32) (main_arg14 : FVec F S512x256 .f32) (main_arg15 : FVec F S256 .f32) (main_arg16 : FVec F S256x128 .f32) (main_arg17 : FVec F S128 .f32) (main_v48 : IVec S_ 1) (main_v49 : FVec F S21x512 .f32) (main_v50 : FVec F S21x512 .f32) : IVec S_ 1 :=
  let main_v51 : IVec S21x512 1 := cmpf .olt main_v49 main_v50
  let main_c_19 : IVec S_ 1 := constantI S_ 1 1#1
  let main_v52 : IVec S_ 1 := (fun x v => Host.reduce IntOp.andi x v reducesTo_S21x512_S_d0_1 h_S_) main_v51 main_c_19
  let main_v53 : IVec S_ 1 := andi main_v48 main_v52
  let main_v54 : FVec F S50001x512 .f32 := Host.absf main_arg11
  let main_cst_20 : FVec F S_ .f32 := constant S_ .f32 0x7F800000#32
  let main_v55 : FVec F S50001x512 .f32 := broadcastInDim S50001x512 ![] bcast_S_S50001x512 main_cst_20
  let main_v56 : IVec S50001x512 1 := cmpf .olt main_v54 main_v55
  let main_c_21 : IVec S_ 1 := constantI S_ 1 1#1
  let main_v57 : IVec S_ 1 := (fun x v => Host.reduce IntOp.andi x v reducesTo_S50001x512_S_d0_1 h_S_) main_v56 main_c_21
  let main_v58 : IVec S_ 1 := andi main_v53 main_v57
  let main_v59 : FVec F S6144x512 .f32 := Host.absf main_arg12
  let main_cst_22 : FVec F S_ .f32 := constant S_ .f32 0x7F800000#32
  let main_v60 : FVec F S6144x512 .f32 := broadcastInDim S6144x512 ![] bcast_S_S6144x512 main_cst_22
  let main_v61 : IVec S6144x512 1 := cmpf .olt main_v59 main_v60
  let main_c_23 : IVec S_ 1 := constantI S_ 1 1#1
  let main_v62 : IVec S_ 1 := (fun x v => Host.reduce IntOp.andi x v reducesTo_S6144x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_v63 main_v67

def fn_part2 {F : FTy → Type} [FloatOps F] (main_arg7 : FVec F S100001x512 .f32) (main_arg8 : FVec F S21x512 .f32) (main_arg9 : FVec F S21x512 .f32) (main_arg10 : FVec F S21x512 .f32) (main_arg11 : FVec F S50001x512 .f32) (main_arg12 : FVec F S6144x512 .f32) (main_arg13 : FVec F S512 .f32) (main_arg14 : FVec F S512x256 .f32) (main_arg15 : FVec F S256 .f32) (main_arg16 : FVec F S256x128 .f32) (main_arg17 : FVec F S128 .f32) (main_v33 : IVec S_ 1) : IVec S_ 1 :=
  let main_v34 : FVec F S100001x512 .f32 := Host.absf main_arg7
  let main_cst_12 : FVec F S_ .f32 := constant S_ .f32 0x7F800000#32
  let main_v35 : FVec F S100001x512 .f32 := broadcastInDim S100001x512 ![] bcast_S_S100001x512 main_cst_12
  let main_v36 : IVec S100001x512 1 := cmpf .olt main_v34 main_v35
  let main_c_13 : IVec S_ 1 := constantI S_ 1 1#1
  let main_v37 : IVec S_ 1 := (fun x v => Host.reduce IntOp.andi x v reducesTo_S100001x512_S_d0_1 h_S_) main_v36 main_c_13
  let main_v38 : IVec S_ 1 := andi main_v33 main_v37
  let main_v39 : FVec F S21x512 .f32 := Host.absf main_arg8
  let main_cst_14 : FVec F S_ .f32 := constant S_ .f32 0x7F800000#32
  let main_v40 : FVec F S21x512 .f32 := broadcastInDim S21x512 ![] bcast_S_S21x512 main_cst_14
  let main_v41 : IVec S21x512 1 := cmpf .olt main_v39 main_v40
  let main_c_15 : IVec S_ 1 := constantI S_ 1 1#1
  let main_v42 : IVec S_ 1 := (fun x v => Host.reduce IntOp.andi x v reducesTo_S21x512_S_d0_1 h_S_) main_v41 main_c_15
  let main_v43 : IVec S_ 1 := andi main_v38 main_v42
  let main_v44 : FVec F S21x512 .f32 := Host.absf main_arg9
  let main_cst_16 : FVec F S_ .f32 := constant S_ .f32 0x7F800000#32
  let main_v45 : FVec F S21x512 .f32 := broadcastInDim S21x512 ![] bcast_S_S21x512 main_cst_16
  let main_v46 : IVec S21x512 1 := cmpf .olt main_v44 main_v45
  let main_c_17 : IVec S_ 1 := constantI S_ 1 1#1
  let main_v47 : IVec S_ 1 := (fun x v => Host.reduce IntOp.andi x v reducesTo_S21x512_S_d0_1 h_S_) main_v46 main_c_17
  let main_v48 : IVec S_ 1 := andi main_v43 main_v47
  let main_v49 : FVec F S21x512 .f32 := Host.absf main_arg10
  let main_cst_18 : FVec F S_ .f32 := constant S_ .f32 0x7F800000#32
  let main_v50 : FVec F S21x512 .f32 := broadcastInDim S21x512 ![] bcast_S_S21x512 main_cst_18
  fn_part3 (F := F) main_arg11 main_arg12 main_arg13 main_arg14 main_arg15 main_arg16 main_arg17 main_v48 main_v49 main_v50

def fn_part1 {F : FTy → Type} [FloatOps F] (main_arg4 : FVec F S100001x512 .f32) (main_arg5 : FVec F S50001x512 .f32) (main_arg6 : FVec F S21x512 .f32) (main_arg7 : FVec F S100001x512 .f32) (main_arg8 : FVec F S21x512 .f32) (main_arg9 : FVec F S21x512 .f32) (main_arg10 : FVec F S21x512 .f32) (main_arg11 : FVec F S50001x512 .f32) (main_arg12 : FVec F S6144x512 .f32) (main_arg13 : FVec F S512 .f32) (main_arg14 : FVec F S512x256 .f32) (main_arg15 : FVec F S256 .f32) (main_arg16 : FVec F S256x128 .f32) (main_arg17 : FVec F S128 .f32) (main_v13 : IVec S_ 1) (main_v16 : IVec S50001x512 1) : IVec S_ 1 :=
  let main_c_5 : IVec S_ 1 := constantI S_ 1 1#1
  let main_v17 : IVec S_ 1 := (fun x v => Host.reduce IntOp.andi x v reducesTo_S50001x512_S_d0_1 h_S_) main_v16 main_c_5
  let main_v18 : IVec S_ 1 := andi main_v13 main_v17
  let main_v19 : FVec F S100001x512 .f32 := Host.absf main_arg4
  let main_cst_6 : FVec F S_ .f32 := constant S_ .f32 0x7F800000#32
  let main_v20 : FVec F S100001x512 .f32 := broadcastInDim S100001x512 ![] bcast_S_S100001x512 main_cst_6
  let main_v21 : IVec S100001x512 1 := cmpf .olt main_v19 main_v20
  let main_c_7 : IVec S_ 1 := constantI S_ 1 1#1
  let main_v22 : IVec S_ 1 := (fun x v => Host.reduce IntOp.andi x v reducesTo_S100001x512_S_d0_1 h_S_) main_v21 main_c_7
  let main_v23 : IVec S_ 1 := andi main_v18 main_v22
  let main_v24 : FVec F S50001x512 .f32 := Host.absf main_arg5
  let main_cst_8 : FVec F S_ .f32 := constant S_ .f32 0x7F800000#32
  let main_v25 : FVec F S50001x512 .f32 := broadcastInDim S50001x512 ![] bcast_S_S50001x512 main_cst_8
  let main_v26 : IVec S50001x512 1 := cmpf .olt main_v24 main_v25
  let main_c_9 : IVec S_ 1 := constantI S_ 1 1#1
  let main_v27 : IVec S_ 1 := (fun x v => Host.reduce IntOp.andi x v reducesTo_S50001x512_S_d0_1 h_S_) main_v26 main_c_9
  let main_v28 : IVec S_ 1 := andi main_v23 main_v27
  let main_v29 : FVec F S21x512 .f32 := Host.absf main_arg6
  let main_cst_10 : FVec F S_ .f32 := constant S_ .f32 0x7F800000#32
  let main_v30 : FVec F S21x512 .f32 := broadcastInDim S21x512 ![] bcast_S_S21x512 main_cst_10
  let main_v31 : IVec S21x512 1 := cmpf .olt main_v29 main_v30
  let main_c_11 : IVec S_ 1 := constantI S_ 1 1#1
  let main_v32 : IVec S_ 1 := (fun x v => Host.reduce IntOp.andi x v reducesTo_S21x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100001x512 .f32) (main_arg1 : FVec F S4x512 .f32) (main_arg2 : FVec F S100001x512 .f32) (main_arg3 : FVec F S50001x512 .f32) (main_arg4 : FVec F S100001x512 .f32) (main_arg5 : FVec F S50001x512 .f32) (main_arg6 : FVec F S21x512 .f32) (main_arg7 : FVec F S100001x512 .f32) (main_arg8 : FVec F S21x512 .f32) (main_arg9 : FVec F S21x512 .f32) (main_arg10 : FVec F S21x512 .f32) (main_arg11 : FVec F S50001x512 .f32) (main_arg12 : FVec F S6144x512 .f32) (main_arg13 : FVec F S512 .f32) (main_arg14 : FVec F S512x256 .f32) (main_arg15 : FVec F S256 .f32) (main_arg16 : FVec F S256x128 .f32) (main_arg17 : FVec F S128 .f32) (main_arg18 : IVec S1024 32) (main_arg19 : IVec S1024 32) (main_arg20 : IVec S1024 32) (main_arg21 : IVec S1024x100 32) (main_arg22 : IVec S1024x100 32) (main_arg23 : IVec S1024x100 32) (main_arg24 : IVec S1024x100 32) (main_arg25 : IVec S1024x100 32) (main_arg26 : IVec S1024x100 32) (main_arg27 : IVec S1024x100 32) (main_arg28 : IVec S1024x100 32) (main_arg29 : IVec S1024x100 32) : IVec S_ 1 :=
  let main_v0 : FVec F S100001x512 .f32 := Host.absf main_arg0
  let main_cst : FVec F S_ .f32 := constant S_ .f32 0x7F800000#32
  let main_v1 : FVec F S100001x512 .f32 := broadcastInDim S100001x512 ![] bcast_S_S100001x512 main_cst
  let main_v2 : IVec S100001x512 1 := cmpf .olt main_v0 main_v1
  let main_c : IVec S_ 1 := constantI S_ 1 1#1
  let main_v3 : IVec S_ 1 := (fun x v => Host.reduce IntOp.andi x v reducesTo_S100001x512_S_d0_1 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  let main_v9 : FVec F S100001x512 .f32 := Host.absf main_arg2
  let main_cst_2 : FVec F S_ .f32 := constant S_ .f32 0x7F800000#32
  let main_v10 : FVec F S100001x512 .f32 := broadcastInDim S100001x512 ![] bcast_S_S100001x512 main_cst_2
  let main_v11 : IVec S100001x512 1 := cmpf .olt main_v9 main_v10
  let main_c_3 : IVec S_ 1 := constantI S_ 1 1#1
  let main_v12 : IVec S_ 1 := (fun x v => Host.reduce IntOp.andi x v reducesTo_S100001x512_S_d0_1 h_S_) main_v11 main_c_3
  let main_v13 : IVec S_ 1 := andi main_v8 main_v12
  let main_v14 : FVec F S50001x512 .f32 := Host.absf main_arg3
  let main_cst_4 : FVec F S_ .f32 := constant S_ .f32 0x7F800000#32
  let main_v15 : FVec F S50001x512 .f32 := broadcastInDim S50001x512 ![] bcast_S_S50001x512 main_cst_4
  let main_v16 : IVec S50001x512 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S100001x512 : Shape := ⟨2, ![100001, 512]⟩
abbrev S4x512 : Shape := ⟨2, ![4, 512]⟩
abbrev S50001x512 : Shape := ⟨2, ![50001, 512]⟩
abbrev S21x512 : Shape := ⟨2, ![21, 512]⟩
abbrev S6144x512 : Shape := ⟨2, ![6144, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1024 : Shape := ⟨1, ![1024]⟩
abbrev S1024x100 : Shape := ⟨2, ![1024, 100]⟩
abbrev S_ : Shape := ⟨0, ![]⟩
abbrev S1024x1 : Shape := ⟨2, ![1024, 1]⟩
abbrev S1024x512 : Shape := ⟨2, ![1024, 512]⟩
abbrev S1024x100x1 : Shape := ⟨3, ![1024, 100, 1]⟩
abbrev S1024x100x512 : Shape := ⟨3, ![1024, 100, 512]⟩
abbrev S64x100x512 : Shape := ⟨3, ![64, 100, 512]⟩
abbrev S64x512 : Shape := ⟨2, ![64, 512]⟩
abbrev S1024x6144 : Shape := ⟨2, ![1024, 6144]⟩
abbrev S1024x128 : Shape := ⟨2, ![1024, 128]⟩
abbrev S128x6144 : Shape := ⟨2, ![128, 6144]⟩
abbrev S128x128 : Shape := ⟨2, ![128, 128]⟩
abbrev S128x512 : Shape := ⟨2, ![128, 512]⟩
abbrev S1x512 : Shape := ⟨2, ![1, 512]⟩
abbrev S128x256 : Shape := ⟨2, ![128, 256]⟩
abbrev S1x256 : Shape := ⟨2, ![1, 256]⟩
abbrev S1x128 : Shape := ⟨2, ![1, 128]⟩

abbrev nBuf : Space → Nat
  | .hbm => 149
  | .vmem => 46
  | .smem => 0
  | _ => 0

abbrev hbmTy0_0 (i : Nat) : BufTy := match i % 128 with
  | 0 => ⟨S100001x512, .f32⟩
  | 1 => ⟨S4x512, .f32⟩
  | 2 => ⟨S100001x512, .f32⟩
  | 3 => ⟨S50001x512, .f32⟩
  | 4 => ⟨S100001x512, .f32⟩
  | 5 => ⟨S50001x512, .f32⟩
  | 6 => ⟨S21x512, .f32⟩
  | 7 => ⟨S100001x512, .f32⟩
  | 8 => ⟨S21x512, .f32⟩
  | 9 => ⟨S21x512, .f32⟩
  | 10 => ⟨S21x512, .f32⟩
  | 11 => ⟨S50001x512, .f32⟩
  | 12 => ⟨S6144x512, .f32⟩
  | 13 => ⟨S512, .f32⟩
  | 14 => ⟨S512x256, .f32⟩
  | 15 => ⟨S256, .f32⟩
  | 16 => ⟨S256x128, .f32⟩
  | 17 => ⟨S128, .f32⟩
  | 18 => ⟨S1024, .i32⟩
  | 19 => ⟨S1024, .i32⟩
  | 20 => ⟨S1024, .i32⟩
  | 21 => ⟨S1024x100, .i32⟩
  | 22 => ⟨S1024x100, .i32⟩
  | 23 => ⟨S1024x100, .i32⟩
  | 24 => ⟨S1024x100, .i32⟩
  | 25 => ⟨S1024x100, .i32⟩
  | 26 => ⟨S1024x100, .i32⟩
  | 27 => ⟨S1024x100, .i32⟩
  | 28 => ⟨S1024x100, .i32⟩
  | 29 => ⟨S1024x100, .i32⟩
  | 30 => ⟨S_, .i32⟩
  | 31 => ⟨S1024, .i32⟩
  | 32 => ⟨S1024, .i1⟩
  | 33 => ⟨S_, .i32⟩
  | 34 => ⟨S1024, .i32⟩
  | 35 => ⟨S1024, .i32⟩
  | 36 => ⟨S1024, .i32⟩
  | 37 => ⟨S1024x1, .i32⟩
  | 38 => ⟨S1024x512, .f32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S1024x1, .i32⟩
  | 47 => ⟨S1024x512, .f32⟩
  | 48 => ⟨S_, .i32⟩
  | 49 => ⟨S1024, .i32⟩
  | 50 => ⟨S1024, .i1⟩
  | 51 => ⟨S_, .i32⟩
  | 52 => ⟨S1024, .i32⟩
  | 53 => ⟨S1024, .i32⟩
  | 54 => ⟨S1024, .i32⟩
  | 55 => ⟨S1024x1, .i32⟩
  | 56 => ⟨S1024x512, .f32⟩
  | 57 => ⟨S_, .i32⟩
  | 58 => ⟨S1024x100, .i32⟩
  | 59 => ⟨S1024x100, .i1⟩
  | 60 => ⟨S_, .i32⟩
  | 61 => ⟨S1024x100, .i32⟩
  | 62 => ⟨S1024x100, .i32⟩
  | 63 => ⟨S1024x100, .i32⟩
  | 64 => ⟨S1024x100x1, .i32⟩
  | 65 => ⟨S1024x100x512, .f32⟩
  | 66 => ⟨S1024x512, .f32⟩
  | 67 => ⟨S_, .i32⟩
  | 68 => ⟨S1024x100, .i32⟩
  | 69 => ⟨S1024x100, .i1⟩
  | 70 => ⟨S_, .i32⟩
  | 71 => ⟨S1024x100, .i32⟩
  | 72 => ⟨S1024x100, .i32⟩
  | 73 => ⟨S1024x100, .i32⟩
  | 74 => ⟨S1024x100x1, .i32⟩
  | 75 => ⟨S1024x100x512, .f32⟩
  | 76 => ⟨S1024x512, .f32⟩
  | 77 => ⟨S_, .i32⟩
  | 78 => ⟨S1024x100, .i32⟩
  | 79 => ⟨S1024x100, .i1⟩
  | 80 => ⟨S_, .i32⟩
  | 81 => ⟨S1024x100, .i32⟩
  | 82 => ⟨S1024x100, .i32⟩
  | 83 => ⟨S1024x100, .i32⟩
  | 84 => ⟨S1024x100x1, .i32⟩
  | 85 => ⟨S1024x100x512, .f32⟩
  | 86 => ⟨S1024x512, .f32⟩
  | 87 => ⟨S_, .i32⟩
  | 88 => ⟨S1024x100, .i32⟩
  | 89 => ⟨S1024x100, .i1⟩
  | 90 => ⟨S_, .i32⟩
  | 91 => ⟨S1024x100, .i32⟩
  | 92 => ⟨S1024x100, .i32⟩
  | 93 => ⟨S1024x100, .i32⟩
  | 94 => ⟨S1024x100x1, .i32⟩
  | 95 => ⟨S1024x100x512, .f32⟩
  | 96 => ⟨S1024x512, .f32⟩
  | 97 => ⟨S_, .i32⟩
  | 98 => ⟨S1024x100, .i32⟩
  | 99 => ⟨S1024x100, .i1⟩
  | 100 => ⟨S_, .i32⟩
  | 101 => ⟨S1024x100, .i32⟩
  | 102 => ⟨S1024x100, .i32⟩
  | 103 => ⟨S1024x100, .i32⟩
  | 104 => ⟨S1024x100x1, .i32⟩
  | 105 => ⟨S1024x100x512, .f32⟩
  | 106 => ⟨S1024x512, .f32⟩
  | 107 => ⟨S_, .i32⟩
  | 108 => ⟨S1024x100, .i32⟩
  | 109 => ⟨S1024x100, .i1⟩
  | 110 => ⟨S_, .i32⟩
  | 111 => ⟨S1024x100, .i32⟩
  | 112 => ⟨S1024x100, .i32⟩
  | 113 => ⟨S1024x100, .i32⟩
  | 114 => ⟨S1024x100x1, .i32⟩
  | 115 => ⟨S1024x100x512, .f32⟩
  | 116 => ⟨S1024x512, .f32⟩
  | 117 => ⟨S_, .i32⟩
  | 118 => ⟨S1024x100, .i32⟩
  | 119 => ⟨S1024x100, .i1⟩
  | 120 => ⟨S_, .i32⟩
  | 121 => ⟨S1024x100, .i32⟩
  | 122 => ⟨S1024x100, .i32⟩
  | 123 => ⟨S1024x100, .i32⟩
  | 124 => ⟨S1024x100x1, .i32⟩
  | 125 => ⟨S1024x100x512, .f32⟩
  | 126 => ⟨S1024x512, .f32⟩
  | 127 => ⟨S_, .i32⟩
  | _ => ⟨S100001x512, .f32⟩

abbrev hbmTy0_1 (i : Nat) : BufTy := match i % 128 with
  | 0 => ⟨S1024x100, .i32⟩
  | 1 => ⟨S1024x100, .i1⟩
  | 2 => ⟨S_, .i32⟩
  | 3 => ⟨S1024x100, .i32⟩
  | 4 => ⟨S1024x100, .i32⟩
  | 5 => ⟨S1024x100, .i32⟩
  | 6 => ⟨S1024x100x1, .i32⟩
  | 7 => ⟨S1024x100x512, .f32⟩
  | 8 => ⟨S1024x512, .f32⟩
  | 9 => ⟨S_, .i32⟩
  | 10 => ⟨S1024x100, .i32⟩
  | 11 => ⟨S1024x100, .i1⟩
  | 12 => ⟨S_, .i32⟩
  | 13 => ⟨S1024x100, .i32⟩
  | 14 => ⟨S1024x100, .i32⟩
  | 15 => ⟨S1024x100, .i32⟩
  | 16 => ⟨S1024x100x1, .i32⟩
  | 17 => ⟨S1024x100x512, .f32⟩
  | 18 => ⟨S1024x512, .f32⟩
  | 19 => ⟨S1024x6144, .f32⟩
  | 20 => ⟨S1024x128, .f32⟩
  | _ => ⟨S100001x512, .f32⟩

abbrev hbmTy (i : Nat) : BufTy := match i / 128 with
  | 0 => hbmTy0_0 i
  | 1 => hbmTy0_1 i
  | _ => ⟨S100001x512, .f32⟩

abbrev bufTy : (tb : Table) → Fin (tcTables nBuf tb) → BufTy
  | .hbm, ⟨i, _⟩ => hbmTy i
  | .local _ .vmem, ⟨0, _⟩ => ⟨S64x100x512, .f32⟩
  | .local _ .vmem, ⟨1, _⟩ => ⟨S64x100x512, .f32⟩
  | .local _ .vmem, ⟨2, _⟩ => ⟨S64x512, .f32⟩
  | .local _ .vmem, ⟨3, _⟩ => ⟨S64x512, .f32⟩
  | .local _ .vmem, ⟨4, _⟩ => ⟨S64x100x512, .f32⟩
  | .local _ .vmem, ⟨5, _⟩ => ⟨S64x100x512, .f32⟩
  | .local _ .vmem, ⟨6, _⟩ => ⟨S64x512, .f32⟩
  | .local _ .vmem, ⟨7, _⟩ => ⟨S64x512, .f32⟩
  | .local _ .vmem, ⟨8, _⟩ => ⟨S64x100x512, .f32⟩
  | .local _ .vmem, ⟨9, _⟩ => ⟨S64x100x512, .f32⟩
  | .local _ .vmem, ⟨10, _⟩ => ⟨S64x512, .f32⟩
  | .local _ .vmem, ⟨11, _⟩ => ⟨S64x512, .f32⟩
  | .local _ .vmem, ⟨12, _⟩ => ⟨S64x100x512, .f32⟩
  | .local _ .vmem, ⟨13, _⟩ => ⟨S64x100x512, .f32⟩
  | .local _ .vmem, ⟨14, _⟩ => ⟨S64x512, .f32⟩
  | .local _ .vmem, ⟨15, _⟩ => ⟨S64x512, .f32⟩
  | .local _ .vmem, ⟨16, _⟩ => ⟨S64x100x512, .f32⟩
  | .local _ .vmem, ⟨17, _⟩ => ⟨S64x100x512, .f32⟩
  | .local _ .vmem, ⟨18, _⟩ => ⟨S64x512, .f32⟩
  | .local _ .vmem, ⟨19, _⟩ => ⟨S64x512, .f32⟩
  | .local _ .vmem, ⟨20, _⟩ => ⟨S64x100x512, .f32⟩
  | .local _ .vmem, ⟨21, _⟩ => ⟨S64x100x512, .f32⟩
  | .local _ .vmem, ⟨22, _⟩ => ⟨S64x512, .f32⟩
  | .local _ .vmem, ⟨23, _⟩ => ⟨S64x512, .f32⟩
  | .local _ .vmem, ⟨24, _⟩ => ⟨S64x100x512, .f32⟩
  | .local _ .vmem, ⟨25, _⟩ => ⟨S64x100x512, .f32⟩
  | .local _ .vmem, ⟨26, _⟩ => ⟨S64x512, .f32⟩
  | .local _ .vmem, ⟨27, _⟩ => ⟨S64x512, .f32⟩
  | .local _ .vmem, ⟨28, _⟩ => ⟨S64x100x512, .f32⟩
  | .local _ .vmem, ⟨29, _⟩ => ⟨S64x100x512, .f32⟩
  | .local _ .vmem, ⟨30, _⟩ => ⟨S64x512, .f32⟩
  | .local _ .vmem, ⟨31, _⟩ => ⟨S64x512, .f32⟩
  | .local _ .vmem, ⟨32, _⟩ => ⟨S64x100x512, .f32⟩
  | .local _ .vmem, ⟨33, _⟩ => ⟨S64x100x512, .f32⟩
  | .local _ .vmem, ⟨34, _⟩ => ⟨S64x512, .f32⟩
  | .local _ .vmem, ⟨35, _⟩ => ⟨S64x512, .f32⟩
  | .local _ .vmem, ⟨36, _⟩ => ⟨S128x6144, .f32⟩
  | .local _ .vmem, ⟨37, _⟩ => ⟨S128x6144, .f32⟩
  | .local _ .vmem, ⟨38, _⟩ => ⟨S6144x512, .f32⟩
  | .local _ .vmem, ⟨39, _⟩ => ⟨S512, .f32⟩
  | .local _ .vmem, ⟨40, _⟩ => ⟨S512x256, .f32⟩
  | .local _ .vmem, ⟨41, _⟩ => ⟨S256, .f32⟩
  | .local _ .vmem, ⟨42, _⟩ => ⟨S256x128, .f32⟩
  | .local _ .vmem, ⟨43, _⟩ => ⟨S128, .f32⟩
  | .local _ .vmem, ⟨44, _⟩ => ⟨S128x128, .f32⟩
  | .local _ .vmem, ⟨45, _⟩ => ⟨S128x128, .f32⟩
  | _, _ => ⟨S100001x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_v0 : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_c_1 : Ref sig .tc := ⟨.hbm, 39, rfl⟩
abbrev main_v7 : Ref sig .tc := ⟨.hbm, 40, rfl⟩
abbrev main_v8 : Ref sig .tc := ⟨.hbm, 41, rfl⟩
abbrev main_c_2 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_c_3 : Ref sig .tc := ⟨.hbm, 48, rfl⟩
abbrev main_v14 : Ref sig .tc := ⟨.hbm, 49, rfl⟩
abbrev main_v15 : Ref sig .tc := ⟨.hbm, 50, rfl⟩
abbrev main_c_4 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_5 : Ref sig .tc := ⟨.hbm, 57, rfl⟩
abbrev main_v21 : Ref sig .tc := ⟨.hbm, 58, rfl⟩
abbrev main_v22 : Ref sig .tc := ⟨.hbm, 59, rfl⟩
abbrev main_c_6 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_c_7 : Ref sig .tc := ⟨.hbm, 67, rfl⟩
abbrev main_v29 : Ref sig .tc := ⟨.hbm, 68, rfl⟩
abbrev main_v30 : Ref sig .tc := ⟨.hbm, 69, rfl⟩
abbrev main_c_8 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_c_9 : Ref sig .tc := ⟨.hbm, 77, rfl⟩
abbrev main_v37 : Ref sig .tc := ⟨.hbm, 78, rfl⟩
abbrev main_v38 : Ref sig .tc := ⟨.hbm, 79, rfl⟩
abbrev main_c_10 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_11 : Ref sig .tc := ⟨.hbm, 87, rfl⟩
abbrev main_v45 : Ref sig .tc := ⟨.hbm, 88, rfl⟩
abbrev main_v46 : Ref sig .tc := ⟨.hbm, 89, rfl⟩
abbrev main_c_12 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_c_13 : Ref sig .tc := ⟨.hbm, 97, rfl⟩
abbrev main_v53 : Ref sig .tc := ⟨.hbm, 98, rfl⟩
abbrev main_v54 : Ref sig .tc := ⟨.hbm, 99, rfl⟩
abbrev main_c_14 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c_15 : Ref sig .tc := ⟨.hbm, 107, rfl⟩
abbrev main_v61 : Ref sig .tc := ⟨.hbm, 108, rfl⟩
abbrev main_v62 : Ref sig .tc := ⟨.hbm, 109, rfl⟩
abbrev main_c_16 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_17 : Ref sig .tc := ⟨.hbm, 117, rfl⟩
abbrev main_v69 : Ref sig .tc := ⟨.hbm, 118, rfl⟩
abbrev main_v70 : Ref sig .tc := ⟨.hbm, 119, rfl⟩
abbrev main_c_18 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_c_19 : Ref sig .tc := ⟨.hbm, 127, rfl⟩
abbrev main_v77 : Ref sig .tc := ⟨.hbm, 128, rfl⟩
abbrev main_v78 : Ref sig .tc := ⟨.hbm, 129, rfl⟩
abbrev main_c_20 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_c_21 : Ref sig .tc := ⟨.hbm, 137, rfl⟩
abbrev main_v85 : Ref sig .tc := ⟨.hbm, 138, rfl⟩
abbrev main_v86 : Ref sig .tc := ⟨.hbm, 139, rfl⟩
abbrev main_c_22 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc7_stg0_0 : Ref sig .tc := ⟨.vmem, 28, rfl⟩
abbrev cc7_stg0_1 : Ref sig .tc := ⟨.vmem, 29, rfl⟩
abbrev cc7_stg1_0 : Ref sig .tc := ⟨.vmem, 30, rfl⟩
abbrev cc7_stg1_1 : Ref sig .tc := ⟨.vmem, 31, rfl⟩
abbrev cc8_stg0_0 : Ref sig .tc := ⟨.vmem, 32, rfl⟩
abbrev cc8_stg0_1 : Ref sig .tc := ⟨.vmem, 33, rfl⟩
abbrev cc8_stg1_0 : Ref sig .tc := ⟨.vmem, 34, rfl⟩
abbrev cc8_stg1_1 : Ref sig .tc := ⟨.vmem, 35, rfl⟩
abbrev cc9_stg0_0 : Ref sig .tc := ⟨.vmem, 36, rfl⟩
abbrev cc9_stg0_1 : Ref sig .tc := ⟨.vmem, 37, rfl⟩
abbrev cc9_stg1_0 : Ref sig .tc := ⟨.vmem, 38, rfl⟩
abbrev cc9_stg2_0 : Ref sig .tc := ⟨.vmem, 39, rfl⟩
abbrev cc9_stg3_0 : Ref sig .tc := ⟨.vmem, 40, rfl⟩
abbrev cc9_stg4_0 : Ref sig .tc := ⟨.vmem, 41, rfl⟩
abbrev cc9_stg5_0 : Ref sig .tc := ⟨.vmem, 42, rfl⟩
abbrev cc9_stg6_0 : Ref sig .tc := ⟨.vmem, 43, rfl⟩
abbrev cc9_stg7_0 : Ref sig .tc := ⟨.vmem, 44, rfl⟩
abbrev cc9_stg7_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc6_sem0_0 : DmaSem sig := 24
abbrev cc6_sem0_1 : DmaSem sig := 25
abbrev cc6_sem1_0 : DmaSem sig := 26
abbrev cc6_sem1_1 : DmaSem sig := 27
abbrev cc7_sem0_0 : DmaSem sig := 28
abbrev cc7_sem0_1 : DmaSem sig := 29
abbrev cc7_sem1_0 : DmaSem sig := 30
abbrev cc7_sem1_1 : DmaSem sig := 31
abbrev cc8_sem0_0 : DmaSem sig := 32
abbrev cc8_sem0_1 : DmaSem sig := 33
abbrev cc8_sem1_0 : DmaSem sig := 34
abbrev cc8_sem1_1 : DmaSem sig := 35
abbrev cc9_sem0_0 : DmaSem sig := 36
abbrev cc9_sem0_1 : DmaSem sig := 37
abbrev cc9_sem1_0 : DmaSem sig := 38
abbrev cc9_sem2_0 : DmaSem sig := 39
abbrev cc9_sem3_0 : DmaSem sig := 40
abbrev cc9_sem4_0 : DmaSem sig := 41
abbrev cc9_sem5_0 : DmaSem sig := 42
abbrev cc9_sem6_0 : DmaSem sig := 43
abbrev cc9_sem7_0 : DmaSem sig := 44
abbrev cc9_sem7_1 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x100x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x100x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x100x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x100x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S64x100x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S64x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![16], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S64x100x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S64x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![16], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S64x100x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S64x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![16], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S64x100x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S64x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev grid8 : Pipeline.Grid := ⟨1, ![16], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S64x100x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S64x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S128x6144 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S6144x512 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S128x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x100 : S_.BroadcastsInDim S1024x100 (![] : Fin 0 → Fin S1024x100.rank)
  bcast_S1024x100_S1024x100x1_0_1 : S1024x100.BroadcastsInDim S1024x100x1 (![0, 1] : Fin 2 → Fin S1024x100x1.rank)
  inb_S64x100x512_S64x100x512_0_0_0 : ∀ a, (![0, 0, 0] : Fin 3 → Nat) a + S64x100x512.size a ≤ S64x100x512.size a
  h_S64x100x512 : 0 < S64x100x512.numel
  shapeCasts_S64x100x512_S64x100x512 : S64x100x512.ShapeCasts S64x100x512
  reduces_S64x100x512_S64x512 : S64x100x512.Reduces [1] S64x512
  inb_S64x512_S64x512_0_0 : ∀ a, (![0, 0] : Fin 2 → Nat) a + S64x512.size a ≤ S64x512.size a
  h_S64x512 : 0 < S64x512.numel
  concatenates_S1024x512_S1024x512_S1024x512_S1024x512_S1024x512_S1024x512_S1024x512_S1024x512_S1024x512_S1024x512_S1024x512_S1024x512_S1024x6144_d1 : Shape.Concatenates [S1024x512, S1024x512, S1024x512, S1024x512, S1024x512, S1024x512, S1024x512, S1024x512, S1024x512, S1024x512, S1024x512, S1024x512] S1024x6144 1
  inb_S128x6144_S128x6144_0_0 : ∀ a, (![0, 0] : Fin 2 → Nat) a + S128x6144.size a ≤ S128x6144.size a
  h_S128x6144 : 0 < S128x6144.numel
  shapeCasts_S128x6144_S128x6144 : S128x6144.ShapeCasts S128x6144
  bitsLt_bf16_f32 : FTy.bits .bf16 < FTy.bits .f32
  inb_S6144x512_S6144x512_0_0 : ∀ a, (![0, 0] : Fin 2 → Nat) a + S6144x512.size a ≤ S6144x512.size a
  h_S6144x512 : 0 < S6144x512.numel
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  gather_S100001x512_S1024x1_S1024x512_1_0_n_n_0_1_1512_wf : GatherDims.WF S100001x512 S1024x1 S1024x512 [1] [0] [] [0] [] 1 ![1, 512]
  gather_S4x512_S1024x1_S1024x512_1_0_n_n_0_1_1512_wf : GatherDims.WF S4x512 S1024x1 S1024x512 [1] [0] [] [0] [] 1 ![1, 512]
  gather_S50001x512_S1024x100x1_S1024x100x512_2_0_n_n_0_2_1512_wf : GatherDims.WF S50001x512 S1024x100x1 S1024x100x512 [2] [0] [] [0] [] 2 ![1, 512]
  gather_S100001x512_S1024x100x1_S1024x100x512_2_0_n_n_0_2_1512_wf : GatherDims.WF S100001x512 S1024x100x1 S1024x100x512 [2] [0] [] [0] [] 2 ![1, 512]
  gather_S21x512_S1024x100x1_S1024x100x512_2_0_n_n_0_2_1512_wf : GatherDims.WF S21x512 S1024x100x1 S1024x100x512 [2] [0] [] [0] [] 2 ![1, 512]
  dot_S128x6144_S6144x512_S128x512_1_0_0_1_n_n_wf : DotDims.WF S128x6144 S6144x512 S128x512 [1] [0] [0] [1] [] []
  dot_S128x512_S512x256_S128x256_1_0_0_1_n_n_wf : DotDims.WF S128x512 S512x256 S128x256 [1] [0] [0] [1] [] []
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x100x512.size a ≤ S1024x100x512.size a
  hwx0_0 : ∀ i : grid0.Coords, EltTy.bits .f32 = 32 ∨ (Rect.block (s := S1024x100x512) S64x100x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S1024x512.size a
  hwx0_1 : ∀ i : grid0.Coords, EltTy.bits .f32 = 32 ∨ (Rect.block (s := S1024x512) S64x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x100x512.size a ≤ S1024x100x512.size a
  hwx1_0 : ∀ i : grid1.Coords, EltTy.bits .f32 = 32 ∨ (Rect.block (s := S1024x100x512) S64x100x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S1024x512.size a
  hwx1_1 : ∀ i : grid1.Coords, EltTy.bits .f32 = 32 ∨ (Rect.block (s := S1024x512) S64x512.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x100x512.size a ≤ S1024x100x512.size a
  hwx2_0 : ∀ i : grid2.Coords, EltTy.bits .f32 = 32 ∨ (Rect.block (s := S1024x100x512) S64x100x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x512.size a ≤ S1024x512.size a
  hwx2_1 : ∀ i : grid2.Coords, EltTy.bits .f32 = 32 ∨ (Rect.block (s := S1024x512) S64x512.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x100x512.size a ≤ S1024x100x512.size a
  hwx3_0 : ∀ i : grid3.Coords, EltTy.bits .f32 = 32 ∨ (Rect.block (s := S1024x100x512) S64x100x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x512.size a ≤ S1024x512.size a
  hwx3_1 : ∀ i : grid3.Coords, EltTy.bits .f32 = 32 ∨ (Rect.block (s := S1024x512) S64x512.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x100x512.size a ≤ S1024x100x512.size a
  hwx4_0 : ∀ i : grid4.Coords, EltTy.bits .f32 = 32 ∨ (Rect.block (s := S1024x100x512) S64x100x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x512.size a ≤ S1024x512.size a
  hwx4_1 : ∀ i : grid4.Coords, EltTy.bits .f32 = 32 ∨ (Rect.block (s := S1024x512) S64x512.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S64x100x512.size a ≤ S1024x100x512.size a
  hwx5_0 : ∀ i : grid5.Coords, EltTy.bits .f32 = 32 ∨ (Rect.block (s := S1024x100x512) S64x100x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S64x512.size a ≤ S1024x512.size a
  hwx5_1 : ∀ i : grid5.Coords, EltTy.bits .f32 = 32 ∨ (Rect.block (s := S1024x512) S64x512.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S64x100x512.size a ≤ S1024x100x512.size a
  hwx6_0 : ∀ i : grid6.Coords, EltTy.bits .f32 = 32 ∨ (Rect.block (s := S1024x100x512) S64x100x512.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S64x512.size a ≤ S1024x512.size a
  hwx6_1 : ∀ i : grid6.Coords, EltTy.bits .f32 = 32 ∨ (Rect.block (s := S1024x512) S64x512.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S64x100x512.size a ≤ S1024x100x512.size a
  hwx7_0 : ∀ i : grid7.Coords, EltTy.bits .f32 = 32 ∨ (Rect.block (s := S1024x100x512) S64x100x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S64x512.size a ≤ S1024x512.size a
  hwx7_1 : ∀ i : grid7.Coords, EltTy.bits .f32 = 32 ∨ (Rect.block (s := S1024x512) S64x512.size (cc7_transform_1 i) (hinb7_1 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S64x100x512.size a ≤ S1024x100x512.size a
  hwx8_0 : ∀ i : grid8.Coords, EltTy.bits .f32 = 32 ∨ (Rect.block (s := S1024x100x512) S64x100x512.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S64x512.size a ≤ S1024x512.size a
  hwx8_1 : ∀ i : grid8.Coords, EltTy.bits .f32 = 32 ∨ (Rect.block (s := S1024x512) S64x512.size (cc8_transform_1 i) (hinb8_1 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S128x6144.size a ≤ S1024x6144.size a
  hwx9_0 : ∀ i : grid9.Coords, EltTy.bits .f32 = 32 ∨ (Rect.block (s := S1024x6144) S128x6144.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S6144x512.size a ≤ S6144x512.size a
  hwx9_1 : ∀ i : grid9.Coords, EltTy.bits .f32 = 32 ∨ (Rect.block (s := S6144x512) S6144x512.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S512.size a ≤ S512.size a
  hwx9_2 : ∀ i : grid9.Coords, EltTy.bits .f32 = 32 ∨ (Rect.block (s := S512) S512.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S512x256.size a ≤ S512x256.size a
  hwx9_3 : ∀ i : grid9.Coords, EltTy.bits .f32 = 32 ∨ (Rect.block (s := S512x256) S512x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S256.size a ≤ S256.size a
  hwx9_4 : ∀ i : grid9.Coords, EltTy.bits .f32 = 32 ∨ (Rect.block (s := S256) S256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x128.size a ≤ S256x128.size a
  hwx9_5 : ∀ i : grid9.Coords, EltTy.bits .f32 = 32 ∨ (Rect.block (s := S256x128) S256x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S128.size a ≤ S128.size a
  hwx9_6 : ∀ i : grid9.Coords, EltTy.bits .f32 = 32 ∨ (Rect.block (s := S128) S128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S128x128.size a ≤ S1024x128.size a
  hwx9_7 : ∀ i : grid9.Coords, EltTy.bits .f32 = 32 ∨ (Rect.block (s := S1024x128) S128x128.size (cc9_transform_7 i) (hinb9_7 i)).WholeWords (EltTy.packing .f32)

variable [Facts₀]

def gather_S100001x512_S1024x1_S1024x512_1_0_n_n_0_1_1512 : GatherDims S100001x512 S1024x1 S1024x512 where
  offsetDims := [1]
  collapsedSliceDims := [0]
  operandBatchingDims := []
  startIndicesBatchingDims := []
  startIndexMap := [0]
  indexVectorDim := 1
  sliceSizes := ![1, 512]
  wf := gather_S100001x512_S1024x1_S1024x512_1_0_n_n_0_1_1512_wf
def gather_S4x512_S1024x1_S1024x512_1_0_n_n_0_1_1512 : GatherDims S4x512 S1024x1 S1024x512 where
  offsetDims := [1]
  collapsedSliceDims := [0]
  operandBatchingDims := []
  startIndicesBatchingDims := []
  startIndexMap := [0]
  indexVectorDim := 1
  sliceSizes := ![1, 512]
  wf := gather_S4x512_S1024x1_S1024x512_1_0_n_n_0_1_1512_wf
def gather_S50001x512_S1024x100x1_S1024x100x512_2_0_n_n_0_2_1512 : GatherDims S50001x512 S1024x100x1 S1024x100x512 where
  offsetDims := [2]
  collapsedSliceDims := [0]
  operandBatchingDims := []
  startIndicesBatchingDims := []
  startIndexMap := [0]
  indexVectorDim := 2
  sliceSizes := ![1, 512]
  wf := gather_S50001x512_S1024x100x1_S1024x100x512_2_0_n_n_0_2_1512_wf
def gather_S100001x512_S1024x100x1_S1024x100x512_2_0_n_n_0_2_1512 : GatherDims S100001x512 S1024x100x1 S1024x100x512 where
  offsetDims := [2]
  collapsedSliceDims := [0]
  operandBatchingDims := []
  startIndicesBatchingDims := []
  startIndexMap := [0]
  indexVectorDim := 2
  sliceSizes := ![1, 512]
  wf := gather_S100001x512_S1024x100x1_S1024x100x512_2_0_n_n_0_2_1512_wf
def gather_S21x512_S1024x100x1_S1024x100x512_2_0_n_n_0_2_1512 : GatherDims S21x512 S1024x100x1 S1024x100x512 where
  offsetDims := [2]
  collapsedSliceDims := [0]
  operandBatchingDims := []
  startIndicesBatchingDims := []
  startIndexMap := [0]
  indexVectorDim := 2
  sliceSizes := ![1, 512]
  wf := gather_S21x512_S1024x100x1_S1024x100x512_2_0_n_n_0_2_1512_wf
def dot_S128x6144_S6144x512_S128x512_1_0_0_1_n_n : DotDims S128x6144 S6144x512 S128x512 where
  lhsContracting := [1]
  rhsContracting := [0]
  lhsNonContracting := [0]
  rhsNonContracting := [1]
  lhsBatch := []
  rhsBatch := []
  wf := dot_S128x6144_S6144x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_v27) S64x100x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v35) S64x100x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S64x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v43) S64x100x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S64x512.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v51) S64x100x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S64x512.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v59) S64x100x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S64x512.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v67) S64x100x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S64x512.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v75) S64x100x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v76) S64x512.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v83) S64x100x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v84) S64x512.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

abbrev win8_0 : Pipeline.Window sig grid8 :=
  Pipeline.Window.ofSpec (Memref.whole main_v91) S64x100x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v92) S64x512.size cc8_transform_1 reads8_1 true false 2 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev win9_0 : Pipeline.Window sig grid9 :=
  Pipeline.Window.ofSpec (Memref.whole main_v93) S128x6144.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg12) S6144x512.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg13) S512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg14) S512x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg15) S256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg16) S256x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_arg17) S128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v94) S128x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S100001x512 : Shape := ⟨2, ![100001, 512]⟩
abbrev S4x512 : Shape := ⟨2, ![4, 512]⟩
abbrev S50001x512 : Shape := ⟨2, ![50001, 512]⟩
abbrev S21x512 : Shape := ⟨2, ![21, 512]⟩
abbrev S6144x512 : Shape := ⟨2, ![6144, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1024 : Shape := ⟨1, ![1024]⟩
abbrev S1024x100 : Shape := ⟨2, ![1024, 100]⟩
abbrev S_ : Shape := ⟨0, ![]⟩
abbrev S1024x1 : Shape := ⟨2, ![1024, 1]⟩
abbrev S1024x512 : Shape := ⟨2, ![1024, 512]⟩
abbrev S1024x100x1 : Shape := ⟨3, ![1024, 100, 1]⟩
abbrev S1024x100x512 : Shape := ⟨3, ![1024, 100, 512]⟩
abbrev S1024x6144 : Shape := ⟨2, ![1024, 6144]⟩
abbrev S1x512 : Shape := ⟨2, ![1, 512]⟩
abbrev S1024x256 : Shape := ⟨2, ![1024, 256]⟩
abbrev S1x256 : Shape := ⟨2, ![1, 256]⟩
abbrev S1024x128 : Shape := ⟨2, ![1024, 128]⟩
abbrev S1x128 : Shape := ⟨2, ![1, 128]⟩

abbrev nBuf : Space → Nat
  | .hbm => 202
  | .vmem => 0
  | .smem => 0
  | _ => 0

abbrev hbmTy0_0 (i : Nat) : BufTy := match i % 128 with
  | 0 => ⟨S100001x512, .f32⟩
  | 1 => ⟨S4x512, .f32⟩
  | 2 => ⟨S100001x512, .f32⟩
  | 3 => ⟨S50001x512, .f32⟩
  | 4 => ⟨S100001x512, .f32⟩
  | 5 => ⟨S50001x512, .f32⟩
  | 6 => ⟨S21x512, .f32⟩
  | 7 => ⟨S100001x512, .f32⟩
  | 8 => ⟨S21x512, .f32⟩
  | 9 => ⟨S21x512, .f32⟩
  | 10 => ⟨S21x512, .f32⟩
  | 11 => ⟨S50001x512, .f32⟩
  | 12 => ⟨S6144x512, .f32⟩
  | 13 => ⟨S512, .f32⟩
  | 14 => ⟨S512x256, .f32⟩
  | 15 => ⟨S256, .f32⟩
  | 16 => ⟨S256x128, .f32⟩
  | 17 => ⟨S128, .f32⟩
  | 18 => ⟨S1024, .i32⟩
  | 19 => ⟨S1024, .i32⟩
  | 20 => ⟨S1024, .i32⟩
  | 21 => ⟨S1024x100, .i32⟩
  | 22 => ⟨S1024x100, .i32⟩
  | 23 => ⟨S1024x100, .i32⟩
  | 24 => ⟨S1024x100, .i32⟩
  | 25 => ⟨S1024x100, .i32⟩
  | 26 => ⟨S1024x100, .i32⟩
  | 27 => ⟨S1024x100, .i32⟩
  | 28 => ⟨S1024x100, .i32⟩
  | 29 => ⟨S1024x100, .i32⟩
  | 30 => ⟨S_, .i32⟩
  | 31 => ⟨S1024, .i32⟩
  | 32 => ⟨S1024, .i1⟩
  | 33 => ⟨S_, .i32⟩
  | 34 => ⟨S1024, .i32⟩
  | 35 => ⟨S1024, .i32⟩
  | 36 => ⟨S1024, .i32⟩
  | 37 => ⟨S1024x1, .i32⟩
  | 38 => ⟨S1024x512, .f32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S1024x1, .i32⟩
  | 47 => ⟨S1024x512, .f32⟩
  | 48 => ⟨S_, .i32⟩
  | 49 => ⟨S1024, .i32⟩
  | 50 => ⟨S1024, .i1⟩
  | 51 => ⟨S_, .i32⟩
  | 52 => ⟨S1024, .i32⟩
  | 53 => ⟨S1024, .i32⟩
  | 54 => ⟨S1024, .i32⟩
  | 55 => ⟨S1024x1, .i32⟩
  | 56 => ⟨S1024x512, .f32⟩
  | 57 => ⟨S_, .i32⟩
  | 58 => ⟨S1024x100, .i32⟩
  | 59 => ⟨S1024x100, .i1⟩
  | 60 => ⟨S_, .i32⟩
  | 61 => ⟨S1024x100, .i32⟩
  | 62 => ⟨S1024x100, .i32⟩
  | 63 => ⟨S1024x100, .i32⟩
  | 64 => ⟨S1024x100x1, .i32⟩
  | 65 => ⟨S1024x100x512, .f32⟩
  | 66 => ⟨S_, .f32⟩
  | 67 => ⟨S1024x512, .f32⟩
  | 68 => ⟨S_, .f32⟩
  | 69 => ⟨S1024x512, .f32⟩
  | 70 => ⟨S1024x512, .f32⟩
  | 71 => ⟨S_, .i32⟩
  | 72 => ⟨S1024x100, .i32⟩
  | 73 => ⟨S1024x100, .i1⟩
  | 74 => ⟨S_, .i32⟩
  | 75 => ⟨S1024x100, .i32⟩
  | 76 => ⟨S1024x100, .i32⟩
  | 77 => ⟨S1024x100, .i32⟩
  | 78 => ⟨S1024x100x1, .i32⟩
  | 79 => ⟨S1024x100x512, .f32⟩
  | 80 => ⟨S_, .f32⟩
  | 81 => ⟨S1024x512, .f32⟩
  | 82 => ⟨S_, .f32⟩
  | 83 => ⟨S1024x512, .f32⟩
  | 84 => ⟨S1024x512, .f32⟩
  | 85 => ⟨S_, .i32⟩
  | 86 => ⟨S1024x100, .i32⟩
  | 87 => ⟨S1024x100, .i1⟩
  | 88 => ⟨S_, .i32⟩
  | 89 => ⟨S1024x100, .i32⟩
  | 90 => ⟨S1024x100, .i32⟩
  | 91 => ⟨S1024x100, .i32⟩
  | 92 => ⟨S1024x100x1, .i32⟩
  | 93 => ⟨S1024x100x512, .f32⟩
  | 94 => ⟨S_, .f32⟩
  | 95 => ⟨S1024x512, .f32⟩
  | 96 => ⟨S_, .f32⟩
  | 97 => ⟨S1024x512, .f32⟩
  | 98 => ⟨S1024x512, .f32⟩
  | 99 => ⟨S_, .i32⟩
  | 100 => ⟨S1024x100, .i32⟩
  | 101 => ⟨S1024x100, .i1⟩
  | 102 => ⟨S_, .i32⟩
  | 103 => ⟨S1024x100, .i32⟩
  | 104 => ⟨S1024x100, .i32⟩
  | 105 => ⟨S1024x100, .i32⟩
  | 106 => ⟨S1024x100x1, .i32⟩
  | 107 => ⟨S1024x100x512, .f32⟩
  | 108 => ⟨S_, .f32⟩
  | 109 => ⟨S1024x512, .f32⟩
  | 110 => ⟨S_, .f32⟩
  | 111 => ⟨S1024x512, .f32⟩
  | 112 => ⟨S1024x512, .f32⟩
  | 113 => ⟨S_, .i32⟩
  | 114 => ⟨S1024x100, .i32⟩
  | 115 => ⟨S1024x100, .i1⟩
  | 116 => ⟨S_, .i32⟩
  | 117 => ⟨S1024x100, .i32⟩
  | 118 => ⟨S1024x100, .i32⟩
  | 119 => ⟨S1024x100, .i32⟩
  | 120 => ⟨S1024x100x1, .i32⟩
  | 121 => ⟨S1024x100x512, .f32⟩
  | 122 => ⟨S_, .f32⟩
  | 123 => ⟨S1024x512, .f32⟩
  | 124 => ⟨S_, .f32⟩
  | 125 => ⟨S1024x512, .f32⟩
  | 126 => ⟨S1024x512, .f32⟩
  | 127 => ⟨S_, .i32⟩
  | _ => ⟨S100001x512, .f32⟩

abbrev hbmTy0_1 (i : Nat) : BufTy := match i % 128 with
  | 0 => ⟨S1024x100, .i32⟩
  | 1 => ⟨S1024x100, .i1⟩
  | 2 => ⟨S_, .i32⟩
  | 3 => ⟨S1024x100, .i32⟩
  | 4 => ⟨S1024x100, .i32⟩
  | 5 => ⟨S1024x100, .i32⟩
  | 6 => ⟨S1024x100x1, .i32⟩
  | 7 => ⟨S1024x100x512, .f32⟩
  | 8 => ⟨S_, .f32⟩
  | 9 => ⟨S1024x512, .f32⟩
  | 10 => ⟨S_, .f32⟩
  | 11 => ⟨S1024x512, .f32⟩
  | 12 => ⟨S1024x512, .f32⟩
  | 13 => ⟨S_, .i32⟩
  | 14 => ⟨S1024x100, .i32⟩
  | 15 => ⟨S1024x100, .i1⟩
  | 16 => ⟨S_, .i32⟩
  | 17 => ⟨S1024x100, .i32⟩
  | 18 => ⟨S1024x100, .i32⟩
  | 19 => ⟨S1024x100, .i32⟩
  | 20 => ⟨S1024x100x1, .i32⟩
  | 21 => ⟨S1024x100x512, .f32⟩
  | 22 => ⟨S_, .f32⟩
  | 23 => ⟨S1024x512, .f32⟩
  | 24 => ⟨S_, .f32⟩
  | 25 => ⟨S1024x512, .f32⟩
  | 26 => ⟨S1024x512, .f32⟩
  | 27 => ⟨S_, .i32⟩
  | 28 => ⟨S1024x100, .i32⟩
  | 29 => ⟨S1024x100, .i1⟩
  | 30 => ⟨S_, .i32⟩
  | 31 => ⟨S1024x100, .i32⟩
  | 32 => ⟨S1024x100, .i32⟩
  | 33 => ⟨S1024x100, .i32⟩
  | 34 => ⟨S1024x100x1, .i32⟩
  | 35 => ⟨S1024x100x512, .f32⟩
  | 36 => ⟨S_, .f32⟩
  | 37 => ⟨S1024x512, .f32⟩
  | 38 => ⟨S_, .f32⟩
  | 39 => ⟨S1024x512, .f32⟩
  | 40 => ⟨S1024x512, .f32⟩
  | 41 => ⟨S_, .i32⟩
  | 42 => ⟨S1024x100, .i32⟩
  | 43 => ⟨S1024x100, .i1⟩
  | 44 => ⟨S_, .i32⟩
  | 45 => ⟨S1024x100, .i32⟩
  | 46 => ⟨S1024x100, .i32⟩
  | 47 => ⟨S1024x100, .i32⟩
  | 48 => ⟨S1024x100x1, .i32⟩
  | 49 => ⟨S1024x100x512, .f32⟩
  | 50 => ⟨S_, .f32⟩
  | 51 => ⟨S1024x512, .f32⟩
  | 52 => ⟨S_, .f32⟩
  | 53 => ⟨S1024x512, .f32⟩
  | 54 => ⟨S1024x512, .f32⟩
  | 55 => ⟨S1024x6144, .f32⟩
  | 56 => ⟨S1024x512, .f32⟩
  | 57 => ⟨S1x512, .f32⟩
  | 58 => ⟨S1024x512, .f32⟩
  | 59 => ⟨S1024x512, .f32⟩
  | 60 => ⟨S_, .f32⟩
  | 61 => ⟨S1024x512, .f32⟩
  | 62 => ⟨S1024x512, .f32⟩
  | 63 => ⟨S1024x256, .f32⟩
  | 64 => ⟨S1x256, .f32⟩
  | 65 => ⟨S1024x256, .f32⟩
  | 66 => ⟨S1024x256, .f32⟩
  | 67 => ⟨S_, .f32⟩
  | 68 => ⟨S1024x256, .f32⟩
  | 69 => ⟨S1024x256, .f32⟩
  | 70 => ⟨S1024x128, .f32⟩
  | 71 => ⟨S1x128, .f32⟩
  | 72 => ⟨S1024x128, .f32⟩
  | 73 => ⟨S1024x128, .f32⟩
  | _ => ⟨S100001x512, .f32⟩

abbrev hbmTy (i : Nat) : BufTy := match i / 128 with
  | 0 => hbmTy0_0 i
  | 1 => hbmTy0_1 i
  | _ => ⟨S100001x512, .f32⟩

abbrev bufTy : (tb : Table) → Fin (tcTables nBuf tb) → BufTy
  | .hbm, ⟨i, _⟩ => hbmTy i
  | _, _ => ⟨S100001x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_v0 : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_c_1 : Ref sig .tc := ⟨.hbm, 39, rfl⟩
abbrev main_v7 : Ref sig .tc := ⟨.hbm, 40, rfl⟩
abbrev main_v8 : Ref sig .tc := ⟨.hbm, 41, rfl⟩
abbrev main_c_2 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_c_3 : Ref sig .tc := ⟨.hbm, 48, rfl⟩
abbrev main_v14 : Ref sig .tc := ⟨.hbm, 49, rfl⟩
abbrev main_v15 : Ref sig .tc := ⟨.hbm, 50, rfl⟩
abbrev main_c_4 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_5 : Ref sig .tc := ⟨.hbm, 57, rfl⟩
abbrev main_v21 : Ref sig .tc := ⟨.hbm, 58, rfl⟩
abbrev main_v22 : Ref sig .tc := ⟨.hbm, 59, rfl⟩
abbrev main_c_6 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst : Ref sig .tc := ⟨.hbm, 66, rfl⟩
abbrev main_v28 : Ref sig .tc := ⟨.hbm, 67, rfl⟩
abbrev main_cst_7 : Ref sig .tc := ⟨.hbm, 68, rfl⟩
abbrev main_v29 : Ref sig .tc := ⟨.hbm, 69, rfl⟩
abbrev main_v30 : Ref sig .tc := ⟨.hbm, 70, rfl⟩
abbrev main_c_8 : Ref sig .tc := ⟨.hbm, 71, rfl⟩
abbrev main_v31 : Ref sig .tc := ⟨.hbm, 72, rfl⟩
abbrev main_v32 : Ref sig .tc := ⟨.hbm, 73, rfl⟩
abbrev main_c_9 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_10 : Ref sig .tc := ⟨.hbm, 80, rfl⟩
abbrev main_v38 : Ref sig .tc := ⟨.hbm, 81, rfl⟩
abbrev main_cst_11 : Ref sig .tc := ⟨.hbm, 82, rfl⟩
abbrev main_v39 : Ref sig .tc := ⟨.hbm, 83, rfl⟩
abbrev main_v40 : Ref sig .tc := ⟨.hbm, 84, rfl⟩
abbrev main_c_12 : Ref sig .tc := ⟨.hbm, 85, rfl⟩
abbrev main_v41 : Ref sig .tc := ⟨.hbm, 86, rfl⟩
abbrev main_v42 : Ref sig .tc := ⟨.hbm, 87, rfl⟩
abbrev main_c_13 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_14 : Ref sig .tc := ⟨.hbm, 94, rfl⟩
abbrev main_v48 : Ref sig .tc := ⟨.hbm, 95, rfl⟩
abbrev main_cst_15 : Ref sig .tc := ⟨.hbm, 96, rfl⟩
abbrev main_v49 : Ref sig .tc := ⟨.hbm, 97, rfl⟩
abbrev main_v50 : Ref sig .tc := ⟨.hbm, 98, rfl⟩
abbrev main_c_16 : Ref sig .tc := ⟨.hbm, 99, rfl⟩
abbrev main_v51 : Ref sig .tc := ⟨.hbm, 100, rfl⟩
abbrev main_v52 : Ref sig .tc := ⟨.hbm, 101, rfl⟩
abbrev main_c_17 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_18 : Ref sig .tc := ⟨.hbm, 108, rfl⟩
abbrev main_v58 : Ref sig .tc := ⟨.hbm, 109, rfl⟩
abbrev main_cst_19 : Ref sig .tc := ⟨.hbm, 110, rfl⟩
abbrev main_v59 : Ref sig .tc := ⟨.hbm, 111, rfl⟩
abbrev main_v60 : Ref sig .tc := ⟨.hbm, 112, rfl⟩
abbrev main_c_20 : Ref sig .tc := ⟨.hbm, 113, rfl⟩
abbrev main_v61 : Ref sig .tc := ⟨.hbm, 114, rfl⟩
abbrev main_v62 : Ref sig .tc := ⟨.hbm, 115, rfl⟩
abbrev main_c_21 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_22 : Ref sig .tc := ⟨.hbm, 122, rfl⟩
abbrev main_v68 : Ref sig .tc := ⟨.hbm, 123, rfl⟩
abbrev main_cst_23 : Ref sig .tc := ⟨.hbm, 124, rfl⟩
abbrev main_v69 : Ref sig .tc := ⟨.hbm, 125, rfl⟩
abbrev main_v70 : Ref sig .tc := ⟨.hbm, 126, rfl⟩
abbrev main_c_24 : Ref sig .tc := ⟨.hbm, 127, rfl⟩
abbrev main_v71 : Ref sig .tc := ⟨.hbm, 128, rfl⟩
abbrev main_v72 : Ref sig .tc := ⟨.hbm, 129, rfl⟩
abbrev main_c_25 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_26 : Ref sig .tc := ⟨.hbm, 136, rfl⟩
abbrev main_v78 : Ref sig .tc := ⟨.hbm, 137, rfl⟩
abbrev main_cst_27 : Ref sig .tc := ⟨.hbm, 138, rfl⟩
abbrev main_v79 : Ref sig .tc := ⟨.hbm, 139, rfl⟩
abbrev main_v80 : Ref sig .tc := ⟨.hbm, 140, rfl⟩
abbrev main_c_28 : Ref sig .tc := ⟨.hbm, 141, rfl⟩
abbrev main_v81 : Ref sig .tc := ⟨.hbm, 142, rfl⟩
abbrev main_v82 : Ref sig .tc := ⟨.hbm, 143, rfl⟩
abbrev main_c_29 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_cst_30 : Ref sig .tc := ⟨.hbm, 150, rfl⟩
abbrev main_v88 : Ref sig .tc := ⟨.hbm, 151, rfl⟩
abbrev main_cst_31 : Ref sig .tc := ⟨.hbm, 152, rfl⟩
abbrev main_v89 : Ref sig .tc := ⟨.hbm, 153, rfl⟩
abbrev main_v90 : Ref sig .tc := ⟨.hbm, 154, rfl⟩
abbrev main_c_32 : Ref sig .tc := ⟨.hbm, 155, rfl⟩
abbrev main_v91 : Ref sig .tc := ⟨.hbm, 156, rfl⟩
abbrev main_v92 : Ref sig .tc := ⟨.hbm, 157, rfl⟩
abbrev main_c_33 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_cst_34 : Ref sig .tc := ⟨.hbm, 164, rfl⟩
abbrev main_v98 : Ref sig .tc := ⟨.hbm, 165, rfl⟩
abbrev main_cst_35 : Ref sig .tc := ⟨.hbm, 166, rfl⟩
abbrev main_v99 : Ref sig .tc := ⟨.hbm, 167, rfl⟩
abbrev main_v100 : Ref sig .tc := ⟨.hbm, 168, rfl⟩
abbrev main_c_36 : Ref sig .tc := ⟨.hbm, 169, rfl⟩
abbrev main_v101 : Ref sig .tc := ⟨.hbm, 170, rfl⟩
abbrev main_v102 : Ref sig .tc := ⟨.hbm, 171, rfl⟩
abbrev main_c_37 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_cst_38 : Ref sig .tc := ⟨.hbm, 178, rfl⟩
abbrev main_v108 : Ref sig .tc := ⟨.hbm, 179, rfl⟩
abbrev main_cst_39 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_call0_cst : Ref sig .tc := ⟨.hbm, 188, rfl⟩
abbrev main_call0_v0 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_call1_cst : Ref sig .tc := ⟨.hbm, 195, rfl⟩
abbrev main_call1_v0 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x100 : S_.BroadcastsInDim S1024x100 (![] : Fin 0 → Fin S1024x100.rank)
  bcast_S1024x100_S1024x100x1_0_1 : S1024x100.BroadcastsInDim S1024x100x1 (![0, 1] : Fin 2 → Fin S1024x100x1.rank)
  reducesTo_S1024x100x512_S1024x512_d1 : S1024x100x512.ReducesTo [1] S1024x512
  h_S_ : 0 < S_.numel
  bcast_S_S1024x512 : S_.BroadcastsInDim S1024x512 (![] : Fin 0 → Fin S1024x512.rank)
  concatenates_S1024x512_S1024x512_S1024x512_S1024x512_S1024x512_S1024x512_S1024x512_S1024x512_S1024x512_S1024x512_S1024x512_S1024x512_S1024x6144_d1 : Shape.Concatenates [S1024x512, S1024x512, S1024x512, S1024x512, S1024x512, S1024x512, S1024x512, S1024x512, S1024x512, S1024x512, S1024x512, S1024x512] S1024x6144 1
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  gather_S100001x512_S1024x1_S1024x512_1_0_n_n_0_1_1512_wf : GatherDims.WF S100001x512 S1024x1 S1024x512 [1] [0] [] [0] [] 1 ![1, 512]
  gather_S4x512_S1024x1_S1024x512_1_0_n_n_0_1_1512_wf : GatherDims.WF S4x512 S1024x1 S1024x512 [1] [0] [] [0] [] 1 ![1, 512]
  gather_S50001x512_S1024x100x1_S1024x100x512_2_0_n_n_0_2_1512_wf : GatherDims.WF S50001x512 S1024x100x1 S1024x100x512 [2] [0] [] [0] [] 2 ![1, 512]
  gather_S100001x512_S1024x100x1_S1024x100x512_2_0_n_n_0_2_1512_wf : GatherDims.WF S100001x512 S1024x100x1 S1024x100x512 [2] [0] [] [0] [] 2 ![1, 512]
  gather_S21x512_S1024x100x1_S1024x100x512_2_0_n_n_0_2_1512_wf : GatherDims.WF S21x512 S1024x100x1 S1024x100x512 [2] [0] [] [0] [] 2 ![1, 512]
  dot_S1024x6144_S6144x512_S1024x512_1_0_0_1_n_n_wf : DotDims.WF S1024x6144 S6144x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []

variable [Facts₀]

def gather_S100001x512_S1024x1_S1024x512_1_0_n_n_0_1_1512 : GatherDims S100001x512 S1024x1 S1024x512 where
  offsetDims := [1]
  collapsedSliceDims := [0]
  operandBatchingDims := []
  startIndicesBatchingDims := []
  startIndexMap := [0]
  indexVectorDim := 1
  sliceSizes := ![1, 512]
  wf := gather_S100001x512_S1024x1_S1024x512_1_0_n_n_0_1_1512_wf
def gather_S4x512_S1024x1_S1024x512_1_0_n_n_0_1_1512 : GatherDims S4x512 S1024x1 S1024x512 where
  offsetDims := [1]
  collapsedSliceDims := [0]
  operandBatchingDims := []
  startIndicesBatchingDims := []
  startIndexMap := [0]
  indexVectorDim := 1
  sliceSizes := ![1, 512]
  wf := gather_S4x512_S1024x1_S1024x512_1_0_n_n_0_1_1512_wf
def gather_S50001x512_S1024x100x1_S1024x100x512_2_0_n_n_0_2_1512 : GatherDims S50001x512 S1024x100x1 S1024x100x512 where
  offsetDims := [2]
  collapsedSliceDims := [0]
  operandBatchingDims := []
  startIndicesBatchingDims := []
  startIndexMap := [0]
  indexVectorDim := 2
  sliceSizes := ![1, 512]
  wf := gather_S50001x512_S1024x100x1_S1024x100x512_2_0_n_n_0_2_1512_wf
def gather_S100001x512_S1024x100x1_S1024x100x512_2_0_n_n_0_2_1512 : GatherDims S100001x512 S1024x100x1 S1024x100x512 where
  offsetDims := [2]
  collapsedSliceDims := [0]
  operandBatchingDims := []
  startIndicesBatchingDims := []
  startIndexMap := [0]
  indexVectorDim := 2
  sliceSizes := ![1, 512]
  wf := gather_S100001x512_S1024x100x1_S1024x100x512_2_0_n_n_0_2_1512_wf
def gather_S21x512_S1024x100x1_S1024x100x512_2_0_n_n_0_2_1512 : GatherDims S21x512 S1024x100x1 S1024x100x512 where
  offsetDims := [2]
  collapsedSliceDims := [0]
  operandBatchingDims := []
  startIndicesBatchingDims := []
  startIndexMap := [0]
  indexVectorDim := 2
  sliceSizes := ![1, 512]
  wf := gather_S21x512_S1024x100x1_S1024x100x512_2_0_n_n_0_2_1512_wf
def dot_S1024x6144_S6144x512_S1024x512_1_0_0_1_n_n : DotDims S1024x6144 S6144x512 S1024x512 where
  lhsContracting := [1]
  rhsContracting := [0]
  lhsNonContracting := [0]
  rhsNonContracting := [1]
  lhsBatch := []
  rhsBatch := []
  wf := dot_S1024x6144_S6144x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.KbPool0.lean ====
/-
  Region 0 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out0_1`), the input's buffer is as it was, and nothing else is touched: this
  is the body obligation the pipeline library asks for, at every grid point.
-/
import proofs.«180909_j89275190215119_1_alg».proof.Proof.Gen.Kernel.Launch
import proofs.«180909_j89275190215119_1_alg».proof.Proof.Gen.Kernel.Skeleton
import proofs.«180909_j89275190215119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body's two accesses: the whole input block and the whole output block. -/
abbrev r0_0 : Rect S64x100x512 := Rect.unit (s := S64x100x512) ![0, 0, 0] S64x100x512.size inb_S64x100x512_S64x100x512_0_0_0
abbrev r0_1 : Rect S64x512 := Rect.unit (s := S64x512) ![0, 0] S64x512.size inb_S64x512_S64x512_0_0

/-- What the body leaves in the output's staging buffer, as a function of the input block: its one store. -/
def out0_1 (x0 : Vec F S64x100x512 .f32) : Vec F S64x512 .f32 :=
  View.canon [⟨r0_1, k0_pay1 (View.ld x0 r0_0)⟩]

/-- The one store covers the output block. -/
theorem cover0_1 (p0 : Vec F S64x512 .f32) (y : S64x512.Idx) :
    ∃ pc ∈ ([⟨r0_1, p0⟩] : List (View.Piece (Elt F) S64x512 .f32)), y ∈ pc.1.set :=
  View.cover_of_tiled [⟨r0_1, p0⟩] S64x512.size (by rfl) y

set_option maxHeartbeats 1000000 in
/-- The kernel body on whole staging buffers, the input's holding `x0` and the output's anything, runs to its end with the
    input's as it was and the output's at `out0_1 x0`. -/
theorem sound_kernel0 (c : Dev nD) (E : Set ℕ) (i : grid0.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pool_kernel i arg1 harg1 arg2 harg2) K := by
  simp only [cc0__pool_kernel_eq_skeleton]; unfold cc0__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of this region on core `c`: the arrays as the region finds them; after the body at point `t` the
    input's buffer at its block and the output's at `out0_1` of it; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KbPool1.lean ====
/-
  Region 1 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out1_1`), the input's buffer is as it was, and nothing else is touched: this
  is the body obligation the pipeline library asks for, at every grid point.
-/
import proofs.«180909_j89275190215119_1_alg».proof.Proof.Gen.Kernel.Launch
import proofs.«180909_j89275190215119_1_alg».proof.Proof.Gen.Kernel.Skeleton
import proofs.«180909_j89275190215119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's two accesses: the whole input block and the whole output block. -/
abbrev r1_0 : Rect S64x100x512 := Rect.unit (s := S64x100x512) ![0, 0, 0] S64x100x512.size inb_S64x100x512_S64x100x512_0_0_0
abbrev r1_1 : Rect S64x512 := Rect.unit (s := S64x512) ![0, 0] S64x512.size inb_S64x512_S64x512_0_0

/-- What the body leaves in the output's staging buffer, as a function of the input block: its one store. -/
def out1_1 (x0 : Vec F S64x100x512 .f32) : Vec F S64x512 .f32 :=
  View.canon [⟨r1_1, k1_pay1 (View.ld x0 r1_0)⟩]

/-- The one store covers the output block. -/
theorem cover1_1 (p0 : Vec F S64x512 .f32) (y : S64x512.Idx) :
    ∃ pc ∈ ([⟨r1_1, p0⟩] : List (View.Piece (Elt F) S64x512 .f32)), y ∈ pc.1.set :=
  View.cover_of_tiled [⟨r1_1, p0⟩] S64x512.size (by rfl) y

set_option maxHeartbeats 1000000 in
/-- The kernel body on whole staging buffers, the input's holding `x0` and the output's anything, runs to its end with the
    input's as it was and the output's at `out1_1 x0`. -/
theorem sound_kernel1 (c : Dev nD) (E : Set ℕ) (i : grid1.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__pool_kernel i arg1 harg1 arg2 harg2) K := by
  simp only [cc1__pool_kernel_eq_skeleton]; unfold cc1__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of this region on core `c`: the arrays as the region finds them; after the body at point `t` the
    input's buffer at its block and the output's at `out1_1` of it; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the body's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KbPool2.lean ====
/-
  Region 2 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out2_1`), the input's buffer is as it was, and nothing else is touched: this
  is the body obligation the pipeline library asks for, at every grid point.
-/
import proofs.«180909_j89275190215119_1_alg».proof.Proof.Gen.Kernel.Launch
import proofs.«180909_j89275190215119_1_alg».proof.Proof.Gen.Kernel.Skeleton
import proofs.«180909_j89275190215119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The body's two accesses: the whole input block and the whole output block. -/
abbrev r2_0 : Rect S64x100x512 := Rect.unit (s := S64x100x512) ![0, 0, 0] S64x100x512.size inb_S64x100x512_S64x100x512_0_0_0
abbrev r2_1 : Rect S64x512 := Rect.unit (s := S64x512) ![0, 0] S64x512.size inb_S64x512_S64x512_0_0

/-- What the body leaves in the output's staging buffer, as a function of the input block: its one store. -/
def out2_1 (x0 : Vec F S64x100x512 .f32) : Vec F S64x512 .f32 :=
  View.canon [⟨r2_1, k2_pay1 (View.ld x0 r2_0)⟩]

/-- The one store covers the output block. -/
theorem cover2_1 (p0 : Vec F S64x512 .f32) (y : S64x512.Idx) :
    ∃ pc ∈ ([⟨r2_1, p0⟩] : List (View.Piece (Elt F) S64x512 .f32)), y ∈ pc.1.set :=
  View.cover_of_tiled [⟨r2_1, p0⟩] S64x512.size (by rfl) y

set_option maxHeartbeats 1000000 in
/-- The kernel body on whole staging buffers, the input's holding `x0` and the output's anything, runs to its end with the
    input's as it was and the output's at `out2_1 x0`. -/
theorem sound_kernel2 (c : Dev nD) (E : Set ℕ) (i : grid2.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__pool_kernel i arg1 harg1 arg2 harg2) K := by
  simp only [cc2__pool_kernel_eq_skeleton]; unfold cc2__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of this region on core `c`: the arrays as the region finds them; after the body at point `t` the
    input's buffer at its block and the output's at `out2_1` of it; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's buffer holds its block, so the body's run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KbPool3.lean ====
/-
  Region 3 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out3_1`), the input's buffer is as it was, and nothing else is touched: this
  is the body obligation the pipeline library asks for, at every grid point.
-/
import proofs.«180909_j89275190215119_1_alg».proof.Proof.Gen.Kernel.Launch
import proofs.«180909_j89275190215119_1_alg».proof.Proof.Gen.Kernel.Skeleton
import proofs.«180909_j89275190215119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The body's two accesses: the whole input block and the whole output block. -/
abbrev r3_0 : Rect S64x100x512 := Rect.unit (s := S64x100x512) ![0, 0, 0] S64x100x512.size inb_S64x100x512_S64x100x512_0_0_0
abbrev r3_1 : Rect S64x512 := Rect.unit (s := S64x512) ![0, 0] S64x512.size inb_S64x512_S64x512_0_0

/-- What the body leaves in the output's staging buffer, as a function of the input block: its one store. -/
def out3_1 (x0 : Vec F S64x100x512 .f32) : Vec F S64x512 .f32 :=
  View.canon [⟨r3_1, k3_pay1 (View.ld x0 r3_0)⟩]

/-- The one store covers the output block. -/
theorem cover3_1 (p0 : Vec F S64x512 .f32) (y : S64x512.Idx) :
    ∃ pc ∈ ([⟨r3_1, p0⟩] : List (View.Piece (Elt F) S64x512 .f32)), y ∈ pc.1.set :=
  View.cover_of_tiled [⟨r3_1, p0⟩] S64x512.size (by rfl) y

set_option maxHeartbeats 1000000 in
/-- The kernel body on whole staging buffers, the input's holding `x0` and the output's anything, runs to its end with the
    input's as it was and the output's at `out3_1 x0`. -/
theorem sound_kernel3 (c : Dev nD) (E : Set ℕ) (i : grid3.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__pool_kernel i arg1 harg1 arg2 harg2) K := by
  simp only [cc3__pool_kernel_eq_skeleton]; unfold cc3__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The proof data of this region on core `c`: the arrays as the region finds them; after the body at point `t` the
    input's buffer at its block and the output's at `out3_1` of it; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's buffer holds its block, so the body's run applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ (grid3.coords t) _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KbPool4.lean ====
/-
  Region 4 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out4_1`), the input's buffer is as it was, and nothing else is touched: this
  is the body obligation the pipeline library asks for, at every grid point.
-/
import proofs.«180909_j89275190215119_1_alg».proof.Proof.Gen.Kernel.Launch
import proofs.«180909_j89275190215119_1_alg».proof.Proof.Gen.Kernel.Skeleton
import proofs.«180909_j89275190215119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The body's two accesses: the whole input block and the whole output block. -/
abbrev r4_0 : Rect S64x100x512 := Rect.unit (s := S64x100x512) ![0, 0, 0] S64x100x512.size inb_S64x100x512_S64x100x512_0_0_0
abbrev r4_1 : Rect S64x512 := Rect.unit (s := S64x512) ![0, 0] S64x512.size inb_S64x512_S64x512_0_0

/-- What the body leaves in the output's staging buffer, as a function of the input block: its one store. -/
def out4_1 (x0 : Vec F S64x100x512 .f32) : Vec F S64x512 .f32 :=
  View.canon [⟨r4_1, k4_pay1 (View.ld x0 r4_0)⟩]

/-- The one store covers the output block. -/
theorem cover4_1 (p0 : Vec F S64x512 .f32) (y : S64x512.Idx) :
    ∃ pc ∈ ([⟨r4_1, p0⟩] : List (View.Piece (Elt F) S64x512 .f32)), y ∈ pc.1.set :=
  View.cover_of_tiled [⟨r4_1, p0⟩] S64x512.size (by rfl) y

set_option maxHeartbeats 1000000 in
/-- The kernel body on whole staging buffers, the input's holding `x0` and the output's anything, runs to its end with the
    input's as it was and the output's at `out4_1 x0`. -/
theorem sound_kernel4 (c : Dev nD) (E : Set ℕ) (i : grid4.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__pool_kernel i arg1 harg1 arg2 harg2) K := by
  simp only [cc4__pool_kernel_eq_skeleton]; unfold cc4__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-- The proof data of this region on core `c`: the arrays as the region finds them; after the body at point `t` the
    input's buffer at its block and the output's at `out4_1` of it; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

theorem before4_0 (c : Dev nD) (t : Fin cfg4.N) (d) : (dat4 V c).before 0 t d = iblk4 V c 0 t :=
  before4_0_of V (dat4 V c) (A_eq4 V c 0) (after4_0 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

/-- The body at any point: the input's buffer holds its block, so the body's run applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ (grid4.coords t) _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KbPool5.lean ====
/-
  Region 5 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out5_1`), the input's buffer is as it was, and nothing else is touched: this
  is the body obligation the pipeline library asks for, at every grid point.
-/
import proofs.«180909_j89275190215119_1_alg».proof.Proof.Gen.Kernel.Launch
import proofs.«180909_j89275190215119_1_alg».proof.Proof.Gen.Kernel.Skeleton
import proofs.«180909_j89275190215119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's current staging buffer holds its block at every point, for any proof data whose array is
    `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The body's two accesses: the whole input block and the whole output block. -/
abbrev r5_0 : Rect S64x100x512 := Rect.unit (s := S64x100x512) ![0, 0, 0] S64x100x512.size inb_S64x100x512_S64x100x512_0_0_0
abbrev r5_1 : Rect S64x512 := Rect.unit (s := S64x512) ![0, 0] S64x512.size inb_S64x512_S64x512_0_0

/-- What the body leaves in the output's staging buffer, as a function of the input block: its one store. -/
def out5_1 (x0 : Vec F S64x100x512 .f32) : Vec F S64x512 .f32 :=
  View.canon [⟨r5_1, k5_pay1 (View.ld x0 r5_0)⟩]

/-- The one store covers the output block. -/
theorem cover5_1 (p0 : Vec F S64x512 .f32) (y : S64x512.Idx) :
    ∃ pc ∈ ([⟨r5_1, p0⟩] : List (View.Piece (Elt F) S64x512 .f32)), y ∈ pc.1.set :=
  View.cover_of_tiled [⟨r5_1, p0⟩] S64x512.size (by rfl) y

set_option maxHeartbeats 1000000 in
/-- The kernel body on whole staging buffers, the input's holding `x0` and the output's anything, runs to its end with the
    input's as it was and the output's at `out5_1 x0`. -/
theorem sound_kernel5 (c : Dev nD) (E : Set ℕ) (i : grid5.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out5_1 x0)) -∗ K ⟨⟩))
      ⊢ wp frame (wpE (defs₀ (F := F)) Variants.none c none) E (cc5__pool_kernel i arg1 harg1 arg2 harg2) K := by
  simp only [cc5__pool_kernel_eq_skeleton]; unfold cc5__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-- The proof data of this region on core `c`: the arrays as the region finds them; after the body at point `t` the
    input's buffer at its block and the output's at `out5_1` of it; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = out5_1 (iblk5 V c 0 t) := by dsimp only [dat5]

theorem before5_0 (c : Dev nD) (t : Fin cfg5.N) (d) : (dat5 V c).before 0 t d = iblk5 V c 0 t :=
  before5_0_of V (dat5 V c) (A_eq5 V c 0) (after5_0 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t))

/-- The body at any point: the input's buffer holds its block, so the body's run applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  iintro ⟨HΦ, Ho, ⟨%d0, H0⟩, ⟨%d1, H1⟩⟩
  iapply (sound_kernel5 c Set.univ (grid5.coords t) _ _ _ _ (iblk5 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KbPool6.lean ====
/-
  Region 6 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out6_1`), the input's buffer is as it was, and nothing else is touched: this
  is the body obligation the pipeline library asks for, at every grid point.
-/
import proofs.«180909_j89275190215119_1_alg».proof.Proof.Gen.Kernel.Launch
import proofs.«180909_j89275190215119_1_alg».proof.Proof.Gen.Kernel.Skeleton
import proofs.«180909_j89275190215119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The input window's current staging buffer holds its block at every point, for any proof data whose array is
    `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The body's two accesses: the whole input block and the whole output block. -/
abbrev r6_0 : Rect S64x100x512 := Rect.unit (s := S64x100x512) ![0, 0, 0] S64x100x512.size inb_S64x100x512_S64x100x512_0_0_0
abbrev r6_1 : Rect S64x512 := Rect.unit (s := S64x512) ![0, 0] S64x512.size inb_S64x512_S64x512_0_0

/-- What the body leaves in the output's staging buffer, as a function of the input block: its one store. -/
def out6_1 (x0 : Vec F S64x100x512 .f32) : Vec F S64x512 .f32 :=
  View.canon [⟨r6_1, k6_pay1 (View.ld x0 r6_0)⟩]

/-- The one store covers the output block. -/
theorem cover6_1 (p0 : Vec F S64x512 .f32) (y : S64x512.Idx) :
    ∃ pc ∈ ([⟨r6_1, p0⟩] : List (View.Piece (Elt F) S64x512 .f32)), y ∈ pc.1.set :=
  View.cover_of_tiled [⟨r6_1, p0⟩] S64x512.size (by rfl) y

set_option maxHeartbeats 1000000 in
/-- The kernel body on whole staging buffers, the input's holding `x0` and the output's anything, runs to its end with the
    input's as it was and the output's at `out6_1 x0`. -/
theorem sound_kernel6 (c : Dev nD) (E : Set ℕ) (i : grid6.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out6_1 x0)) -∗ K ⟨⟩))
      ⊢ wp frame (wpE (defs₀ (F := F)) Variants.none c none) E (cc6__pool_kernel i arg1 harg1 arg2 harg2) K := by
  simp only [cc6__pool_kernel_eq_skeleton]; unfold cc6__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover6_1 _)

/-- The proof data of this region on core `c`: the arrays as the region finds them; after the body at point `t` the
    input's buffer at its block and the output's at `out6_1` of it; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => out6_1 (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = out6_1 (iblk6 V c 0 t) := by dsimp only [dat6]

theorem before6_0 (c : Dev nD) (t : Fin cfg6.N) (d) : (dat6 V c).before 0 t d = iblk6 V c 0 t :=
  before6_0_of V (dat6 V c) (A_eq6 V c 0) (after6_0 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

/-- The body at any point: the input's buffer holds its block, so the body's run applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1]
  iintro ⟨HΦ, Ho, ⟨%d0, H0⟩, ⟨%d1, H1⟩⟩
  iapply (sound_kernel6 c Set.univ (grid6.coords t) _ _ _ _ (iblk6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.KbPool7.lean ====
/-
  Region 7 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out7_1`), the input's buffer is as it was, and nothing else is touched: this
  is the body obligation the pipeline library asks for, at every grid point.
-/
import proofs.«180909_j89275190215119_1_alg».proof.Proof.Gen.Kernel.Launch
import proofs.«180909_j89275190215119_1_alg».proof.Proof.Gen.Kernel.Skeleton
import proofs.«180909_j89275190215119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point, for any proof data whose array is
    `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The body's two accesses: the whole input block and the whole output block. -/
abbrev r7_0 : Rect S64x100x512 := Rect.unit (s := S64x100x512) ![0, 0, 0] S64x100x512.size inb_S64x100x512_S64x100x512_0_0_0
abbrev r7_1 : Rect S64x512 := Rect.unit (s := S64x512) ![0, 0] S64x512.size inb_S64x512_S64x512_0_0

/-- What the body leaves in the output's staging buffer, as a function of the input block: its one store. -/
def out7_1 (x0 : Vec F S64x100x512 .f32) : Vec F S64x512 .f32 :=
  View.canon [⟨r7_1, k7_pay1 (View.ld x0 r7_0)⟩]

/-- The one store covers the output block. -/
theorem cover7_1 (p0 : Vec F S64x512 .f32) (y : S64x512.Idx) :
    ∃ pc ∈ ([⟨r7_1, p0⟩] : List (View.Piece (Elt F) S64x512 .f32)), y ∈ pc.1.set :=
  View.cover_of_tiled [⟨r7_1, p0⟩] S64x512.size (by rfl) y

set_option maxHeartbeats 1000000 in
/-- The kernel body on whole staging buffers, the input's holding `x0` and the output's anything, runs to its end with the
    input's as it was and the output's at `out7_1 x0`. -/
theorem sound_kernel7 (c : Dev nD) (E : Set ℕ) (i : grid7.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out7_1 x0)) -∗ K ⟨⟩))
      ⊢ wp frame (wpE (defs₀ (F := F)) Variants.none c none) E (cc7__pool_kernel i arg1 harg1 arg2 harg2) K := by
  simp only [cc7__pool_kernel_eq_skeleton]; unfold cc7__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover7_1 _)

/-- The proof data of this region on core `c`: the arrays as the region finds them; after the body at point `t` the
    input's buffer at its block and the output's at `out7_1` of it; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => out7_1 (iblk7 V c 0 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = out7_1 (iblk7 V c 0 t) := by dsimp only [dat7]

theorem before7_0 (c : Dev nD) (t : Fin cfg7.N) (d) : (dat7 V c).before 0 t d = iblk7 V c 0 t :=
  before7_0_of V (dat7 V c) (A_eq7 V c 0) (after7_0 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t))

/-- The body at any point: the input's buffer holds its block, so the body's run applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1]
  iintro ⟨HΦ, Ho, ⟨%d0, H0⟩, ⟨%d1, H1⟩⟩
  iapply (sound_kernel7 c Set.univ (grid7.coords t) _ _ _ _ (iblk7 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.KbPool8.lean ====
/-
  Region 8 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out8_1`), the input's buffer is as it was, and nothing else is touched: this
  is the body obligation the pipeline library asks for, at every grid point.
-/
import proofs.«180909_j89275190215119_1_alg».proof.Proof.Gen.Kernel.Launch
import proofs.«180909_j89275190215119_1_alg».proof.Proof.Gen.Kernel.Skeleton
import proofs.«180909_j89275190215119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The input window's current staging buffer holds its block at every point, for any proof data whose array is
    `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The body's two accesses: the whole input block and the whole output block. -/
abbrev r8_0 : Rect S64x100x512 := Rect.unit (s := S64x100x512) ![0, 0, 0] S64x100x512.size inb_S64x100x512_S64x100x512_0_0_0
abbrev r8_1 : Rect S64x512 := Rect.unit (s := S64x512) ![0, 0] S64x512.size inb_S64x512_S64x512_0_0

/-- What the body leaves in the output's staging buffer, as a function of the input block: its one store. -/
def out8_1 (x0 : Vec F S64x100x512 .f32) : Vec F S64x512 .f32 :=
  View.canon [⟨r8_1, k8_pay1 (View.ld x0 r8_0)⟩]

/-- The one store covers the output block. -/
theorem cover8_1 (p0 : Vec F S64x512 .f32) (y : S64x512.Idx) :
    ∃ pc ∈ ([⟨r8_1, p0⟩] : List (View.Piece (Elt F) S64x512 .f32)), y ∈ pc.1.set :=
  View.cover_of_tiled [⟨r8_1, p0⟩] S64x512.size (by rfl) y

set_option maxHeartbeats 1000000 in
/-- The kernel body on whole staging buffers, the input's holding `x0` and the output's anything, runs to its end with the
    input's as it was and the output's at `out8_1 x0`. -/
theorem sound_kernel8 (c : Dev nD) (E : Set ℕ) (i : grid8.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out8_1 x0)) -∗ K ⟨⟩))
      ⊢ wp frame (wpE (defs₀ (F := F)) Variants.none c none) E (cc8__pool_kernel i arg1 harg1 arg2 harg2) K := by
  simp only [cc8__pool_kernel_eq_skeleton]; unfold cc8__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover8_1 _)

/-- The proof data of this region on core `c`: the arrays as the region finds them; after the body at point `t` the
    input's buffer at its block and the output's at `out8_1` of it; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => out8_1 (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = out8_1 (iblk8 V c 0 t) := by dsimp only [dat8]

theorem before8_0 (c : Dev nD) (t : Fin cfg8.N) (d) : (dat8 V c).before 0 t d = iblk8 V c 0 t :=
  before8_0_of V (dat8 V c) (A_eq8 V c 0) (after8_0 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t))

/-- The body at any point: the input's buffer holds its block, so the body's run applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0]
  rw [show (dat8 V c).Φ t.succ = (dat8 V c).Φ t.castSucc from rfl,
    show (dat8 V c).owesAt () t.succ = (dat8 V c).owesAt () t.castSucc from rfl,
    after8_0, after8_1]
  iintro ⟨HΦ, Ho, ⟨%d0, H0⟩, ⟨%d1, H1⟩⟩
  iapply (sound_kernel8 c Set.univ (grid8.coords t) _ _ _ _ (iblk8 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Fr

end
-- ==== Proof.KbMlp.lean ====
/-
  Region 9 of the program (the three-layer perceptron over a grid of 8 row blocks): its half of the frame proof, at a
  parameter `V`, the contents of the core's buffers when the region is entered.
  The body loads its whole row block (128 × 6144), the three weight matrices and the three bias vectors, computes
  max(x·W1 + b1, 0), max(·W2 + b2, 0), ·W3 + b3 and stores the 128 × 128 result over the whole output block. So after
  the body the output's staging buffer holds one function of the seven input blocks (`out9_7`), the inputs' buffers are
  as they were, and nothing else is touched: the body obligation the pipeline library asks for, at every grid point.
  The weights and biases have a constant block index: they are fetched at the first point only, and the library's lemma
  on unfetched inputs says their buffers still hold the block at every later point.
-/
import proofs.«180909_j89275190215119_1_alg».proof.Proof.Gen.Kernel.Launch
import proofs.«180909_j89275190215119_1_alg».proof.Proof.Gen.Kernel.Skeleton
import proofs.«180909_j89275190215119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Each input window's current staging buffer holds its block at every point, fetched there or not, for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- The body's accesses: every buffer whole. -/
abbrev r9_0 : Rect S128x6144 := Rect.unit (s := S128x6144) ![0, 0] S128x6144.size inb_S128x6144_S128x6144_0_0
abbrev r9_1 : Rect S6144x512 := Rect.unit (s := S6144x512) ![0, 0] S6144x512.size inb_S6144x512_S6144x512_0_0
abbrev r9_2 : Rect S512 := Rect.unit (s := S512) ![0] S512.size inb_S512_S512_0
abbrev r9_3 : Rect S512x256 := Rect.unit (s := S512x256) ![0, 0] S512x256.size inb_S512x256_S512x256_0_0
abbrev r9_4 : Rect S256 := Rect.unit (s := S256) ![0] S256.size inb_S256_S256_0
abbrev r9_5 : Rect S256x128 := Rect.unit (s := S256x128) ![0, 0] S256x128.size inb_S256x128_S256x128_0_0
abbrev r9_6 : Rect S128 := Rect.unit (s := S128) ![0] S128.size inb_S128_S128_0
abbrev r9_7 : Rect S128x128 := Rect.unit (s := S128x128) ![0, 0] S128x128.size inb_S128x128_S128x128_0_0

/-- What the body leaves in the output's staging buffer, as a function of the input blocks: its one store. -/
def out9_7 (x0 : Vec F S128x6144 .f32) (x1 : Vec F S6144x512 .f32) (x2 : Vec F S512 .f32) (x3 : Vec F S512x256 .f32) (x4 : Vec F S256 .f32) (x5 : Vec F S256x128 .f32) (x6 : Vec F S128 .f32) : Vec F S128x128 .f32 :=
  View.canon [⟨r9_7, k9_pay1 (View.ld x0 r9_0) (View.ld x1 r9_1) (View.ld x2 r9_2) (View.ld x3 r9_3) (View.ld x4 r9_4) (View.ld x5 r9_5) (View.ld x6 r9_6)⟩]

/-- The one store covers the output block. -/
theorem cover9_7 (p0 : Vec F S128x128 .f32) (y : S128x128.Idx) :
    ∃ pc ∈ ([⟨r9_7, p0⟩] : List (View.Piece (Elt F) S128x128 .f32)), y ∈ pc.1.set :=
  View.cover_of_tiled [⟨r9_7, p0⟩] S128x128.size (by rfl) y

set_option maxHeartbeats 1000000 in
/-- The kernel body on whole staging buffers, the inputs' holding `x0 … x6` and the output's anything, runs to its end
    with the inputs' as they were and the output's at `out9_7` of them. -/
theorem sound_kernel9 (c : Dev nD) (E : Set ℕ) (i : grid9.Coords) (arg1 : Memref sig .tc .vmem S128x6144 .f32) (harg1 : arg1.IsWhole) (arg2 : Memref sig .tc .vmem S6144x512 .f32) (harg2 : arg2.IsWhole) (arg3 : Memref sig .tc .vmem S512 .f32) (harg3 : arg3.IsWhole) (arg4 : Memref sig .tc .vmem S512x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S128x128 .f32) (harg8 : arg8.IsWhole)
    (x0 : Vec F S128x6144 .f32) (x1 : Vec F S6144x512 .f32) (x2 : Vec F S512 .f32) (x3 : Vec F S512x256 .f32) (x4 : Vec F S256 .f32) (x5 : Vec F S256x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E (cc9__mlp_kernel i arg1 harg1 arg2 harg2 arg3 harg3 arg4 harg4 arg5 harg5 arg6 harg6 arg7 harg7 arg8 harg8) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-- The proof data of this region on core `c`: the arrays as the region finds them; after the body at point `t` each
    input's buffer at its block and the output's at `out9_7` of them; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = out9_7 (iblk9 V c 0 t) (iblk9 V c 1 t) (iblk9 V c 2 t) (iblk9 V c 3 t) (iblk9 V c 4 t) (iblk9 V c 5 t) (iblk9 V c 6 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so the body's run applies; the invariant and what the
    core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ (grid9.coords t) _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Fr

end
-- ==== Proof.KbFold.lean ====
/-
  The contents of the core's buffers at every boundary between two items of the program — a stretch of host operations,
  or one of the ten kernel regions — as a fold from the launch memory: a host stretch leaves what its operations compute
  (`StableHlo.after`); a region leaves its arrays at what its write-backs leave (the input arrays as entered, the output
  array block by block at what the body stored) and every other buffer as entered. No host operation writes an argument
  and no region changes one (a region either reads it through an input window or never touches it), so every argument's
  buffer at the last boundary is its launch contents. Also here: every region's proof data at its entry contents, and
  what rides beside the buffers through every item (the generator register and what the core owes: nothing).
-/
import proofs.«180909_j89275190215119_1_alg».proof.Proof.KbPool0
import proofs.«180909_j89275190215119_1_alg».proof.Proof.KbPool1
import proofs.«180909_j89275190215119_1_alg».proof.Proof.KbPool2
import proofs.«180909_j89275190215119_1_alg».proof.Proof.KbPool3
import proofs.«180909_j89275190215119_1_alg».proof.Proof.KbPool4
import proofs.«180909_j89275190215119_1_alg».proof.Proof.KbPool5
import proofs.«180909_j89275190215119_1_alg».proof.Proof.KbPool6
import proofs.«180909_j89275190215119_1_alg».proof.Proof.KbPool7
import proofs.«180909_j89275190215119_1_alg».proof.Proof.KbPool8
import proofs.«180909_j89275190215119_1_alg».proof.Proof.KbMlp
import proofs.«180909_j89275190215119_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev X0 (c : Dev nD) : Valuation τ sig (Elt F) := fun b => m (c, b)

/-- After the host stretch before region 0 (the region's entry contents), -/
abbrev X1 (c : Dev nD) : Valuation τ sig (Elt F) := StableHlo.after hostOps0 (X0 m c)
/-- the same read at the TensorCore's references, -/
abbrev Y1 : (c : Dev nD) → (b : Ref sig .tc) → Buf (Elt F) ((c : Thread nD τ).loc b) := fun c b => X1 m c b
/-- and at region 0's exit: its arrays at what the pipeline leaves, every other buffer as entered. -/
def X2 (c : Dev nD) : Valuation τ sig (Elt F) :=
  Pipeline.withArrays spec0 c (X1 m c) fun w => (dat0 (Y1 m) c).arrAt w cfg0.N
theorem X2_arr (c : Dev nD) (w : Fin cfg0.W) :
    X2 m c (Proc.devRef .tc (Pipeline.arrRef spec0 w)) = (dat0 (Y1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev Y2 : (c : Dev nD) → (b : Ref sig .tc) → Buf (Elt F) ((c : Thread nD τ).loc b) := fun c b => X2 m c b
theorem hF0 (c : Dev nD) (w : Fin cfg0.W) : (dat0 (Y1 m) c).arrAt w cfg0.N = Y2 m c (Pipeline.arrRef spec0 w) :=
  (X2_arr m c w).symm
theorem hrest0 (c : Dev nD) : ∀ b, b ∉ Finset.univ.image (Pipeline.arrRef spec0) → Y2 m c b = Y1 m c b :=
  fun b hb => X2_of_ne m c b fun w e => hb (Finset.mem_image.mpr ⟨w, Finset.mem_univ _, e⟩)
/-- A buffer the stretch does not write is as before it. -/
theorem X1_of (c : Dev nD) (r : Ref sig .tc) (h : r ∉ hostOps0_W) : X1 m c (Proc.devRef .tc r) = X0 m c (Proc.devRef .tc r) :=
  StableHlo.after_of_writes_sub hostOps0 _ hostOps0_writes h

/-- After the host stretch before region 1 (the region's entry contents), -/
abbrev X3 (c : Dev nD) : Valuation τ sig (Elt F) := StableHlo.after hostOps1 (X2 m c)
/-- the same read at the TensorCore's references, -/
abbrev Y3 : (c : Dev nD) → (b : Ref sig .tc) → Buf (Elt F) ((c : Thread nD τ).loc b) := fun c b => X3 m c b
/-- and at region 1's exit: its arrays at what the pipeline leaves, every other buffer as entered. -/
def X4 (c : Dev nD) : Valuation τ sig (Elt F) :=
  Pipeline.withArrays spec1 c (X3 m c) fun w => (dat1 (Y3 m) c).arrAt w cfg1.N
theorem X4_arr (c : Dev nD) (w : Fin cfg1.W) :
    X4 m c (Proc.devRef .tc (Pipeline.arrRef spec1 w)) = (dat1 (Y3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
abbrev Y4 : (c : Dev nD) → (b : Ref sig .tc) → Buf (Elt F) ((c : Thread nD τ).loc b) := fun c b => X4 m c b
theorem hF1 (c : Dev nD) (w : Fin cfg1.W) : (dat1 (Y3 m) c).arrAt w cfg1.N = Y4 m c (Pipeline.arrRef spec1 w) :=
  (X4_arr m c w).symm
theorem hrest1 (c : Dev nD) : ∀ b, b ∉ Finset.univ.image (Pipeline.arrRef spec1) → Y4 m c b = Y3 m c b :=
  fun b hb => X4_of_ne m c b fun w e => hb (Finset.mem_image.mpr ⟨w, Finset.mem_univ _, e⟩)
/-- A buffer the stretch does not write is as before it. -/
theorem X3_of (c : Dev nD) (r : Ref sig .tc) (h : r ∉ hostOps1_W) : X3 m c (Proc.devRef .tc r) = X2 m c (Proc.devRef .tc r) :=
  StableHlo.after_of_writes_sub hostOps1 _ hostOps1_writes h

/-- After the host stretch before region 2 (the region's entry contents), -/
abbrev X5 (c : Dev nD) : Valuation τ sig (Elt F) := StableHlo.after hostOps2 (X4 m c)
/-- the same read at the TensorCore's references, -/
abbrev Y5 : (c : Dev nD) → (b : Ref sig .tc) → Buf (Elt F) ((c : Thread nD τ).loc b) := fun c b => X5 m c b
/-- and at region 2's exit: its arrays at what the pipeline leaves, every other buffer as entered. -/
def X6 (c : Dev nD) : Valuation τ sig (Elt F) :=
  Pipeline.withArrays spec2 c (X5 m c) fun w => (dat2 (Y5 m) c).arrAt w cfg2.N
theorem X6_arr (c : Dev nD) (w : Fin cfg2.W) :
    X6 m c (Proc.devRef .tc (Pipeline.arrRef spec2 w)) = (dat2 (Y5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
abbrev Y6 : (c : Dev nD) → (b : Ref sig .tc) → Buf (Elt F) ((c : Thread nD τ).loc b) := fun c b => X6 m c b
theorem hF2 (c : Dev nD) (w : Fin cfg2.W) : (dat2 (Y5 m) c).arrAt w cfg2.N = Y6 m c (Pipeline.arrRef spec2 w) :=
  (X6_arr m c w).symm
theorem hrest2 (c : Dev nD) : ∀ b, b ∉ Finset.univ.image (Pipeline.arrRef spec2) → Y6 m c b = Y5 m c b :=
  fun b hb => X6_of_ne m c b fun w e => hb (Finset.mem_image.mpr ⟨w, Finset.mem_univ _, e⟩)
/-- A buffer the stretch does not write is as before it. -/
theorem X5_of (c : Dev nD) (r : Ref sig .tc) (h : r ∉ hostOps2_W) : X5 m c (Proc.devRef .tc r) = X4 m c (Proc.devRef .tc r) :=
  StableHlo.after_of_writes_sub hostOps2 _ hostOps2_writes h

/-- After the host stretch before region 3 (the region's entry contents), -/
abbrev X7 (c : Dev nD) : Valuation τ sig (Elt F) := StableHlo.after hostOps3 (X6 m c)
/-- the same read at the TensorCore's references, -/
abbrev Y7 : (c : Dev nD) → (b : Ref sig .tc) → Buf (Elt F) ((c : Thread nD τ).loc b) := fun c b => X7 m c b
/-- and at region 3's exit: its arrays at what the pipeline leaves, every other buffer as entered. -/
def X8 (c : Dev nD) : Valuation τ sig (Elt F) :=
  Pipeline.withArrays spec3 c (X7 m c) fun w => (dat3 (Y7 m) c).arrAt w cfg3.N
theorem X8_arr (c : Dev nD) (w : Fin cfg3.W) :
    X8 m c (Proc.devRef .tc (Pipeline.arrRef spec3 w)) = (dat3 (Y7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
abbrev Y8 : (c : Dev nD) → (b : Ref sig .tc) → Buf (Elt F) ((c : Thread nD τ).loc b) := fun c b => X8 m c b
theorem hF3 (c : Dev nD) (w : Fin cfg3.W) : (dat3 (Y7 m) c).arrAt w cfg3.N = Y8 m c (Pipeline.arrRef spec3 w) :=
  (X8_arr m c w).symm
theorem hrest3 (c : Dev nD) : ∀ b, b ∉ Finset.univ.image (Pipeline.arrRef spec3) → Y8 m c b = Y7 m c b :=
  fun b hb => X8_of_ne m c b fun w e => hb (Finset.mem_image.mpr ⟨w, Finset.mem_univ _, e⟩)
/-- A buffer the stretch does not write is as before it. -/
theorem X7_of (c : Dev nD) (r : Ref sig .tc) (h : r ∉ hostOps3_W) : X7 m c (Proc.devRef .tc r) = X6 m c (Proc.devRef .tc r) :=
  StableHlo.after_of_writes_sub hostOps3 _ hostOps3_writes h

/-- After the host stretch before region 4 (the region's entry contents), -/
abbrev X9 (c : Dev nD) : Valuation τ sig (Elt F) := StableHlo.after hostOps4 (X8 m c)
/-- the same read at the TensorCore's references, -/
abbrev Y9 : (c : Dev nD) → (b : Ref sig .tc) → Buf (Elt F) ((c : Thread nD τ).loc b) := fun c b => X9 m c b
/-- and at region 4's exit: its arrays at what the pipeline leaves, every other buffer as entered. -/
def X10 (c : Dev nD) : Valuation τ sig (Elt F) :=
  Pipeline.withArrays spec4 c (X9 m c) fun w => (dat4 (Y9 m) c).arrAt w cfg4.N
theorem X10_arr (c : Dev nD) (w : Fin cfg4.W) :
    X10 m c (Proc.devRef .tc (Pipeline.arrRef spec4 w)) = (dat4 (Y9 m) c).arrAt w cfg4.N := by
  unfold X10; exact Pipeline.withArrays_arr spec4 launch4.win.arr_inj c _ _ w
theorem X10_of_ne (c : Dev nD) (b : Ref sig .tc) (hb : ∀ w, Pipeline.arrRef spec4 w ≠ b) :
    X10 m c (Proc.devRef .tc b) = X9 m c (Proc.devRef .tc b) := by
  unfold X10; exact Pipeline.withArrays_of_ne spec4 c _ _ b hb
abbrev Y10 : (c : Dev nD) → (b : Ref sig .tc) → Buf (Elt F) ((c : Thread nD τ).loc b) := fun c b => X10 m c b
theorem hF4 (c : Dev nD) (w : Fin cfg4.W) : (dat4 (Y9 m) c).arrAt w cfg4.N = Y10 m c (Pipeline.arrRef spec4 w) :=
  (X10_arr m c w).symm
theorem hrest4 (c : Dev nD) : ∀ b, b ∉ Finset.univ.image (Pipeline.arrRef spec4) → Y10 m c b = Y9 m c b :=
  fun b hb => X10_of_ne m c b fun w e => hb (Finset.mem_image.mpr ⟨w, Finset.mem_univ _, e⟩)
/-- A buffer the stretch does not write is as before it. -/
theorem X9_of (c : Dev nD) (r : Ref sig .tc) (h : r ∉ hostOps4_W) : X9 m c (Proc.devRef .tc r) = X8 m c (Proc.devRef .tc r) :=
  StableHlo.after_of_writes_sub hostOps4 _ hostOps4_writes h

/-- After the host stretch before region 5 (the region's entry contents), -/
abbrev X11 (c : Dev nD) : Valuation τ sig (Elt F) := StableHlo.after hostOps5 (X10 m c)
/-- the same read at the TensorCore's references, -/
abbrev Y11 : (c : Dev nD) → (b : Ref sig .tc) → Buf (Elt F) ((c : Thread nD τ).loc b) := fun c b => X11 m c b
/-- and at region 5's exit: its arrays at what the pipeline leaves, every other buffer as entered. -/
def X12 (c : Dev nD) : Valuation τ sig (Elt F) :=
  Pipeline.withArrays spec5 c (X11 m c) fun w => (dat5 (Y11 m) c).arrAt w cfg5.N
theorem X12_arr (c : Dev nD) (w : Fin cfg5.W) :
    X12 m c (Proc.devRef .tc (Pipeline.arrRef spec5 w)) = (dat5 (Y11 m) c).arrAt w cfg5.N := by
  unfold X12; exact Pipeline.withArrays_arr spec5 launch5.win.arr_inj c _ _ w
theorem X12_of_ne (c : Dev nD) (b : Ref sig .tc) (hb : ∀ w, Pipeline.arrRef spec5 w ≠ b) :
    X12 m c (Proc.devRef .tc b) = X11 m c (Proc.devRef .tc b) := by
  unfold X12; exact Pipeline.withArrays_of_ne spec5 c _ _ b hb
abbrev Y12 : (c : Dev nD) → (b : Ref sig .tc) → Buf (Elt F) ((c : Thread nD τ).loc b) := fun c b => X12 m c b
theorem hF5 (c : Dev nD) (w : Fin cfg5.W) : (dat5 (Y11 m) c).arrAt w cfg5.N = Y12 m c (Pipeline.arrRef spec5 w) :=
  (X12_arr m c w).symm
theorem hrest5 (c : Dev nD) : ∀ b, b ∉ Finset.univ.image (Pipeline.arrRef spec5) → Y12 m c b = Y11 m c b :=
  fun b hb => X12_of_ne m c b fun w e => hb (Finset.mem_image.mpr ⟨w, Finset.mem_univ _, e⟩)
/-- A buffer the stretch does not write is as before it. -/
theorem X11_of (c : Dev nD) (r : Ref sig .tc) (h : r ∉ hostOps5_W) : X11 m c (Proc.devRef .tc r) = X10 m c (Proc.devRef .tc r) :=
  StableHlo.after_of_writes_sub hostOps5 _ hostOps5_writes h

/-- After the host stretch before region 6 (the region's entry contents), -/
abbrev X13 (c : Dev nD) : Valuation τ sig (Elt F) := StableHlo.after hostOps6 (X12 m c)
/-- the same read at the TensorCore's references, -/
abbrev Y13 : (c : Dev nD) → (b : Ref sig .tc) → Buf (Elt F) ((c : Thread nD τ).loc b) := fun c b => X13 m c b
/-- and at region 6's exit: its arrays at what the pipeline leaves, every other buffer as entered. -/
def X14 (c : Dev nD) : Valuation τ sig (Elt F) :=
  Pipeline.withArrays spec6 c (X13 m c) fun w => (dat6 (Y13 m) c).arrAt w cfg6.N
theorem X14_arr (c : Dev nD) (w : Fin cfg6.W) :
    X14 m c (Proc.devRef .tc (Pipeline.arrRef spec6 w)) = (dat6 (Y13 m) c).arrAt w cfg6.N := by
  unfold X14; exact Pipeline.withArrays_arr spec6 launch6.win.arr_inj c _ _ w
theorem X14_of_ne (c : Dev nD) (b : Ref sig .tc) (hb : ∀ w, Pipeline.arrRef spec6 w ≠ b) :
    X14 m c (Proc.devRef .tc b) = X13 m c (Proc.devRef .tc b) := by
  unfold X14; exact Pipeline.withArrays_of_ne spec6 c _ _ b hb
abbrev Y14 : (c : Dev nD) → (b : Ref sig .tc) → Buf (Elt F) ((c : Thread nD τ).loc b) := fun c b => X14 m c b
theorem hF6 (c : Dev nD) (w : Fin cfg6.W) : (dat6 (Y13 m) c).arrAt w cfg6.N = Y14 m c (Pipeline.arrRef spec6 w) :=
  (X14_arr m c w).symm
theorem hrest6 (c : Dev nD) : ∀ b, b ∉ Finset.univ.image (Pipeline.arrRef spec6) → Y14 m c b = Y13 m c b :=
  fun b hb => X14_of_ne m c b fun w e => hb (Finset.mem_image.mpr ⟨w, Finset.mem_univ _, e⟩)
/-- A buffer the stretch does not write is as before it. -/
theorem X13_of (c : Dev nD) (r : Ref sig .tc) (h : r ∉ hostOps6_W) : X13 m c (Proc.devRef .tc r) = X12 m c (Proc.devRef .tc r) :=
  StableHlo.after_of_writes_sub hostOps6 _ hostOps6_writes h

/-- After the host stretch before region 7 (the region's entry contents), -/
abbrev X15 (c : Dev nD) : Valuation τ sig (Elt F) := StableHlo.after hostOps7 (X14 m c)
/-- the same read at the TensorCore's references, -/
abbrev Y15 : (c : Dev nD) → (b : Ref sig .tc) → Buf (Elt F) ((c : Thread nD τ).loc b) := fun c b => X15 m c b
/-- and at region 7's exit: its arrays at what the pipeline leaves, every other buffer as entered. -/
def X16 (c : Dev nD) : Valuation τ sig (Elt F) :=
  Pipeline.withArrays spec7 c (X15 m c) fun w => (dat7 (Y15 m) c).arrAt w cfg7.N
theorem X16_arr (c : Dev nD) (w : Fin cfg7.W) :
    X16 m c (Proc.devRef .tc (Pipeline.arrRef spec7 w)) = (dat7 (Y15 m) c).arrAt w cfg7.N := by
  unfold X16; exact Pipeline.withArrays_arr spec7 launch7.win.arr_inj c _ _ w
theorem X16_of_ne (c : Dev nD) (b : Ref sig .tc) (hb : ∀ w, Pipeline.arrRef spec7 w ≠ b) :
    X16 m c (Proc.devRef .tc b) = X15 m c (Proc.devRef .tc b) := by
  unfold X16; exact Pipeline.withArrays_of_ne spec7 c _ _ b hb
abbrev Y16 : (c : Dev nD) → (b : Ref sig .tc) → Buf (Elt F) ((c : Thread nD τ).loc b) := fun c b => X16 m c b
theorem hF7 (c : Dev nD) (w : Fin cfg7.W) : (dat7 (Y15 m) c).arrAt w cfg7.N = Y16 m c (Pipeline.arrRef spec7 w) :=
  (X16_arr m c w).symm
theorem hrest7 (c : Dev nD) : ∀ b, b ∉ Finset.univ.image (Pipeline.arrRef spec7) → Y16 m c b = Y15 m c b :=
  fun b hb => X16_of_ne m c b fun w e => hb (Finset.mem_image.mpr ⟨w, Finset.mem_univ _, e⟩)
/-- A buffer the stretch does not write is as before it. -/
theorem X15_of (c : Dev nD) (r : Ref sig .tc) (h : r ∉ hostOps7_W) : X15 m c (Proc.devRef .tc r) = X14 m c (Proc.devRef .tc r) :=
  StableHlo.after_of_writes_sub hostOps7 _ hostOps7_writes h

/-- After the host stretch before region 8 (the region's entry contents), -/
abbrev X17 (c : Dev nD) : Valuation τ sig (Elt F) := StableHlo.after hostOps8 (X16 m c)
/-- the same read at the TensorCore's references, -/
abbrev Y17 : (c : Dev nD) → (b : Ref sig .tc) → Buf (Elt F) ((c : Thread nD τ).loc b) := fun c b => X17 m c b
/-- and at region 8's exit: its arrays at what the pipeline leaves, every other buffer as entered. -/
def X18 (c : Dev nD) : Valuation τ sig (Elt F) :=
  Pipeline.withArrays spec8 c (X17 m c) fun w => (dat8 (Y17 m) c).arrAt w cfg8.N
theorem X18_arr (c : Dev nD) (w : Fin cfg8.W) :
    X18 m c (Proc.devRef .tc (Pipeline.arrRef spec8 w)) = (dat8 (Y17 m) c).arrAt w cfg8.N := by
  unfold X18; exact Pipeline.withArrays_arr spec8 launch8.win.arr_inj c _ _ w
theorem X18_of_ne (c : Dev nD) (b : Ref sig .tc) (hb : ∀ w, Pipeline.arrRef spec8 w ≠ b) :
    X18 m c (Proc.devRef .tc b) = X17 m c (Proc.devRef .tc b) := by
  unfold X18; exact Pipeline.withArrays_of_ne spec8 c _ _ b hb
abbrev Y18 : (c : Dev nD) → (b : Ref sig .tc) → Buf (Elt F) ((c : Thread nD τ).loc b) := fun c b => X18 m c b
theorem hF8 (c : Dev nD) (w : Fin cfg8.W) : (dat8 (Y17 m) c).arrAt w cfg8.N = Y18 m c (Pipeline.arrRef spec8 w) :=
  (X18_arr m c w).symm
theorem hrest8 (c : Dev nD) : ∀ b, b ∉ Finset.univ.image (Pipeline.arrRef spec8) → Y18 m c b = Y17 m c b :=
  fun b hb => X18_of_ne m c b fun w e => hb (Finset.mem_image.mpr ⟨w, Finset.mem_univ _, e⟩)
/-- A buffer the stretch does not write is as before it. -/
theorem X17_of (c : Dev nD) (r : Ref sig .tc) (h : r ∉ hostOps8_W) : X17 m c (Proc.devRef .tc r) = X16 m c (Proc.devRef .tc r) :=
  StableHlo.after_of_writes_sub hostOps8 _ hostOps8_writes h

/-- After the host stretch before region 9 (the region's entry contents), -/
abbrev X19 (c : Dev nD) : Valuation τ sig (Elt F) := StableHlo.after hostOps9 (X18 m c)
/-- the same read at the TensorCore's references, -/
abbrev Y19 : (c : Dev nD) → (b : Ref sig .tc) → Buf (Elt F) ((c : Thread nD τ).loc b) := fun c b => X19 m c b
/-- and at region 9's exit: its arrays at what the pipeline leaves, every other buffer as entered. -/
def X20 (c : Dev nD) : Valuation τ sig (Elt F) :=
  Pipeline.withArrays spec9 c (X19 m c) fun w => (dat9 (Y19 m) c).arrAt w cfg9.N
theorem X20_arr (c : Dev nD) (w : Fin cfg9.W) :
    X20 m c (Proc.devRef .tc (Pipeline.arrRef spec9 w)) = (dat9 (Y19 m) c).arrAt w cfg9.N := by
  unfold X20; exact Pipeline.withArrays_arr spec9 launch9.win.arr_inj c _ _ w
theorem X20_of_ne (c : Dev nD) (b : Ref sig .tc) (hb : ∀ w, Pipeline.arrRef spec9 w ≠ b) :
    X20 m c (Proc.devRef .tc b) = X19 m c (Proc.devRef .tc b) := by
  unfold X20; exact Pipeline.withArrays_of_ne spec9 c _ _ b hb
abbrev Y20 : (c : Dev nD) → (b : Ref sig .tc) → Buf (Elt F) ((c : Thread nD τ).loc b) := fun c b => X20 m c b
theorem hF9 (c : Dev nD) (w : Fin cfg9.W) : (dat9 (Y19 m) c).arrAt w cfg9.N = Y20 m c (Pipeline.arrRef spec9 w) :=
  (X20_arr m c w).symm
theorem hrest9 (c : Dev nD) : ∀ b, b ∉ Finset.univ.image (Pipeline.arrRef spec9) → Y20 m c b = Y19 m c b :=
  fun b hb => X20_of_ne m c b fun w e => hb (Finset.mem_image.mpr ⟨w, Finset.mem_univ _, e⟩)
/-- A buffer the stretch does not write is as before it. -/
theorem X19_of (c : Dev nD) (r : Ref sig .tc) (h : r ∉ hostOps9_W) : X19 m c (Proc.devRef .tc r) = X18 m c (Proc.devRef .tc r) :=
  StableHlo.after_of_writes_sub hostOps9 _ hostOps9_writes h

/-! ## The proof data family and what rides along -/

/-- No pipeline has a prefetched table. -/
abbrev adm : (p : Fin 10) → (pcfgs (F := F) p).Adm := fun p => (cfgs p).toPCfg_adm
/-- Every region's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (Y1 m) c
  | ⟨1, _⟩ => fun c => dat1 (Y3 m) c
  | ⟨2, _⟩ => fun c => dat2 (Y5 m) c
  | ⟨3, _⟩ => fun c => dat3 (Y7 m) c
  | ⟨4, _⟩ => fun c => dat4 (Y9 m) c
  | ⟨5, _⟩ => fun c => dat5 (Y11 m) c
  | ⟨6, _⟩ => fun c => dat6 (Y13 m) c
  | ⟨7, _⟩ => fun c => dat7 (Y15 m) c
  | ⟨8, _⟩ => fun c => dat8 (Y17 m) c
  | ⟨9, _⟩ => fun c => dat9 (Y19 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
/-- A host stretch as a segment of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (X20 m c) ∗ ∃ r, prngReg c r)

end Cert.Kernel.Fr

end
-- ==== Proof.KbReg0.lean ====
/-
  Region 0 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Y1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KbReg1.lean ====
/-
  Region 1 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Y3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y3 m c) (Y4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KbReg2.lean ====
/-
  Region 2 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Y5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (Y5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y5 m c) (Y6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KbReg3.lean ====
/-
  Region 3 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Y7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (Y7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Y7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Y7 m c) (Y8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KbReg4.lean ====
/-
  Region 4 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Y9 m) c).loose
  hwaits := Pipeline.hwaits_of_owed_zero _ _ _ _ L lv 4 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec4 c (Y9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Y9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Y9 m c) (Y10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KbReg5.lean ====
/-
  Region 5 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Y11 m) c).loose
  hwaits := Pipeline.hwaits_of_owed_zero _ _ _ _ L lv 5 fun _ _ => rfl
  pre c := iprop(StableHlo.held (c : Thread nD τ) (Pipeline.ucRefs τ sig) (X11 m c) ∗ R c)
  post c := iprop(StableHlo.held (c : Thread nD τ) (Pipeline.ucRefs τ sig) (X12 m c) ∗ R c)
  X c := iprop(∃ r, prngReg c r)
  Y c := iprop(∃ r, prngReg c r)
  Z c := Pipeline.unscopedRest (Ix := Unit) (Name := ℕ) (U := UR sig nD τ) (Lvl := ℕ) spec5 c (Y11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Y11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Y11 m c) (Y12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KbReg6.lean ====
/-
  Region 6 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Y13 m) c).loose
  hwaits := Pipeline.hwaits_of_owed_zero _ _ _ _ L lv 6 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec6 c (Y13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Y13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Y13 m c) (Y14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KbReg7.lean ====
/-
  Region 7 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Y15 m) c).loose
  hwaits := Pipeline.hwaits_of_owed_zero _ _ _ _ L lv 7 fun _ _ => rfl
  pre c := iprop(StableHlo.held (c : Thread nD τ) (Pipeline.ucRefs τ sig) (X15 m c) ∗ R c)
  post c := iprop(StableHlo.held (c : Thread nD τ) (Pipeline.ucRefs τ sig) (X16 m c) ∗ R c)
  X c := iprop(∃ r, prngReg c r)
  Y c := iprop(∃ r, prngReg c r)
  Z c := Pipeline.unscopedRest (Ix := Unit) (Name := ℕ) (U := UR sig nD τ) (Lvl := ℕ) spec7 c (Y15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Y15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Y15 m c) (Y16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KbReg8.lean ====
/-
  Region 8 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Y17 m) c).loose
  hwaits := Pipeline.hwaits_of_owed_zero _ _ _ _ L lv 8 fun _ _ => rfl
  pre c := iprop(StableHlo.held (c : Thread nD τ) (Pipeline.ucRefs τ sig) (X17 m c) ∗ R c)
  post c := iprop(StableHlo.held (c : Thread nD τ) (Pipeline.ucRefs τ sig) (X18 m c) ∗ R c)
  X c := iprop(∃ r, prngReg c r)
  Y c := iprop(∃ r, prngReg c r)
  Z c := Pipeline.unscopedRest (Ix := Unit) (Name := ℕ) (U := UR sig nD τ) (Lvl := ℕ) spec8 c (Y17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Y17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Y17 m c) (Y18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KbReg9.lean ====
/-
  Region 9 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Y19 m) c).loose
  hwaits := Pipeline.hwaits_of_owed_zero _ _ _ _ L lv 9 fun _ _ => rfl
  pre c := iprop(StableHlo.held (c : Thread nD τ) (Pipeline.ucRefs τ sig) (X19 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (Y19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Y19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Y19 m c) (Y20 m c) ((pdats m 9 c).arrAt · cfg9.N) (hF9 m c) (hrest9 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Fr

end
-- ==== Proof.KbRun.lean ====
/-
  The run of the whole program: its ten host stretches and ten kernel regions in order, as the segments of the pipeline
  library's several-region theorem. Every weakly fair execution from a memory with zero counters terminates, nothing
  faulting, and the final memory holds every unscoped buffer at the last boundary's contents.
-/
import proofs.«180909_j89275190215119_1_alg».proof.Proof.KbReg0
import proofs.«180909_j89275190215119_1_alg».proof.Proof.KbReg1
import proofs.«180909_j89275190215119_1_alg».proof.Proof.KbReg2
import proofs.«180909_j89275190215119_1_alg».proof.Proof.KbReg3
import proofs.«180909_j89275190215119_1_alg».proof.Proof.KbReg4
import proofs.«180909_j89275190215119_1_alg».proof.Proof.KbReg5
import proofs.«180909_j89275190215119_1_alg».proof.Proof.KbReg6
import proofs.«180909_j89275190215119_1_alg».proof.Proof.KbReg7
import proofs.«180909_j89275190215119_1_alg».proof.Proof.KbReg8
import proofs.«180909_j89275190215119_1_alg».proof.Proof.KbReg9

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The program's twenty items in order. -/
abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m),
    .host (hseg hostOps3 hostOps3_sub hostOps3_fresh (X6 m)),
    .region (reg3 m),
    .host (hseg hostOps4 hostOps4_sub hostOps4_fresh (X8 m)),
    .region (reg4 m),
    .host (hseg hostOps5 hostOps5_sub hostOps5_fresh (X10 m)),
    .region (reg5 m),
    .host (hseg hostOps6 hostOps6_sub hostOps6_fresh (X12 m)),
    .region (reg6 m),
    .host (hseg hostOps7 hostOps7_sub hostOps7_fresh (X14 m)),
    .region (reg7 m),
    .host (hseg hostOps8 hostOps8_sub hostOps8_fresh (X16 m)),
    .region (reg8 m),
    .host (hseg hostOps9 hostOps9_sub hostOps9_fresh (X18 m)),
    .region (reg9 m) ]

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X20 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X20 m c b)
    (hfin := fun c s' => by
      iintro ⟨⟨Hh, -⟩, HSI⟩
      unfold StableHlo.held
      imodintro
      iapply (pointsTo_read_all (Pipeline.ucRefs τ sig) (fun b => (((c : Thread nD τ)).1, b)) (X20 m c) s')
      isplitl [Hh] <;> iassumption)
    (hQ := fun s h c => h c)

end Cert.Kernel.Fr

end
-- ==== Proof.KbArgsA.lean ====
/-
  The argument arrays 0 to 9 hold their launch contents at every boundary: no host stretch writes an argument's
  buffer and no region changes it (the perceptron region reads its weights and biases through input windows, whose
  arrays the pipeline leaves as entered; every other region never touches an argument). One step per boundary, walking
  back to the launch.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X0_main_arg0 (c : Dev nD) : X0 m c (Proc.devRef .tc main_arg0) = m ((c : Thread nD τ).loc main_arg0) := rfl
theorem X1_main_arg0 (c : Dev nD) : X1 m c (Proc.devRef .tc main_arg0) = m ((c : Thread nD τ).loc main_arg0) := (X1_of m c main_arg0 (by decide)).trans (X0_main_arg0 m c)
theorem X2_main_arg0 (c : Dev nD) : X2 m c (Proc.devRef .tc main_arg0) = m ((c : Thread nD τ).loc main_arg0) := (X2_of_ne m c main_arg0 (by decide)).trans (X1_main_arg0 m c)
theorem X3_main_arg0 (c : Dev nD) : X3 m c (Proc.devRef .tc main_arg0) = m ((c : Thread nD τ).loc main_arg0) := (X3_of m c main_arg0 (by decide)).trans (X2_main_arg0 m c)
theorem X4_main_arg0 (c : Dev nD) : X4 m c (Proc.devRef .tc main_arg0) = m ((c : Thread nD τ).loc main_arg0) := (X4_of_ne m c main_arg0 (by decide)).trans (X3_main_arg0 m c)
theorem X5_main_arg0 (c : Dev nD) : X5 m c (Proc.devRef .tc main_arg0) = m ((c : Thread nD τ).loc main_arg0) := (X5_of m c main_arg0 (by decide)).trans (X4_main_arg0 m c)
theorem X6_main_arg0 (c : Dev nD) : X6 m c (Proc.devRef .tc main_arg0) = m ((c : Thread nD τ).loc main_arg0) := (X6_of_ne m c main_arg0 (by decide)).trans (X5_main_arg0 m c)
theorem X7_main_arg0 (c : Dev nD) : X7 m c (Proc.devRef .tc main_arg0) = m ((c : Thread nD τ).loc main_arg0) := (X7_of m c main_arg0 (by decide)).trans (X6_main_arg0 m c)
theorem X8_main_arg0 (c : Dev nD) : X8 m c (Proc.devRef .tc main_arg0) = m ((c : Thread nD τ).loc main_arg0) := (X8_of_ne m c main_arg0 (by decide)).trans (X7_main_arg0 m c)
theorem X9_main_arg0 (c : Dev nD) : X9 m c (Proc.devRef .tc main_arg0) = m ((c : Thread nD τ).loc main_arg0) := (X9_of m c main_arg0 (by decide)).trans (X8_main_arg0 m c)
theorem X10_main_arg0 (c : Dev nD) : X10 m c (Proc.devRef .tc main_arg0) = m ((c : Thread nD τ).loc main_arg0) := (X10_of_ne m c main_arg0 (by decide)).trans (X9_main_arg0 m c)
theorem X11_main_arg0 (c : Dev nD) : X11 m c (Proc.devRef .tc main_arg0) = m ((c : Thread nD τ).loc main_arg0) := (X11_of m c main_arg0 (by decide)).trans (X10_main_arg0 m c)
theorem X12_main_arg0 (c : Dev nD) : X12 m c (Proc.devRef .tc main_arg0) = m ((c : Thread nD τ).loc main_arg0) := (X12_of_ne m c main_arg0 (by decide)).trans (X11_main_arg0 m c)
theorem X13_main_arg0 (c : Dev nD) : X13 m c (Proc.devRef .tc main_arg0) = m ((c : Thread nD τ).loc main_arg0) := (X13_of m c main_arg0 (by decide)).trans (X12_main_arg0 m c)
theorem X14_main_arg0 (c : Dev nD) : X14 m c (Proc.devRef .tc main_arg0) = m ((c : Thread nD τ).loc main_arg0) := (X14_of_ne m c main_arg0 (by decide)).trans (X13_main_arg0 m c)
theorem X15_main_arg0 (c : Dev nD) : X15 m c (Proc.devRef .tc main_arg0) = m ((c : Thread nD τ).loc main_arg0) := (X15_of m c main_arg0 (by decide)).trans (X14_main_arg0 m c)
theorem X16_main_arg0 (c : Dev nD) : X16 m c (Proc.devRef .tc main_arg0) = m ((c : Thread nD τ).loc main_arg0) := (X16_of_ne m c main_arg0 (by decide)).trans (X15_main_arg0 m c)
theorem X17_main_arg0 (c : Dev nD) : X17 m c (Proc.devRef .tc main_arg0) = m ((c : Thread nD τ).loc main_arg0) := (X17_of m c main_arg0 (by decide)).trans (X16_main_arg0 m c)
theorem X18_main_arg0 (c : Dev nD) : X18 m c (Proc.devRef .tc main_arg0) = m ((c : Thread nD τ).loc main_arg0) := (X18_of_ne m c main_arg0 (by decide)).trans (X17_main_arg0 m c)
theorem X19_main_arg0 (c : Dev nD) : X19 m c (Proc.devRef .tc main_arg0) = m ((c : Thread nD τ).loc main_arg0) := (X19_of m c main_arg0 (by decide)).trans (X18_main_arg0 m c)
theorem X20_main_arg0 (c : Dev nD) : X20 m c (Proc.devRef .tc main_arg0) = m ((c : Thread nD τ).loc main_arg0) := (X20_of_ne m c main_arg0 (by decide)).trans (X19_main_arg0 m c)
theorem X0_main_arg1 (c : Dev nD) : X0 m c (Proc.devRef .tc main_arg1) = m ((c : Thread nD τ).loc main_arg1) := rfl
theorem X1_main_arg1 (c : Dev nD) : X1 m c (Proc.devRef .tc main_arg1) = m ((c : Thread nD τ).loc main_arg1) := (X1_of m c main_arg1 (by decide)).trans (X0_main_arg1 m c)
theorem X2_main_arg1 (c : Dev nD) : X2 m c (Proc.devRef .tc main_arg1) = m ((c : Thread nD τ).loc main_arg1) := (X2_of_ne m c main_arg1 (by decide)).trans (X1_main_arg1 m c)
theorem X3_main_arg1 (c : Dev nD) : X3 m c (Proc.devRef .tc main_arg1) = m ((c : Thread nD τ).loc main_arg1) := (X3_of m c main_arg1 (by decide)).trans (X2_main_arg1 m c)
theorem X4_main_arg1 (c : Dev nD) : X4 m c (Proc.devRef .tc main_arg1) = m ((c : Thread nD τ).loc main_arg1) := (X4_of_ne m c main_arg1 (by decide)).trans (X3_main_arg1 m c)
theorem X5_main_arg1 (c : Dev nD) : X5 m c (Proc.devRef .tc main_arg1) = m ((c : Thread nD τ).loc main_arg1) := (X5_of m c main_arg1 (by decide)).trans (X4_main_arg1 m c)
theorem X6_main_arg1 (c : Dev nD) : X6 m c (Proc.devRef .tc main_arg1) = m ((c : Thread nD τ).loc main_arg1) := (X6_of_ne m c main_arg1 (by decide)).trans (X5_main_arg1 m c)
theorem X7_main_arg1 (c : Dev nD) : X7 m c (Proc.devRef .tc main_arg1) = m ((c : Thread nD τ).loc main_arg1) := (X7_of m c main_arg1 (by decide)).trans (X6_main_arg1 m c)
theorem X8_main_arg1 (c : Dev nD) : X8 m c (Proc.devRef .tc main_arg1) = m ((c : Thread nD τ).loc main_arg1) := (X8_of_ne m c main_arg1 (by decide)).trans (X7_main_arg1 m c)
theorem X9_main_arg1 (c : Dev nD) : X9 m c (Proc.devRef .tc main_arg1) = m ((c : Thread nD τ).loc main_arg1) := (X9_of m c main_arg1 (by decide)).trans (X8_main_arg1 m c)
theorem X10_main_arg1 (c : Dev nD) : X10 m c (Proc.devRef .tc main_arg1) = m ((c : Thread nD τ).loc main_arg1) := (X10_of_ne m c main_arg1 (by decide)).trans (X9_main_arg1 m c)
theorem X11_main_arg1 (c : Dev nD) : X11 m c (Proc.devRef .tc main_arg1) = m ((c : Thread nD τ).loc main_arg1) := (X11_of m c main_arg1 (by decide)).trans (X10_main_arg1 m c)
theorem X12_main_arg1 (c : Dev nD) : X12 m c (Proc.devRef .tc main_arg1) = m ((c : Thread nD τ).loc main_arg1) := (X12_of_ne m c main_arg1 (by decide)).trans (X11_main_arg1 m c)
theorem X13_main_arg1 (c : Dev nD) : X13 m c (Proc.devRef .tc main_arg1) = m ((c : Thread nD τ).loc main_arg1) := (X13_of m c main_arg1 (by decide)).trans (X12_main_arg1 m c)
theorem X14_main_arg1 (c : Dev nD) : X14 m c (Proc.devRef .tc main_arg1) = m ((c : Thread nD τ).loc main_arg1) := (X14_of_ne m c main_arg1 (by decide)).trans (X13_main_arg1 m c)
theorem X15_main_arg1 (c : Dev nD) : X15 m c (Proc.devRef .tc main_arg1) = m ((c : Thread nD τ).loc main_arg1) := (X15_of m c main_arg1 (by decide)).trans (X14_main_arg1 m c)
theorem X16_main_arg1 (c : Dev nD) : X16 m c (Proc.devRef .tc main_arg1) = m ((c : Thread nD τ).loc main_arg1) := (X16_of_ne m c main_arg1 (by decide)).trans (X15_main_arg1 m c)
theorem X17_main_arg1 (c : Dev nD) : X17 m c (Proc.devRef .tc main_arg1) = m ((c : Thread nD τ).loc main_arg1) := (X17_of m c main_arg1 (by decide)).trans (X16_main_arg1 m c)
theorem X18_main_arg1 (c : Dev nD) : X18 m c (Proc.devRef .tc main_arg1) = m ((c : Thread nD τ).loc main_arg1) := (X18_of_ne m c main_arg1 (by decide)).trans (X17_main_arg1 m c)
theorem X19_main_arg1 (c : Dev nD) : X19 m c (Proc.devRef .tc main_arg1) = m ((c : Thread nD τ).loc main_arg1) := (X19_of m c main_arg1 (by decide)).trans (X18_main_arg1 m c)
theorem X20_main_arg1 (c : Dev nD) : X20 m c (Proc.devRef .tc main_arg1) = m ((c : Thread nD τ).loc main_arg1) := (X20_of_ne m c main_arg1 (by decide)).trans (X19_main_arg1 m c)
theorem X0_main_arg2 (c : Dev nD) : X0 m c (Proc.devRef .tc main_arg2) = m ((c : Thread nD τ).loc main_arg2) := rfl
theorem X1_main_arg2 (c : Dev nD) : X1 m c (Proc.devRef .tc main_arg2) = m ((c : Thread nD τ).loc main_arg2) := (X1_of m c main_arg2 (by decide)).trans (X0_main_arg2 m c)
theorem X2_main_arg2 (c : Dev nD) : X2 m c (Proc.devRef .tc main_arg2) = m ((c : Thread nD τ).loc main_arg2) := (X2_of_ne m c main_arg2 (by decide)).trans (X1_main_arg2 m c)
theorem X3_main_arg2 (c : Dev nD) : X3 m c (Proc.devRef .tc main_arg2) = m ((c : Thread nD τ).loc main_arg2) := (X3_of m c main_arg2 (by decide)).trans (X2_main_arg2 m c)
theorem X4_main_arg2 (c : Dev nD) : X4 m c (Proc.devRef .tc main_arg2) = m ((c : Thread nD τ).loc main_arg2) := (X4_of_ne m c main_arg2 (by decide)).trans (X3_main_arg2 m c)
theorem X5_main_arg2 (c : Dev nD) : X5 m c (Proc.devRef .tc main_arg2) = m ((c : Thread nD τ).loc main_arg2) := (X5_of m c main_arg2 (by decide)).trans (X4_main_arg2 m c)
theorem X6_main_arg2 (c : Dev nD) : X6 m c (Proc.devRef .tc main_arg2) = m ((c : Thread nD τ).loc main_arg2) := (X6_of_ne m c main_arg2 (by decide)).trans (X5_main_arg2 m c)
theorem X7_main_arg2 (c : Dev nD) : X7 m c (Proc.devRef .tc main_arg2) = m ((c : Thread nD τ).loc main_arg2) := (X7_of m c main_arg2 (by decide)).trans (X6_main_arg2 m c)
theorem X8_main_arg2 (c : Dev nD) : X8 m c (Proc.devRef .tc main_arg2) = m ((c : Thread nD τ).loc main_arg2) := (X8_of_ne m c main_arg2 (by decide)).trans (X7_main_arg2 m c)
theorem X9_main_arg2 (c : Dev nD) : X9 m c (Proc.devRef .tc main_arg2) = m ((c : Thread nD τ).loc main_arg2) := (X9_of m c main_arg2 (by decide)).trans (X8_main_arg2 m c)
theorem X10_main_arg2 (c : Dev nD) : X10 m c (Proc.devRef .tc main_arg2) = m ((c : Thread nD τ).loc main_arg2) := (X10_of_ne m c main_arg2 (by decide)).trans (X9_main_arg2 m c)
theorem X11_main_arg2 (c : Dev nD) : X11 m c (Proc.devRef .tc main_arg2) = m ((c : Thread nD τ).loc main_arg2) := (X11_of m c main_arg2 (by decide)).trans (X10_main_arg2 m c)
theorem X12_main_arg2 (c : Dev nD) : X12 m c (Proc.devRef .tc main_arg2) = m ((c : Thread nD τ).loc main_arg2) := (X12_of_ne m c main_arg2 (by decide)).trans (X11_main_arg2 m c)
theorem X13_main_arg2 (c : Dev nD) : X13 m c (Proc.devRef .tc main_arg2) = m ((c : Thread nD τ).loc main_arg2) := (X13_of m c main_arg2 (by decide)).trans (X12_main_arg2 m c)
theorem X14_main_arg2 (c : Dev nD) : X14 m c (Proc.devRef .tc main_arg2) = m ((c : Thread nD τ).loc main_arg2) := (X14_of_ne m c main_arg2 (by decide)).trans (X13_main_arg2 m c)
theorem X15_main_arg2 (c : Dev nD) : X15 m c (Proc.devRef .tc main_arg2) = m ((c : Thread nD τ).loc main_arg2) := (X15_of m c main_arg2 (by decide)).trans (X14_main_arg2 m c)
theorem X16_main_arg2 (c : Dev nD) : X16 m c (Proc.devRef .tc main_arg2) = m ((c : Thread nD τ).loc main_arg2) := (X16_of_ne m c main_arg2 (by decide)).trans (X15_main_arg2 m c)
theorem X17_main_arg2 (c : Dev nD) : X17 m c (Proc.devRef .tc main_arg2) = m ((c : Thread nD τ).loc main_arg2) := (X17_of m c main_arg2 (by decide)).trans (X16_main_arg2 m c)
theorem X18_main_arg2 (c : Dev nD) : X18 m c (Proc.devRef .tc main_arg2) = m ((c : Thread nD τ).loc main_arg2) := (X18_of_ne m c main_arg2 (by decide)).trans (X17_main_arg2 m c)
theorem X19_main_arg2 (c : Dev nD) : X19 m c (Proc.devRef .tc main_arg2) = m ((c : Thread nD τ).loc main_arg2) := (X19_of m c main_arg2 (by decide)).trans (X18_main_arg2 m c)
theorem X20_main_arg2 (c : Dev nD) : X20 m c (Proc.devRef .tc main_arg2) = m ((c : Thread nD τ).loc main_arg2) := (X20_of_ne m c main_arg2 (by decide)).trans (X19_main_arg2 m c)
theorem X0_main_arg3 (c : Dev nD) : X0 m c (Proc.devRef .tc main_arg3) = m ((c : Thread nD τ).loc main_arg3) := rfl
theorem X1_main_arg3 (c : Dev nD) : X1 m c (Proc.devRef .tc main_arg3) = m ((c : Thread nD τ).loc main_arg3) := (X1_of m c main_arg3 (by decide)).trans (X0_main_arg3 m c)
theorem X2_main_arg3 (c : Dev nD) : X2 m c (Proc.devRef .tc main_arg3) = m ((c : Thread nD τ).loc main_arg3) := (X2_of_ne m c main_arg3 (by decide)).trans (X1_main_arg3 m c)
theorem X3_main_arg3 (c : Dev nD) : X3 m c (Proc.devRef .tc main_arg3) = m ((c : Thread nD τ).loc main_arg3) := (X3_of m c main_arg3 (by decide)).trans (X2_main_arg3 m c)
theorem X4_main_arg3 (c : Dev nD) : X4 m c (Proc.devRef .tc main_arg3) = m ((c : Thread nD τ).loc main_arg3) := (X4_of_ne m c main_arg3 (by decide)).trans (X3_main_arg3 m c)
theorem X5_main_arg3 (c : Dev nD) : X5 m c (Proc.devRef .tc main_arg3) = m ((c : Thread nD τ).loc main_arg3) := (X5_of m c main_arg3 (by decide)).trans (X4_main_arg3 m c)
theorem X6_main_arg3 (c : Dev nD) : X6 m c (Proc.devRef .tc main_arg3) = m ((c : Thread nD τ).loc main_arg3) := (X6_of_ne m c main_arg3 (by decide)).trans (X5_main_arg3 m c)
theorem X7_main_arg3 (c : Dev nD) : X7 m c (Proc.devRef .tc main_arg3) = m ((c : Thread nD τ).loc main_arg3) := (X7_of m c main_arg3 (by decide)).trans (X6_main_arg3 m c)
theorem X8_main_arg3 (c : Dev nD) : X8 m c (Proc.devRef .tc main_arg3) = m ((c : Thread nD τ).loc main_arg3) := (X8_of_ne m c main_arg3 (by decide)).trans (X7_main_arg3 m c)
theorem X9_main_arg3 (c : Dev nD) : X9 m c (Proc.devRef .tc main_arg3) = m ((c : Thread nD τ).loc main_arg3) := (X9_of m c main_arg3 (by decide)).trans (X8_main_arg3 m c)
theorem X10_main_arg3 (c : Dev nD) : X10 m c (Proc.devRef .tc main_arg3) = m ((c : Thread nD τ).loc main_arg3) := (X10_of_ne m c main_arg3 (by decide)).trans (X9_main_arg3 m c)
theorem X11_main_arg3 (c : Dev nD) : X11 m c (Proc.devRef .tc main_arg3) = m ((c : Thread nD τ).loc main_arg3) := (X11_of m c main_arg3 (by decide)).trans (X10_main_arg3 m c)
theorem X12_main_arg3 (c : Dev nD) : X12 m c (Proc.devRef .tc main_arg3) = m ((c : Thread nD τ).loc main_arg3) := (X12_of_ne m c main_arg3 (by decide)).trans (X11_main_arg3 m c)
theorem X13_main_arg3 (c : Dev nD) : X13 m c (Proc.devRef .tc main_arg3) = m ((c : Thread nD τ).loc main_arg3) := (X13_of m c main_arg3 (by decide)).trans (X12_main_arg3 m c)
theorem X14_main_arg3 (c : Dev nD) : X14 m c (Proc.devRef .tc main_arg3) = m ((c : Thread nD τ).loc main_arg3) := (X14_of_ne m c main_arg3 (by decide)).trans (X13_main_arg3 m c)
theorem X15_main_arg3 (c : Dev nD) : X15 m c (Proc.devRef .tc main_arg3) = m ((c : Thread nD τ).loc main_arg3) := (X15_of m c main_arg3 (by decide)).trans (X14_main_arg3 m c)
theorem X16_main_arg3 (c : Dev nD) : X16 m c (Proc.devRef .tc main_arg3) = m ((c : Thread nD τ).loc main_arg3) := (X16_of_ne m c main_arg3 (by decide)).trans (X15_main_arg3 m c)
theorem X17_main_arg3 (c : Dev nD) : X17 m c (Proc.devRef .tc main_arg3) = m ((c : Thread nD τ).loc main_arg3) := (X17_of m c main_arg3 (by decide)).trans (X16_main_arg3 m c)
theorem X18_main_arg3 (c : Dev nD) : X18 m c (Proc.devRef .tc main_arg3) = m ((c : Thread nD τ).loc main_arg3) := (X18_of_ne m c main_arg3 (by decide)).trans (X17_main_arg3 m c)
theorem X19_main_arg3 (c : Dev nD) : X19 m c (Proc.devRef .tc main_arg3) = m ((c : Thread nD τ).loc main_arg3) := (X19_of m c main_arg3 (by decide)).trans (X18_main_arg3 m c)
theorem X20_main_arg3 (c : Dev nD) : X20 m c (Proc.devRef .tc main_arg3) = m ((c : Thread nD τ).loc main_arg3) := (X20_of_ne m c main_arg3 (by decide)).trans (X19_main_arg3 m c)
theorem X0_main_arg4 (c : Dev nD) : X0 m c (Proc.devRef .tc main_arg4) = m ((c : Thread nD τ).loc main_arg4) := rfl
theorem X1_main_arg4 (c : Dev nD) : X1 m c (Proc.devRef .tc main_arg4) = m ((c : Thread nD τ).loc main_arg4) := (X1_of m c main_arg4 (by decide)).trans (X0_main_arg4 m c)
theorem X2_main_arg4 (c : Dev nD) : X2 m c (Proc.devRef .tc main_arg4) = m ((c : Thread nD τ).loc main_arg4) := (X2_of_ne m c main_arg4 (by decide)).trans (X1_main_arg4 m c)
theorem X3_main_arg4 (c : Dev nD) : X3 m c (Proc.devRef .tc main_arg4) = m ((c : Thread nD τ).loc main_arg4) := (X3_of m c main_arg4 (by decide)).trans (X2_main_arg4 m c)
theorem X4_main_arg4 (c : Dev nD) : X4 m c (Proc.devRef .tc main_arg4) = m ((c : Thread nD τ).loc main_arg4) := (X4_of_ne m c main_arg4 (by decide)).trans (X3_main_arg4 m c)
theorem X5_main_arg4 (c : Dev nD) : X5 m c (Proc.devRef .tc main_arg4) = m ((c : Thread nD τ).loc main_arg4) := (X5_of m c main_arg4 (by decide)).trans (X4_main_arg4 m c)
theorem X6_main_arg4 (c : Dev nD) : X6 m c (Proc.devRef .tc main_arg4) = m ((c : Thread nD τ).loc main_arg4) := (X6_of_ne m c main_arg4 (by decide)).trans (X5_main_arg4 m c)
theorem X7_main_arg4 (c : Dev nD) : X7 m c (Proc.devRef .tc main_arg4) = m ((c : Thread nD τ).loc main_arg4) := (X7_of m c main_arg4 (by decide)).trans (X6_main_arg4 m c)
theorem X8_main_arg4 (c : Dev nD) : X8 m c (Proc.devRef .tc main_arg4) = m ((c : Thread nD τ).loc main_arg4) := (X8_of_ne m c main_arg4 (by decide)).trans (X7_main_arg4 m c)
theorem X9_main_arg4 (c : Dev nD) : X9 m c (Proc.devRef .tc main_arg4) = m ((c : Thread nD τ).loc main_arg4) := (X9_of m c main_arg4 (by decide)).trans (X8_main_arg4 m c)
theorem X10_main_arg4 (c : Dev nD) : X10 m c (Proc.devRef .tc main_arg4) = m ((c : Thread nD τ).loc main_arg4) := (X10_of_ne m c main_arg4 (by decide)).trans (X9_main_arg4 m c)
theorem X11_main_arg4 (c : Dev nD) : X11 m c (Proc.devRef .tc main_arg4) = m ((c : Thread nD τ).loc main_arg4) := (X11_of m c main_arg4 (by decide)).trans (X10_main_arg4 m c)
theorem X12_main_arg4 (c : Dev nD) : X12 m c (Proc.devRef .tc main_arg4) = m ((c : Thread nD τ).loc main_arg4) := (X12_of_ne m c main_arg4 (by decide)).trans (X11_main_arg4 m c)
theorem X13_main_arg4 (c : Dev nD) : X13 m c (Proc.devRef .tc main_arg4) = m ((c : Thread nD τ).loc main_arg4) := (X13_of m c main_arg4 (by decide)).trans (X12_main_arg4 m c)
theorem X14_main_arg4 (c : Dev nD) : X14 m c (Proc.devRef .tc main_arg4) = m ((c : Thread nD τ).loc main_arg4) := (X14_of_ne m c main_arg4 (by decide)).trans (X13_main_arg4 m c)
theorem X15_main_arg4 (c : Dev nD) : X15 m c (Proc.devRef .tc main_arg4) = m ((c : Thread nD τ).loc main_arg4) := (X15_of m c main_arg4 (by decide)).trans (X14_main_arg4 m c)
theorem X16_main_arg4 (c : Dev nD) : X16 m c (Proc.devRef .tc main_arg4) = m ((c : Thread nD τ).loc main_arg4) := (X16_of_ne m c main_arg4 (by decide)).trans (X15_main_arg4 m c)
theorem X17_main_arg4 (c : Dev nD) : X17 m c (Proc.devRef .tc main_arg4) = m ((c : Thread nD τ).loc main_arg4) := (X17_of m c main_arg4 (by decide)).trans (X16_main_arg4 m c)
theorem X18_main_arg4 (c : Dev nD) : X18 m c (Proc.devRef .tc main_arg4) = m ((c : Thread nD τ).loc main_arg4) := (X18_of_ne m c main_arg4 (by decide)).trans (X17_main_arg4 m c)
theorem X19_main_arg4 (c : Dev nD) : X19 m c (Proc.devRef .tc main_arg4) = m ((c : Thread nD τ).loc main_arg4) := (X19_of m c main_arg4 (by decide)).trans (X18_main_arg4 m c)
theorem X20_main_arg4 (c : Dev nD) : X20 m c (Proc.devRef .tc main_arg4) = m ((c : Thread nD τ).loc main_arg4) := (X20_of_ne m c main_arg4 (by decide)).trans (X19_main_arg4 m c)
theorem X0_main_arg5 (c : Dev nD) : X0 m c (Proc.devRef .tc main_arg5) = m ((c : Thread nD τ).loc main_arg5) := rfl
theorem X1_main_arg5 (c : Dev nD) : X1 m c (Proc.devRef .tc main_arg5) = m ((c : Thread nD τ).loc main_arg5) := (X1_of m c main_arg5 (by decide)).trans (X0_main_arg5 m c)
theorem X2_main_arg5 (c : Dev nD) : X2 m c (Proc.devRef .tc main_arg5) = m ((c : Thread nD τ).loc main_arg5) := (X2_of_ne m c main_arg5 (by decide)).trans (X1_main_arg5 m c)
theorem X3_main_arg5 (c : Dev nD) : X3 m c (Proc.devRef .tc main_arg5) = m ((c : Thread nD τ).loc main_arg5) := (X3_of m c main_arg5 (by decide)).trans (X2_main_arg5 m c)
theorem X4_main_arg5 (c : Dev nD) : X4 m c (Proc.devRef .tc main_arg5) = m ((c : Thread nD τ).loc main_arg5) := (X4_of_ne m c main_arg5 (by decide)).trans (X3_main_arg5 m c)
theorem X5_main_arg5 (c : Dev nD) : X5 m c (Proc.devRef .tc main_arg5) = m ((c : Thread nD τ).loc main_arg5) := (X5_of m c main_arg5 (by decide)).trans (X4_main_arg5 m c)
theorem X6_main_arg5 (c : Dev nD) : X6 m c (Proc.devRef .tc main_arg5) = m ((c : Thread nD τ).loc main_arg5) := (X6_of_ne m c main_arg5 (by decide)).trans (X5_main_arg5 m c)
theorem X7_main_arg5 (c : Dev nD) : X7 m c (Proc.devRef .tc main_arg5) = m ((c : Thread nD τ).loc main_arg5) := (X7_of m c main_arg5 (by decide)).trans (X6_main_arg5 m c)
theorem X8_main_arg5 (c : Dev nD) : X8 m c (Proc.devRef .tc main_arg5) = m ((c : Thread nD τ).loc main_arg5) := (X8_of_ne m c main_arg5 (by decide)).trans (X7_main_arg5 m c)
theorem X9_main_arg5 (c : Dev nD) : X9 m c (Proc.devRef .tc main_arg5) = m ((c : Thread nD τ).loc main_arg5) := (X9_of m c main_arg5 (by decide)).trans (X8_main_arg5 m c)
theorem X10_main_arg5 (c : Dev nD) : X10 m c (Proc.devRef .tc main_arg5) = m ((c : Thread nD τ).loc main_arg5) := (X10_of_ne m c main_arg5 (by decide)).trans (X9_main_arg5 m c)
theorem X11_main_arg5 (c : Dev nD) : X11 m c (Proc.devRef .tc main_arg5) = m ((c : Thread nD τ).loc main_arg5) := (X11_of m c main_arg5 (by decide)).trans (X10_main_arg5 m c)
theorem X12_main_arg5 (c : Dev nD) : X12 m c (Proc.devRef .tc main_arg5) = m ((c : Thread nD τ).loc main_arg5) := (X12_of_ne m c main_arg5 (by decide)).trans (X11_main_arg5 m c)
theorem X13_main_arg5 (c : Dev nD) : X13 m c (Proc.devRef .tc main_arg5) = m ((c : Thread nD τ).loc main_arg5) := (X13_of m c main_arg5 (by decide)).trans (X12_main_arg5 m c)
theorem X14_main_arg5 (c : Dev nD) : X14 m c (Proc.devRef .tc main_arg5) = m ((c : Thread nD τ).loc main_arg5) := (X14_of_ne m c main_arg5 (by decide)).trans (X13_main_arg5 m c)
theorem X15_main_arg5 (c : Dev nD) : X15 m c (Proc.devRef .tc main_arg5) = m ((c : Thread nD τ).loc main_arg5) := (X15_of m c main_arg5 (by decide)).trans (X14_main_arg5 m c)
theorem X16_main_arg5 (c : Dev nD) : X16 m c (Proc.devRef .tc main_arg5) = m ((c : Thread nD τ).loc main_arg5) := (X16_of_ne m c main_arg5 (by decide)).trans (X15_main_arg5 m c)
theorem X17_main_arg5 (c : Dev nD) : X17 m c (Proc.devRef .tc main_arg5) = m ((c : Thread nD τ).loc main_arg5) := (X17_of m c main_arg5 (by decide)).trans (X16_main_arg5 m c)
theorem X18_main_arg5 (c : Dev nD) : X18 m c (Proc.devRef .tc main_arg5) = m ((c : Thread nD τ).loc main_arg5) := (X18_of_ne m c main_arg5 (by decide)).trans (X17_main_arg5 m c)
theorem X19_main_arg5 (c : Dev nD) : X19 m c (Proc.devRef .tc main_arg5) = m ((c : Thread nD τ).loc main_arg5) := (X19_of m c main_arg5 (by decide)).trans (X18_main_arg5 m c)
theorem X20_main_arg5 (c : Dev nD) : X20 m c (Proc.devRef .tc main_arg5) = m ((c : Thread nD τ).loc main_arg5) := (X20_of_ne m c main_arg5 (by decide)).trans (X19_main_arg5 m c)
theorem X0_main_arg6 (c : Dev nD) : X0 m c (Proc.devRef .tc main_arg6) = m ((c : Thread nD τ).loc main_arg6) := rfl
theorem X1_main_arg6 (c : Dev nD) : X1 m c (Proc.devRef .tc main_arg6) = m ((c : Thread nD τ).loc main_arg6) := (X1_of m c main_arg6 (by decide)).trans (X0_main_arg6 m c)
theorem X2_main_arg6 (c : Dev nD) : X2 m c (Proc.devRef .tc main_arg6) = m ((c : Thread nD τ).loc main_arg6) := (X2_of_ne m c main_arg6 (by decide)).trans (X1_main_arg6 m c)
theorem X3_main_arg6 (c : Dev nD) : X3 m c (Proc.devRef .tc main_arg6) = m ((c : Thread nD τ).loc main_arg6) := (X3_of m c main_arg6 (by decide)).trans (X2_main_arg6 m c)
theorem X4_main_arg6 (c : Dev nD) : X4 m c (Proc.devRef .tc main_arg6) = m ((c : Thread nD τ).loc main_arg6) := (X4_of_ne m c main_arg6 (by decide)).trans (X3_main_arg6 m c)
theorem X5_main_arg6 (c : Dev nD) : X5 m c (Proc.devRef .tc main_arg6) = m ((c : Thread nD τ).loc main_arg6) := (X5_of m c main_arg6 (by decide)).trans (X4_main_arg6 m c)
theorem X6_main_arg6 (c : Dev nD) : X6 m c (Proc.devRef .tc main_arg6) = m ((c : Thread nD τ).loc main_arg6) := (X6_of_ne m c main_arg6 (by decide)).trans (X5_main_arg6 m c)
theorem X7_main_arg6 (c : Dev nD) : X7 m c (Proc.devRef .tc main_arg6) = m ((c : Thread nD τ).loc main_arg6) := (X7_of m c main_arg6 (by decide)).trans (X6_main_arg6 m c)
theorem X8_main_arg6 (c : Dev nD) : X8 m c (Proc.devRef .tc main_arg6) = m ((c : Thread nD τ).loc main_arg6) := (X8_of_ne m c main_arg6 (by decide)).trans (X7_main_arg6 m c)
theorem X9_main_arg6 (c : Dev nD) : X9 m c (Proc.devRef .tc main_arg6) = m ((c : Thread nD τ).loc main_arg6) := (X9_of m c main_arg6 (by decide)).trans (X8_main_arg6 m c)
theorem X10_main_arg6 (c : Dev nD) : X10 m c (Proc.devRef .tc main_arg6) = m ((c : Thread nD τ).loc main_arg6) := (X10_of_ne m c main_arg6 (by decide)).trans (X9_main_arg6 m c)
theorem X11_main_arg6 (c : Dev nD) : X11 m c (Proc.devRef .tc main_arg6) = m ((c : Thread nD τ).loc main_arg6) := (X11_of m c main_arg6 (by decide)).trans (X10_main_arg6 m c)
theorem X12_main_arg6 (c : Dev nD) : X12 m c (Proc.devRef .tc main_arg6) = m ((c : Thread nD τ).loc main_arg6) := (X12_of_ne m c main_arg6 (by decide)).trans (X11_main_arg6 m c)
theorem X13_main_arg6 (c : Dev nD) : X13 m c (Proc.devRef .tc main_arg6) = m ((c : Thread nD τ).loc main_arg6) := (X13_of m c main_arg6 (by decide)).trans (X12_main_arg6 m c)
theorem X14_main_arg6 (c : Dev nD) : X14 m c (Proc.devRef .tc main_arg6) = m ((c : Thread nD τ).loc main_arg6) := (X14_of_ne m c main_arg6 (by decide)).trans (X13_main_arg6 m c)
theorem X15_main_arg6 (c : Dev nD) : X15 m c (Proc.devRef .tc main_arg6) = m ((c : Thread nD τ).loc main_arg6) := (X15_of m c main_arg6 (by decide)).trans (X14_main_arg6 m c)
theorem X16_main_arg6 (c : Dev nD) : X16 m c (Proc.devRef .tc main_arg6) = m ((c : Thread nD τ).loc main_arg6) := (X16_of_ne m c main_arg6 (by decide)).trans (X15_main_arg6 m c)
theorem X17_main_arg6 (c : Dev nD) : X17 m c (Proc.devRef .tc main_arg6) = m ((c : Thread nD τ).loc main_arg6) := (X17_of m c main_arg6 (by decide)).trans (X16_main_arg6 m c)
theorem X18_main_arg6 (c : Dev nD) : X18 m c (Proc.devRef .tc main_arg6) = m ((c : Thread nD τ).loc main_arg6) := (X18_of_ne m c main_arg6 (by decide)).trans (X17_main_arg6 m c)
theorem X19_main_arg6 (c : Dev nD) : X19 m c (Proc.devRef .tc main_arg6) = m ((c : Thread nD τ).loc main_arg6) := (X19_of m c main_arg6 (by decide)).trans (X18_main_arg6 m c)
theorem X20_main_arg6 (c : Dev nD) : X20 m c (Proc.devRef .tc main_arg6) = m ((c : Thread nD τ).loc main_arg6) := (X20_of_ne m c main_arg6 (by decide)).trans (X19_main_arg6 m c)
theorem X0_main_arg7 (c : Dev nD) : X0 m c (Proc.devRef .tc main_arg7) = m ((c : Thread nD τ).loc main_arg7) := rfl
theorem X1_main_arg7 (c : Dev nD) : X1 m c (Proc.devRef .tc main_arg7) = m ((c : Thread nD τ).loc main_arg7) := (X1_of m c main_arg7 (by decide)).trans (X0_main_arg7 m c)
theorem X2_main_arg7 (c : Dev nD) : X2 m c (Proc.devRef .tc main_arg7) = m ((c : Thread nD τ).loc main_arg7) := (X2_of_ne m c main_arg7 (by decide)).trans (X1_main_arg7 m c)
theorem X3_main_arg7 (c : Dev nD) : X3 m c (Proc.devRef .tc main_arg7) = m ((c : Thread nD τ).loc main_arg7) := (X3_of m c main_arg7 (by decide)).trans (X2_main_arg7 m c)
theorem X4_main_arg7 (c : Dev nD) : X4 m c (Proc.devRef .tc main_arg7) = m ((c : Thread nD τ).loc main_arg7) := (X4_of_ne m c main_arg7 (by decide)).trans (X3_main_arg7 m c)
theorem X5_main_arg7 (c : Dev nD) : X5 m c (Proc.devRef .tc main_arg7) = m ((c : Thread nD τ).loc main_arg7) := (X5_of m c main_arg7 (by decide)).trans (X4_main_arg7 m c)
theorem X6_main_arg7 (c : Dev nD) : X6 m c (Proc.devRef .tc main_arg7) = m ((c : Thread nD τ).loc main_arg7) := (X6_of_ne m c main_arg7 (by decide)).trans (X5_main_arg7 m c)
theorem X7_main_arg7 (c : Dev nD) : X7 m c (Proc.devRef .tc main_arg7) = m ((c : Thread nD τ).loc main_arg7) := (X7_of m c main_arg7 (by decide)).trans (X6_main_arg7 m c)
theorem X8_main_arg7 (c : Dev nD) : X8 m c (Proc.devRef .tc main_arg7) = m ((c : Thread nD τ).loc main_arg7) := (X8_of_ne m c main_arg7 (by decide)).trans (X7_main_arg7 m c)
theorem X9_main_arg7 (c : Dev nD) : X9 m c (Proc.devRef .tc main_arg7) = m ((c : Thread nD τ).loc main_arg7) := (X9_of m c main_arg7 (by decide)).trans (X8_main_arg7 m c)
theorem X10_main_arg7 (c : Dev nD) : X10 m c (Proc.devRef .tc main_arg7) = m ((c : Thread nD τ).loc main_arg7) := (X10_of_ne m c main_arg7 (by decide)).trans (X9_main_arg7 m c)
theorem X11_main_arg7 (c : Dev nD) : X11 m c (Proc.devRef .tc main_arg7) = m ((c : Thread nD τ).loc main_arg7) := (X11_of m c main_arg7 (by decide)).trans (X10_main_arg7 m c)
theorem X12_main_arg7 (c : Dev nD) : X12 m c (Proc.devRef .tc main_arg7) = m ((c : Thread nD τ).loc main_arg7) := (X12_of_ne m c main_arg7 (by decide)).trans (X11_main_arg7 m c)
theorem X13_main_arg7 (c : Dev nD) : X13 m c (Proc.devRef .tc main_arg7) = m ((c : Thread nD τ).loc main_arg7) := (X13_of m c main_arg7 (by decide)).trans (X12_main_arg7 m c)
theorem X14_main_arg7 (c : Dev nD) : X14 m c (Proc.devRef .tc main_arg7) = m ((c : Thread nD τ).loc main_arg7) := (X14_of_ne m c main_arg7 (by decide)).trans (X13_main_arg7 m c)
theorem X15_main_arg7 (c : Dev nD) : X15 m c (Proc.devRef .tc main_arg7) = m ((c : Thread nD τ).loc main_arg7) := (X15_of m c main_arg7 (by decide)).trans (X14_main_arg7 m c)
theorem X16_main_arg7 (c : Dev nD) : X16 m c (Proc.devRef .tc main_arg7) = m ((c : Thread nD τ).loc main_arg7) := (X16_of_ne m c main_arg7 (by decide)).trans (X15_main_arg7 m c)
theorem X17_main_arg7 (c : Dev nD) : X17 m c (Proc.devRef .tc main_arg7) = m ((c : Thread nD τ).loc main_arg7) := (X17_of m c main_arg7 (by decide)).trans (X16_main_arg7 m c)
theorem X18_main_arg7 (c : Dev nD) : X18 m c (Proc.devRef .tc main_arg7) = m ((c : Thread nD τ).loc main_arg7) := (X18_of_ne m c main_arg7 (by decide)).trans (X17_main_arg7 m c)
theorem X19_main_arg7 (c : Dev nD) : X19 m c (Proc.devRef .tc main_arg7) = m ((c : Thread nD τ).loc main_arg7) := (X19_of m c main_arg7 (by decide)).trans (X18_main_arg7 m c)
theorem X20_main_arg7 (c : Dev nD) : X20 m c (Proc.devRef .tc main_arg7) = m ((c : Thread nD τ).loc main_arg7) := (X20_of_ne m c main_arg7 (by decide)).trans (X19_main_arg7 m c)
theorem X0_main_arg8 (c : Dev nD) : X0 m c (Proc.devRef .tc main_arg8) = m ((c : Thread nD τ).loc main_arg8) := rfl
theorem X1_main_arg8 (c : Dev nD) : X1 m c (Proc.devRef .tc main_arg8) = m ((c : Thread nD τ).loc main_arg8) := (X1_of m c main_arg8 (by decide)).trans (X0_main_arg8 m c)
theorem X2_main_arg8 (c : Dev nD) : X2 m c (Proc.devRef .tc main_arg8) = m ((c : Thread nD τ).loc main_arg8) := (X2_of_ne m c main_arg8 (by decide)).trans (X1_main_arg8 m c)
theorem X3_main_arg8 (c : Dev nD) : X3 m c (Proc.devRef .tc main_arg8) = m ((c : Thread nD τ).loc main_arg8) := (X3_of m c main_arg8 (by decide)).trans (X2_main_arg8 m c)
theorem X4_main_arg8 (c : Dev nD) : X4 m c (Proc.devRef .tc main_arg8) = m ((c : Thread nD τ).loc main_arg8) := (X4_of_ne m c main_arg8 (by decide)).trans (X3_main_arg8 m c)
theorem X5_main_arg8 (c : Dev nD) : X5 m c (Proc.devRef .tc main_arg8) = m ((c : Thread nD τ).loc main_arg8) := (X5_of m c main_arg8 (by decide)).trans (X4_main_arg8 m c)
theorem X6_main_arg8 (c : Dev nD) : X6 m c (Proc.devRef .tc main_arg8) = m ((c : Thread nD τ).loc main_arg8) := (X6_of_ne m c main_arg8 (by decide)).trans (X5_main_arg8 m c)
theorem X7_main_arg8 (c : Dev nD) : X7 m c (Proc.devRef .tc main_arg8) = m ((c : Thread nD τ).loc main_arg8) := (X7_of m c main_arg8 (by decide)).trans (X6_main_arg8 m c)
theorem X8_main_arg8 (c : Dev nD) : X8 m c (Proc.devRef .tc main_arg8) = m ((c : Thread nD τ).loc main_arg8) := (X8_of_ne m c main_arg8 (by decide)).trans (X7_main_arg8 m c)
theorem X9_main_arg8 (c : Dev nD) : X9 m c (Proc.devRef .tc main_arg8) = m ((c : Thread nD τ).loc main_arg8) := (X9_of m c main_arg8 (by decide)).trans (X8_main_arg8 m c)
theorem X10_main_arg8 (c : Dev nD) : X10 m c (Proc.devRef .tc main_arg8) = m ((c : Thread nD τ).loc main_arg8) := (X10_of_ne m c main_arg8 (by decide)).trans (X9_main_arg8 m c)
theorem X11_main_arg8 (c : Dev nD) : X11 m c (Proc.devRef .tc main_arg8) = m ((c : Thread nD τ).loc main_arg8) := (X11_of m c main_arg8 (by decide)).trans (X10_main_arg8 m c)
theorem X12_main_arg8 (c : Dev nD) : X12 m c (Proc.devRef .tc main_arg8) = m ((c : Thread nD τ).loc main_arg8) := (X12_of_ne m c main_arg8 (by decide)).trans (X11_main_arg8 m c)
theorem X13_main_arg8 (c : Dev nD) : X13 m c (Proc.devRef .tc main_arg8) = m ((c : Thread nD τ).loc main_arg8) := (X13_of m c main_arg8 (by decide)).trans (X12_main_arg8 m c)
theorem X14_main_arg8 (c : Dev nD) : X14 m c (Proc.devRef .tc main_arg8) = m ((c : Thread nD τ).loc main_arg8) := (X14_of_ne m c main_arg8 (by decide)).trans (X13_main_arg8 m c)
theorem X15_main_arg8 (c : Dev nD) : X15 m c (Proc.devRef .tc main_arg8) = m ((c : Thread nD τ).loc main_arg8) := (X15_of m c main_arg8 (by decide)).trans (X14_main_arg8 m c)
theorem X16_main_arg8 (c : Dev nD) : X16 m c (Proc.devRef .tc main_arg8) = m ((c : Thread nD τ).loc main_arg8) := (X16_of_ne m c main_arg8 (by decide)).trans (X15_main_arg8 m c)
theorem X17_main_arg8 (c : Dev nD) : X17 m c (Proc.devRef .tc main_arg8) = m ((c : Thread nD τ).loc main_arg8) := (X17_of m c main_arg8 (by decide)).trans (X16_main_arg8 m c)
theorem X18_main_arg8 (c : Dev nD) : X18 m c (Proc.devRef .tc main_arg8) = m ((c : Thread nD τ).loc main_arg8) := (X18_of_ne m c main_arg8 (by decide)).trans (X17_main_arg8 m c)
theorem X19_main_arg8 (c : Dev nD) : X19 m c (Proc.devRef .tc main_arg8) = m ((c : Thread nD τ).loc main_arg8) := (X19_of m c main_arg8 (by decide)).trans (X18_main_arg8 m c)
theorem X20_main_arg8 (c : Dev nD) : X20 m c (Proc.devRef .tc main_arg8) = m ((c : Thread nD τ).loc main_arg8) := (X20_of_ne m c main_arg8 (by decide)).trans (X19_main_arg8 m c)
theorem X0_main_arg9 (c : Dev nD) : X0 m c (Proc.devRef .tc main_arg9) = m ((c : Thread nD τ).loc main_arg9) := rfl
theorem X1_main_arg9 (c : Dev nD) : X1 m c (Proc.devRef .tc main_arg9) = m ((c : Thread nD τ).loc main_arg9) := (X1_of m c main_arg9 (by decide)).trans (X0_main_arg9 m c)
theorem X2_main_arg9 (c : Dev nD) : X2 m c (Proc.devRef .tc main_arg9) = m ((c : Thread nD τ).loc main_arg9) := (X2_of_ne m c main_arg9 (by decide)).trans (X1_main_arg9 m c)
theorem X3_main_arg9 (c : Dev nD) : X3 m c (Proc.devRef .tc main_arg9) = m ((c : Thread nD τ).loc main_arg9) := (X3_of m c main_arg9 (by decide)).trans (X2_main_arg9 m c)
theorem X4_main_arg9 (c : Dev nD) : X4 m c (Proc.devRef .tc main_arg9) = m ((c : Thread nD τ).loc main_arg9) := (X4_of_ne m c main_arg9 (by decide)).trans (X3_main_arg9 m c)
theorem X5_main_arg9 (c : Dev nD) : X5 m c (Proc.devRef .tc main_arg9) = m ((c : Thread nD τ).loc main_arg9) := (X5_of m c main_arg9 (by decide)).trans (X4_main_arg9 m c)
theorem X6_main_arg9 (c : Dev nD) : X6 m c (Proc.devRef .tc main_arg9) = m ((c : Thread nD τ).loc main_arg9) := (X6_of_ne m c main_arg9 (by decide)).trans (X5_main_arg9 m c)
theorem X7_main_arg9 (c : Dev nD) : X7 m c (Proc.devRef .tc main_arg9) = m ((c : Thread nD τ).loc main_arg9) := (X7_of m c main_arg9 (by decide)).trans (X6_main_arg9 m c)
theorem X8_main_arg9 (c : Dev nD) : X8 m c (Proc.devRef .tc main_arg9) = m ((c : Thread nD τ).loc main_arg9) := (X8_of_ne m c main_arg9 (by decide)).trans (X7_main_arg9 m c)
theorem X9_main_arg9 (c : Dev nD) : X9 m c (Proc.devRef .tc main_arg9) = m ((c : Thread nD τ).loc main_arg9) := (X9_of m c main_arg9 (by decide)).trans (X8_main_arg9 m c)
theorem X10_main_arg9 (c : Dev nD) : X10 m c (Proc.devRef .tc main_arg9) = m ((c : Thread nD τ).loc main_arg9) := (X10_of_ne m c main_arg9 (by decide)).trans (X9_main_arg9 m c)
theorem X11_main_arg9 (c : Dev nD) : X11 m c (Proc.devRef .tc main_arg9) = m ((c : Thread nD τ).loc main_arg9) := (X11_of m c main_arg9 (by decide)).trans (X10_main_arg9 m c)
theorem X12_main_arg9 (c : Dev nD) : X12 m c (Proc.devRef .tc main_arg9) = m ((c : Thread nD τ).loc main_arg9) := (X12_of_ne m c main_arg9 (by decide)).trans (X11_main_arg9 m c)
theorem X13_main_arg9 (c : Dev nD) : X13 m c (Proc.devRef .tc main_arg9) = m ((c : Thread nD τ).loc main_arg9) := (X13_of m c main_arg9 (by decide)).trans (X12_main_arg9 m c)
theorem X14_main_arg9 (c : Dev nD) : X14 m c (Proc.devRef .tc main_arg9) = m ((c : Thread nD τ).loc main_arg9) := (X14_of_ne m c main_arg9 (by decide)).trans (X13_main_arg9 m c)
theorem X15_main_arg9 (c : Dev nD) : X15 m c (Proc.devRef .tc main_arg9) = m ((c : Thread nD τ).loc main_arg9) := (X15_of m c main_arg9 (by decide)).trans (X14_main_arg9 m c)
theorem X16_main_arg9 (c : Dev nD) : X16 m c (Proc.devRef .tc main_arg9) = m ((c : Thread nD τ).loc main_arg9) := (X16_of_ne m c main_arg9 (by decide)).trans (X15_main_arg9 m c)
theorem X17_main_arg9 (c : Dev nD) : X17 m c (Proc.devRef .tc main_arg9) = m ((c : Thread nD τ).loc main_arg9) := (X17_of m c main_arg9 (by decide)).trans (X16_main_arg9 m c)
theorem X18_main_arg9 (c : Dev nD) : X18 m c (Proc.devRef .tc main_arg9) = m ((c : Thread nD τ).loc main_arg9) := (X18_of_ne m c main_arg9 (by decide)).trans (X17_main_arg9 m c)
theorem X19_main_arg9 (c : Dev nD) : X19 m c (Proc.devRef .tc main_arg9) = m ((c : Thread nD τ).loc main_arg9) := (X19_of m c main_arg9 (by decide)).trans (X18_main_arg9 m c)
theorem X20_main_arg9 (c : Dev nD) : X20 m c (Proc.devRef .tc main_arg9) = m ((c : Thread nD τ).loc main_arg9) := (X20_of_ne m c main_arg9 (by decide)).trans (X19_main_arg9 m c)

end Cert.Kernel.Fr

end
-- ==== Proof.KbArgsB.lean ====
/-
  The argument arrays 10 to 19 hold their launch contents at every boundary: no host stretch writes an argument's
  buffer and no region changes it (the perceptron region reads its weights and biases through input windows, whose
  arrays the pipeline leaves as entered; every other region never touches an argument). One step per boundary, walking
  back to the launch.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X0_main_arg10 (c : Dev nD) : X0 m c (Proc.devRef .tc main_arg10) = m ((c : Thread nD τ).loc main_arg10) := rfl
theorem X1_main_arg10 (c : Dev nD) : X1 m c (Proc.devRef .tc main_arg10) = m ((c : Thread nD τ).loc main_arg10) := (X1_of m c main_arg10 (by decide)).trans (X0_main_arg10 m c)
theorem X2_main_arg10 (c : Dev nD) : X2 m c (Proc.devRef .tc main_arg10) = m ((c : Thread nD τ).loc main_arg10) := (X2_of_ne m c main_arg10 (by decide)).trans (X1_main_arg10 m c)
theorem X3_main_arg10 (c : Dev nD) : X3 m c (Proc.devRef .tc main_arg10) = m ((c : Thread nD τ).loc main_arg10) := (X3_of m c main_arg10 (by decide)).trans (X2_main_arg10 m c)
theorem X4_main_arg10 (c : Dev nD) : X4 m c (Proc.devRef .tc main_arg10) = m ((c : Thread nD τ).loc main_arg10) := (X4_of_ne m c main_arg10 (by decide)).trans (X3_main_arg10 m c)
theorem X5_main_arg10 (c : Dev nD) : X5 m c (Proc.devRef .tc main_arg10) = m ((c : Thread nD τ).loc main_arg10) := (X5_of m c main_arg10 (by decide)).trans (X4_main_arg10 m c)
theorem X6_main_arg10 (c : Dev nD) : X6 m c (Proc.devRef .tc main_arg10) = m ((c : Thread nD τ).loc main_arg10) := (X6_of_ne m c main_arg10 (by decide)).trans (X5_main_arg10 m c)
theorem X7_main_arg10 (c : Dev nD) : X7 m c (Proc.devRef .tc main_arg10) = m ((c : Thread nD τ).loc main_arg10) := (X7_of m c main_arg10 (by decide)).trans (X6_main_arg10 m c)
theorem X8_main_arg10 (c : Dev nD) : X8 m c (Proc.devRef .tc main_arg10) = m ((c : Thread nD τ).loc main_arg10) := (X8_of_ne m c main_arg10 (by decide)).trans (X7_main_arg10 m c)
theorem X9_main_arg10 (c : Dev nD) : X9 m c (Proc.devRef .tc main_arg10) = m ((c : Thread nD τ).loc main_arg10) := (X9_of m c main_arg10 (by decide)).trans (X8_main_arg10 m c)
theorem X10_main_arg10 (c : Dev nD) : X10 m c (Proc.devRef .tc main_arg10) = m ((c : Thread nD τ).loc main_arg10) := (X10_of_ne m c main_arg10 (by decide)).trans (X9_main_arg10 m c)
theorem X11_main_arg10 (c : Dev nD) : X11 m c (Proc.devRef .tc main_arg10) = m ((c : Thread nD τ).loc main_arg10) := (X11_of m c main_arg10 (by decide)).trans (X10_main_arg10 m c)
theorem X12_main_arg10 (c : Dev nD) : X12 m c (Proc.devRef .tc main_arg10) = m ((c : Thread nD τ).loc main_arg10) := (X12_of_ne m c main_arg10 (by decide)).trans (X11_main_arg10 m c)
theorem X13_main_arg10 (c : Dev nD) : X13 m c (Proc.devRef .tc main_arg10) = m ((c : Thread nD τ).loc main_arg10) := (X13_of m c main_arg10 (by decide)).trans (X12_main_arg10 m c)
theorem X14_main_arg10 (c : Dev nD) : X14 m c (Proc.devRef .tc main_arg10) = m ((c : Thread nD τ).loc main_arg10) := (X14_of_ne m c main_arg10 (by decide)).trans (X13_main_arg10 m c)
theorem X15_main_arg10 (c : Dev nD) : X15 m c (Proc.devRef .tc main_arg10) = m ((c : Thread nD τ).loc main_arg10) := (X15_of m c main_arg10 (by decide)).trans (X14_main_arg10 m c)
theorem X16_main_arg10 (c : Dev nD) : X16 m c (Proc.devRef .tc main_arg10) = m ((c : Thread nD τ).loc main_arg10) := (X16_of_ne m c main_arg10 (by decide)).trans (X15_main_arg10 m c)
theorem X17_main_arg10 (c : Dev nD) : X17 m c (Proc.devRef .tc main_arg10) = m ((c : Thread nD τ).loc main_arg10) := (X17_of m c main_arg10 (by decide)).trans (X16_main_arg10 m c)
theorem X18_main_arg10 (c : Dev nD) : X18 m c (Proc.devRef .tc main_arg10) = m ((c : Thread nD τ).loc main_arg10) := (X18_of_ne m c main_arg10 (by decide)).trans (X17_main_arg10 m c)
theorem X19_main_arg10 (c : Dev nD) : X19 m c (Proc.devRef .tc main_arg10) = m ((c : Thread nD τ).loc main_arg10) := (X19_of m c main_arg10 (by decide)).trans (X18_main_arg10 m c)
theorem X20_main_arg10 (c : Dev nD) : X20 m c (Proc.devRef .tc main_arg10) = m ((c : Thread nD τ).loc main_arg10) := (X20_of_ne m c main_arg10 (by decide)).trans (X19_main_arg10 m c)
theorem X0_main_arg11 (c : Dev nD) : X0 m c (Proc.devRef .tc main_arg11) = m ((c : Thread nD τ).loc main_arg11) := rfl
theorem X1_main_arg11 (c : Dev nD) : X1 m c (Proc.devRef .tc main_arg11) = m ((c : Thread nD τ).loc main_arg11) := (X1_of m c main_arg11 (by decide)).trans (X0_main_arg11 m c)
theorem X2_main_arg11 (c : Dev nD) : X2 m c (Proc.devRef .tc main_arg11) = m ((c : Thread nD τ).loc main_arg11) := (X2_of_ne m c main_arg11 (by decide)).trans (X1_main_arg11 m c)
theorem X3_main_arg11 (c : Dev nD) : X3 m c (Proc.devRef .tc main_arg11) = m ((c : Thread nD τ).loc main_arg11) := (X3_of m c main_arg11 (by decide)).trans (X2_main_arg11 m c)
theorem X4_main_arg11 (c : Dev nD) : X4 m c (Proc.devRef .tc main_arg11) = m ((c : Thread nD τ).loc main_arg11) := (X4_of_ne m c main_arg11 (by decide)).trans (X3_main_arg11 m c)
theorem X5_main_arg11 (c : Dev nD) : X5 m c (Proc.devRef .tc main_arg11) = m ((c : Thread nD τ).loc main_arg11) := (X5_of m c main_arg11 (by decide)).trans (X4_main_arg11 m c)
theorem X6_main_arg11 (c : Dev nD) : X6 m c (Proc.devRef .tc main_arg11) = m ((c : Thread nD τ).loc main_arg11) := (X6_of_ne m c main_arg11 (by decide)).trans (X5_main_arg11 m c)
theorem X7_main_arg11 (c : Dev nD) : X7 m c (Proc.devRef .tc main_arg11) = m ((c : Thread nD τ).loc main_arg11) := (X7_of m c main_arg11 (by decide)).trans (X6_main_arg11 m c)
theorem X8_main_arg11 (c : Dev nD) : X8 m c (Proc.devRef .tc main_arg11) = m ((c : Thread nD τ).loc main_arg11) := (X8_of_ne m c main_arg11 (by decide)).trans (X7_main_arg11 m c)
theorem X9_main_arg11 (c : Dev nD) : X9 m c (Proc.devRef .tc main_arg11) = m ((c : Thread nD τ).loc main_arg11) := (X9_of m c main_arg11 (by decide)).trans (X8_main_arg11 m c)
theorem X10_main_arg11 (c : Dev nD) : X10 m c (Proc.devRef .tc main_arg11) = m ((c : Thread nD τ).loc main_arg11) := (X10_of_ne m c main_arg11 (by decide)).trans (X9_main_arg11 m c)
theorem X11_main_arg11 (c : Dev nD) : X11 m c (Proc.devRef .tc main_arg11) = m ((c : Thread nD τ).loc main_arg11) := (X11_of m c main_arg11 (by decide)).trans (X10_main_arg11 m c)
theorem X12_main_arg11 (c : Dev nD) : X12 m c (Proc.devRef .tc main_arg11) = m ((c : Thread nD τ).loc main_arg11) := (X12_of_ne m c main_arg11 (by decide)).trans (X11_main_arg11 m c)
theorem X13_main_arg11 (c : Dev nD) : X13 m c (Proc.devRef .tc main_arg11) = m ((c : Thread nD τ).loc main_arg11) := (X13_of m c main_arg11 (by decide)).trans (X12_main_arg11 m c)
theorem X14_main_arg11 (c : Dev nD) : X14 m c (Proc.devRef .tc main_arg11) = m ((c : Thread nD τ).loc main_arg11) := (X14_of_ne m c main_arg11 (by decide)).trans (X13_main_arg11 m c)
theorem X15_main_arg11 (c : Dev nD) : X15 m c (Proc.devRef .tc main_arg11) = m ((c : Thread nD τ).loc main_arg11) := (X15_of m c main_arg11 (by decide)).trans (X14_main_arg11 m c)
theorem X16_main_arg11 (c : Dev nD) : X16 m c (Proc.devRef .tc main_arg11) = m ((c : Thread nD τ).loc main_arg11) := (X16_of_ne m c main_arg11 (by decide)).trans (X15_main_arg11 m c)
theorem X17_main_arg11 (c : Dev nD) : X17 m c (Proc.devRef .tc main_arg11) = m ((c : Thread nD τ).loc main_arg11) := (X17_of m c main_arg11 (by decide)).trans (X16_main_arg11 m c)
theorem X18_main_arg11 (c : Dev nD) : X18 m c (Proc.devRef .tc main_arg11) = m ((c : Thread nD τ).loc main_arg11) := (X18_of_ne m c main_arg11 (by decide)).trans (X17_main_arg11 m c)
theorem X19_main_arg11 (c : Dev nD) : X19 m c (Proc.devRef .tc main_arg11) = m ((c : Thread nD τ).loc main_arg11) := (X19_of m c main_arg11 (by decide)).trans (X18_main_arg11 m c)
theorem X20_main_arg11 (c : Dev nD) : X20 m c (Proc.devRef .tc main_arg11) = m ((c : Thread nD τ).loc main_arg11) := (X20_of_ne m c main_arg11 (by decide)).trans (X19_main_arg11 m c)
theorem X0_main_arg12 (c : Dev nD) : X0 m c (Proc.devRef .tc main_arg12) = m ((c : Thread nD τ).loc main_arg12) := rfl
theorem X1_main_arg12 (c : Dev nD) : X1 m c (Proc.devRef .tc main_arg12) = m ((c : Thread nD τ).loc main_arg12) := (X1_of m c main_arg12 (by decide)).trans (X0_main_arg12 m c)
theorem X2_main_arg12 (c : Dev nD) : X2 m c (Proc.devRef .tc main_arg12) = m ((c : Thread nD τ).loc main_arg12) := (X2_of_ne m c main_arg12 (by decide)).trans (X1_main_arg12 m c)
theorem X3_main_arg12 (c : Dev nD) : X3 m c (Proc.devRef .tc main_arg12) = m ((c : Thread nD τ).loc main_arg12) := (X3_of m c main_arg12 (by decide)).trans (X2_main_arg12 m c)
theorem X4_main_arg12 (c : Dev nD) : X4 m c (Proc.devRef .tc main_arg12) = m ((c : Thread nD τ).loc main_arg12) := (X4_of_ne m c main_arg12 (by decide)).trans (X3_main_arg12 m c)
theorem X5_main_arg12 (c : Dev nD) : X5 m c (Proc.devRef .tc main_arg12) = m ((c : Thread nD τ).loc main_arg12) := (X5_of m c main_arg12 (by decide)).trans (X4_main_arg12 m c)
theorem X6_main_arg12 (c : Dev nD) : X6 m c (Proc.devRef .tc main_arg12) = m ((c : Thread nD τ).loc main_arg12) := (X6_of_ne m c main_arg12 (by decide)).trans (X5_main_arg12 m c)
theorem X7_main_arg12 (c : Dev nD) : X7 m c (Proc.devRef .tc main_arg12) = m ((c : Thread nD τ).loc main_arg12) := (X7_of m c main_arg12 (by decide)).trans (X6_main_arg12 m c)
theorem X8_main_arg12 (c : Dev nD) : X8 m c (Proc.devRef .tc main_arg12) = m ((c : Thread nD τ).loc main_arg12) := (X8_of_ne m c main_arg12 (by decide)).trans (X7_main_arg12 m c)
theorem X9_main_arg12 (c : Dev nD) : X9 m c (Proc.devRef .tc main_arg12) = m ((c : Thread nD τ).loc main_arg12) := (X9_of m c main_arg12 (by decide)).trans (X8_main_arg12 m c)
theorem X10_main_arg12 (c : Dev nD) : X10 m c (Proc.devRef .tc main_arg12) = m ((c : Thread nD τ).loc main_arg12) := (X10_of_ne m c main_arg12 (by decide)).trans (X9_main_arg12 m c)
theorem X11_main_arg12 (c : Dev nD) : X11 m c (Proc.devRef .tc main_arg12) = m ((c : Thread nD τ).loc main_arg12) := (X11_of m c main_arg12 (by decide)).trans (X10_main_arg12 m c)
theorem X12_main_arg12 (c : Dev nD) : X12 m c (Proc.devRef .tc main_arg12) = m ((c : Thread nD τ).loc main_arg12) := (X12_of_ne m c main_arg12 (by decide)).trans (X11_main_arg12 m c)
theorem X13_main_arg12 (c : Dev nD) : X13 m c (Proc.devRef .tc main_arg12) = m ((c : Thread nD τ).loc main_arg12) := (X13_of m c main_arg12 (by decide)).trans (X12_main_arg12 m c)
theorem X14_main_arg12 (c : Dev nD) : X14 m c (Proc.devRef .tc main_arg12) = m ((c : Thread nD τ).loc main_arg12) := (X14_of_ne m c main_arg12 (by decide)).trans (X13_main_arg12 m c)
theorem X15_main_arg12 (c : Dev nD) : X15 m c (Proc.devRef .tc main_arg12) = m ((c : Thread nD τ).loc main_arg12) := (X15_of m c main_arg12 (by decide)).trans (X14_main_arg12 m c)
theorem X16_main_arg12 (c : Dev nD) : X16 m c (Proc.devRef .tc main_arg12) = m ((c : Thread nD τ).loc main_arg12) := (X16_of_ne m c main_arg12 (by decide)).trans (X15_main_arg12 m c)
theorem X17_main_arg12 (c : Dev nD) : X17 m c (Proc.devRef .tc main_arg12) = m ((c : Thread nD τ).loc main_arg12) := (X17_of m c main_arg12 (by decide)).trans (X16_main_arg12 m c)
theorem X18_main_arg12 (c : Dev nD) : X18 m c (Proc.devRef .tc main_arg12) = m ((c : Thread nD τ).loc main_arg12) := (X18_of_ne m c main_arg12 (by decide)).trans (X17_main_arg12 m c)
theorem X19_main_arg12 (c : Dev nD) : X19 m c (Proc.devRef .tc main_arg12) = m ((c : Thread nD τ).loc main_arg12) := (X19_of m c main_arg12 (by decide)).trans (X18_main_arg12 m c)
theorem X20_main_arg12 (c : Dev nD) : X20 m c (Proc.devRef .tc main_arg12) = m ((c : Thread nD τ).loc main_arg12) := ((X20_arr m c 1).trans (((dat9 (Y19 m) c).arrAt_in 1 rfl _).trans (A_eq9 (Y19 m) c 1))).trans (X19_main_arg12 m c)
theorem X0_main_arg13 (c : Dev nD) : X0 m c (Proc.devRef .tc main_arg13) = m ((c : Thread nD τ).loc main_arg13) := rfl
theorem X1_main_arg13 (c : Dev nD) : X1 m c (Proc.devRef .tc main_arg13) = m ((c : Thread nD τ).loc main_arg13) := (X1_of m c main_arg13 (by decide)).trans (X0_main_arg13 m c)
theorem X2_main_arg13 (c : Dev nD) : X2 m c (Proc.devRef .tc main_arg13) = m ((c : Thread nD τ).loc main_arg13) := (X2_of_ne m c main_arg13 (by decide)).trans (X1_main_arg13 m c)
theorem X3_main_arg13 (c : Dev nD) : X3 m c (Proc.devRef .tc main_arg13) = m ((c : Thread nD τ).loc main_arg13) := (X3_of m c main_arg13 (by decide)).trans (X2_main_arg13 m c)
theorem X4_main_arg13 (c : Dev nD) : X4 m c (Proc.devRef .tc main_arg13) = m ((c : Thread nD τ).loc main_arg13) := (X4_of_ne m c main_arg13 (by decide)).trans (X3_main_arg13 m c)
theorem X5_main_arg13 (c : Dev nD) : X5 m c (Proc.devRef .tc main_arg13) = m ((c : Thread nD τ).loc main_arg13) := (X5_of m c main_arg13 (by decide)).trans (X4_main_arg13 m c)
theorem X6_main_arg13 (c : Dev nD) : X6 m c (Proc.devRef .tc main_arg13) = m ((c : Thread nD τ).loc main_arg13) := (X6_of_ne m c main_arg13 (by decide)).trans (X5_main_arg13 m c)
theorem X7_main_arg13 (c : Dev nD) : X7 m c (Proc.devRef .tc main_arg13) = m ((c : Thread nD τ).loc main_arg13) := (X7_of m c main_arg13 (by decide)).trans (X6_main_arg13 m c)
theorem X8_main_arg13 (c : Dev nD) : X8 m c (Proc.devRef .tc main_arg13) = m ((c : Thread nD τ).loc main_arg13) := (X8_of_ne m c main_arg13 (by decide)).trans (X7_main_arg13 m c)
theorem X9_main_arg13 (c : Dev nD) : X9 m c (Proc.devRef .tc main_arg13) = m ((c : Thread nD τ).loc main_arg13) := (X9_of m c main_arg13 (by decide)).trans (X8_main_arg13 m c)
theorem X10_main_arg13 (c : Dev nD) : X10 m c (Proc.devRef .tc main_arg13) = m ((c : Thread nD τ).loc main_arg13) := (X10_of_ne m c main_arg13 (by decide)).trans (X9_main_arg13 m c)
theorem X11_main_arg13 (c : Dev nD) : X11 m c (Proc.devRef .tc main_arg13) = m ((c : Thread nD τ).loc main_arg13) := (X11_of m c main_arg13 (by decide)).trans (X10_main_arg13 m c)
theorem X12_main_arg13 (c : Dev nD) : X12 m c (Proc.devRef .tc main_arg13) = m ((c : Thread nD τ).loc main_arg13) := (X12_of_ne m c main_arg13 (by decide)).trans (X11_main_arg13 m c)
theorem X13_main_arg13 (c : Dev nD) : X13 m c (Proc.devRef .tc main_arg13) = m ((c : Thread nD τ).loc main_arg13) := (X13_of m c main_arg13 (by decide)).trans (X12_main_arg13 m c)
theorem X14_main_arg13 (c : Dev nD) : X14 m c (Proc.devRef .tc main_arg13) = m ((c : Thread nD τ).loc main_arg13) := (X14_of_ne m c main_arg13 (by decide)).trans (X13_main_arg13 m c)
theorem X15_main_arg13 (c : Dev nD) : X15 m c (Proc.devRef .tc main_arg13) = m ((c : Thread nD τ).loc main_arg13) := (X15_of m c main_arg13 (by decide)).trans (X14_main_arg13 m c)
theorem X16_main_arg13 (c : Dev nD) : X16 m c (Proc.devRef .tc main_arg13) = m ((c : Thread nD τ).loc main_arg13) := (X16_of_ne m c main_arg13 (by decide)).trans (X15_main_arg13 m c)
theorem X17_main_arg13 (c : Dev nD) : X17 m c (Proc.devRef .tc main_arg13) = m ((c : Thread nD τ).loc main_arg13) := (X17_of m c main_arg13 (by decide)).trans (X16_main_arg13 m c)
theorem X18_main_arg13 (c : Dev nD) : X18 m c (Proc.devRef .tc main_arg13) = m ((c : Thread nD τ).loc main_arg13) := (X18_of_ne m c main_arg13 (by decide)).trans (X17_main_arg13 m c)
theorem X19_main_arg13 (c : Dev nD) : X19 m c (Proc.devRef .tc main_arg13) = m ((c : Thread nD τ).loc main_arg13) := (X19_of m c main_arg13 (by decide)).trans (X18_main_arg13 m c)
theorem X20_main_arg13 (c : Dev nD) : X20 m c (Proc.devRef .tc main_arg13) = m ((c : Thread nD τ).loc main_arg13) := ((X20_arr m c 2).trans (((dat9 (Y19 m) c).arrAt_in 2 rfl _).trans (A_eq9 (Y19 m) c 2))).trans (X19_main_arg13 m c)
theorem X0_main_arg14 (c : Dev nD) : X0 m c (Proc.devRef .tc main_arg14) = m ((c : Thread nD τ).loc main_arg14) := rfl
theorem X1_main_arg14 (c : Dev nD) : X1 m c (Proc.devRef .tc main_arg14) = m ((c : Thread nD τ).loc main_arg14) := (X1_of m c main_arg14 (by decide)).trans (X0_main_arg14 m c)
theorem X2_main_arg14 (c : Dev nD) : X2 m c (Proc.devRef .tc main_arg14) = m ((c : Thread nD τ).loc main_arg14) := (X2_of_ne m c main_arg14 (by decide)).trans (X1_main_arg14 m c)
theorem X3_main_arg14 (c : Dev nD) : X3 m c (Proc.devRef .tc main_arg14) = m ((c : Thread nD τ).loc main_arg14) := (X3_of m c main_arg14 (by decide)).trans (X2_main_arg14 m c)
theorem X4_main_arg14 (c : Dev nD) : X4 m c (Proc.devRef .tc main_arg14) = m ((c : Thread nD τ).loc main_arg14) := (X4_of_ne m c main_arg14 (by decide)).trans (X3_main_arg14 m c)
theorem X5_main_arg14 (c : Dev nD) : X5 m c (Proc.devRef .tc main_arg14) = m ((c : Thread nD τ).loc main_arg14) := (X5_of m c main_arg14 (by decide)).trans (X4_main_arg14 m c)
theorem X6_main_arg14 (c : Dev nD) : X6 m c (Proc.devRef .tc main_arg14) = m ((c : Thread nD τ).loc main_arg14) := (X6_of_ne m c main_arg14 (by decide)).trans (X5_main_arg14 m c)
theorem X7_main_arg14 (c : Dev nD) : X7 m c (Proc.devRef .tc main_arg14) = m ((c : Thread nD τ).loc main_arg14) := (X7_of m c main_arg14 (by decide)).trans (X6_main_arg14 m c)
theorem X8_main_arg14 (c : Dev nD) : X8 m c (Proc.devRef .tc main_arg14) = m ((c : Thread nD τ).loc main_arg14) := (X8_of_ne m c main_arg14 (by decide)).trans (X7_main_arg14 m c)
theorem X9_main_arg14 (c : Dev nD) : X9 m c (Proc.devRef .tc main_arg14) = m ((c : Thread nD τ).loc main_arg14) := (X9_of m c main_arg14 (by decide)).trans (X8_main_arg14 m c)
theorem X10_main_arg14 (c : Dev nD) : X10 m c (Proc.devRef .tc main_arg14) = m ((c : Thread nD τ).loc main_arg14) := (X10_of_ne m c main_arg14 (by decide)).trans (X9_main_arg14 m c)
theorem X11_main_arg14 (c : Dev nD) : X11 m c (Proc.devRef .tc main_arg14) = m ((c : Thread nD τ).loc main_arg14) := (X11_of m c main_arg14 (by decide)).trans (X10_main_arg14 m c)
theorem X12_main_arg14 (c : Dev nD) : X12 m c (Proc.devRef .tc main_arg14) = m ((c : Thread nD τ).loc main_arg14) := (X12_of_ne m c main_arg14 (by decide)).trans (X11_main_arg14 m c)
theorem X13_main_arg14 (c : Dev nD) : X13 m c (Proc.devRef .tc main_arg14) = m ((c : Thread nD τ).loc main_arg14) := (X13_of m c main_arg14 (by decide)).trans (X12_main_arg14 m c)
theorem X14_main_arg14 (c : Dev nD) : X14 m c (Proc.devRef .tc main_arg14) = m ((c : Thread nD τ).loc main_arg14) := (X14_of_ne m c main_arg14 (by decide)).trans (X13_main_arg14 m c)
theorem X15_main_arg14 (c : Dev nD) : X15 m c (Proc.devRef .tc main_arg14) = m ((c : Thread nD τ).loc main_arg14) := (X15_of m c main_arg14 (by decide)).trans (X14_main_arg14 m c)
theorem X16_main_arg14 (c : Dev nD) : X16 m c (Proc.devRef .tc main_arg14) = m ((c : Thread nD τ).loc main_arg14) := (X16_of_ne m c main_arg14 (by decide)).trans (X15_main_arg14 m c)
theorem X17_main_arg14 (c : Dev nD) : X17 m c (Proc.devRef .tc main_arg14) = m ((c : Thread nD τ).loc main_arg14) := (X17_of m c main_arg14 (by decide)).trans (X16_main_arg14 m c)
theorem X18_main_arg14 (c : Dev nD) : X18 m c (Proc.devRef .tc main_arg14) = m ((c : Thread nD τ).loc main_arg14) := (X18_of_ne m c main_arg14 (by decide)).trans (X17_main_arg14 m c)
theorem X19_main_arg14 (c : Dev nD) : X19 m c (Proc.devRef .tc main_arg14) = m ((c : Thread nD τ).loc main_arg14) := (X19_of m c main_arg14 (by decide)).trans (X18_main_arg14 m c)
theorem X20_main_arg14 (c : Dev nD) : X20 m c (Proc.devRef .tc main_arg14) = m ((c : Thread nD τ).loc main_arg14) := ((X20_arr m c 3).trans (((dat9 (Y19 m) c).arrAt_in 3 rfl _).trans (A_eq9 (Y19 m) c 3))).trans (X19_main_arg14 m c)
theorem X0_main_arg15 (c : Dev nD) : X0 m c (Proc.devRef .tc main_arg15) = m ((c : Thread nD τ).loc main_arg15) := rfl
theorem X1_main_arg15 (c : Dev nD) : X1 m c (Proc.devRef .tc main_arg15) = m ((c : Thread nD τ).loc main_arg15) := (X1_of m c main_arg15 (by decide)).trans (X0_main_arg15 m c)
theorem X2_main_arg15 (c : Dev nD) : X2 m c (Proc.devRef .tc main_arg15) = m ((c : Thread nD τ).loc main_arg15) := (X2_of_ne m c main_arg15 (by decide)).trans (X1_main_arg15 m c)
theorem X3_main_arg15 (c : Dev nD) : X3 m c (Proc.devRef .tc main_arg15) = m ((c : Thread nD τ).loc main_arg15) := (X3_of m c main_arg15 (by decide)).trans (X2_main_arg15 m c)
theorem X4_main_arg15 (c : Dev nD) : X4 m c (Proc.devRef .tc main_arg15) = m ((c : Thread nD τ).loc main_arg15) := (X4_of_ne m c main_arg15 (by decide)).trans (X3_main_arg15 m c)
theorem X5_main_arg15 (c : Dev nD) : X5 m c (Proc.devRef .tc main_arg15) = m ((c : Thread nD τ).loc main_arg15) := (X5_of m c main_arg15 (by decide)).trans (X4_main_arg15 m c)
theorem X6_main_arg15 (c : Dev nD) : X6 m c (Proc.devRef .tc main_arg15) = m ((c : Thread nD τ).loc main_arg15) := (X6_of_ne m c main_arg15 (by decide)).trans (X5_main_arg15 m c)
theorem X7_main_arg15 (c : Dev nD) : X7 m c (Proc.devRef .tc main_arg15) = m ((c : Thread nD τ).loc main_arg15) := (X7_of m c main_arg15 (by decide)).trans (X6_main_arg15 m c)
theorem X8_main_arg15 (c : Dev nD) : X8 m c (Proc.devRef .tc main_arg15) = m ((c : Thread nD τ).loc main_arg15) := (X8_of_ne m c main_arg15 (by decide)).trans (X7_main_arg15 m c)
theorem X9_main_arg15 (c : Dev nD) : X9 m c (Proc.devRef .tc main_arg15) = m ((c : Thread nD τ).loc main_arg15) := (X9_of m c main_arg15 (by decide)).trans (X8_main_arg15 m c)
theorem X10_main_arg15 (c : Dev nD) : X10 m c (Proc.devRef .tc main_arg15) = m ((c : Thread nD τ).loc main_arg15) := (X10_of_ne m c main_arg15 (by decide)).trans (X9_main_arg15 m c)
theorem X11_main_arg15 (c : Dev nD) : X11 m c (Proc.devRef .tc main_arg15) = m ((c : Thread nD τ).loc main_arg15) := (X11_of m c main_arg15 (by decide)).trans (X10_main_arg15 m c)
theorem X12_main_arg15 (c : Dev nD) : X12 m c (Proc.devRef .tc main_arg15) = m ((c : Thread nD τ).loc main_arg15) := (X12_of_ne m c main_arg15 (by decide)).trans (X11_main_arg15 m c)
theorem X13_main_arg15 (c : Dev nD) : X13 m c (Proc.devRef .tc main_arg15) = m ((c : Thread nD τ).loc main_arg15) := (X13_of m c main_arg15 (by decide)).trans (X12_main_arg15 m c)
theorem X14_main_arg15 (c : Dev nD) : X14 m c (Proc.devRef .tc main_arg15) = m ((c : Thread nD τ).loc main_arg15) := (X14_of_ne m c main_arg15 (by decide)).trans (X13_main_arg15 m c)
theorem X15_main_arg15 (c : Dev nD) : X15 m c (Proc.devRef .tc main_arg15) = m ((c : Thread nD τ).loc main_arg15) := (X15_of m c main_arg15 (by decide)).trans (X14_main_arg15 m c)
theorem X16_main_arg15 (c : Dev nD) : X16 m c (Proc.devRef .tc main_arg15) = m ((c : Thread nD τ).loc main_arg15) := (X16_of_ne m c main_arg15 (by decide)).trans (X15_main_arg15 m c)
theorem X17_main_arg15 (c : Dev nD) : X17 m c (Proc.devRef .tc main_arg15) = m ((c : Thread nD τ).loc main_arg15) := (X17_of m c main_arg15 (by decide)).trans (X16_main_arg15 m c)
theorem X18_main_arg15 (c : Dev nD) : X18 m c (Proc.devRef .tc main_arg15) = m ((c : Thread nD τ).loc main_arg15) := (X18_of_ne m c main_arg15 (by decide)).trans (X17_main_arg15 m c)
theorem X19_main_arg15 (c : Dev nD) : X19 m c (Proc.devRef .tc main_arg15) = m ((c : Thread nD τ).loc main_arg15) := (X19_of m c main_arg15 (by decide)).trans (X18_main_arg15 m c)
theorem X20_main_arg15 (c : Dev nD) : X20 m c (Proc.devRef .tc main_arg15) = m ((c : Thread nD τ).loc main_arg15) := ((X20_arr m c 4).trans (((dat9 (Y19 m) c).arrAt_in 4 rfl _).trans (A_eq9 (Y19 m) c 4))).trans (X19_main_arg15 m c)
theorem X0_main_arg16 (c : Dev nD) : X0 m c (Proc.devRef .tc main_arg16) = m ((c : Thread nD τ).loc main_arg16) := rfl
theorem X1_main_arg16 (c : Dev nD) : X1 m c (Proc.devRef .tc main_arg16) = m ((c : Thread nD τ).loc main_arg16) := (X1_of m c main_arg16 (by decide)).trans (X0_main_arg16 m c)
theorem X2_main_arg16 (c : Dev nD) : X2 m c (Proc.devRef .tc main_arg16) = m ((c : Thread nD τ).loc main_arg16) := (X2_of_ne m c main_arg16 (by decide)).trans (X1_main_arg16 m c)
theorem X3_main_arg16 (c : Dev nD) : X3 m c (Proc.devRef .tc main_arg16) = m ((c : Thread nD τ).loc main_arg16) := (X3_of m c main_arg16 (by decide)).trans (X2_main_arg16 m c)
theorem X4_main_arg16 (c : Dev nD) : X4 m c (Proc.devRef .tc main_arg16) = m ((c : Thread nD τ).loc main_arg16) := (X4_of_ne m c main_arg16 (by decide)).trans (X3_main_arg16 m c)
theorem X5_main_arg16 (c : Dev nD) : X5 m c (Proc.devRef .tc main_arg16) = m ((c : Thread nD τ).loc main_arg16) := (X5_of m c main_arg16 (by decide)).trans (X4_main_arg16 m c)
theorem X6_main_arg16 (c : Dev nD) : X6 m c (Proc.devRef .tc main_arg16) = m ((c : Thread nD τ).loc main_arg16) := (X6_of_ne m c main_arg16 (by decide)).trans (X5_main_arg16 m c)
theorem X7_main_arg16 (c : Dev nD) : X7 m c (Proc.devRef .tc main_arg16) = m ((c : Thread nD τ).loc main_arg16) := (X7_of m c main_arg16 (by decide)).trans (X6_main_arg16 m c)
theorem X8_main_arg16 (c : Dev nD) : X8 m c (Proc.devRef .tc main_arg16) = m ((c : Thread nD τ).loc main_arg16) := (X8_of_ne m c main_arg16 (by decide)).trans (X7_main_arg16 m c)
theorem X9_main_arg16 (c : Dev nD) : X9 m c (Proc.devRef .tc main_arg16) = m ((c : Thread nD τ).loc main_arg16) := (X9_of m c main_arg16 (by decide)).trans (X8_main_arg16 m c)
theorem X10_main_arg16 (c : Dev nD) : X10 m c (Proc.devRef .tc main_arg16) = m ((c : Thread nD τ).loc main_arg16) := (X10_of_ne m c main_arg16 (by decide)).trans (X9_main_arg16 m c)
theorem X11_main_arg16 (c : Dev nD) : X11 m c (Proc.devRef .tc main_arg16) = m ((c : Thread nD τ).loc main_arg16) := (X11_of m c main_arg16 (by decide)).trans (X10_main_arg16 m c)
theorem X12_main_arg16 (c : Dev nD) : X12 m c (Proc.devRef .tc main_arg16) = m ((c : Thread nD τ).loc main_arg16) := (X12_of_ne m c main_arg16 (by decide)).trans (X11_main_arg16 m c)
theorem X13_main_arg16 (c : Dev nD) : X13 m c (Proc.devRef .tc main_arg16) = m ((c : Thread nD τ).loc main_arg16) := (X13_of m c main_arg16 (by decide)).trans (X12_main_arg16 m c)
theorem X14_main_arg16 (c : Dev nD) : X14 m c (Proc.devRef .tc main_arg16) = m ((c : Thread nD τ).loc main_arg16) := (X14_of_ne m c main_arg16 (by decide)).trans (X13_main_arg16 m c)
theorem X15_main_arg16 (c : Dev nD) : X15 m c (Proc.devRef .tc main_arg16) = m ((c : Thread nD τ).loc main_arg16) := (X15_of m c main_arg16 (by decide)).trans (X14_main_arg16 m c)
theorem X16_main_arg16 (c : Dev nD) : X16 m c (Proc.devRef .tc main_arg16) = m ((c : Thread nD τ).loc main_arg16) := (X16_of_ne m c main_arg16 (by decide)).trans (X15_main_arg16 m c)
theorem X17_main_arg16 (c : Dev nD) : X17 m c (Proc.devRef .tc main_arg16) = m ((c : Thread nD τ).loc main_arg16) := (X17_of m c main_arg16 (by decide)).trans (X16_main_arg16 m c)
theorem X18_main_arg16 (c : Dev nD) : X18 m c (Proc.devRef .tc main_arg16) = m ((c : Thread nD τ).loc main_arg16) := (X18_of_ne m c main_arg16 (by decide)).trans (X17_main_arg16 m c)
theorem X19_main_arg16 (c : Dev nD) : X19 m c (Proc.devRef .tc main_arg16) = m ((c : Thread nD τ).loc main_arg16) := (X19_of m c main_arg16 (by decide)).trans (X18_main_arg16 m c)
theorem X20_main_arg16 (c : Dev nD) : X20 m c (Proc.devRef .tc main_arg16) = m ((c : Thread nD τ).loc main_arg16) := ((X20_arr m c 5).trans (((dat9 (Y19 m) c).arrAt_in 5 rfl _).trans (A_eq9 (Y19 m) c 5))).trans (X19_main_arg16 m c)
theorem X0_main_arg17 (c : Dev nD) : X0 m c (Proc.devRef .tc main_arg17) = m ((c : Thread nD τ).loc main_arg17) := rfl
theorem X1_main_arg17 (c : Dev nD) : X1 m c (Proc.devRef .tc main_arg17) = m ((c : Thread nD τ).loc main_arg17) := (X1_of m c main_arg17 (by decide)).trans (X0_main_arg17 m c)
theorem X2_main_arg17 (c : Dev nD) : X2 m c (Proc.devRef .tc main_arg17) = m ((c : Thread nD τ).loc main_arg17) := (X2_of_ne m c main_arg17 (by decide)).trans (X1_main_arg17 m c)
theorem X3_main_arg17 (c : Dev nD) : X3 m c (Proc.devRef .tc main_arg17) = m ((c : Thread nD τ).loc main_arg17) := (X3_of m c main_arg17 (by decide)).trans (X2_main_arg17 m c)
theorem X4_main_arg17 (c : Dev nD) : X4 m c (Proc.devRef .tc main_arg17) = m ((c : Thread nD τ).loc main_arg17) := (X4_of_ne m c main_arg17 (by decide)).trans (X3_main_arg17 m c)
theorem X5_main_arg17 (c : Dev nD) : X5 m c (Proc.devRef .tc main_arg17) = m ((c : Thread nD τ).loc main_arg17) := (X5_of m c main_arg17 (by decide)).trans (X4_main_arg17 m c)
theorem X6_main_arg17 (c : Dev nD) : X6 m c (Proc.devRef .tc main_arg17) = m ((c : Thread nD τ).loc main_arg17) := (X6_of_ne m c main_arg17 (by decide)).trans (X5_main_arg17 m c)
theorem X7_main_arg17 (c : Dev nD) : X7 m c (Proc.devRef .tc main_arg17) = m ((c : Thread nD τ).loc main_arg17) := (X7_of m c main_arg17 (by decide)).trans (X6_main_arg17 m c)
theorem X8_main_arg17 (c : Dev nD) : X8 m c (Proc.devRef .tc main_arg17) = m ((c : Thread nD τ).loc main_arg17) := (X8_of_ne m c main_arg17 (by decide)).trans (X7_main_arg17 m c)
theorem X9_main_arg17 (c : Dev nD) : X9 m c (Proc.devRef .tc main_arg17) = m ((c : Thread nD τ).loc main_arg17) := (X9_of m c main_arg17 (by decide)).trans (X8_main_arg17 m c)
theorem X10_main_arg17 (c : Dev nD) : X10 m c (Proc.devRef .tc main_arg17) = m ((c : Thread nD τ).loc main_arg17) := (X10_of_ne m c main_arg17 (by decide)).trans (X9_main_arg17 m c)
theorem X11_main_arg17 (c : Dev nD) : X11 m c (Proc.devRef .tc main_arg17) = m ((c : Thread nD τ).loc main_arg17) := (X11_of m c main_arg17 (by decide)).trans (X10_main_arg17 m c)
theorem X12_main_arg17 (c : Dev nD) : X12 m c (Proc.devRef .tc main_arg17) = m ((c : Thread nD τ).loc main_arg17) := (X12_of_ne m c main_arg17 (by decide)).trans (X11_main_arg17 m c)
theorem X13_main_arg17 (c : Dev nD) : X13 m c (Proc.devRef .tc main_arg17) = m ((c : Thread nD τ).loc main_arg17) := (X13_of m c main_arg17 (by decide)).trans (X12_main_arg17 m c)
theorem X14_main_arg17 (c : Dev nD) : X14 m c (Proc.devRef .tc main_arg17) = m ((c : Thread nD τ).loc main_arg17) := (X14_of_ne m c main_arg17 (by decide)).trans (X13_main_arg17 m c)
theorem X15_main_arg17 (c : Dev nD) : X15 m c (Proc.devRef .tc main_arg17) = m ((c : Thread nD τ).loc main_arg17) := (X15_of m c main_arg17 (by decide)).trans (X14_main_arg17 m c)
theorem X16_main_arg17 (c : Dev nD) : X16 m c (Proc.devRef .tc main_arg17) = m ((c : Thread nD τ).loc main_arg17) := (X16_of_ne m c main_arg17 (by decide)).trans (X15_main_arg17 m c)
theorem X17_main_arg17 (c : Dev nD) : X17 m c (Proc.devRef .tc main_arg17) = m ((c : Thread nD τ).loc main_arg17) := (X17_of m c main_arg17 (by decide)).trans (X16_main_arg17 m c)
theorem X18_main_arg17 (c : Dev nD) : X18 m c (Proc.devRef .tc main_arg17) = m ((c : Thread nD τ).loc main_arg17) := (X18_of_ne m c main_arg17 (by decide)).trans (X17_main_arg17 m c)
theorem X19_main_arg17 (c : Dev nD) : X19 m c (Proc.devRef .tc main_arg17) = m ((c : Thread nD τ).loc main_arg17) := (X19_of m c main_arg17 (by decide)).trans (X18_main_arg17 m c)
theorem X20_main_arg17 (c : Dev nD) : X20 m c (Proc.devRef .tc main_arg17) = m ((c : Thread nD τ).loc main_arg17) := ((X20_arr m c 6).trans (((dat9 (Y19 m) c).arrAt_in 6 rfl _).trans (A_eq9 (Y19 m) c 6))).trans (X19_main_arg17 m c)
theorem X0_main_arg18 (c : Dev nD) : X0 m c (Proc.devRef .tc main_arg18) = m ((c : Thread nD τ).loc main_arg18) := rfl
theorem X1_main_arg18 (c : Dev nD) : X1 m c (Proc.devRef .tc main_arg18) = m ((c : Thread nD τ).loc main_arg18) := (X1_of m c main_arg18 (by decide)).trans (X0_main_arg18 m c)
theorem X2_main_arg18 (c : Dev nD) : X2 m c (Proc.devRef .tc main_arg18) = m ((c : Thread nD τ).loc main_arg18) := (X2_of_ne m c main_arg18 (by decide)).trans (X1_main_arg18 m c)
theorem X3_main_arg18 (c : Dev nD) : X3 m c (Proc.devRef .tc main_arg18) = m ((c : Thread nD τ).loc main_arg18) := (X3_of m c main_arg18 (by decide)).trans (X2_main_arg18 m c)
theorem X4_main_arg18 (c : Dev nD) : X4 m c (Proc.devRef .tc main_arg18) = m ((c : Thread nD τ).loc main_arg18) := (X4_of_ne m c main_arg18 (by decide)).trans (X3_main_arg18 m c)
theorem X5_main_arg18 (c : Dev nD) : X5 m c (Proc.devRef .tc main_arg18) = m ((c : Thread nD τ).loc main_arg18) := (X5_of m c main_arg18 (by decide)).trans (X4_main_arg18 m c)
theorem X6_main_arg18 (c : Dev nD) : X6 m c (Proc.devRef .tc main_arg18) = m ((c : Thread nD τ).loc main_arg18) := (X6_of_ne m c main_arg18 (by decide)).trans (X5_main_arg18 m c)
theorem X7_main_arg18 (c : Dev nD) : X7 m c (Proc.devRef .tc main_arg18) = m ((c : Thread nD τ).loc main_arg18) := (X7_of m c main_arg18 (by decide)).trans (X6_main_arg18 m c)
theorem X8_main_arg18 (c : Dev nD) : X8 m c (Proc.devRef .tc main_arg18) = m ((c : Thread nD τ).loc main_arg18) := (X8_of_ne m c main_arg18 (by decide)).trans (X7_main_arg18 m c)
theorem X9_main_arg18 (c : Dev nD) : X9 m c (Proc.devRef .tc main_arg18) = m ((c : Thread nD τ).loc main_arg18) := (X9_of m c main_arg18 (by decide)).trans (X8_main_arg18 m c)
theorem X10_main_arg18 (c : Dev nD) : X10 m c (Proc.devRef .tc main_arg18) = m ((c : Thread nD τ).loc main_arg18) := (X10_of_ne m c main_arg18 (by decide)).trans (X9_main_arg18 m c)
theorem X11_main_arg18 (c : Dev nD) : X11 m c (Proc.devRef .tc main_arg18) = m ((c : Thread nD τ).loc main_arg18) := (X11_of m c main_arg18 (by decide)).trans (X10_main_arg18 m c)
theorem X12_main_arg18 (c : Dev nD) : X12 m c (Proc.devRef .tc main_arg18) = m ((c : Thread nD τ).loc main_arg18) := (X12_of_ne m c main_arg18 (by decide)).trans (X11_main_arg18 m c)
theorem X13_main_arg18 (c : Dev nD) : X13 m c (Proc.devRef .tc main_arg18) = m ((c : Thread nD τ).loc main_arg18) := (X13_of m c main_arg18 (by decide)).trans (X12_main_arg18 m c)
theorem X14_main_arg18 (c : Dev nD) : X14 m c (Proc.devRef .tc main_arg18) = m ((c : Thread nD τ).loc main_arg18) := (X14_of_ne m c main_arg18 (by decide)).trans (X13_main_arg18 m c)
theorem X15_main_arg18 (c : Dev nD) : X15 m c (Proc.devRef .tc main_arg18) = m ((c : Thread nD τ).loc main_arg18) := (X15_of m c main_arg18 (by decide)).trans (X14_main_arg18 m c)
theorem X16_main_arg18 (c : Dev nD) : X16 m c (Proc.devRef .tc main_arg18) = m ((c : Thread nD τ).loc main_arg18) := (X16_of_ne m c main_arg18 (by decide)).trans (X15_main_arg18 m c)
theorem X17_main_arg18 (c : Dev nD) : X17 m c (Proc.devRef .tc main_arg18) = m ((c : Thread nD τ).loc main_arg18) := (X17_of m c main_arg18 (by decide)).trans (X16_main_arg18 m c)
theorem X18_main_arg18 (c : Dev nD) : X18 m c (Proc.devRef .tc main_arg18) = m ((c : Thread nD τ).loc main_arg18) := (X18_of_ne m c main_arg18 (by decide)).trans (X17_main_arg18 m c)
theorem X19_main_arg18 (c : Dev nD) : X19 m c (Proc.devRef .tc main_arg18) = m ((c : Thread nD τ).loc main_arg18) := (X19_of m c main_arg18 (by decide)).trans (X18_main_arg18 m c)
theorem X20_main_arg18 (c : Dev nD) : X20 m c (Proc.devRef .tc main_arg18) = m ((c : Thread nD τ).loc main_arg18) := (X20_of_ne m c main_arg18 (by decide)).trans (X19_main_arg18 m c)
theorem X0_main_arg19 (c : Dev nD) : X0 m c (Proc.devRef .tc main_arg19) = m ((c : Thread nD τ).loc main_arg19) := rfl
theorem X1_main_arg19 (c : Dev nD) : X1 m c (Proc.devRef .tc main_arg19) = m ((c : Thread nD τ).loc main_arg19) := (X1_of m c main_arg19 (by decide)).trans (X0_main_arg19 m c)
theorem X2_main_arg19 (c : Dev nD) : X2 m c (Proc.devRef .tc main_arg19) = m ((c : Thread nD τ).loc main_arg19) := (X2_of_ne m c main_arg19 (by decide)).trans (X1_main_arg19 m c)
theorem X3_main_arg19 (c : Dev nD) : X3 m c (Proc.devRef .tc main_arg19) = m ((c : Thread nD τ).loc main_arg19) := (X3_of m c main_arg19 (by decide)).trans (X2_main_arg19 m c)
theorem X4_main_arg19 (c : Dev nD) : X4 m c (Proc.devRef .tc main_arg19) = m ((c : Thread nD τ).loc main_arg19) := (X4_of_ne m c main_arg19 (by decide)).trans (X3_main_arg19 m c)
theorem X5_main_arg19 (c : Dev nD) : X5 m c (Proc.devRef .tc main_arg19) = m ((c : Thread nD τ).loc main_arg19) := (X5_of m c main_arg19 (by decide)).trans (X4_main_arg19 m c)
theorem X6_main_arg19 (c : Dev nD) : X6 m c (Proc.devRef .tc main_arg19) = m ((c : Thread nD τ).loc main_arg19) := (X6_of_ne m c main_arg19 (by decide)).trans (X5_main_arg19 m c)
theorem X7_main_arg19 (c : Dev nD) : X7 m c (Proc.devRef .tc main_arg19) = m ((c : Thread nD τ).loc main_arg19) := (X7_of m c main_arg19 (by decide)).trans (X6_main_arg19 m c)
theorem X8_main_arg19 (c : Dev nD) : X8 m c (Proc.devRef .tc main_arg19) = m ((c : Thread nD τ).loc main_arg19) := (X8_of_ne m c main_arg19 (by decide)).trans (X7_main_arg19 m c)
theorem X9_main_arg19 (c : Dev nD) : X9 m c (Proc.devRef .tc main_arg19) = m ((c : Thread nD τ).loc main_arg19) := (X9_of m c main_arg19 (by decide)).trans (X8_main_arg19 m c)
theorem X10_main_arg19 (c : Dev nD) : X10 m c (Proc.devRef .tc main_arg19) = m ((c : Thread nD τ).loc main_arg19) := (X10_of_ne m c main_arg19 (by decide)).trans (X9_main_arg19 m c)
theorem X11_main_arg19 (c : Dev nD) : X11 m c (Proc.devRef .tc main_arg19) = m ((c : Thread nD τ).loc main_arg19) := (X11_of m c main_arg19 (by decide)).trans (X10_main_arg19 m c)
theorem X12_main_arg19 (c : Dev nD) : X12 m c (Proc.devRef .tc main_arg19) = m ((c : Thread nD τ).loc main_arg19) := (X12_of_ne m c main_arg19 (by decide)).trans (X11_main_arg19 m c)
theorem X13_main_arg19 (c : Dev nD) : X13 m c (Proc.devRef .tc main_arg19) = m ((c : Thread nD τ).loc main_arg19) := (X13_of m c main_arg19 (by decide)).trans (X12_main_arg19 m c)
theorem X14_main_arg19 (c : Dev nD) : X14 m c (Proc.devRef .tc main_arg19) = m ((c : Thread nD τ).loc main_arg19) := (X14_of_ne m c main_arg19 (by decide)).trans (X13_main_arg19 m c)
theorem X15_main_arg19 (c : Dev nD) : X15 m c (Proc.devRef .tc main_arg19) = m ((c : Thread nD τ).loc main_arg19) := (X15_of m c main_arg19 (by decide)).trans (X14_main_arg19 m c)
theorem X16_main_arg19 (c : Dev nD) : X16 m c (Proc.devRef .tc main_arg19) = m ((c : Thread nD τ).loc main_arg19) := (X16_of_ne m c main_arg19 (by decide)).trans (X15_main_arg19 m c)
theorem X17_main_arg19 (c : Dev nD) : X17 m c (Proc.devRef .tc main_arg19) = m ((c : Thread nD τ).loc main_arg19) := (X17_of m c main_arg19 (by decide)).trans (X16_main_arg19 m c)
theorem X18_main_arg19 (c : Dev nD) : X18 m c (Proc.devRef .tc main_arg19) = m ((c : Thread nD τ).loc main_arg19) := (X18_of_ne m c main_arg19 (by decide)).trans (X17_main_arg19 m c)
theorem X19_main_arg19 (c : Dev nD) : X19 m c (Proc.devRef .tc main_arg19) = m ((c : Thread nD τ).loc main_arg19) := (X19_of m c main_arg19 (by decide)).trans (X18_main_arg19 m c)
theorem X20_main_arg19 (c : Dev nD) : X20 m c (Proc.devRef .tc main_arg19) = m ((c : Thread nD τ).loc main_arg19) := (X20_of_ne m c main_arg19 (by decide)).trans (X19_main_arg19 m c)

end Cert.Kernel.Fr

end
-- ==== Proof.KbArgsC.lean ====
/-
  The argument arrays 20 to 29 hold their launch contents at every boundary: no host stretch writes an argument's
  buffer and no region changes it (the perceptron region reads its weights and biases through input windows, whose
  arrays the pipeline leaves as entered; every other region never touches an argument). One step per boundary, walking
  back to the launch.
-/
import proofs.«180909_j89275190215119_1_alg».proof.Proof.KbFold

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X0_main_arg20 (c : Dev nD) : X0 m c (Proc.devRef .tc main_arg20) = m ((c : Thread nD τ).loc main_arg20) := rfl
theorem X1_main_arg20 (c : Dev nD) : X1 m c (Proc.devRef .tc main_arg20) = m ((c : Thread nD τ).loc main_arg20) := (X1_of m c main_arg20 (by decide)).trans (X0_main_arg20 m c)
theorem X2_main_arg20 (c : Dev nD) : X2 m c (Proc.devRef .tc main_arg20) = m ((c : Thread nD τ).loc main_arg20) := (X2_of_ne m c main_arg20 (by decide)).trans (X1_main_arg20 m c)
theorem X3_main_arg20 (c : Dev nD) : X3 m c (Proc.devRef .tc main_arg20) = m ((c : Thread nD τ).loc main_arg20) := (X3_of m c main_arg20 (by decide)).trans (X2_main_arg20 m c)
theorem X4_main_arg20 (c : Dev nD) : X4 m c (Proc.devRef .tc main_arg20) = m ((c : Thread nD τ).loc main_arg20) := (X4_of_ne m c main_arg20 (by decide)).trans (X3_main_arg20 m c)
theorem X5_main_arg20 (c : Dev nD) : X5 m c (Proc.devRef .tc main_arg20) = m ((c : Thread nD τ).loc main_arg20) := (X5_of m c main_arg20 (by decide)).trans (X4_main_arg20 m c)
theorem X6_main_arg20 (c : Dev nD) : X6 m c (Proc.devRef .tc main_arg20) = m ((c : Thread nD τ).loc main_arg20) := (X6_of_ne m c main_arg20 (by decide)).trans (X5_main_arg20 m c)
theorem X7_main_arg20 (c : Dev nD) : X7 m c (Proc.devRef .tc main_arg20) = m ((c : Thread nD τ).loc main_arg20) := (X7_of m c main_arg20 (by decide)).trans (X6_main_arg20 m c)
theorem X8_main_arg20 (c : Dev nD) : X8 m c (Proc.devRef .tc main_arg20) = m ((c : Thread nD τ).loc main_arg20) := (X8_of_ne m c main_arg20 (by decide)).trans (X7_main_arg20 m c)
theorem X9_main_arg20 (c : Dev nD) : X9 m c (Proc.devRef .tc main_arg20) = m ((c : Thread nD τ).loc main_arg20) := (X9_of m c main_arg20 (by decide)).trans (X8_main_arg20 m c)
theorem X10_main_arg20 (c : Dev nD) : X10 m c (Proc.devRef .tc main_arg20) = m ((c : Thread nD τ).loc main_arg20) := (X10_of_ne m c main_arg20 (by decide)).trans (X9_main_arg20 m c)
theorem X11_main_arg20 (c : Dev nD) : X11 m c (Proc.devRef .tc main_arg20) = m ((c : Thread nD τ).loc main_arg20) := (X11_of m c main_arg20 (by decide)).trans (X10_main_arg20 m c)
theorem X12_main_arg20 (c : Dev nD) : X12 m c (Proc.devRef .tc main_arg20) = m ((c : Thread nD τ).loc main_arg20) := (X12_of_ne m c main_arg20 (by decide)).trans (X11_main_arg20 m c)
theorem X13_main_arg20 (c : Dev nD) : X13 m c (Proc.devRef .tc main_arg20) = m ((c : Thread nD τ).loc main_arg20) := (X13_of m c main_arg20 (by decide)).trans (X12_main_arg20 m c)
theorem X14_main_arg20 (c : Dev nD) : X14 m c (Proc.devRef .tc main_arg20) = m ((c : Thread nD τ).loc main_arg20) := (X14_of_ne m c main_arg20 (by decide)).trans (X13_main_arg20 m c)
theorem X15_main_arg20 (c : Dev nD) : X15 m c (Proc.devRef .tc main_arg20) = m ((c : Thread nD τ).loc main_arg20) := (X15_of m c main_arg20 (by decide)).trans (X14_main_arg20 m c)
theorem X16_main_arg20 (c : Dev nD) : X16 m c (Proc.devRef .tc main_arg20) = m ((c : Thread nD τ).loc main_arg20) := (X16_of_ne m c main_arg20 (by decide)).trans (X15_main_arg20 m c)
theorem X17_main_arg20 (c : Dev nD) : X17 m c (Proc.devRef .tc main_arg20) = m ((c : Thread nD τ).loc main_arg20) := (X17_of m c main_arg20 (by decide)).trans (X16_main_arg20 m c)
theorem X18_main_arg20 (c : Dev nD) : X18 m c (Proc.devRef .tc main_arg20) = m ((c : Thread nD τ).loc main_arg20) := (X18_of_ne m c main_arg20 (by decide)).trans (X17_main_arg20 m c)
theorem X19_main_arg20 (c : Dev nD) : X19 m c (Proc.devRef .tc main_arg20) = m ((c : Thread nD τ).loc main_arg20) := (X19_of m c main_arg20 (by decide)).trans (X18_main_arg20 m c)
theorem X20_main_arg20 (c : Dev nD) : X20 m c (Proc.devRef .tc main_arg20) = m ((c : Thread nD τ).loc main_arg20) := (X20_of_ne m c main_arg20 (by decide)).trans (X19_main_arg20 m c)
theorem X0_main_arg21 (c : Dev nD) : X0 m c (Proc.devRef .tc main_arg21) = m ((c : Thread nD τ).loc main_arg21) := rfl
theorem X1_main_arg21 (c : Dev nD) : X1 m c (Proc.devRef .tc main_arg21) = m ((c : Thread nD τ).loc main_arg21) := (X1_of m c main_arg21 (by decide)).trans (X0_main_arg21 m c)
theorem X2_main_arg21 (c : Dev nD) : X2 m c (Proc.devRef .tc main_arg21) = m ((c : Thread nD τ).loc main_arg21) := (X2_of_ne m c main_arg21 (by decide)).trans (X1_main_arg21 m c)
theorem X3_main_arg21 (c : Dev nD) : X3 m c (Proc.devRef .tc main_arg21) = m ((c : Thread nD τ).loc main_arg21) := (X3_of m c main_arg21 (by decide)).trans (X2_main_arg21 m c)
theorem X4_main_arg21 (c : Dev nD) : X4 m c (Proc.devRef .tc main_arg21) = m ((c : Thread nD τ).loc main_arg21) := (X4_of_ne m c main_arg21 (by decide)).trans (X3_main_arg21 m c)
theorem X5_main_arg21 (c : Dev nD) : X5 m c (Proc.devRef .tc main_arg21) = m ((c : Thread nD τ).loc main_arg21) := (X5_of m c main_arg21 (by decide)).trans (X4_main_arg21 m c)
theorem X6_main_arg21 (c : Dev nD) : X6 m c (Proc.devRef .tc main_arg21) = m ((c : Thread nD τ).loc main_arg21) := (X6_of_ne m c main_arg21 (by decide)).trans (X5_main_arg21 m c)
theorem X7_main_arg21 (c : Dev nD) : X7 m c (Proc.devRef .tc main_arg21) = m ((c : Thread nD τ).loc main_arg21) := (X7_of m c main_arg21 (by decide)).trans (X6_main_arg21 m c)
theorem X8_main_arg21 (c : Dev nD) : X8 m c (Proc.devRef .tc main_arg21) = m ((c : Thread nD τ).loc main_arg21) := (X8_of_ne m c main_arg21 (by decide)).trans (X7_main_arg21 m c)
theorem X9_main_arg21 (c : Dev nD) : X9 m c (Proc.devRef .tc main_arg21) = m ((c : Thread nD τ).loc main_arg21) := (X9_of m c main_arg21 (by decide)).trans (X8_main_arg21 m c)
theorem X10_main_arg21 (c : Dev nD) : X10 m c (Proc.devRef .tc main_arg21) = m ((c : Thread nD τ).loc main_arg21) := (X10_of_ne m c main_arg21 (by decide)).trans (X9_main_arg21 m c)
theorem X11_main_arg21 (c : Dev nD) : X11 m c (Proc.devRef .tc main_arg21) = m ((c : Thread nD τ).loc main_arg21) := (X11_of m c main_arg21 (by decide)).trans (X10_main_arg21 m c)
theorem X12_main_arg21 (c : Dev nD) : X12 m c (Proc.devRef .tc main_arg21) = m ((c : Thread nD τ).loc main_arg21) := (X12_of_ne m c main_arg21 (by decide)).trans (X11_main_arg21 m c)
theorem X13_main_arg21 (c : Dev nD) : X13 m c (Proc.devRef .tc main_arg21) = m ((c : Thread nD τ).loc main_arg21) := (X13_of m c main_arg21 (by decide)).trans (X12_main_arg21 m c)
theorem X14_main_arg21 (c : Dev nD) : X14 m c (Proc.devRef .tc main_arg21) = m ((c : Thread nD τ).loc main_arg21) := (X14_of_ne m c main_arg21 (by decide)).trans (X13_main_arg21 m c)
theorem X15_main_arg21 (c : Dev nD) : X15 m c (Proc.devRef .tc main_arg21) = m ((c : Thread nD τ).loc main_arg21) := (X15_of m c main_arg21 (by decide)).trans (X14_main_arg21 m c)
theorem X16_main_arg21 (c : Dev nD) : X16 m c (Proc.devRef .tc main_arg21) = m ((c : Thread nD τ).loc main_arg21) := (X16_of_ne m c main_arg21 (by decide)).trans (X15_main_arg21 m c)
theorem X17_main_arg21 (c : Dev nD) : X17 m c (Proc.devRef .tc main_arg21) = m ((c : Thread nD τ).loc main_arg21) := (X17_of m c main_arg21 (by decide)).trans (X16_main_arg21 m c)
theorem X18_main_arg21 (c : Dev nD) : X18 m c (Proc.devRef .tc main_arg21) = m ((c : Thread nD τ).loc main_arg21) := (X18_of_ne m c main_arg21 (by decide)).trans (X17_main_arg21 m c)
theorem X19_main_arg21 (c : Dev nD) : X19 m c (Proc.devRef .tc main_arg21) = m ((c : Thread nD τ).loc main_arg21) := (X19_of m c main_arg21 (by decide)).trans (X18_main_arg21 m c)
theorem X20_main_arg21 (c : Dev nD) : X20 m c (Proc.devRef .tc main_arg21) = m ((c : Thread nD τ).loc main_arg21) := (X20_of_ne m c main_arg21 (by decide)).trans (X19_main_arg21 m c)
theorem X0_main_arg22 (c : Dev nD) : X0 m c (Proc.devRef .tc main_arg22) = m ((c : Thread nD τ).loc main_arg22) := rfl
theorem X1_main_arg22 (c : Dev nD) : X1 m c (Proc.devRef .tc main_arg22) = m ((c : Thread nD τ).loc main_arg22) := (X1_of m c main_arg22 (by decide)).trans (X0_main_arg22 m c)
theorem X2_main_arg22 (c : Dev nD) : X2 m c (Proc.devRef .tc main_arg22) = m ((c : Thread nD τ).loc main_arg22) := (X2_of_ne m c main_arg22 (by decide)).trans (X1_main_arg22 m c)
theorem X3_main_arg22 (c : Dev nD) : X3 m c (Proc.devRef .tc main_arg22) = m ((c : Thread nD τ).loc main_arg22) := (X3_of m c main_arg22 (by decide)).trans (X2_main_arg22 m c)
theorem X4_main_arg22 (c : Dev nD) : X4 m c (Proc.devRef .tc main_arg22) = m ((c : Thread nD τ).loc main_arg22) := (X4_of_ne m c main_arg22 (by decide)).trans (X3_main_arg22 m c)
theorem X5_main_arg22 (c : Dev nD) : X5 m c (Proc.devRef .tc main_arg22) = m ((c : Thread nD τ).loc main_arg22) := (X5_of m c main_arg22 (by decide)).trans (X4_main_arg22 m c)
theorem X6_main_arg22 (c : Dev nD) : X6 m c (Proc.devRef .tc main_arg22) = m ((c : Thread nD τ).loc main_arg22) := (X6_of_ne m c main_arg22 (by decide)).trans (X5_main_arg22 m c)
theorem X7_main_arg22 (c : Dev nD) : X7 m c (Proc.devRef .tc main_arg22) = m ((c : Thread nD τ).loc main_arg22) := (X7_of m c main_arg22 (by decide)).trans (X6_main_arg22 m c)
theorem X8_main_arg22 (c : Dev nD) : X8 m c (Proc.devRef .tc main_arg22) = m ((c : Thread nD τ).loc main_arg22) := (X8_of_ne m c main_arg22 (by decide)).trans (X7_main_arg22 m c)
theorem X9_main_arg22 (c : Dev nD) : X9 m c (Proc.devRef .tc main_arg22) = m ((c : Thread nD τ).loc main_arg22) := (X9_of m c main_arg22 (by decide)).trans (X8_main_arg22 m c)
theorem X10_main_arg22 (c : Dev nD) : X10 m c (Proc.devRef .tc main_arg22) = m ((c : Thread nD τ).loc main_arg22) := (X10_of_ne m c main_arg22 (by decide)).trans (X9_main_arg22 m c)
theorem X11_main_arg22 (c : Dev nD) : X11 m c (Proc.devRef .tc main_arg22) = m ((c : Thread nD τ).loc main_arg22) := (X11_of m c main_arg22 (by decide)).trans (X10_main_arg22 m c)
theorem X12_main_arg22 (c : Dev nD) : X12 m c (Proc.devRef .tc main_arg22) = m ((c : Thread nD τ).loc main_arg22) := (X12_of_ne m c main_arg22 (by decide)).trans (X11_main_arg22 m c)
theorem X13_main_arg22 (c : Dev nD) : X13 m c (Proc.devRef .tc main_arg22) = m ((c : Thread nD τ).loc main_arg22) := (X13_of m c main_arg22 (by decide)).trans (X12_main_arg22 m c)
theorem X14_main_arg22 (c : Dev nD) : X14 m c (Proc.devRef .tc main_arg22) = m ((c : Thread nD τ).loc main_arg22) := (X14_of_ne m c main_arg22 (by decide)).trans (X13_main_arg22 m c)
theorem X15_main_arg22 (c : Dev nD) : X15 m c (Proc.devRef .tc main_arg22) = m ((c : Thread nD τ).loc main_arg22) := (X15_of m c main_arg22 (by decide)).trans (X14_main_arg22 m c)
theorem X16_main_arg22 (c : Dev nD) : X16 m c (Proc.devRef .tc main_arg22) = m ((c : Thread nD τ).loc main_arg22) := (X16_of_ne m c main_arg22 (by decide)).trans (X15_main_arg22 m c)
theorem X17_main_arg22 (c : Dev nD) : X17 m c (Proc.devRef .tc main_arg22) = m ((c : Thread nD τ).loc main_arg22) := (X17_of m c main_arg22 (by decide)).trans (X16_main_arg22 m c)
theorem X18_main_arg22 (c : Dev nD) : X18 m c (Proc.devRef .tc main_arg22) = m ((c : Thread nD τ).loc main_arg22) := (X18_of_ne m c main_arg22 (by decide)).trans (X17_main_arg22 m c)
theorem X19_main_arg22 (c : Dev nD) : X19 m c (Proc.devRef .tc main_arg22) = m ((c : Thread nD τ).loc main_arg22) := (X19_of m c main_arg22 (by decide)).trans (X18_main_arg22 m c)
theorem X20_main_arg22 (c : Dev nD) : X20 m c (Proc.devRef .tc main_arg22) = m ((c : Thread nD τ).loc main_arg22) := (X20_of_ne m c main_arg22 (by decide)).trans (X19_main_arg22 m c)
theorem X0_main_arg23 (c : Dev nD) : X0 m c (Proc.devRef .tc main_arg23) = m ((c : Thread nD τ).loc main_arg23) := rfl
theorem X1_main_arg23 (c : Dev nD) : X1 m c (Proc.devRef .tc main_arg23) = m ((c : Thread nD τ).loc main_arg23) := (X1_of m c main_arg23 (by decide)).trans (X0_main_arg23 m c)
theorem X2_main_arg23 (c : Dev nD) : X2 m c (Proc.devRef .tc main_arg23) = m ((c : Thread nD τ).loc main_arg23) := (X2_of_ne m c main_arg23 (by decide)).trans (X1_main_arg23 m c)
theorem X3_main_arg23 (c : Dev nD) : X3 m c (Proc.devRef .tc main_arg23) = m ((c : Thread nD τ).loc main_arg23) := (X3_of m c main_arg23 (by decide)).trans (X2_main_arg23 m c)
theorem X4_main_arg23 (c : Dev nD) : X4 m c (Proc.devRef .tc main_arg23) = m ((c : Thread nD τ).loc main_arg23) := (X4_of_ne m c main_arg23 (by decide)).trans (X3_main_arg23 m c)
theorem X5_main_arg23 (c : Dev nD) : X5 m c (Proc.devRef .tc main_arg23) = m ((c : Thread nD τ).loc main_arg23) := (X5_of m c main_arg23 (by decide)).trans (X4_main_arg23 m c)
theorem X6_main_arg23 (c : Dev nD) : X6 m c (Proc.devRef .tc main_arg23) = m ((c : Thread nD τ).loc main_arg23) := (X6_of_ne m c main_arg23 (by decide)).trans (X5_main_arg23 m c)
theorem X7_main_arg23 (c : Dev nD) : X7 m c (Proc.devRef .tc main_arg23) = m ((c : Thread nD τ).loc main_arg23) := (X7_of m c main_arg23 (by decide)).trans (X6_main_arg23 m c)
theorem X8_main_arg23 (c : Dev nD) : X8 m c (Proc.devRef .tc main_arg23) = m ((c : Thread nD τ).loc main_arg23) := (X8_of_ne m c main_arg23 (by decide)).trans (X7_main_arg23 m c)
theorem X9_main_arg23 (c : Dev nD) : X9 m c (Proc.devRef .tc main_arg23) = m ((c : Thread nD τ).loc main_arg23) := (X9_of m c main_arg23 (by decide)).trans (X8_main_arg23 m c)
theorem X10_main_arg23 (c : Dev nD) : X10 m c (Proc.devRef .tc main_arg23) = m ((c : Thread nD τ).loc main_arg23) := (X10_of_ne m c main_arg23 (by decide)).trans (X9_main_arg23 m c)
theorem X11_main_arg23 (c : Dev nD) : X11 m c (Proc.devRef .tc main_arg23) = m ((c : Thread nD τ).loc main_arg23) := (X11_of m c main_arg23 (by decide)).trans (X10_main_arg23 m c)
theorem X12_main_arg23 (c : Dev nD) : X12 m c (Proc.devRef .tc main_arg23) = m ((c : Thread nD τ).loc main_arg23) := (X12_of_ne m c main_arg23 (by decide)).trans (X11_main_arg23 m c)
theorem X13_main_arg23 (c : Dev nD) : X13 m c (Proc.devRef .tc main_arg23) = m ((c : Thread nD τ).loc main_arg23) := (X13_of m c main_arg23 (by decide)).trans (X12_main_arg23 m c)
theorem X14_main_arg23 (c : Dev nD) : X14 m c (Proc.devRef .tc main_arg23) = m ((c : Thread nD τ).loc main_arg23) := (X14_of_ne m c main_arg23 (by decide)).trans (X13_main_arg23 m c)
theorem X15_main_arg23 (c : Dev nD) : X15 m c (Proc.devRef .tc main_arg23) = m ((c : Thread nD τ).loc main_arg23) := (X15_of m c main_arg23 (by decide)).trans (X14_main_arg23 m c)
theorem X16_main_arg23 (c : Dev nD) : X16 m c (Proc.devRef .tc main_arg23) = m ((c : Thread nD τ).loc main_arg23) := (X16_of_ne m c main_arg23 (by decide)).trans (X15_main_arg23 m c)
theorem X17_main_arg23 (c : Dev nD) : X17 m c (Proc.devRef .tc main_arg23) = m ((c : Thread nD τ).loc main_arg23) := (X17_of m c main_arg23 (by decide)).trans (X16_main_arg23 m c)
theorem X18_main_arg23 (c : Dev nD) : X18 m c (Proc.devRef .tc main_arg23) = m ((c : Thread nD τ).loc main_arg23) := (X18_of_ne m c main_arg23 (by decide)).trans (X17_main_arg23 m c)
theorem X19_main_arg23 (c : Dev nD) : X19 m c (Proc.devRef .tc main_arg23) = m ((c : Thread nD τ).loc main_arg23) := (X19_of m c main_arg23 (by decide)).trans (X18_main_arg23 m c)
theorem X20_main_arg23 (c : Dev nD) : X20 m c (Proc.devRef .tc main_arg23) = m ((c : Thread nD τ).loc main_arg23) := (X20_of_ne m c main_arg23 (by decide)).trans (X19_main_arg23 m c)
theorem X0_main_arg24 (c : Dev nD) : X0 m c (Proc.devRef .tc main_arg24) = m ((c : Thread nD τ).loc main_arg24) := rfl
theorem X1_main_arg24 (c : Dev nD) : X1 m c (Proc.devRef .tc main_arg24) = m ((c : Thread nD τ).loc main_arg24) := (X1_of m c main_arg24 (by decide)).trans (X0_main_arg24 m c)
theorem X2_main_arg24 (c : Dev nD) : X2 m c (Proc.devRef .tc main_arg24) = m ((c : Thread nD τ).loc main_arg24) := (X2_of_ne m c main_arg24 (by decide)).trans (X1_main_arg24 m c)
theorem X3_main_arg24 (c : Dev nD) : X3 m c (Proc.devRef .tc main_arg24) = m ((c : Thread nD τ).loc main_arg24) := (X3_of m c main_arg24 (by decide)).trans (X2_main_arg24 m c)
theorem X4_main_arg24 (c : Dev nD) : X4 m c (Proc.devRef .tc main_arg24) = m ((c : Thread nD τ).loc main_arg24) := (X4_of_ne m c main_arg24 (by decide)).trans (X3_main_arg24 m c)
theorem X5_main_arg24 (c : Dev nD) : X5 m c (Proc.devRef .tc main_arg24) = m ((c : Thread nD τ).loc main_arg24) := (X5_of m c main_arg24 (by decide)).trans (X4_main_arg24 m c)
theorem X6_main_arg24 (c : Dev nD) : X6 m c (Proc.devRef .tc main_arg24) = m ((c : Thread nD τ).loc main_arg24) := (X6_of_ne m c main_arg24 (by decide)).trans (X5_main_arg24 m c)
theorem X7_main_arg24 (c : Dev nD) : X7 m c (Proc.devRef .tc main_arg24) = m ((c : Thread nD τ).loc main_arg24) := (X7_of m c main_arg24 (by decide)).trans (X6_main_arg24 m c)
theorem X8_main_arg24 (c : Dev nD) : X8 m c (Proc.devRef .tc main_arg24) = m ((c : Thread nD τ).loc main_arg24) := (X8_of_ne m c main_arg24 (by decide)).trans (X7_main_arg24 m c)
theorem X9_main_arg24 (c : Dev nD) : X9 m c (Proc.devRef .tc main_arg24) = m ((c : Thread nD τ).loc main_arg24) := (X9_of m c main_arg24 (by decide)).trans (X8_main_arg24 m c)
theorem X10_main_arg24 (c : Dev nD) : X10 m c (Proc.devRef .tc main_arg24) = m ((c : Thread nD τ).loc main_arg24) := (X10_of_ne m c main_arg24 (by decide)).trans (X9_main_arg24 m c)
theorem X11_main_arg24 (c : Dev nD) : X11 m c (Proc.devRef .tc main_arg24) = m ((c : Thread nD τ).loc main_arg24) := (X11_of m c main_arg24 (by decide)).trans (X10_main_arg24 m c)
theorem X12_main_arg24 (c : Dev nD) : X12 m c (Proc.devRef .tc main_arg24) = m ((c : Thread nD τ).loc main_arg24) := (X12_of_ne m c main_arg24 (by decide)).trans (X11_main_arg24 m c)
theorem X13_main_arg24 (c : Dev nD) : X13 m c (Proc.devRef .tc main_arg24) = m ((c : Thread nD τ).loc main_arg24) := (X13_of m c main_arg24 (by decide)).trans (X12_main_arg24 m c)
theorem X14_main_arg24 (c : Dev nD) : X14 m c (Proc.devRef .tc main_arg24) = m ((c : Thread nD τ).loc main_arg24) := (X14_of_ne m c main_arg24 (by decide)).trans (X13_main_arg24 m c)
theorem X15_main_arg24 (c : Dev nD) : X15 m c (Proc.devRef .tc main_arg24) = m ((c : Thread nD τ).loc main_arg24) := (X15_of m c main_arg24 (by decide)).trans (X14_main_arg24 m c)
theorem X16_main_arg24 (c : Dev nD) : X16 m c (Proc.devRef .tc main_arg24) = m ((c : Thread nD τ).loc main_arg24) := (X16_of_ne m c main_arg24 (by decide)).trans (X15_main_arg24 m c)
theorem X17_main_arg24 (c : Dev nD) : X17 m c (Proc.devRef .tc main_arg24) = m ((c : Thread nD τ).loc main_arg24) := (X17_of m c main_arg24 (by decide)).trans (X16_main_arg24 m c)
theorem X18_main_arg24 (c : Dev nD) : X18 m c (Proc.devRef .tc main_arg24) = m ((c : Thread nD τ).loc main_arg24) := (X18_of_ne m c main_arg24 (by decide)).trans (X17_main_arg24 m c)
theorem X19_main_arg24 (c : Dev nD) : X19 m c (Proc.devRef .tc main_arg24) = m ((c : Thread nD τ).loc main_arg24) := (X19_of m c main_arg24 (by decide)).trans (X18_main_arg24 m c)
theorem X20_main_arg24 (c : Dev nD) : X20 m c (Proc.devRef .tc main_arg24) = m ((c : Thread nD τ).loc main_arg24) := (X20_of_ne m c main_arg24 (by decide)).trans (X19_main_arg24 m c)
theorem X0_main_arg25 (c : Dev nD) : X0 m c (Proc.devRef .tc main_arg25) = m ((c : Thread nD τ).loc main_arg25) := rfl
theorem X1_main_arg25 (c : Dev nD) : X1 m c (Proc.devRef .tc main_arg25) = m ((c : Thread nD τ).loc main_arg25) := (X1_of m c main_arg25 (by decide)).trans (X0_main_arg25 m c)
theorem X2_main_arg25 (c : Dev nD) : X2 m c (Proc.devRef .tc main_arg25) = m ((c : Thread nD τ).loc main_arg25) := (X2_of_ne m c main_arg25 (by decide)).trans (X1_main_arg25 m c)
theorem X3_main_arg25 (c : Dev nD) : X3 m c (Proc.devRef .tc main_arg25) = m ((c : Thread nD τ).loc main_arg25) := (X3_of m c main_arg25 (by decide)).trans (X2_main_arg25 m c)
theorem X4_main_arg25 (c : Dev nD) : X4 m c (Proc.devRef .tc main_arg25) = m ((c : Thread nD τ).loc main_arg25) := (X4_of_ne m c main_arg25 (by decide)).trans (X3_main_arg25 m c)
theorem X5_main_arg25 (c : Dev nD) : X5 m c (Proc.devRef .tc main_arg25) = m ((c : Thread nD τ).loc main_arg25) := (X5_of m c main_arg25 (by decide)).trans (X4_main_arg25 m c)
theorem X6_main_arg25 (c : Dev nD) : X6 m c (Proc.devRef .tc main_arg25) = m ((c : Thread nD τ).loc main_arg25) := (X6_of_ne m c main_arg25 (by decide)).trans (X5_main_arg25 m c)
theorem X7_main_arg25 (c : Dev nD) : X7 m c (Proc.devRef .tc main_arg25) = m ((c : Thread nD τ).loc main_arg25) := (X7_of m c main_arg25 (by decide)).trans (X6_main_arg25 m c)
theorem X8_main_arg25 (c : Dev nD) : X8 m c (Proc.devRef .tc main_arg25) = m ((c : Thread nD τ).loc main_arg25) := (X8_of_ne m c main_arg25 (by decide)).trans (X7_main_arg25 m c)
theorem X9_main_arg25 (c : Dev nD) : X9 m c (Proc.devRef .tc main_arg25) = m ((c : Thread nD τ).loc main_arg25) := (X9_of m c main_arg25 (by decide)).trans (X8_main_arg25 m c)
theorem X10_main_arg25 (c : Dev nD) : X10 m c (Proc.devRef .tc main_arg25) = m ((c : Thread nD τ).loc main_arg25) := (X10_of_ne m c main_arg25 (by decide)).trans (X9_main_arg25 m c)
theorem X11_main_arg25 (c : Dev nD) : X11 m c (Proc.devRef .tc main_arg25) = m ((c : Thread nD τ).loc main_arg25) := (X11_of m c main_arg25 (by decide)).trans (X10_main_arg25 m c)
theorem X12_main_arg25 (c : Dev nD) : X12 m c (Proc.devRef .tc main_arg25) = m ((c : Thread nD τ).loc main_arg25) := (X12_of_ne m c main_arg25 (by decide)).trans (X11_main_arg25 m c)
theorem X13_main_arg25 (c : Dev nD) : X13 m c (Proc.devRef .tc main_arg25) = m ((c : Thread nD τ).loc main_arg25) := (X13_of m c main_arg25 (by decide)).trans (X12_main_arg25 m c)
theorem X14_main_arg25 (c : Dev nD) : X14 m c (Proc.devRef .tc main_arg25) = m ((c : Thread nD τ).loc main_arg25) := (X14_of_ne m c main_arg25 (by decide)).trans (X13_main_arg25 m c)
theorem X15_main_arg25 (c : Dev nD) : X15 m c (Proc.devRef .tc main_arg25) = m ((c : Thread nD τ).loc main_arg25) := (X15_of m c main_arg25 (by decide)).trans (X14_main_arg25 m c)
theorem X16_main_arg25 (c : Dev nD) : X16 m c (Proc.devRef .tc main_arg25) = m ((c : Thread nD τ).loc main_arg25) := (X16_of_ne m c main_arg25 (by decide)).trans (X15_main_arg25 m c)
theorem X17_main_arg25 (c : Dev nD) : X17 m c (Proc.devRef .tc main_arg25) = m ((c : Thread nD τ).loc main_arg25) := (X17_of m c main_arg25 (by decide)).trans (X16_main_arg25 m c)
theorem X18_main_arg25 (c : Dev nD) : X18 m c (Proc.devRef .tc main_arg25) = m ((c : Thread nD τ).loc main_arg25) := (X18_of_ne m c main_arg25 (by decide)).trans (X17_main_arg25 m c)
theorem X19_main_arg25 (c : Dev nD) : X19 m c (Proc.devRef .tc main_arg25) = m ((c : Thread nD τ).loc main_arg25) := (X19_of m c main_arg25 (by decide)).trans (X18_main_arg25 m c)
theorem X20_main_arg25 (c : Dev nD) : X20 m c (Proc.devRef .tc main_arg25) = m ((c : Thread nD τ).loc main_arg25) := (X20_of_ne m c main_arg25 (by decide)).trans (X19_main_arg25 m c)
theorem X0_main_arg26 (c : Dev nD) : X0 m c (Proc.devRef .tc main_arg26) = m ((c : Thread nD τ).loc main_arg26) := rfl
theorem X1_main_arg26 (c : Dev nD) : X1 m c (Proc.devRef .tc main_arg26) = m ((c : Thread nD τ).loc main_arg26) := (X1_of m c main_arg26 (by decide)).trans (X0_main_arg26 m c)
theorem X2_main_arg26 (c : Dev nD) : X2 m c (Proc.devRef .tc main_arg26) = m ((c : Thread nD τ).loc main_arg26) := (X2_of_ne m c main_arg26 (by decide)).trans (X1_main_arg26 m c)
theorem X3_main_arg26 (c : Dev nD) : X3 m c (Proc.devRef .tc main_arg26) = m ((c : Thread nD τ).loc main_arg26) := (X3_of m c main_arg26 (by decide)).trans (X2_main_arg26 m c)
theorem X4_main_arg26 (c : Dev nD) : X4 m c (Proc.devRef .tc main_arg26) = m ((c : Thread nD τ).loc main_arg26) := (X4_of_ne m c main_arg26 (by decide)).trans (X3_main_arg26 m c)
theorem X5_main_arg26 (c : Dev nD) : X5 m c (Proc.devRef .tc main_arg26) = m ((c : Thread nD τ).loc main_arg26) := (X5_of m c main_arg26 (by decide)).trans (X4_main_arg26 m c)
theorem X6_main_arg26 (c : Dev nD) : X6 m c (Proc.devRef .tc main_arg26) = m ((c : Thread nD τ).loc main_arg26) := (X6_of_ne m c main_arg26 (by decide)).trans (X5_main_arg26 m c)
theorem X7_main_arg26 (c : Dev nD) : X7 m c (Proc.devRef .tc main_arg26) = m ((c : Thread nD τ).loc main_arg26) := (X7_of m c main_arg26 (by decide)).trans (X6_main_arg26 m c)
theorem X8_main_arg26 (c : Dev nD) : X8 m c (Proc.devRef .tc main_arg26) = m ((c : Thread nD τ).loc main_arg26) := (X8_of_ne m c main_arg26 (by decide)).trans (X7_main_arg26 m c)
theorem X9_main_arg26 (c : Dev nD) : X9 m c (Proc.devRef .tc main_arg26) = m ((c : Thread nD τ).loc main_arg26) := (X9_of m c main_arg26 (by decide)).trans (X8_main_arg26 m c)
theorem X10_main_arg26 (c : Dev nD) : X10 m c (Proc.devRef .tc main_arg26) = m ((c : Thread nD τ).loc main_arg26) := (X10_of_ne m c main_arg26 (by decide)).trans (X9_main_arg26 m c)
theorem X11_main_arg26 (c : Dev nD) : X11 m c (Proc.devRef .tc main_arg26) = m ((c : Thread nD τ).loc main_arg26) := (X11_of m c main_arg26 (by decide)).trans (X10_main_arg26 m c)
theorem X12_main_arg26 (c : Dev nD) : X12 m c (Proc.devRef .tc main_arg26) = m ((c : Thread nD τ).loc main_arg26) := (X12_of_ne m c main_arg26 (by decide)).trans (X11_main_arg26 m c)
theorem X13_main_arg26 (c : Dev nD) : X13 m c (Proc.devRef .tc main_arg26) = m ((c : Thread nD τ).loc main_arg26) := (X13_of m c main_arg26 (by decide)).trans (X12_main_arg26 m c)
theorem X14_main_arg26 (c : Dev nD) : X14 m c (Proc.devRef .tc main_arg26) = m ((c : Thread nD τ).loc main_arg26) := (X14_of_ne m c main_arg26 (by decide)).trans (X13_main_arg26 m c)
theorem X15_main_arg26 (c : Dev nD) : X15 m c (Proc.devRef .tc main_arg26) = m ((c : Thread nD τ).loc main_arg26) := (X15_of m c main_arg26 (by decide)).trans (X14_main_arg26 m c)
theorem X16_main_arg26 (c : Dev nD) : X16 m c (Proc.devRef .tc main_arg26) = m ((c : Thread nD τ).loc main_arg26) := (X16_of_ne m c main_arg26 (by decide)).trans (X15_main_arg26 m c)
theorem X17_main_arg26 (c : Dev nD) : X17 m c (Proc.devRef .tc main_arg26) = m ((c : Thread nD τ).loc main_arg26) := (X17_of m c main_arg26 (by decide)).trans (X16_main_arg26 m c)
theorem X18_main_arg26 (c : Dev nD) : X18 m c (Proc.devRef .tc main_arg26) = m ((c : Thread nD τ).loc main_arg26) := (X18_of_ne m c main_arg26 (by decide)).trans (X17_main_arg26 m c)
theorem X19_main_arg26 (c : Dev nD) : X19 m c (Proc.devRef .tc main_arg26) = m ((c : Thread nD τ).loc main_arg26) := (X19_of m c main_arg26 (by decide)).trans (X18_main_arg26 m c)
theorem X20_main_arg26 (c : Dev nD) : X20 m c (Proc.devRef .tc main_arg26) = m ((c : Thread nD τ).loc main_arg26) := (X20_of_ne m c main_arg26 (by decide)).trans (X19_main_arg26 m c)
theorem X0_main_arg27 (c : Dev nD) : X0 m c (Proc.devRef .tc main_arg27) = m ((c : Thread nD τ).loc main_arg27) := rfl
theorem X1_main_arg27 (c : Dev nD) : X1 m c (Proc.devRef .tc main_arg27) = m ((c : Thread nD τ).loc main_arg27) := (X1_of m c main_arg27 (by decide)).trans (X0_main_arg27 m c)
theorem X2_main_arg27 (c : Dev nD) : X2 m c (Proc.devRef .tc main_arg27) = m ((c : Thread nD τ).loc main_arg27) := (X2_of_ne m c main_arg27 (by decide)).trans (X1_main_arg27 m c)
theorem X3_main_arg27 (c : Dev nD) : X3 m c (Proc.devRef .tc main_arg27) = m ((c : Thread nD τ).loc main_arg27) := (X3_of m c main_arg27 (by decide)).trans (X2_main_arg27 m c)
theorem X4_main_arg27 (c : Dev nD) : X4 m c (Proc.devRef .tc main_arg27) = m ((c : Thread nD τ).loc main_arg27) := (X4_of_ne m c main_arg27 (by decide)).trans (X3_main_arg27 m c)
theorem X5_main_arg27 (c : Dev nD) : X5 m c (Proc.devRef .tc main_arg27) = m ((c : Thread nD τ).loc main_arg27) := (X5_of m c main_arg27 (by decide)).trans (X4_main_arg27 m c)
theorem X6_main_arg27 (c : Dev nD) : X6 m c (Proc.devRef .tc main_arg27) = m ((c : Thread nD τ).loc main_arg27) := (X6_of_ne m c main_arg27 (by decide)).trans (X5_main_arg27 m c)
theorem X7_main_arg27 (c : Dev nD) : X7 m c (Proc.devRef .tc main_arg27) = m ((c : Thread nD τ).loc main_arg27) := (X7_of m c main_arg27 (by decide)).trans (X6_main_arg27 m c)
theorem X8_main_arg27 (c : Dev nD) : X8 m c (Proc.devRef .tc main_arg27) = m ((c : Thread nD τ).loc main_arg27) := (X8_of_ne m c main_arg27 (by decide)).trans (X7_main_arg27 m c)
theorem X9_main_arg27 (c : Dev nD) : X9 m c (Proc.devRef .tc main_arg27) = m ((c : Thread nD τ).loc main_arg27) := (X9_of m c main_arg27 (by decide)).trans (X8_main_arg27 m c)
theorem X10_main_arg27 (c : Dev nD) : X10 m c (Proc.devRef .tc main_arg27) = m ((c : Thread nD τ).loc main_arg27) := (X10_of_ne m c main_arg27 (by decide)).trans (X9_main_arg27 m c)
theorem X11_main_arg27 (c : Dev nD) : X11 m c (Proc.devRef .tc main_arg27) = m ((c : Thread nD τ).loc main_arg27) := (X11_of m c main_arg27 (by decide)).trans (X10_main_arg27 m c)
theorem X12_main_arg27 (c : Dev nD) : X12 m c (Proc.devRef .tc main_arg27) = m ((c : Thread nD τ).loc main_arg27) := (X12_of_ne m c main_arg27 (by decide)).trans (X11_main_arg27 m c)
theorem X13_main_arg27 (c : Dev nD) : X13 m c (Proc.devRef .tc main_arg27) = m ((c : Thread nD τ).loc main_arg27) := (X13_of m c main_arg27 (by decide)).trans (X12_main_arg27 m c)
theorem X14_main_arg27 (c : Dev nD) : X14 m c (Proc.devRef .tc main_arg27) = m ((c : Thread nD τ).loc main_arg27) := (X14_of_ne m c main_arg27 (by decide)).trans (X13_main_arg27 m c)
theorem X15_main_arg27 (c : Dev nD) : X15 m c (Proc.devRef .tc main_arg27) = m ((c : Thread nD τ).loc main_arg27) := (X15_of m c main_arg27 (by decide)).trans (X14_main_arg27 m c)
theorem X16_main_arg27 (c : Dev nD) : X16 m c (Proc.devRef .tc main_arg27) = m ((c : Thread nD τ).loc main_arg27) := (X16_of_ne m c main_arg27 (by decide)).trans (X15_main_arg27 m c)
theorem X17_main_arg27 (c : Dev nD) : X17 m c (Proc.devRef .tc main_arg27) = m ((c : Thread nD τ).loc main_arg27) := (X17_of m c main_arg27 (by decide)).trans (X16_main_arg27 m c)
theorem X18_main_arg27 (c : Dev nD) : X18 m c (Proc.devRef .tc main_arg27) = m ((c : Thread nD τ).loc main_arg27) := (X18_of_ne m c main_arg27 (by decide)).trans (X17_main_arg27 m c)
theorem X19_main_arg27 (c : Dev nD) : X19 m c (Proc.devRef .tc main_arg27) = m ((c : Thread nD τ).loc main_arg27) := (X19_of m c main_arg27 (by decide)).trans (X18_main_arg27 m c)
theorem X20_main_arg27 (c : Dev nD) : X20 m c (Proc.devRef .tc main_arg27) = m ((c : Thread nD τ).loc main_arg27) := (X20_of_ne m c main_arg27 (by decide)).trans (X19_main_arg27 m c)
theorem X0_main_arg28 (c : Dev nD) : X0 m c (Proc.devRef .tc main_arg28) = m ((c : Thread nD τ).loc main_arg28) := rfl
theorem X1_main_arg28 (c : Dev nD) : X1 m c (Proc.devRef .tc main_arg28) = m ((c : Thread nD τ).loc main_arg28) := (X1_of m c main_arg28 (by decide)).trans (X0_main_arg28 m c)
theorem X2_main_arg28 (c : Dev nD) : X2 m c (Proc.devRef .tc main_arg28) = m ((c : Thread nD τ).loc main_arg28) := (X2_of_ne m c main_arg28 (by decide)).trans (X1_main_arg28 m c)
theorem X3_main_arg28 (c : Dev nD) : X3 m c (Proc.devRef .tc main_arg28) = m ((c : Thread nD τ).loc main_arg28) := (X3_of m c main_arg28 (by decide)).trans (X2_main_arg28 m c)
theorem X4_main_arg28 (c : Dev nD) : X4 m c (Proc.devRef .tc main_arg28) = m ((c : Thread nD τ).loc main_arg28) := (X4_of_ne m c main_arg28 (by decide)).trans (X3_main_arg28 m c)
theorem X5_main_arg28 (c : Dev nD) : X5 m c (Proc.devRef .tc main_arg28) = m ((c : Thread nD τ).loc main_arg28) := (X5_of m c main_arg28 (by decide)).trans (X4_main_arg28 m c)
theorem X6_main_arg28 (c : Dev nD) : X6 m c (Proc.devRef .tc main_arg28) = m ((c : Thread nD τ).loc main_arg28) := (X6_of_ne m c main_arg28 (by decide)).trans (X5_main_arg28 m c)
theorem X7_main_arg28 (c : Dev nD) : X7 m c (Proc.devRef .tc main_arg28) = m ((c : Thread nD τ).loc main_arg28) := (X7_of m c main_arg28 (by decide)).trans (X6_main_arg28 m c)
theorem X8_main_arg28 (c : Dev nD) : X8 m c (Proc.devRef .tc main_arg28) = m ((c : Thread nD τ).loc main_arg28) := (X8_of_ne m c main_arg28 (by decide)).trans (X7_main_arg28 m c)
theorem X9_main_arg28 (c : Dev nD) : X9 m c (Proc.devRef .tc main_arg28) = m ((c : Thread nD τ).loc main_arg28) := (X9_of m c main_arg28 (by decide)).trans (X8_main_arg28 m c)
theorem X10_main_arg28 (c : Dev nD) : X10 m c (Proc.devRef .tc main_arg28) = m ((c : Thread nD τ).loc main_arg28) := (X10_of_ne m c main_arg28 (by decide)).trans (X9_main_arg28 m c)
theorem X11_main_arg28 (c : Dev nD) : X11 m c (Proc.devRef .tc main_arg28) = m ((c : Thread nD τ).loc main_arg28) := (X11_of m c main_arg28 (by decide)).trans (X10_main_arg28 m c)
theorem X12_main_arg28 (c : Dev nD) : X12 m c (Proc.devRef .tc main_arg28) = m ((c : Thread nD τ).loc main_arg28) := (X12_of_ne m c main_arg28 (by decide)).trans (X11_main_arg28 m c)
theorem X13_main_arg28 (c : Dev nD) : X13 m c (Proc.devRef .tc main_arg28) = m ((c : Thread nD τ).loc main_arg28) := (X13_of m c main_arg28 (by decide)).trans (X12_main_arg28 m c)
theorem X14_main_arg28 (c : Dev nD) : X14 m c (Proc.devRef .tc main_arg28) = m ((c : Thread nD τ).loc main_arg28) := (X14_of_ne m c main_arg28 (by decide)).trans (X13_main_arg28 m c)
theorem X15_main_arg28 (c : Dev nD) : X15 m c (Proc.devRef .tc main_arg28) = m ((c : Thread nD τ).loc main_arg28) := (X15_of m c main_arg28 (by decide)).trans (X14_main_arg28 m c)
theorem X16_main_arg28 (c : Dev nD) : X16 m c (Proc.devRef .tc main_arg28) = m ((c : Thread nD τ).loc main_arg28) := (X16_of_ne m c main_arg28 (by decide)).trans (X15_main_arg28 m c)
theorem X17_main_arg28 (c : Dev nD) : X17 m c (Proc.devRef .tc main_arg28) = m ((c : Thread nD τ).loc main_arg28) := (X17_of m c main_arg28 (by decide)).trans (X16_main_arg28 m c)
theorem X18_main_arg28 (c : Dev nD) : X18 m c (Proc.devRef .tc main_arg28) = m ((c : Thread nD τ).loc main_arg28) := (X18_of_ne m c main_arg28 (by decide)).trans (X17_main_arg28 m c)
theorem X19_main_arg28 (c : Dev nD) : X19 m c (Proc.devRef .tc main_arg28) = m ((c : Thread nD τ).loc main_arg28) := (X19_of m c main_arg28 (by decide)).trans (X18_main_arg28 m c)
theorem X20_main_arg28 (c : Dev nD) : X20 m c (Proc.devRef .tc main_arg28) = m ((c : Thread nD τ).loc main_arg28) := (X20_of_ne m c main_arg28 (by decide)).trans (X19_main_arg28 m c)
theorem X0_main_arg29 (c : Dev nD) : X0 m c (Proc.devRef .tc main_arg29) = m ((c : Thread nD τ).loc main_arg29) := rfl
theorem X1_main_arg29 (c : Dev nD) : X1 m c (Proc.devRef .tc main_arg29) = m ((c : Thread nD τ).loc main_arg29) := (X1_of m c main_arg29 (by decide)).trans (X0_main_arg29 m c)
theorem X2_main_arg29 (c : Dev nD) : X2 m c (Proc.devRef .tc main_arg29) = m ((c : Thread nD τ).loc main_arg29) := (X2_of_ne m c main_arg29 (by decide)).trans (X1_main_arg29 m c)
theorem X3_main_arg29 (c : Dev nD) : X3 m c (Proc.devRef .tc main_arg29) = m ((c : Thread nD τ).loc main_arg29) := (X3_of m c main_arg29 (by decide)).trans (X2_main_arg29 m c)
theorem X4_main_arg29 (c : Dev nD) : X4 m c (Proc.devRef .tc main_arg29) = m ((c : Thread nD τ).loc main_arg29) := (X4_of_ne m c main_arg29 (by decide)).trans (X3_main_arg29 m c)
theorem X5_main_arg29 (c : Dev nD) : X5 m c (Proc.devRef .tc main_arg29) = m ((c : Thread nD τ).loc main_arg29) := (X5_of m c main_arg29 (by decide)).trans (X4_main_arg29 m c)
theorem X6_main_arg29 (c : Dev nD) : X6 m c (Proc.devRef .tc main_arg29) = m ((c : Thread nD τ).loc main_arg29) := (X6_of_ne m c main_arg29 (by decide)).trans (X5_main_arg29 m c)
theorem X7_main_arg29 (c : Dev nD) : X7 m c (Proc.devRef .tc main_arg29) = m ((c : Thread nD τ).loc main_arg29) := (X7_of m c main_arg29 (by decide)).trans (X6_main_arg29 m c)
theorem X8_main_arg29 (c : Dev nD) : X8 m c (Proc.devRef .tc main_arg29) = m ((c : Thread nD τ).loc main_arg29) := (X8_of_ne m c main_arg29 (by decide)).trans (X7_main_arg29 m c)
theorem X9_main_arg29 (c : Dev nD) : X9 m c (Proc.devRef .tc main_arg29) = m ((c : Thread nD τ).loc main_arg29) := (X9_of m c main_arg29 (by decide)).trans (X8_main_arg29 m c)
theorem X10_main_arg29 (c : Dev nD) : X10 m c (Proc.devRef .tc main_arg29) = m ((c : Thread nD τ).loc main_arg29) := (X10_of_ne m c main_arg29 (by decide)).trans (X9_main_arg29 m c)
theorem X11_main_arg29 (c : Dev nD) : X11 m c (Proc.devRef .tc main_arg29) = m ((c : Thread nD τ).loc main_arg29) := (X11_of m c main_arg29 (by decide)).trans (X10_main_arg29 m c)
theorem X12_main_arg29 (c : Dev nD) : X12 m c (Proc.devRef .tc main_arg29) = m ((c : Thread nD τ).loc main_arg29) := (X12_of_ne m c main_arg29 (by decide)).trans (X11_main_arg29 m c)
theorem X13_main_arg29 (c : Dev nD) : X13 m c (Proc.devRef .tc main_arg29) = m ((c : Thread nD τ).loc main_arg29) := (X13_of m c main_arg29 (by decide)).trans (X12_main_arg29 m c)
theorem X14_main_arg29 (c : Dev nD) : X14 m c (Proc.devRef .tc main_arg29) = m ((c : Thread nD τ).loc main_arg29) := (X14_of_ne m c main_arg29 (by decide)).trans (X13_main_arg29 m c)
theorem X15_main_arg29 (c : Dev nD) : X15 m c (Proc.devRef .tc main_arg29) = m ((c : Thread nD τ).loc main_arg29) := (X15_of m c main_arg29 (by decide)).trans (X14_main_arg29 m c)
theorem X16_main_arg29 (c : Dev nD) : X16 m c (Proc.devRef .tc main_arg29) = m ((c : Thread nD τ).loc main_arg29) := (X16_of_ne m c main_arg29 (by decide)).trans (X15_main_arg29 m c)
theorem X17_main_arg29 (c : Dev nD) : X17 m c (Proc.devRef .tc main_arg29) = m ((c : Thread nD τ).loc main_arg29) := (X17_of m c main_arg29 (by decide)).trans (X16_main_arg29 m c)
theorem X18_main_arg29 (c : Dev nD) : X18 m c (Proc.devRef .tc main_arg29) = m ((c : Thread nD τ).loc main_arg29) := (X18_of_ne m c main_arg29 (by decide)).trans (X17_main_arg29 m c)
theorem X19_main_arg29 (c : Dev nD) : X19 m c (Proc.devRef .tc main_arg29) = m ((c : Thread nD τ).loc main_arg29) := (X19_of m c main_arg29 (by decide)).trans (X18_main_arg29 m c)
theorem X20_main_arg29 (c : Dev nD) : X20 m c (Proc.devRef .tc main_arg29) = m ((c : Thread nD τ).loc main_arg29) := (X20_of_ne m c main_arg29 (by decide)).trans (X19_main_arg29 m c)

end Cert.Kernel.Fr

end
-- ==== Proof.KiPool0.lean ====
/-
  Region 0 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out0_1`), the input's buffer is as it was, and nothing else is touched: this
  is the body obligation the pipeline library asks for, at every grid point.
-/
import proofs.«180909_j89275190215119_1_alg».proof.Proof.Gen.KernelIdeal.Launch
import proofs.«180909_j89275190215119_1_alg».proof.Proof.Gen.KernelIdeal.Skeleton
import proofs.«180909_j89275190215119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body's two accesses: the whole input block and the whole output block. -/
abbrev r0_0 : Rect S64x100x512 := Rect.unit (s := S64x100x512) ![0, 0, 0] S64x100x512.size inb_S64x100x512_S64x100x512_0_0_0
abbrev r0_1 : Rect S64x512 := Rect.unit (s := S64x512) ![0, 0] S64x512.size inb_S64x512_S64x512_0_0

/-- What the body leaves in the output's staging buffer, as a function of the input block: its one store. -/
def out0_1 (x0 : Vec F S64x100x512 .f32) : Vec F S64x512 .f32 :=
  View.canon [⟨r0_1, k0_pay1 (View.ld x0 r0_0)⟩]

/-- The one store covers the output block. -/
theorem cover0_1 (p0 : Vec F S64x512 .f32) (y : S64x512.Idx) :
    ∃ pc ∈ ([⟨r0_1, p0⟩] : List (View.Piece (Elt F) S64x512 .f32)), y ∈ pc.1.set :=
  View.cover_of_tiled [⟨r0_1, p0⟩] S64x512.size (by rfl) y

set_option maxHeartbeats 1000000 in
/-- The kernel body on whole staging buffers, the input's holding `x0` and the output's anything, runs to its end with the
    input's as it was and the output's at `out0_1 x0`. -/
theorem sound_kernel0 (c : Dev nD) (E : Set ℕ) (i : grid0.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__pool_kernel i arg1 harg1 arg2 harg2) K := by
  simp only [cc0__pool_kernel_eq_skeleton]; unfold cc0__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of this region on core `c`: the arrays as the region finds them; after the body at point `t` the
    input's buffer at its block and the output's at `out0_1` of it; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KiPool1.lean ====
/-
  Region 1 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out1_1`), the input's buffer is as it was, and nothing else is touched: this
  is the body obligation the pipeline library asks for, at every grid point.
-/
import proofs.«180909_j89275190215119_1_alg».proof.Proof.Gen.KernelIdeal.Launch
import proofs.«180909_j89275190215119_1_alg».proof.Proof.Gen.KernelIdeal.Skeleton
import proofs.«180909_j89275190215119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's two accesses: the whole input block and the whole output block. -/
abbrev r1_0 : Rect S64x100x512 := Rect.unit (s := S64x100x512) ![0, 0, 0] S64x100x512.size inb_S64x100x512_S64x100x512_0_0_0
abbrev r1_1 : Rect S64x512 := Rect.unit (s := S64x512) ![0, 0] S64x512.size inb_S64x512_S64x512_0_0

/-- What the body leaves in the output's staging buffer, as a function of the input block: its one store. -/
def out1_1 (x0 : Vec F S64x100x512 .f32) : Vec F S64x512 .f32 :=
  View.canon [⟨r1_1, k1_pay1 (View.ld x0 r1_0)⟩]

/-- The one store covers the output block. -/
theorem cover1_1 (p0 : Vec F S64x512 .f32) (y : S64x512.Idx) :
    ∃ pc ∈ ([⟨r1_1, p0⟩] : List (View.Piece (Elt F) S64x512 .f32)), y ∈ pc.1.set :=
  View.cover_of_tiled [⟨r1_1, p0⟩] S64x512.size (by rfl) y

set_option maxHeartbeats 1000000 in
/-- The kernel body on whole staging buffers, the input's holding `x0` and the output's anything, runs to its end with the
    input's as it was and the output's at `out1_1 x0`. -/
theorem sound_kernel1 (c : Dev nD) (E : Set ℕ) (i : grid1.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__pool_kernel i arg1 harg1 arg2 harg2) K := by
  simp only [cc1__pool_kernel_eq_skeleton]; unfold cc1__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of this region on core `c`: the arrays as the region finds them; after the body at point `t` the
    input's buffer at its block and the output's at `out1_1` of it; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so the body's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KiPool2.lean ====
/-
  Region 2 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out2_1`), the input's buffer is as it was, and nothing else is touched: this
  is the body obligation the pipeline library asks for, at every grid point.
-/
import proofs.«180909_j89275190215119_1_alg».proof.Proof.Gen.KernelIdeal.Launch
import proofs.«180909_j89275190215119_1_alg».proof.Proof.Gen.KernelIdeal.Skeleton
import proofs.«180909_j89275190215119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The body's two accesses: the whole input block and the whole output block. -/
abbrev r2_0 : Rect S64x100x512 := Rect.unit (s := S64x100x512) ![0, 0, 0] S64x100x512.size inb_S64x100x512_S64x100x512_0_0_0
abbrev r2_1 : Rect S64x512 := Rect.unit (s := S64x512) ![0, 0] S64x512.size inb_S64x512_S64x512_0_0

/-- What the body leaves in the output's staging buffer, as a function of the input block: its one store. -/
def out2_1 (x0 : Vec F S64x100x512 .f32) : Vec F S64x512 .f32 :=
  View.canon [⟨r2_1, k2_pay1 (View.ld x0 r2_0)⟩]

/-- The one store covers the output block. -/
theorem cover2_1 (p0 : Vec F S64x512 .f32) (y : S64x512.Idx) :
    ∃ pc ∈ ([⟨r2_1, p0⟩] : List (View.Piece (Elt F) S64x512 .f32)), y ∈ pc.1.set :=
  View.cover_of_tiled [⟨r2_1, p0⟩] S64x512.size (by rfl) y

set_option maxHeartbeats 1000000 in
/-- The kernel body on whole staging buffers, the input's holding `x0` and the output's anything, runs to its end with the
    input's as it was and the output's at `out2_1 x0`. -/
theorem sound_kernel2 (c : Dev nD) (E : Set ℕ) (i : grid2.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__pool_kernel i arg1 harg1 arg2 harg2) K := by
  simp only [cc2__pool_kernel_eq_skeleton]; unfold cc2__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of this region on core `c`: the arrays as the region finds them; after the body at point `t` the
    input's buffer at its block and the output's at `out2_1` of it; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's buffer holds its block, so the body's run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KiPool3.lean ====
/-
  Region 3 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out3_1`), the input's buffer is as it was, and nothing else is touched: this
  is the body obligation the pipeline library asks for, at every grid point.
-/
import proofs.«180909_j89275190215119_1_alg».proof.Proof.Gen.KernelIdeal.Launch
import proofs.«180909_j89275190215119_1_alg».proof.Proof.Gen.KernelIdeal.Skeleton
import proofs.«180909_j89275190215119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The body's two accesses: the whole input block and the whole output block. -/
abbrev r3_0 : Rect S64x100x512 := Rect.unit (s := S64x100x512) ![0, 0, 0] S64x100x512.size inb_S64x100x512_S64x100x512_0_0_0
abbrev r3_1 : Rect S64x512 := Rect.unit (s := S64x512) ![0, 0] S64x512.size inb_S64x512_S64x512_0_0

/-- What the body leaves in the output's staging buffer, as a function of the input block: its one store. -/
def out3_1 (x0 : Vec F S64x100x512 .f32) : Vec F S64x512 .f32 :=
  View.canon [⟨r3_1, k3_pay1 (View.ld x0 r3_0)⟩]

/-- The one store covers the output block. -/
theorem cover3_1 (p0 : Vec F S64x512 .f32) (y : S64x512.Idx) :
    ∃ pc ∈ ([⟨r3_1, p0⟩] : List (View.Piece (Elt F) S64x512 .f32)), y ∈ pc.1.set :=
  View.cover_of_tiled [⟨r3_1, p0⟩] S64x512.size (by rfl) y

set_option maxHeartbeats 1000000 in
/-- The kernel body on whole staging buffers, the input's holding `x0` and the output's anything, runs to its end with the
    input's as it was and the output's at `out3_1 x0`. -/
theorem sound_kernel3 (c : Dev nD) (E : Set ℕ) (i : grid3.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__pool_kernel i arg1 harg1 arg2 harg2) K := by
  simp only [cc3__pool_kernel_eq_skeleton]; unfold cc3__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The proof data of this region on core `c`: the arrays as the region finds them; after the body at point `t` the
    input's buffer at its block and the output's at `out3_1` of it; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's buffer holds its block, so the body's run applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ (grid3.coords t) _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KiPool4.lean ====
/-
  Region 4 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out4_1`), the input's buffer is as it was, and nothing else is touched: this
  is the body obligation the pipeline library asks for, at every grid point.
-/
import proofs.«180909_j89275190215119_1_alg».proof.Proof.Gen.KernelIdeal.Launch
import proofs.«180909_j89275190215119_1_alg».proof.Proof.Gen.KernelIdeal.Skeleton
import proofs.«180909_j89275190215119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The body's two accesses: the whole input block and the whole output block. -/
abbrev r4_0 : Rect S64x100x512 := Rect.unit (s := S64x100x512) ![0, 0, 0] S64x100x512.size inb_S64x100x512_S64x100x512_0_0_0
abbrev r4_1 : Rect S64x512 := Rect.unit (s := S64x512) ![0, 0] S64x512.size inb_S64x512_S64x512_0_0

/-- What the body leaves in the output's staging buffer, as a function of the input block: its one store. -/
def out4_1 (x0 : Vec F S64x100x512 .f32) : Vec F S64x512 .f32 :=
  View.canon [⟨r4_1, k4_pay1 (View.ld x0 r4_0)⟩]

/-- The one store covers the output block. -/
theorem cover4_1 (p0 : Vec F S64x512 .f32) (y : S64x512.Idx) :
    ∃ pc ∈ ([⟨r4_1, p0⟩] : List (View.Piece (Elt F) S64x512 .f32)), y ∈ pc.1.set :=
  View.cover_of_tiled [⟨r4_1, p0⟩] S64x512.size (by rfl) y

set_option maxHeartbeats 1000000 in
/-- The kernel body on whole staging buffers, the input's holding `x0` and the output's anything, runs to its end with the
    input's as it was and the output's at `out4_1 x0`. -/
theorem sound_kernel4 (c : Dev nD) (E : Set ℕ) (i : grid4.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__pool_kernel i arg1 harg1 arg2 harg2) K := by
  simp only [cc4__pool_kernel_eq_skeleton]; unfold cc4__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-- The proof data of this region on core `c`: the arrays as the region finds them; after the body at point `t` the
    input's buffer at its block and the output's at `out4_1` of it; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

theorem before4_0 (c : Dev nD) (t : Fin cfg4.N) (d) : (dat4 V c).before 0 t d = iblk4 V c 0 t :=
  before4_0_of V (dat4 V c) (A_eq4 V c 0) (after4_0 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

/-- The body at any point: the input's buffer holds its block, so the body's run applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ (grid4.coords t) _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KiPool5.lean ====
/-
  Region 5 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out5_1`), the input's buffer is as it was, and nothing else is touched: this
  is the body obligation the pipeline library asks for, at every grid point.
-/
import proofs.«180909_j89275190215119_1_alg».proof.Proof.Gen.KernelIdeal.Launch
import proofs.«180909_j89275190215119_1_alg».proof.Proof.Gen.KernelIdeal.Skeleton
import proofs.«180909_j89275190215119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's current staging buffer holds its block at every point, for any proof data whose array is
    `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The body's two accesses: the whole input block and the whole output block. -/
abbrev r5_0 : Rect S64x100x512 := Rect.unit (s := S64x100x512) ![0, 0, 0] S64x100x512.size inb_S64x100x512_S64x100x512_0_0_0
abbrev r5_1 : Rect S64x512 := Rect.unit (s := S64x512) ![0, 0] S64x512.size inb_S64x512_S64x512_0_0

/-- What the body leaves in the output's staging buffer, as a function of the input block: its one store. -/
def out5_1 (x0 : Vec F S64x100x512 .f32) : Vec F S64x512 .f32 :=
  View.canon [⟨r5_1, k5_pay1 (View.ld x0 r5_0)⟩]

/-- The one store covers the output block. -/
theorem cover5_1 (p0 : Vec F S64x512 .f32) (y : S64x512.Idx) :
    ∃ pc ∈ ([⟨r5_1, p0⟩] : List (View.Piece (Elt F) S64x512 .f32)), y ∈ pc.1.set :=
  View.cover_of_tiled [⟨r5_1, p0⟩] S64x512.size (by rfl) y

set_option maxHeartbeats 1000000 in
/-- The kernel body on whole staging buffers, the input's holding `x0` and the output's anything, runs to its end with the
    input's as it was and the output's at `out5_1 x0`. -/
theorem sound_kernel5 (c : Dev nD) (E : Set ℕ) (i : grid5.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out5_1 x0)) -∗ K ⟨⟩))
      ⊢ wp frame (wpE (defs₀ (F := F)) Variants.none c none) E (cc5__pool_kernel i arg1 harg1 arg2 harg2) K := by
  simp only [cc5__pool_kernel_eq_skeleton]; unfold cc5__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-- The proof data of this region on core `c`: the arrays as the region finds them; after the body at point `t` the
    input's buffer at its block and the output's at `out5_1` of it; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = out5_1 (iblk5 V c 0 t) := by dsimp only [dat5]

theorem before5_0 (c : Dev nD) (t : Fin cfg5.N) (d) : (dat5 V c).before 0 t d = iblk5 V c 0 t :=
  before5_0_of V (dat5 V c) (A_eq5 V c 0) (after5_0 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t))

/-- The body at any point: the input's buffer holds its block, so the body's run applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  iintro ⟨HΦ, Ho, ⟨%d0, H0⟩, ⟨%d1, H1⟩⟩
  iapply (sound_kernel5 c Set.univ (grid5.coords t) _ _ _ _ (iblk5 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KiPool6.lean ====
/-
  Region 6 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out6_1`), the input's buffer is as it was, and nothing else is touched: this
  is the body obligation the pipeline library asks for, at every grid point.
-/
import proofs.«180909_j89275190215119_1_alg».proof.Proof.Gen.KernelIdeal.Launch
import proofs.«180909_j89275190215119_1_alg».proof.Proof.Gen.KernelIdeal.Skeleton
import proofs.«180909_j89275190215119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The input window's current staging buffer holds its block at every point, for any proof data whose array is
    `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The body's two accesses: the whole input block and the whole output block. -/
abbrev r6_0 : Rect S64x100x512 := Rect.unit (s := S64x100x512) ![0, 0, 0] S64x100x512.size inb_S64x100x512_S64x100x512_0_0_0
abbrev r6_1 : Rect S64x512 := Rect.unit (s := S64x512) ![0, 0] S64x512.size inb_S64x512_S64x512_0_0

/-- What the body leaves in the output's staging buffer, as a function of the input block: its one store. -/
def out6_1 (x0 : Vec F S64x100x512 .f32) : Vec F S64x512 .f32 :=
  View.canon [⟨r6_1, k6_pay1 (View.ld x0 r6_0)⟩]

/-- The one store covers the output block. -/
theorem cover6_1 (p0 : Vec F S64x512 .f32) (y : S64x512.Idx) :
    ∃ pc ∈ ([⟨r6_1, p0⟩] : List (View.Piece (Elt F) S64x512 .f32)), y ∈ pc.1.set :=
  View.cover_of_tiled [⟨r6_1, p0⟩] S64x512.size (by rfl) y

set_option maxHeartbeats 1000000 in
/-- The kernel body on whole staging buffers, the input's holding `x0` and the output's anything, runs to its end with the
    input's as it was and the output's at `out6_1 x0`. -/
theorem sound_kernel6 (c : Dev nD) (E : Set ℕ) (i : grid6.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out6_1 x0)) -∗ K ⟨⟩))
      ⊢ wp frame (wpE (defs₀ (F := F)) Variants.none c none) E (cc6__pool_kernel i arg1 harg1 arg2 harg2) K := by
  simp only [cc6__pool_kernel_eq_skeleton]; unfold cc6__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover6_1 _)

/-- The proof data of this region on core `c`: the arrays as the region finds them; after the body at point `t` the
    input's buffer at its block and the output's at `out6_1` of it; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => out6_1 (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = out6_1 (iblk6 V c 0 t) := by dsimp only [dat6]

theorem before6_0 (c : Dev nD) (t : Fin cfg6.N) (d) : (dat6 V c).before 0 t d = iblk6 V c 0 t :=
  before6_0_of V (dat6 V c) (A_eq6 V c 0) (after6_0 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

/-- The body at any point: the input's buffer holds its block, so the body's run applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1]
  iintro ⟨HΦ, Ho, ⟨%d0, H0⟩, ⟨%d1, H1⟩⟩
  iapply (sound_kernel6 c Set.univ (grid6.coords t) _ _ _ _ (iblk6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KiPool7.lean ====
/-
  Region 7 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out7_1`), the input's buffer is as it was, and nothing else is touched: this
  is the body obligation the pipeline library asks for, at every grid point.
-/
import proofs.«180909_j89275190215119_1_alg».proof.Proof.Gen.KernelIdeal.Launch
import proofs.«180909_j89275190215119_1_alg».proof.Proof.Gen.KernelIdeal.Skeleton
import proofs.«180909_j89275190215119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point, for any proof data whose array is
    `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The body's two accesses: the whole input block and the whole output block. -/
abbrev r7_0 : Rect S64x100x512 := Rect.unit (s := S64x100x512) ![0, 0, 0] S64x100x512.size inb_S64x100x512_S64x100x512_0_0_0
abbrev r7_1 : Rect S64x512 := Rect.unit (s := S64x512) ![0, 0] S64x512.size inb_S64x512_S64x512_0_0

/-- What the body leaves in the output's staging buffer, as a function of the input block: its one store. -/
def out7_1 (x0 : Vec F S64x100x512 .f32) : Vec F S64x512 .f32 :=
  View.canon [⟨r7_1, k7_pay1 (View.ld x0 r7_0)⟩]

/-- The one store covers the output block. -/
theorem cover7_1 (p0 : Vec F S64x512 .f32) (y : S64x512.Idx) :
    ∃ pc ∈ ([⟨r7_1, p0⟩] : List (View.Piece (Elt F) S64x512 .f32)), y ∈ pc.1.set :=
  View.cover_of_tiled [⟨r7_1, p0⟩] S64x512.size (by rfl) y

set_option maxHeartbeats 1000000 in
/-- The kernel body on whole staging buffers, the input's holding `x0` and the output's anything, runs to its end with the
    input's as it was and the output's at `out7_1 x0`. -/
theorem sound_kernel7 (c : Dev nD) (E : Set ℕ) (i : grid7.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out7_1 x0)) -∗ K ⟨⟩))
      ⊢ wp frame (wpE (defs₀ (F := F)) Variants.none c none) E (cc7__pool_kernel i arg1 harg1 arg2 harg2) K := by
  simp only [cc7__pool_kernel_eq_skeleton]; unfold cc7__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover7_1 _)

/-- The proof data of this region on core `c`: the arrays as the region finds them; after the body at point `t` the
    input's buffer at its block and the output's at `out7_1` of it; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => out7_1 (iblk7 V c 0 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = out7_1 (iblk7 V c 0 t) := by dsimp only [dat7]

theorem before7_0 (c : Dev nD) (t : Fin cfg7.N) (d) : (dat7 V c).before 0 t d = iblk7 V c 0 t :=
  before7_0_of V (dat7 V c) (A_eq7 V c 0) (after7_0 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t))

/-- The body at any point: the input's buffer holds its block, so the body's run applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1]
  iintro ⟨HΦ, Ho, ⟨%d0, H0⟩, ⟨%d1, H1⟩⟩
  iapply (sound_kernel7 c Set.univ (grid7.coords t) _ _ _ _ (iblk7 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KiPool8.lean ====
/-
  Region 8 of the program (a mean-pool kernel over a grid of 16 row blocks): its half of the frame proof, at a
  parameter `V`, the contents of the core's buffers when the region is entered.
  The body loads its whole input block (64 rows × 100 positions × 512 features), sums over the 100 positions, divides
  by 100 and stores the 64 × 512 result over the whole output block. So after the body the output's staging buffer holds
  one function of the input block (`out8_1`), the input's buffer is as it was, and nothing else is touched: this
  is the body obligation the pipeline library asks for, at every grid point.
-/
import proofs.«180909_j89275190215119_1_alg».proof.Proof.Gen.KernelIdeal.Launch
import proofs.«180909_j89275190215119_1_alg».proof.Proof.Gen.KernelIdeal.Skeleton
import proofs.«180909_j89275190215119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The input window's current staging buffer holds its block at every point, for any proof data whose array is
    `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The body's two accesses: the whole input block and the whole output block. -/
abbrev r8_0 : Rect S64x100x512 := Rect.unit (s := S64x100x512) ![0, 0, 0] S64x100x512.size inb_S64x100x512_S64x100x512_0_0_0
abbrev r8_1 : Rect S64x512 := Rect.unit (s := S64x512) ![0, 0] S64x512.size inb_S64x512_S64x512_0_0

/-- What the body leaves in the output's staging buffer, as a function of the input block: its one store. -/
def out8_1 (x0 : Vec F S64x100x512 .f32) : Vec F S64x512 .f32 :=
  View.canon [⟨r8_1, k8_pay1 (View.ld x0 r8_0)⟩]

/-- The one store covers the output block. -/
theorem cover8_1 (p0 : Vec F S64x512 .f32) (y : S64x512.Idx) :
    ∃ pc ∈ ([⟨r8_1, p0⟩] : List (View.Piece (Elt F) S64x512 .f32)), y ∈ pc.1.set :=
  View.cover_of_tiled [⟨r8_1, p0⟩] S64x512.size (by rfl) y

set_option maxHeartbeats 1000000 in
/-- The kernel body on whole staging buffers, the input's holding `x0` and the output's anything, runs to its end with the
    input's as it was and the output's at `out8_1 x0`. -/
theorem sound_kernel8 (c : Dev nD) (E : Set ℕ) (i : grid8.Coords) (arg1 : Memref sig .tc .vmem S64x100x512 .f32) (harg1 : arg1.IsWhole) (arg2 : Memref sig .tc .vmem S64x512 .f32) (harg2 : arg2.IsWhole)
    (x0 : Vec F S64x100x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out8_1 x0)) -∗ K ⟨⟩))
      ⊢ wp frame (wpE (defs₀ (F := F)) Variants.none c none) E (cc8__pool_kernel i arg1 harg1 arg2 harg2) K := by
  simp only [cc8__pool_kernel_eq_skeleton]; unfold cc8__pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover8_1 _)

/-- The proof data of this region on core `c`: the arrays as the region finds them; after the body at point `t` the
    input's buffer at its block and the output's at `out8_1` of it; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => out8_1 (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = out8_1 (iblk8 V c 0 t) := by dsimp only [dat8]

theorem before8_0 (c : Dev nD) (t : Fin cfg8.N) (d) : (dat8 V c).before 0 t d = iblk8 V c 0 t :=
  before8_0_of V (dat8 V c) (A_eq8 V c 0) (after8_0 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t))

/-- The body at any point: the input's buffer holds its block, so the body's run applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0]
  rw [show (dat8 V c).Φ t.succ = (dat8 V c).Φ t.castSucc from rfl,
    show (dat8 V c).owesAt () t.succ = (dat8 V c).owesAt () t.castSucc from rfl,
    after8_0, after8_1]
  iintro ⟨HΦ, Ho, ⟨%d0, H0⟩, ⟨%d1, H1⟩⟩
  iapply (sound_kernel8 c Set.univ (grid8.coords t) _ _ _ _ (iblk8 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Fr

end
-- ==== Proof.KiMlp.lean ====
/-
  Region 9 of the program (the three-layer perceptron over a grid of 8 row blocks): its half of the frame proof, at a
  parameter `V`, the contents of the core's buffers when the region is entered.
  The body loads its whole row block (128 × 6144), the three weight matrices and the three bias vectors, computes
  max(x·W1 + b1, 0), max(·W2 + b2, 0), ·W3 + b3 and stores the 128 × 128 result over the whole output block. So after
  the body the output's staging buffer holds one function of the seven input blocks (`out9_7`), the inputs' buffers are
  as they were, and nothing else is touched: the body obligation the pipeline library asks for, at every grid point.
  The weights and biases have a constant block index: they are fetched at the first point only, and the library's lemma
  on unfetched inputs says their buffers still hold the block at every later point.
-/
import proofs.«180909_j89275190215119_1_alg».proof.Proof.Gen.KernelIdeal.Launch
import proofs.«180909_j89275190215119_1_alg».proof.Proof.Gen.KernelIdeal.Skeleton
import proofs.«180909_j89275190215119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Each input window's current staging buffer holds its block at every point, fetched there or not, for any proof
    data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- The body's accesses: every buffer whole. -/
abbrev r9_0 : Rect S128x6144 := Rect.unit (s := S128x6144) ![0, 0] S128x6144.size inb_S128x6144_S128x6144_0_0
abbrev r9_1 : Rect S6144x512 := Rect.unit (s := S6144x512) ![0, 0] S6144x512.size inb_S6144x512_S6144x512_0_0
abbrev r9_2 : Rect S512 := Rect.unit (s := S512) ![0] S512.size inb_S512_S512_0
abbrev r9_3 : Rect S512x256 := Rect.unit (s := S512x256) ![0, 0] S512x256.size inb_S512x256_S512x256_0_0
abbrev r9_4 : Rect S256 := Rect.unit (s := S256) ![0] S256.size inb_S256_S256_0
abbrev r9_5 : Rect S256x128 := Rect.unit (s := S256x128) ![0, 0] S256x128.size inb_S256x128_S256x128_0_0
abbrev r9_6 : Rect S128 := Rect.unit (s := S128) ![0] S128.size inb_S128_S128_0
abbrev r9_7 : Rect S128x128 := Rect.unit (s := S128x128) ![0, 0] S128x128.size inb_S128x128_S128x128_0_0

/-- What the body leaves in the output's staging buffer, as a function of the input blocks: its one store. -/
def out9_7 (x0 : Vec F S128x6144 .f32) (x1 : Vec F S6144x512 .f32) (x2 : Vec F S512 .f32) (x3 : Vec F S512x256 .f32) (x4 : Vec F S256 .f32) (x5 : Vec F S256x128 .f32) (x6 : Vec F S128 .f32) : Vec F S128x128 .f32 :=
  View.canon [⟨r9_7, k9_pay1 (View.ld x0 r9_0) (View.ld x1 r9_1) (View.ld x2 r9_2) (View.ld x3 r9_3) (View.ld x4 r9_4) (View.ld x5 r9_5) (View.ld x6 r9_6)⟩]

/-- The one store covers the output block. -/
theorem cover9_7 (p0 : Vec F S128x128 .f32) (y : S128x128.Idx) :
    ∃ pc ∈ ([⟨r9_7, p0⟩] : List (View.Piece (Elt F) S128x128 .f32)), y ∈ pc.1.set :=
  View.cover_of_tiled [⟨r9_7, p0⟩] S128x128.size (by rfl) y

set_option maxHeartbeats 1000000 in
/-- The kernel body on whole staging buffers, the inputs' holding `x0 … x6` and the output's anything, runs to its end
    with the inputs' as they were and the output's at `out9_7` of them. -/
theorem sound_kernel9 (c : Dev nD) (E : Set ℕ) (i : grid9.Coords) (arg1 : Memref sig .tc .vmem S128x6144 .f32) (harg1 : arg1.IsWhole) (arg2 : Memref sig .tc .vmem S6144x512 .f32) (harg2 : arg2.IsWhole) (arg3 : Memref sig .tc .vmem S512 .f32) (harg3 : arg3.IsWhole) (arg4 : Memref sig .tc .vmem S512x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S128x128 .f32) (harg8 : arg8.IsWhole)
    (x0 : Vec F S128x6144 .f32) (x1 : Vec F S6144x512 .f32) (x2 : Vec F S512 .f32) (x3 : Vec F S512x256 .f32) (x4 : Vec F S256 .f32) (x5 : Vec F S256x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E (cc9__mlp_kernel i arg1 harg1 arg2 harg2 arg3 harg3 arg4 harg4 arg5 harg5 arg6 harg6 arg7 harg7 arg8 harg8) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover9_7 _)

/-- The proof data of this region on core `c`: the arrays as the region finds them; after the body at point `t` each
    input's buffer at its block and the output's at `out9_7` of them; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => out9_7 (iblk9 V c 0 t) (iblk9 V c 1 t) (iblk9 V c 2 t) (iblk9 V c 3 t) (iblk9 V c 4 t) (iblk9 V c 5 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = out9_7 (iblk9 V c 0 t) (iblk9 V c 1 t) (iblk9 V c 2 t) (iblk9 V c 3 t) (iblk9 V c 4 t) (iblk9 V c 5 t) (iblk9 V c 6 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so the body's run applies; the invariant and what the
    core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ (grid9.coords t) _ _ _ _ _ _ _ _ _ _ _ _ _ _ _ _ (iblk9 V c 0 t) (iblk9 V c 1 t) (iblk9 V c 2 t) (iblk9 V c 3 t) (iblk9 V c 4 t) (iblk9 V c 5 t) (iblk9 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Fr

end
-- ==== Proof.KiFold.lean ====
/-
  The contents of the core's buffers at every boundary between two items of the program — a stretch of host operations,
  or one of the ten kernel regions — as a fold from the launch memory: a host stretch leaves what its operations compute
  (`StableHlo.after`); a region leaves its arrays at what its write-backs leave (the input arrays as entered, the output
  array block by block at what the body stored) and every other buffer as entered. No host operation writes an argument
  and no region changes one (a region either reads it through an input window or never touches it), so every argument's
  buffer at the last boundary is its launch contents. Also here: every region's proof data at its entry contents, and
  what rides beside the buffers through every item (the generator register and what the core owes: nothing).
-/
import proofs.«180909_j89275190215119_1_alg».proof.Proof.KiPool0
import proofs.«180909_j89275190215119_1_alg».proof.Proof.KiPool1
import proofs.«180909_j89275190215119_1_alg».proof.Proof.KiPool2
import proofs.«180909_j89275190215119_1_alg».proof.Proof.KiPool3
import proofs.«180909_j89275190215119_1_alg».proof.Proof.KiPool4
import proofs.«180909_j89275190215119_1_alg».proof.Proof.KiPool5
import proofs.«180909_j89275190215119_1_alg».proof.Proof.KiPool6
import proofs.«180909_j89275190215119_1_alg».proof.Proof.KiPool7
import proofs.«180909_j89275190215119_1_alg».proof.Proof.KiPool8
import proofs.«180909_j89275190215119_1_alg».proof.Proof.KiMlp
import proofs.«180909_j89275190215119_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev X0 (c : Dev nD) : Valuation τ sig (Elt F) := fun b => m (c, b)

/-- After the host stretch before region 0 (the region's entry contents), -/
abbrev X1 (c : Dev nD) : Valuation τ sig (Elt F) := StableHlo.after hostOps0 (X0 m c)
/-- the same read at the TensorCore's references, -/
abbrev Y1 : (c : Dev nD) → (b : Ref sig .tc) → Buf (Elt F) ((c : Thread nD τ).loc b) := fun c b => X1 m c b
/-- and at region 0's exit: its arrays at what the pipeline leaves, every other buffer as entered. -/
def X2 (c : Dev nD) : Valuation τ sig (Elt F) :=
  Pipeline.withArrays spec0 c (X1 m c) fun w => (dat0 (Y1 m) c).arrAt w cfg0.N
theorem X2_arr (c : Dev nD) (w : Fin cfg0.W) :
    X2 m c (Proc.devRef .tc (Pipeline.arrRef spec0 w)) = (dat0 (Y1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev Y2 : (c : Dev nD) → (b : Ref sig .tc) → Buf (Elt F) ((c : Thread nD τ).loc b) := fun c b => X2 m c b
theorem hF0 (c : Dev nD) (w : Fin cfg0.W) : (dat0 (Y1 m) c).arrAt w cfg0.N = Y2 m c (Pipeline.arrRef spec0 w) :=
  (X2_arr m c w).symm
theorem hrest0 (c : Dev nD) : ∀ b, b ∉ Finset.univ.image (Pipeline.arrRef spec0) → Y2 m c b = Y1 m c b :=
  fun b hb => X2_of_ne m c b fun w e => hb (Finset.mem_image.mpr ⟨w, Finset.mem_univ _, e⟩)
/-- A buffer the stretch does not write is as before it. -/
theorem X1_of (c : Dev nD) (r : Ref sig .tc) (h : r ∉ hostOps0_W) : X1 m c (Proc.devRef .tc r) = X0 m c (Proc.devRef .tc r) :=
  StableHlo.after_of_writes_sub hostOps0 _ hostOps0_writes h

/-- After the host stretch before region 1 (the region's entry contents), -/
abbrev X3 (c : Dev nD) : Valuation τ sig (Elt F) := StableHlo.after hostOps1 (X2 m c)
/-- the same read at the TensorCore's references, -/
abbrev Y3 : (c : Dev nD) → (b : Ref sig .tc) → Buf (Elt F) ((c : Thread nD τ).loc b) := fun c b => X3 m c b
/-- and at region 1's exit: its arrays at what the pipeline leaves, every other buffer as entered. -/
def X4 (c : Dev nD) : Valuation τ sig (Elt F) :=
  Pipeline.withArrays spec1 c (X3 m c) fun w => (dat1 (Y3 m) c).arrAt w cfg1.N
theorem X4_arr (c : Dev nD) (w : Fin cfg1.W) :
    X4 m c (Proc.devRef .tc (Pipeline.arrRef spec1 w)) = (dat1 (Y3 m) c).arrAt w cfg1.N := by
  unfold X4; exact Pipeline.withArrays_arr spec1 launch1.win.arr_inj c _ _ w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
abbrev Y4 : (c : Dev nD) → (b : Ref sig .tc) → Buf (Elt F) ((c : Thread nD τ).loc b) := fun c b => X4 m c b
theorem hF1 (c : Dev nD) (w : Fin cfg1.W) : (dat1 (Y3 m) c).arrAt w cfg1.N = Y4 m c (Pipeline.arrRef spec1 w) :=
  (X4_arr m c w).symm
theorem hrest1 (c : Dev nD) : ∀ b, b ∉ Finset.univ.image (Pipeline.arrRef spec1) → Y4 m c b = Y3 m c b :=
  fun b hb => X4_of_ne m c b fun w e => hb (Finset.mem_image.mpr ⟨w, Finset.mem_univ _, e⟩)
/-- A buffer the stretch does not write is as before it. -/
theorem X3_of (c : Dev nD) (r : Ref sig .tc) (h : r ∉ hostOps1_W) : X3 m c (Proc.devRef .tc r) = X2 m c (Proc.devRef .tc r) :=
  StableHlo.after_of_writes_sub hostOps1 _ hostOps1_writes h

/-- After the host stretch before region 2 (the region's entry contents), -/
abbrev X5 (c : Dev nD) : Valuation τ sig (Elt F) := StableHlo.after hostOps2 (X4 m c)
/-- the same read at the TensorCore's references, -/
abbrev Y5 : (c : Dev nD) → (b : Ref sig .tc) → Buf (Elt F) ((c : Thread nD τ).loc b) := fun c b => X5 m c b
/-- and at region 2's exit: its arrays at what the pipeline leaves, every other buffer as entered. -/
def X6 (c : Dev nD) : Valuation τ sig (Elt F) :=
  Pipeline.withArrays spec2 c (X5 m c) fun w => (dat2 (Y5 m) c).arrAt w cfg2.N
theorem X6_arr (c : Dev nD) (w : Fin cfg2.W) :
    X6 m c (Proc.devRef .tc (Pipeline.arrRef spec2 w)) = (dat2 (Y5 m) c).arrAt w cfg2.N := by
  unfold X6; exact Pipeline.withArrays_arr spec2 launch2.win.arr_inj c _ _ w
theorem X6_of_ne (c : Dev nD) (b : Ref sig .tc) (hb : ∀ w, Pipeline.arrRef spec2 w ≠ b) :
    X6 m c (Proc.devRef .tc b) = X5 m c (Proc.devRef .tc b) := by
  unfold X6; exact Pipeline.withArrays_of_ne spec2 c _ _ b hb
abbrev Y6 : (c : Dev nD) → (b : Ref sig .tc) → Buf (Elt F) ((c : Thread nD τ).loc b) := fun c b => X6 m c b
theorem hF2 (c : Dev nD) (w : Fin cfg2.W) : (dat2 (Y5 m) c).arrAt w cfg2.N = Y6 m c (Pipeline.arrRef spec2 w) :=
  (X6_arr m c w).symm
theorem hrest2 (c : Dev nD) : ∀ b, b ∉ Finset.univ.image (Pipeline.arrRef spec2) → Y6 m c b = Y5 m c b :=
  fun b hb => X6_of_ne m c b fun w e => hb (Finset.mem_image.mpr ⟨w, Finset.mem_univ _, e⟩)
/-- A buffer the stretch does not write is as before it. -/
theorem X5_of (c : Dev nD) (r : Ref sig .tc) (h : r ∉ hostOps2_W) : X5 m c (Proc.devRef .tc r) = X4 m c (Proc.devRef .tc r) :=
  StableHlo.after_of_writes_sub hostOps2 _ hostOps2_writes h

/-- After the host stretch before region 3 (the region's entry contents), -/
abbrev X7 (c : Dev nD) : Valuation τ sig (Elt F) := StableHlo.after hostOps3 (X6 m c)
/-- the same read at the TensorCore's references, -/
abbrev Y7 : (c : Dev nD) → (b : Ref sig .tc) → Buf (Elt F) ((c : Thread nD τ).loc b) := fun c b => X7 m c b
/-- and at region 3's exit: its arrays at what the pipeline leaves, every other buffer as entered. -/
def X8 (c : Dev nD) : Valuation τ sig (Elt F) :=
  Pipeline.withArrays spec3 c (X7 m c) fun w => (dat3 (Y7 m) c).arrAt w cfg3.N
theorem X8_arr (c : Dev nD) (w : Fin cfg3.W) :
    X8 m c (Proc.devRef .tc (Pipeline.arrRef spec3 w)) = (dat3 (Y7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
abbrev Y8 : (c : Dev nD) → (b : Ref sig .tc) → Buf (Elt F) ((c : Thread nD τ).loc b) := fun c b => X8 m c b
theorem hF3 (c : Dev nD) (w : Fin cfg3.W) : (dat3 (Y7 m) c).arrAt w cfg3.N = Y8 m c (Pipeline.arrRef spec3 w) :=
  (X8_arr m c w).symm
theorem hrest3 (c : Dev nD) : ∀ b, b ∉ Finset.univ.image (Pipeline.arrRef spec3) → Y8 m c b = Y7 m c b :=
  fun b hb => X8_of_ne m c b fun w e => hb (Finset.mem_image.mpr ⟨w, Finset.mem_univ _, e⟩)
/-- A buffer the stretch does not write is as before it. -/
theorem X7_of (c : Dev nD) (r : Ref sig .tc) (h : r ∉ hostOps3_W) : X7 m c (Proc.devRef .tc r) = X6 m c (Proc.devRef .tc r) :=
  StableHlo.after_of_writes_sub hostOps3 _ hostOps3_writes h

/-- After the host stretch before region 4 (the region's entry contents), -/
abbrev X9 (c : Dev nD) : Valuation τ sig (Elt F) := StableHlo.after hostOps4 (X8 m c)
/-- the same read at the TensorCore's references, -/
abbrev Y9 : (c : Dev nD) → (b : Ref sig .tc) → Buf (Elt F) ((c : Thread nD τ).loc b) := fun c b => X9 m c b
/-- and at region 4's exit: its arrays at what the pipeline leaves, every other buffer as entered. -/
def X10 (c : Dev nD) : Valuation τ sig (Elt F) :=
  Pipeline.withArrays spec4 c (X9 m c) fun w => (dat4 (Y9 m) c).arrAt w cfg4.N
theorem X10_arr (c : Dev nD) (w : Fin cfg4.W) :
    X10 m c (Proc.devRef .tc (Pipeline.arrRef spec4 w)) = (dat4 (Y9 m) c).arrAt w cfg4.N := by
  unfold X10; exact Pipeline.withArrays_arr spec4 launch4.win.arr_inj c _ _ w
theorem X10_of_ne (c : Dev nD) (b : Ref sig .tc) (hb : ∀ w, Pipeline.arrRef spec4 w ≠ b) :
    X10 m c (Proc.devRef .tc b) = X9 m c (Proc.devRef .tc b) := by
  unfold X10; exact Pipeline.withArrays_of_ne spec4 c _ _ b hb
abbrev Y10 : (c : Dev nD) → (b : Ref sig .tc) → Buf (Elt F) ((c : Thread nD τ).loc b) := fun c b => X10 m c b
theorem hF4 (c : Dev nD) (w : Fin cfg4.W) : (dat4 (Y9 m) c).arrAt w cfg4.N = Y10 m c (Pipeline.arrRef spec4 w) :=
  (X10_arr m c w).symm
theorem hrest4 (c : Dev nD) : ∀ b, b ∉ Finset.univ.image (Pipeline.arrRef spec4) → Y10 m c b = Y9 m c b :=
  fun b hb => X10_of_ne m c b fun w e => hb (Finset.mem_image.mpr ⟨w, Finset.mem_univ _, e⟩)
/-- A buffer the stretch does not write is as before it. -/
theorem X9_of (c : Dev nD) (r : Ref sig .tc) (h : r ∉ hostOps4_W) : X9 m c (Proc.devRef .tc r) = X8 m c (Proc.devRef .tc r) :=
  StableHlo.after_of_writes_sub hostOps4 _ hostOps4_writes h

/-- After the host stretch before region 5 (the region's entry contents), -/
abbrev X11 (c : Dev nD) : Valuation τ sig (Elt F) := StableHlo.after hostOps5 (X10 m c)
/-- the same read at the TensorCore's references, -/
abbrev Y11 : (c : Dev nD) → (b : Ref sig .tc) → Buf (Elt F) ((c : Thread nD τ).loc b) := fun c b => X11 m c b
/-- and at region 5's exit: its arrays at what the pipeline leaves, every other buffer as entered. -/
def X12 (c : Dev nD) : Valuation τ sig (Elt F) :=
  Pipeline.withArrays spec5 c (X11 m c) fun w => (dat5 (Y11 m) c).arrAt w cfg5.N
theorem X12_arr (c : Dev nD) (w : Fin cfg5.W) :
    X12 m c (Proc.devRef .tc (Pipeline.arrRef spec5 w)) = (dat5 (Y11 m) c).arrAt w cfg5.N := by
  unfold X12; exact Pipeline.withArrays_arr spec5 launch5.win.arr_inj c _ _ w
theorem X12_of_ne (c : Dev nD) (b : Ref sig .tc) (hb : ∀ w, Pipeline.arrRef spec5 w ≠ b) :
    X12 m c (Proc.devRef .tc b) = X11 m c (Proc.devRef .tc b) := by
  unfold X12; exact Pipeline.withArrays_of_ne spec5 c _ _ b hb
abbrev Y12 : (c : Dev nD) → (b : Ref sig .tc) → Buf (Elt F) ((c : Thread nD τ).loc b) := fun c b => X12 m c b
theorem hF5 (c : Dev nD) (w : Fin cfg5.W) : (dat5 (Y11 m) c).arrAt w cfg5.N = Y12 m c (Pipeline.arrRef spec5 w) :=
  (X12_arr m c w).symm
theorem hrest5 (c : Dev nD) : ∀ b, b ∉ Finset.univ.image (Pipeline.arrRef spec5) → Y12 m c b = Y11 m c b :=
  fun b hb => X12_of_ne m c b fun w e => hb (Finset.mem_image.mpr ⟨w, Finset.mem_univ _, e⟩)
/-- A buffer the stretch does not write is as before it. -/
theorem X11_of (c : Dev nD) (r : Ref sig .tc) (h : r ∉ hostOps5_W) : X11 m c (Proc.devRef .tc r) = X10 m c (Proc.devRef .tc r) :=
  StableHlo.after_of_writes_sub hostOps5 _ hostOps5_writes h

/-- After the host stretch before region 6 (the region's entry contents), -/
abbrev X13 (c : Dev nD) : Valuation τ sig (Elt F) := StableHlo.after hostOps6 (X12 m c)
/-- the same read at the TensorCore's references, -/
abbrev Y13 : (c : Dev nD) → (b : Ref sig .tc) → Buf (Elt F) ((c : Thread nD τ).loc b) := fun c b => X13 m c b
/-- and at region 6's exit: its arrays at what the pipeline leaves, every other buffer as entered. -/
def X14 (c : Dev nD) : Valuation τ sig (Elt F) :=
  Pipeline.withArrays spec6 c (X13 m c) fun w => (dat6 (Y13 m) c).arrAt w cfg6.N
theorem X14_arr (c : Dev nD) (w : Fin cfg6.W) :
    X14 m c (Proc.devRef .tc (Pipeline.arrRef spec6 w)) = (dat6 (Y13 m) c).arrAt w cfg6.N := by
  unfold X14; exact Pipeline.withArrays_arr spec6 launch6.win.arr_inj c _ _ w
theorem X14_of_ne (c : Dev nD) (b : Ref sig .tc) (hb : ∀ w, Pipeline.arrRef spec6 w ≠ b) :
    X14 m c (Proc.devRef .tc b) = X13 m c (Proc.devRef .tc b) := by
  unfold X14; exact Pipeline.withArrays_of_ne spec6 c _ _ b hb
abbrev Y14 : (c : Dev nD) → (b : Ref sig .tc) → Buf (Elt F) ((c : Thread nD τ).loc b) := fun c b => X14 m c b
theorem hF6 (c : Dev nD) (w : Fin cfg6.W) : (dat6 (Y13 m) c).arrAt w cfg6.N = Y14 m c (Pipeline.arrRef spec6 w) :=
  (X14_arr m c w).symm
theorem hrest6 (c : Dev nD) : ∀ b, b ∉ Finset.univ.image (Pipeline.arrRef spec6) → Y14 m c b = Y13 m c b :=
  fun b hb => X14_of_ne m c b fun w e => hb (Finset.mem_image.mpr ⟨w, Finset.mem_univ _, e⟩)
/-- A buffer the stretch does not write is as before it. -/
theorem X13_of (c : Dev nD) (r : Ref sig .tc) (h : r ∉ hostOps6_W) : X13 m c (Proc.devRef .tc r) = X12 m c (Proc.devRef .tc r) :=
  StableHlo.after_of_writes_sub hostOps6 _ hostOps6_writes h

/-- After the host stretch before region 7 (the region's entry contents), -/
abbrev X15 (c : Dev nD) : Valuation τ sig (Elt F) := StableHlo.after hostOps7 (X14 m c)
/-- the same read at the TensorCore's references, -/
abbrev Y15 : (c : Dev nD) → (b : Ref sig .tc) → Buf (Elt F) ((c : Thread nD τ).loc b) := fun c b => X15 m c b
/-- and at region 7's exit: its arrays at what the pipeline leaves, every other buffer as entered. -/
def X16 (c : Dev nD) : Valuation τ sig (Elt F) :=
  Pipeline.withArrays spec7 c (X15 m c) fun w => (dat7 (Y15 m) c).arrAt w cfg7.N
theorem X16_arr (c : Dev nD) (w : Fin cfg7.W) :
    X16 m c (Proc.devRef .tc (Pipeline.arrRef spec7 w)) = (dat7 (Y15 m) c).arrAt w cfg7.N := by
  unfold X16; exact Pipeline.withArrays_arr spec7 launch7.win.arr_inj c _ _ w
theorem X16_of_ne (c : Dev nD) (b : Ref sig .tc) (hb : ∀ w, Pipeline.arrRef spec7 w ≠ b) :
    X16 m c (Proc.devRef .tc b) = X15 m c (Proc.devRef .tc b) := by
  unfold X16; exact Pipeline.withArrays_of_ne spec7 c _ _ b hb
abbrev Y16 : (c : Dev nD) → (b : Ref sig .tc) → Buf (Elt F) ((c : Thread nD τ).loc b) := fun c b => X16 m c b
theorem hF7 (c : Dev nD) (w : Fin cfg7.W) : (dat7 (Y15 m) c).arrAt w cfg7.N = Y16 m c (Pipeline.arrRef spec7 w) :=
  (X16_arr m c w).symm
theorem hrest7 (c : Dev nD) : ∀ b, b ∉ Finset.univ.image (Pipeline.arrRef spec7) → Y16 m c b = Y15 m c b :=
  fun b hb => X16_of_ne m c b fun w e => hb (Finset.mem_image.mpr ⟨w, Finset.mem_univ _, e⟩)
/-- A buffer the stretch does not write is as before it. -/
theorem X15_of (c : Dev nD) (r : Ref sig .tc) (h : r ∉ hostOps7_W) : X15 m c (Proc.devRef .tc r) = X14 m c (Proc.devRef .tc r) :=
  StableHlo.after_of_writes_sub hostOps7 _ hostOps7_writes h

/-- After the host stretch before region 8 (the region's entry contents), -/
abbrev X17 (c : Dev nD) : Valuation τ sig (Elt F) := StableHlo.after hostOps8 (X16 m c)
/-- the same read at the TensorCore's references, -/
abbrev Y17 : (c : Dev nD) → (b : Ref sig .tc) → Buf (Elt F) ((c : Thread nD τ).loc b) := fun c b => X17 m c b
/-- and at region 8's exit: its arrays at what the pipeline leaves, every other buffer as entered. -/
def X18 (c : Dev nD) : Valuation τ sig (Elt F) :=
  Pipeline.withArrays spec8 c (X17 m c) fun w => (dat8 (Y17 m) c).arrAt w cfg8.N
theorem X18_arr (c : Dev nD) (w : Fin cfg8.W) :
    X18 m c (Proc.devRef .tc (Pipeline.arrRef spec8 w)) = (dat8 (Y17 m) c).arrAt w cfg8.N := by
  unfold X18; exact Pipeline.withArrays_arr spec8 launch8.win.arr_inj c _ _ w
theorem X18_of_ne (c : Dev nD) (b : Ref sig .tc) (hb : ∀ w, Pipeline.arrRef spec8 w ≠ b) :
    X18 m c (Proc.devRef .tc b) = X17 m c (Proc.devRef .tc b) := by
  unfold X18; exact Pipeline.withArrays_of_ne spec8 c _ _ b hb
abbrev Y18 : (c : Dev nD) → (b : Ref sig .tc) → Buf (Elt F) ((c : Thread nD τ).loc b) := fun c b => X18 m c b
theorem hF8 (c : Dev nD) (w : Fin cfg8.W) : (dat8 (Y17 m) c).arrAt w cfg8.N = Y18 m c (Pipeline.arrRef spec8 w) :=
  (X18_arr m c w).symm
theorem hrest8 (c : Dev nD) : ∀ b, b ∉ Finset.univ.image (Pipeline.arrRef spec8) → Y18 m c b = Y17 m c b :=
  fun b hb => X18_of_ne m c b fun w e => hb (Finset.mem_image.mpr ⟨w, Finset.mem_univ _, e⟩)
/-- A buffer the stretch does not write is as before it. -/
theorem X17_of (c : Dev nD) (r : Ref sig .tc) (h : r ∉ hostOps8_W) : X17 m c (Proc.devRef .tc r) = X16 m c (Proc.devRef .tc r) :=
  StableHlo.after_of_writes_sub hostOps8 _ hostOps8_writes h

/-- After the host stretch before region 9 (the region's entry contents), -/
abbrev X19 (c : Dev nD) : Valuation τ sig (Elt F) := StableHlo.after hostOps9 (X18 m c)
/-- the same read at the TensorCore's references, -/
abbrev Y19 : (c : Dev nD) → (b : Ref sig .tc) → Buf (Elt F) ((c : Thread nD τ).loc b) := fun c b => X19 m c b
/-- and at region 9's exit: its arrays at what the pipeline leaves, every other buffer as entered. -/
def X20 (c : Dev nD) : Valuation τ sig (Elt F) :=
  Pipeline.withArrays spec9 c (X19 m c) fun w => (dat9 (Y19 m) c).arrAt w cfg9.N
theorem X20_arr (c : Dev nD) (w : Fin cfg9.W) :
    X20 m c (Proc.devRef .tc (Pipeline.arrRef spec9 w)) = (dat9 (Y19 m) c).arrAt w cfg9.N := by
  unfold X20; exact Pipeline.withArrays_arr spec9 launch9.win.arr_inj c _ _ w
theorem X20_of_ne (c : Dev nD) (b : Ref sig .tc) (hb : ∀ w, Pipeline.arrRef spec9 w ≠ b) :
    X20 m c (Proc.devRef .tc b) = X19 m c (Proc.devRef .tc b) := by
  unfold X20; exact Pipeline.withArrays_of_ne spec9 c _ _ b hb
abbrev Y20 : (c : Dev nD) → (b : Ref sig .tc) → Buf (Elt F) ((c : Thread nD τ).loc b) := fun c b => X20 m c b
theorem hF9 (c : Dev nD) (w : Fin cfg9.W) : (dat9 (Y19 m) c).arrAt w cfg9.N = Y20 m c (Pipeline.arrRef spec9 w) :=
  (X20_arr m c w).symm
theorem hrest9 (c : Dev nD) : ∀ b, b ∉ Finset.univ.image (Pipeline.arrRef spec9) → Y20 m c b = Y19 m c b :=
  fun b hb => X20_of_ne m c b fun w e => hb (Finset.mem_image.mpr ⟨w, Finset.mem_univ _, e⟩)
/-- A buffer the stretch does not write is as before it. -/
theorem X19_of (c : Dev nD) (r : Ref sig .tc) (h : r ∉ hostOps9_W) : X19 m c (Proc.devRef .tc r) = X18 m c (Proc.devRef .tc r) :=
  StableHlo.after_of_writes_sub hostOps9 _ hostOps9_writes h

/-! ## The proof data family and what rides along -/

/-- No pipeline has a prefetched table. -/
abbrev adm : (p : Fin 10) → (pcfgs (F := F) p).Adm := fun p => (cfgs p).toPCfg_adm
/-- Every region's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (Y1 m) c
  | ⟨1, _⟩ => fun c => dat1 (Y3 m) c
  | ⟨2, _⟩ => fun c => dat2 (Y5 m) c
  | ⟨3, _⟩ => fun c => dat3 (Y7 m) c
  | ⟨4, _⟩ => fun c => dat4 (Y9 m) c
  | ⟨5, _⟩ => fun c => dat5 (Y11 m) c
  | ⟨6, _⟩ => fun c => dat6 (Y13 m) c
  | ⟨7, _⟩ => fun c => dat7 (Y15 m) c
  | ⟨8, _⟩ => fun c => dat8 (Y17 m) c
  | ⟨9, _⟩ => fun c => dat9 (Y19 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
/-- A host stretch as a segment of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (X20 m c) ∗ ∃ r, prngReg c r)

end Cert.KernelIdeal.Fr

end
-- ==== Proof.KiReg0.lean ====
/-
  Region 0 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Y1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (Y1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y1 m c) (Y2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KiReg1.lean ====
/-
  Region 1 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Y3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (Y3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Y3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y3 m c) (Y4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KiReg2.lean ====
/-
  Region 2 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Y5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (Y5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y5 m c) (Y6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KiReg3.lean ====
/-
  Region 3 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Y7 m) c).loose
  hwaits := Pipeline.hwaits_of_owed_zero _ _ _ _ L lv 3 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec3 c (Y7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Y7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Y7 m c) (Y8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KiReg4.lean ====
/-
  Region 4 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Y9 m) c).loose
  hwaits := Pipeline.hwaits_of_owed_zero _ _ _ _ L lv 4 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec4 c (Y9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Y9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Y9 m c) (Y10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KiReg5.lean ====
/-
  Region 5 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Y11 m) c).loose
  hwaits := Pipeline.hwaits_of_owed_zero _ _ _ _ L lv 5 fun _ _ => rfl
  pre c := iprop(StableHlo.held (c : Thread nD τ) (Pipeline.ucRefs τ sig) (X11 m c) ∗ R c)
  post c := iprop(StableHlo.held (c : Thread nD τ) (Pipeline.ucRefs τ sig) (X12 m c) ∗ R c)
  X c := iprop(∃ r, prngReg c r)
  Y c := iprop(∃ r, prngReg c r)
  Z c := Pipeline.unscopedRest (Ix := Unit) (Name := ℕ) (U := UR sig nD τ) (Lvl := ℕ) spec5 c (Y11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Y11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Y11 m c) (Y12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KiReg6.lean ====
/-
  Region 6 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Y13 m) c).loose
  hwaits := Pipeline.hwaits_of_owed_zero _ _ _ _ L lv 6 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec6 c (Y13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Y13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Y13 m c) (Y14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KiReg7.lean ====
/-
  Region 7 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Y15 m) c).loose
  hwaits := Pipeline.hwaits_of_owed_zero _ _ _ _ L lv 7 fun _ _ => rfl
  pre c := iprop(StableHlo.held (c : Thread nD τ) (Pipeline.ucRefs τ sig) (X15 m c) ∗ R c)
  post c := iprop(StableHlo.held (c : Thread nD τ) (Pipeline.ucRefs τ sig) (X16 m c) ∗ R c)
  X c := iprop(∃ r, prngReg c r)
  Y c := iprop(∃ r, prngReg c r)
  Z c := Pipeline.unscopedRest (Ix := Unit) (Name := ℕ) (U := UR sig nD τ) (Lvl := ℕ) spec7 c (Y15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Y15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Y15 m c) (Y16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KiReg8.lean ====
/-
  Region 8 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Y17 m) c).loose
  hwaits := Pipeline.hwaits_of_owed_zero _ _ _ _ L lv 8 fun _ _ => rfl
  pre c := iprop(StableHlo.held (c : Thread nD τ) (Pipeline.ucRefs τ sig) (X17 m c) ∗ R c)
  post c := iprop(StableHlo.held (c : Thread nD τ) (Pipeline.ucRefs τ sig) (X18 m c) ∗ R c)
  X c := iprop(∃ r, prngReg c r)
  Y c := iprop(∃ r, prngReg c r)
  Z c := Pipeline.unscopedRest (Ix := Unit) (Name := ℕ) (U := UR sig nD τ) (Lvl := ℕ) spec8 c (Y17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Y17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Y17 m c) (Y18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KiReg9.lean ====
/-
  Region 9 as a segment of the run over the thread state "every unscoped buffer at the boundary's contents, the generator
  register at some state, nothing owed": entered from the contents after the host stretch before it, left at its exit
  contents. Its arrays are split out of the unscoped buffers on entry and put back at the exit contents on leaving; the
  generator register goes into the pipeline's invariant and comes back; the kernel has no semaphore of its own.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Y19 m) c).loose
  hwaits := Pipeline.hwaits_of_owed_zero _ _ _ _ L lv 9 fun _ _ => rfl
  pre c := iprop(StableHlo.held (c : Thread nD τ) (Pipeline.ucRefs τ sig) (X19 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (Y19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Y19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Y19 m c) (Y20 m c) ((pdats m 9 c).arrAt · cfg9.N) (hF9 m c) (hrest9 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Fr

end
-- ==== Proof.KiRun.lean ====
/-
  The run of the whole program: its ten host stretches and ten kernel regions in order, as the segments of the pipeline
  library's several-region theorem. Every weakly fair execution from a memory with zero counters terminates, nothing
  faulting, and the final memory holds every unscoped buffer at the last boundary's contents.
-/
import proofs.«180909_j89275190215119_1_alg».proof.Proof.KiReg0
import proofs.«180909_j89275190215119_1_alg».proof.Proof.KiReg1
import proofs.«180909_j89275190215119_1_alg».proof.Proof.KiReg2
import proofs.«180909_j89275190215119_1_alg».proof.Proof.KiReg3
import proofs.«180909_j89275190215119_1_alg».proof.Proof.KiReg4
import proofs.«180909_j89275190215119_1_alg».proof.Proof.KiReg5
import proofs.«180909_j89275190215119_1_alg».proof.Proof.KiReg6
import proofs.«180909_j89275190215119_1_alg».proof.Proof.KiReg7
import proofs.«180909_j89275190215119_1_alg».proof.Proof.KiReg8
import proofs.«180909_j89275190215119_1_alg».proof.Proof.KiReg9

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The program's twenty items in order. -/
abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m),
    .host (hseg hostOps3 hostOps3_sub hostOps3_fresh (X6 m)),
    .region (reg3 m),
    .host (hseg hostOps4 hostOps4_sub hostOps4_fresh (X8 m)),
    .region (reg4 m),
    .host (hseg hostOps5 hostOps5_sub hostOps5_fresh (X10 m)),
    .region (reg5 m),
    .host (hseg hostOps6 hostOps6_sub hostOps6_fresh (X12 m)),
    .region (reg6 m),
    .host (hseg hostOps7 hostOps7_sub hostOps7_fresh (X14 m)),
    .region (reg7 m),
    .host (hseg hostOps8 hostOps8_sub hostOps8_fresh (X16 m)),
    .region (reg8 m),
    .host (hseg hostOps9 hostOps9_sub hostOps9_fresh (X18 m)),
    .region (reg9 m) ]

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = X20 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X20 m c b)
    (hfin := fun c s' => by
      iintro ⟨⟨Hh, -⟩, HSI⟩
      unfold StableHlo.held
      imodintro
      iapply (pointsTo_read_all (Pipeline.ucRefs τ sig) (fun b => (((c : Thread nD τ)).1, b)) (X20 m c) s')
      isplitl [Hh] <;> iassumption)
    (hQ := fun s h c => h c)

end Cert.KernelIdeal.Fr

end
-- ==== Proof.KiArgsA.lean ====
/-
  The argument arrays 0 to 9 hold their launch contents at every boundary: no host stretch writes an argument's
  buffer and no region changes it (the perceptron region reads its weights and biases through input windows, whose
  arrays the pipeline leaves as entered; every other region never touches an argument). One step per boundary, walking
  back to the launch.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X0_main_arg0 (c : Dev nD) : X0 m c (Proc.devRef .tc main_arg0) = m ((c : Thread nD τ).loc main_arg0) := rfl
theorem X1_main_arg0 (c : Dev nD) : X1 m c (Proc.devRef .tc main_arg0) = m ((c : Thread nD τ).loc main_arg0) := (X1_of m c main_arg0 (by decide)).trans (X0_main_arg0 m c)
theorem X2_main_arg0 (c : Dev nD) : X2 m c (Proc.devRef .tc main_arg0) = m ((c : Thread nD τ).loc main_arg0) := (X2_of_ne m c main_arg0 (by decide)).trans (X1_main_arg0 m c)
theorem X3_main_arg0 (c : Dev nD) : X3 m c (Proc.devRef .tc main_arg0) = m ((c : Thread nD τ).loc main_arg0) := (X3_of m c main_arg0 (by decide)).trans (X2_main_arg0 m c)
theorem X4_main_arg0 (c : Dev nD) : X4 m c (Proc.devRef .tc main_arg0) = m ((c : Thread nD τ).loc main_arg0) := (X4_of_ne m c main_arg0 (by decide)).trans (X3_main_arg0 m c)
theorem X5_main_arg0 (c : Dev nD) : X5 m c (Proc.devRef .tc main_arg0) = m ((c : Thread nD τ).loc main_arg0) := (X5_of m c main_arg0 (by decide)).trans (X4_main_arg0 m c)
theorem X6_main_arg0 (c : Dev nD) : X6 m c (Proc.devRef .tc main_arg0) = m ((c : Thread nD τ).loc main_arg0) := (X6_of_ne m c main_arg0 (by decide)).trans (X5_main_arg0 m c)
theorem X7_main_arg0 (c : Dev nD) : X7 m c (Proc.devRef .tc main_arg0) = m ((c : Thread nD τ).loc main_arg0) := (X7_of m c main_arg0 (by decide)).trans (X6_main_arg0 m c)
theorem X8_main_arg0 (c : Dev nD) : X8 m c (Proc.devRef .tc main_arg0) = m ((c : Thread nD τ).loc main_arg0) := (X8_of_ne m c main_arg0 (by decide)).trans (X7_main_arg0 m c)
theorem X9_main_arg0 (c : Dev nD) : X9 m c (Proc.devRef .tc main_arg0) = m ((c : Thread nD τ).loc main_arg0) := (X9_of m c main_arg0 (by decide)).trans (X8_main_arg0 m c)
theorem X10_main_arg0 (c : Dev nD) : X10 m c (Proc.devRef .tc main_arg0) = m ((c : Thread nD τ).loc main_arg0) := (X10_of_ne m c main_arg0 (by decide)).trans (X9_main_arg0 m c)
theorem X11_main_arg0 (c : Dev nD) : X11 m c (Proc.devRef .tc main_arg0) = m ((c : Thread nD τ).loc main_arg0) := (X11_of m c main_arg0 (by decide)).trans (X10_main_arg0 m c)
theorem X12_main_arg0 (c : Dev nD) : X12 m c (Proc.devRef .tc main_arg0) = m ((c : Thread nD τ).loc main_arg0) := (X12_of_ne m c main_arg0 (by decide)).trans (X11_main_arg0 m c)
theorem X13_main_arg0 (c : Dev nD) : X13 m c (Proc.devRef .tc main_arg0) = m ((c : Thread nD τ).loc main_arg0) := (X13_of m c main_arg0 (by decide)).trans (X12_main_arg0 m c)
theorem X14_main_arg0 (c : Dev nD) : X14 m c (Proc.devRef .tc main_arg0) = m ((c : Thread nD τ).loc main_arg0) := (X14_of_ne m c main_arg0 (by decide)).trans (X13_main_arg0 m c)
theorem X15_main_arg0 (c : Dev nD) : X15 m c (Proc.devRef .tc main_arg0) = m ((c : Thread nD τ).loc main_arg0) := (X15_of m c main_arg0 (by decide)).trans (X14_main_arg0 m c)
theorem X16_main_arg0 (c : Dev nD) : X16 m c (Proc.devRef .tc main_arg0) = m ((c : Thread nD τ).loc main_arg0) := (X16_of_ne m c main_arg0 (by decide)).trans (X15_main_arg0 m c)
theorem X17_main_arg0 (c : Dev nD) : X17 m c (Proc.devRef .tc main_arg0) = m ((c : Thread nD τ).loc main_arg0) := (X17_of m c main_arg0 (by decide)).trans (X16_main_arg0 m c)
theorem X18_main_arg0 (c : Dev nD) : X18 m c (Proc.devRef .tc main_arg0) = m ((c : Thread nD τ).loc main_arg0) := (X18_of_ne m c main_arg0 (by decide)).trans (X17_main_arg0 m c)
theorem X19_main_arg0 (c : Dev nD) : X19 m c (Proc.devRef .tc main_arg0) = m ((c : Thread nD τ).loc main_arg0) := (X19_of m c main_arg0 (by decide)).trans (X18_main_arg0 m c)
theorem X20_main_arg0 (c : Dev nD) : X20 m c (Proc.devRef .tc main_arg0) = m ((c : Thread nD τ).loc main_arg0) := (X20_of_ne m c main_arg0 (by decide)).trans (X19_main_arg0 m c)
theorem X0_main_arg1 (c : Dev nD) : X0 m c (Proc.devRef .tc main_arg1) = m ((c : Thread nD τ).loc main_arg1) := rfl
theorem X1_main_arg1 (c : Dev nD) : X1 m c (Proc.devRef .tc main_arg1) = m ((c : Thread nD τ).loc main_arg1) := (X1_of m c main_arg1 (by decide)).trans (X0_main_arg1 m c)
theorem X2_main_arg1 (c : Dev nD) : X2 m c (Proc.devRef .tc main_arg1) = m ((c : Thread nD τ).loc main_arg1) := (X2_of_ne m c main_arg1 (by decide)).trans (X1_main_arg1 m c)
theorem X3_main_arg1 (c : Dev nD) : X3 m c (Proc.devRef .tc main_arg1) = m ((c : Thread nD τ).loc main_arg1) := (X3_of m c main_arg1 (by decide)).trans (X2_main_arg1 m c)
theorem X4_main_arg1 (c : Dev nD) : X4 m c (Proc.devRef .tc main_arg1) = m ((c : Thread nD τ).loc main_arg1) := (X4_of_ne m c main_arg1 (by decide)).trans (X3_main_arg1 m c)
theorem X5_main_arg1 (c : Dev nD) : X5 m c (Proc.devRef .tc main_arg1) = m ((c : Thread nD τ).loc main_arg1) := (X5_of m c main_arg1 (by decide)).trans (X4_main_arg1 m c)
theorem X6_main_arg1 (c : Dev nD) : X6 m c (Proc.devRef .tc main_arg1) = m ((c : Thread nD τ).loc main_arg1) := (X6_of_ne m c main_arg1 (by decide)).trans (X5_main_arg1 m c)
theorem X7_main_arg1 (c : Dev nD) : X7 m c (Proc.devRef .tc main_arg1) = m ((c : Thread nD τ).loc main_arg1) := (X7_of m c main_arg1 (by decide)).trans (X6_main_arg1 m c)
theorem X8_main_arg1 (c : Dev nD) : X8 m c (Proc.devRef .tc main_arg1) = m ((c : Thread nD τ).loc main_arg1) := (X8_of_ne m c main_arg1 (by decide)).trans (X7_main_arg1 m c)
theorem X9_main_arg1 (c : Dev nD) : X9 m c (Proc.devRef .tc main_arg1) = m ((c : Thread nD τ).loc main_arg1) := (X9_of m c main_arg1 (by decide)).trans (X8_main_arg1 m c)
theorem X10_main_arg1 (c : Dev nD) : X10 m c (Proc.devRef .tc main_arg1) = m ((c : Thread nD τ).loc main_arg1) := (X10_of_ne m c main_arg1 (by decide)).trans (X9_main_arg1 m c)
theorem X11_main_arg1 (c : Dev nD) : X11 m c (Proc.devRef .tc main_arg1) = m ((c : Thread nD τ).loc main_arg1) := (X11_of m c main_arg1 (by decide)).trans (X10_main_arg1 m c)
theorem X12_main_arg1 (c : Dev nD) : X12 m c (Proc.devRef .tc main_arg1) = m ((c : Thread nD τ).loc main_arg1) := (X12_of_ne m c main_arg1 (by decide)).trans (X11_main_arg1 m c)
theorem X13_main_arg1 (c : Dev nD) : X13 m c (Proc.devRef .tc main_arg1) = m ((c : Thread nD τ).loc main_arg1) := (X13_of m c main_arg1 (by decide)).trans (X12_main_arg1 m c)
theorem X14_main_arg1 (c : Dev nD) : X14 m c (Proc.devRef .tc main_arg1) = m ((c : Thread nD τ).loc main_arg1) := (X14_of_ne m c main_arg1 (by decide)).trans (X13_main_arg1 m c)
theorem X15_main_arg1 (c : Dev nD) : X15 m c (Proc.devRef .tc main_arg1) = m ((c : Thread nD τ).loc main_arg1) := (X15_of m c main_arg1 (by decide)).trans (X14_main_arg1 m c)
theorem X16_main_arg1 (c : Dev nD) : X16 m c (Proc.devRef .tc main_arg1) = m ((c : Thread nD τ).loc main_arg1) := (X16_of_ne m c main_arg1 (by decide)).trans (X15_main_arg1 m c)
theorem X17_main_arg1 (c : Dev nD) : X17 m c (Proc.devRef .tc main_arg1) = m ((c : Thread nD τ).loc main_arg1) := (X17_of m c main_arg1 (by decide)).trans (X16_main_arg1 m c)
theorem X18_main_arg1 (c : Dev nD) : X18 m c (Proc.devRef .tc main_arg1) = m ((c : Thread nD τ).loc main_arg1) := (X18_of_ne m c main_arg1 (by decide)).trans (X17_main_arg1 m c)
theorem X19_main_arg1 (c : Dev nD) : X19 m c (Proc.devRef .tc main_arg1) = m ((c : Thread nD τ).loc main_arg1) := (X19_of m c main_arg1 (by decide)).trans (X18_main_arg1 m c)
theorem X20_main_arg1 (c : Dev nD) : X20 m c (Proc.devRef .tc main_arg1) = m ((c : Thread nD τ).loc main_arg1) := (X20_of_ne m c main_arg1 (by decide)).trans (X19_main_arg1 m c)
theorem X0_main_arg2 (c : Dev nD) : X0 m c (Proc.devRef .tc main_arg2) = m ((c : Thread nD τ).loc main_arg2) := rfl
theorem X1_main_arg2 (c : Dev nD) : X1 m c (Proc.devRef .tc main_arg2) = m ((c : Thread nD τ).loc main_arg2) := (X1_of m c main_arg2 (by decide)).trans (X0_main_arg2 m c)
theorem X2_main_arg2 (c : Dev nD) : X2 m c (Proc.devRef .tc main_arg2) = m ((c : Thread nD τ).loc main_arg2) := (X2_of_ne m c main_arg2 (by decide)).trans (X1_main_arg2 m c)
theorem X3_main_arg2 (c : Dev nD) : X3 m c (Proc.devRef .tc main_arg2) = m ((c : Thread nD τ).loc main_arg2) := (X3_of m c main_arg2 (by decide)).trans (X2_main_arg2 m c)
theorem X4_main_arg2 (c : Dev nD) : X4 m c (Proc.devRef .tc main_arg2) = m ((c : Thread nD τ).loc main_arg2) := (X4_of_ne m c main_arg2 (by decide)).trans (X3_main_arg2 m c)
theorem X5_main_arg2 (c : Dev nD) : X5 m c (Proc.devRef .tc main_arg2) = m ((c : Thread nD τ).loc main_arg2) := (X5_of m c main_arg2 (by decide)).trans (X4_main_arg2 m c)
theorem X6_main_arg2 (c : Dev nD) : X6 m c (Proc.devRef .tc main_arg2) = m ((c : Thread nD τ).loc main_arg2) := (X6_of_ne m c main_arg2 (by decide)).trans (X5_main_arg2 m c)
theorem X7_main_arg2 (c : Dev nD) : X7 m c (Proc.devRef .tc main_arg2) = m ((c : Thread nD τ).loc main_arg2) := (X7_of m c main_arg2 (by decide)).trans (X6_main_arg2 m c)
theorem X8_main_arg2 (c : Dev nD) : X8 m c (Proc.devRef .tc main_arg2) = m ((c : Thread nD τ).loc main_arg2) := (X8_of_ne m c main_arg2 (by decide)).trans (X7_main_arg2 m c)
theorem X9_main_arg2 (c : Dev nD) : X9 m c (Proc.devRef .tc main_arg2) = m ((c : Thread nD τ).loc main_arg2) := (X9_of m c main_arg2 (by decide)).trans (X8_main_arg2 m c)
theorem X10_main_arg2 (c : Dev nD) : X10 m c (Proc.devRef .tc main_arg2) = m ((c : Thread nD τ).loc main_arg2) := (X10_of_ne m c main_arg2 (by decide)).trans (X9_main_arg2 m c)
theorem X11_main_arg2 (c : Dev nD) : X11 m c (Proc.devRef .tc main_arg2) = m ((c : Thread nD τ).loc main_arg2) := (X11_of m c main_arg2 (by decide)).trans (X10_main_arg2 m c)
theorem X12_main_arg2 (c : Dev nD) : X12 m c (Proc.devRef .tc main_arg2) = m ((c : Thread nD τ).loc main_arg2) := (X12_of_ne m c main_arg2 (by decide)).trans (X11_main_arg2 m c)
theorem X13_main_arg2 (c : Dev nD) : X13 m c (Proc.devRef .tc main_arg2) = m ((c : Thread nD τ).loc main_arg2) := (X13_of m c main_arg2 (by decide)).trans (X12_main_arg2 m c)
theorem X14_main_arg2 (c : Dev nD) : X14 m c (Proc.devRef .tc main_arg2) = m ((c : Thread nD τ).loc main_arg2) := (X14_of_ne m c main_arg2 (by decide)).trans (X13_main_arg2 m c)
theorem X15_main_arg2 (c : Dev nD) : X15 m c (Proc.devRef .tc main_arg2) = m ((c : Thread nD τ).loc main_arg2) := (X15_of m c main_arg2 (by decide)).trans (X14_main_arg2 m c)
theorem X16_main_arg2 (c : Dev nD) : X16 m c (Proc.devRef .tc main_arg2) = m ((c : Thread nD τ).loc main_arg2) := (X16_of_ne m c main_arg2 (by decide)).trans (X15_main_arg2 m c)
theorem X17_main_arg2 (c : Dev nD) : X17 m c (Proc.devRef .tc main_arg2) = m ((c : Thread nD τ).loc main_arg2) := (X17_of m c main_arg2 (by decide)).trans (X16_main_arg2 m c)
theorem X18_main_arg2 (c : Dev nD) : X18 m c (Proc.devRef .tc main_arg2) = m ((c : Thread nD τ).loc main_arg2) := (X18_of_ne m c main_arg2 (by decide)).trans (X17_main_arg2 m c)
theorem X19_main_arg2 (c : Dev nD) : X19 m c (Proc.devRef .tc main_arg2) = m ((c : Thread nD τ).loc main_arg2) := (X19_of m c main_arg2 (by decide)).trans (X18_main_arg2 m c)
theorem X20_main_arg2 (c : Dev nD) : X20 m c (Proc.devRef .tc main_arg2) = m ((c : Thread nD τ).loc main_arg2) := (X20_of_ne m c main_arg2 (by decide)).trans (X19_main_arg2 m c)
theorem X0_main_arg3 (c : Dev nD) : X0 m c (Proc.devRef .tc main_arg3) = m ((c : Thread nD τ).loc main_arg3) := rfl
theorem X1_main_arg3 (c : Dev nD) : X1 m c (Proc.devRef .tc main_arg3) = m ((c : Thread nD τ).loc main_arg3) := (X1_of m c main_arg3 (by decide)).trans (X0_main_arg3 m c)
theorem X2_main_arg3 (c : Dev nD) : X2 m c (Proc.devRef .tc main_arg3) = m ((c : Thread nD τ).loc main_arg3) := (X2_of_ne m c main_arg3 (by decide)).trans (X1_main_arg3 m c)
theorem X3_main_arg3 (c : Dev nD) : X3 m c (Proc.devRef .tc main_arg3) = m ((c : Thread nD τ).loc main_arg3) := (X3_of m c main_arg3 (by decide)).trans (X2_main_arg3 m c)
theorem X4_main_arg3 (c : Dev nD) : X4 m c (Proc.devRef .tc main_arg3) = m ((c : Thread nD τ).loc main_arg3) := (X4_of_ne m c main_arg3 (by decide)).trans (X3_main_arg3 m c)
theorem X5_main_arg3 (c : Dev nD) : X5 m c (Proc.devRef .tc main_arg3) = m ((c : Thread nD τ).loc main_arg3) := (X5_of m c main_arg3 (by decide)).trans (X4_main_arg3 m c)
theorem X6_main_arg3 (c : Dev nD) : X6 m c (Proc.devRef .tc main_arg3) = m ((c : Thread nD τ).loc main_arg3) := (X6_of_ne m c main_arg3 (by decide)).trans (X5_main_arg3 m c)
theorem X7_main_arg3 (c : Dev nD) : X7 m c (Proc.devRef .tc main_arg3) = m ((c : Thread nD τ).loc main_arg3) := (X7_of m c main_arg3 (by decide)).trans (X6_main_arg3 m c)
theorem X8_main_arg3 (c : Dev nD) : X8 m c (Proc.devRef .tc main_arg3) = m ((c : Thread nD τ).loc main_arg3) := (X8_of_ne m c main_arg3 (by decide)).trans (X7_main_arg3 m c)
theorem X9_main_arg3 (c : Dev nD) : X9 m c (Proc.devRef .tc main_arg3) = m ((c : Thread nD τ).loc main_arg3) := (X9_of m c main_arg3 (by decide)).trans (X8_main_arg3 m c)
theorem X10_main_arg3 (c : Dev nD) : X10 m c (Proc.devRef .tc main_arg3) = m ((c : Thread nD τ).loc main_arg3) := (X10_of_ne m c main_arg3 (by decide)).trans (X9_main_arg3 m c)
theorem X11_main_arg3 (c : Dev nD) : X11 m c (Proc.devRef .tc main_arg3) = m ((c : Thread nD τ).loc main_arg3) := (X11_of m c main_arg3 (by decide)).trans (X10_main_arg3 m c)
theorem X12_main_arg3 (c : Dev nD) : X12 m c (Proc.devRef .tc main_arg3) = m ((c : Thread nD τ).loc main_arg3) := (X12_of_ne m c main_arg3 (by decide)).trans (X11_main_arg3 m c)
theorem X13_main_arg3 (c : Dev nD) : X13 m c (Proc.devRef .tc main_arg3) = m ((c : Thread nD τ).loc main_arg3) := (X13_of m c main_arg3 (by decide)).trans (X12_main_arg3 m c)
theorem X14_main_arg3 (c : Dev nD) : X14 m c (Proc.devRef .tc main_arg3) = m ((c : Thread nD τ).loc main_arg3) := (X14_of_ne m c main_arg3 (by decide)).trans (X13_main_arg3 m c)
theorem X15_main_arg3 (c : Dev nD) : X15 m c (Proc.devRef .tc main_arg3) = m ((c : Thread nD τ).loc main_arg3) := (X15_of m c main_arg3 (by decide)).trans (X14_main_arg3 m c)
theorem X16_main_arg3 (c : Dev nD) : X16 m c (Proc.devRef .tc main_arg3) = m ((c : Thread nD τ).loc main_arg3) := (X16_of_ne m c main_arg3 (by decide)).trans (X15_main_arg3 m c)
theorem X17_main_arg3 (c : Dev nD) : X17 m c (Proc.devRef .tc main_arg3) = m ((c : Thread nD τ).loc main_arg3) := (X17_of m c main_arg3 (by decide)).trans (X16_main_arg3 m c)
theorem X18_main_arg3 (c : Dev nD) : X18 m c (Proc.devRef .tc main_arg3) = m ((c : Thread nD τ).loc main_arg3) := (X18_of_ne m c main_arg3 (by decide)).trans (X17_main_arg3 m c)
theorem X19_main_arg3 (c : Dev nD) : X19 m c (Proc.devRef .tc main_arg3) = m ((c : Thread nD τ).loc main_arg3) := (X19_of m c main_arg3 (by decide)).trans (X18_main_arg3 m c)
theorem X20_main_arg3 (c : Dev nD) : X20 m c (Proc.devRef .tc main_arg3) = m ((c : Thread nD τ).loc main_arg3) := (X20_of_ne m c main_arg3 (by decide)).trans (X19_main_arg3 m c)
theorem X0_main_arg4 (c : Dev nD) : X0 m c (Proc.devRef .tc main_arg4) = m ((c : Thread nD τ).loc main_arg4) := rfl
theorem X1_main_arg4 (c : Dev nD) : X1 m c (Proc.devRef .tc main_arg4) = m ((c : Thread nD τ).loc main_arg4) := (X1_of m c main_arg4 (by decide)).trans (X0_main_arg4 m c)
theorem X2_main_arg4 (c : Dev nD) : X2 m c (Proc.devRef .tc main_arg4) = m ((c : Thread nD τ).loc main_arg4) := (X2_of_ne m c main_arg4 (by decide)).trans (X1_main_arg4 m c)
theorem X3_main_arg4 (c : Dev nD) : X3 m c (Proc.devRef .tc main_arg4) = m ((c : Thread nD τ).loc main_arg4) := (X3_of m c main_arg4 (by decide)).trans (X2_main_arg4 m c)
theorem X4_main_arg4 (c : Dev nD) : X4 m c (Proc.devRef .tc main_arg4) = m ((c : Thread nD τ).loc main_arg4) := (X4_of_ne m c main_arg4 (by decide)).trans (X3_main_arg4 m c)
theorem X5_main_arg4 (c : Dev nD) : X5 m c (Proc.devRef .tc main_arg4) = m ((c : Thread nD τ).loc main_arg4) := (X5_of m c main_arg4 (by decide)).trans (X4_main_arg4 m c)
theorem X6_main_arg4 (c : Dev nD) : X6 m c (Proc.devRef .tc main_arg4) = m ((c : Thread nD τ).loc main_arg4) := (X6_of_ne m c main_arg4 (by decide)).trans (X5_main_arg4 m c)
theorem X7_main_arg4 (c : Dev nD) : X7 m c (Proc.devRef .tc main_arg4) = m ((c : Thread nD τ).loc main_arg4) := (X7_of m c main_arg4 (by decide)).trans (X6_main_arg4 m c)
theorem X8_main_arg4 (c : Dev nD) : X8 m c (Proc.devRef .tc main_arg4) = m ((c : Thread nD τ).loc main_arg4) := (X8_of_ne m c main_arg4 (by decide)).trans (X7_main_arg4 m c)
theorem X9_main_arg4 (c : Dev nD) : X9 m c (Proc.devRef .tc main_arg4) = m ((c : Thread nD τ).loc main_arg4) := (X9_of m c main_arg4 (by decide)).trans (X8_main_arg4 m c)
theorem X10_main_arg4 (c : Dev nD) : X10 m c (Proc.devRef .tc main_arg4) = m ((c : Thread nD τ).loc main_arg4) := (X10_of_ne m c main_arg4 (by decide)).trans (X9_main_arg4 m c)
theorem X11_main_arg4 (c : Dev nD) : X11 m c (Proc.devRef .tc main_arg4) = m ((c : Thread nD τ).loc main_arg4) := (X11_of m c main_arg4 (by decide)).trans (X10_main_arg4 m c)
theorem X12_main_arg4 (c : Dev nD) : X12 m c (Proc.devRef .tc main_arg4) = m ((c : Thread nD τ).loc main_arg4) := (X12_of_ne m c main_arg4 (by decide)).trans (X11_main_arg4 m c)
theorem X13_main_arg4 (c : Dev nD) : X13 m c (Proc.devRef .tc main_arg4) = m ((c : Thread nD τ).loc main_arg4) := (X13_of m c main_arg4 (by decide)).trans (X12_main_arg4 m c)
theorem X14_main_arg4 (c : Dev nD) : X14 m c (Proc.devRef .tc main_arg4) = m ((c : Thread nD τ).loc main_arg4) := (X14_of_ne m c main_arg4 (by decide)).trans (X13_main_arg4 m c)
theorem X15_main_arg4 (c : Dev nD) : X15 m c (Proc.devRef .tc main_arg4) = m ((c : Thread nD τ).loc main_arg4) := (X15_of m c main_arg4 (by decide)).trans (X14_main_arg4 m c)
theorem X16_main_arg4 (c : Dev nD) : X16 m c (Proc.devRef .tc main_arg4) = m ((c : Thread nD τ).loc main_arg4) := (X16_of_ne m c main_arg4 (by decide)).trans (X15_main_arg4 m c)
theorem X17_main_arg4 (c : Dev nD) : X17 m c (Proc.devRef .tc main_arg4) = m ((c : Thread nD τ).loc main_arg4) := (X17_of m c main_arg4 (by decide)).trans (X16_main_arg4 m c)
theorem X18_main_arg4 (c : Dev nD) : X18 m c (Proc.devRef .tc main_arg4) = m ((c : Thread nD τ).loc main_arg4) := (X18_of_ne m c main_arg4 (by decide)).trans (X17_main_arg4 m c)
theorem X19_main_arg4 (c : Dev nD) : X19 m c (Proc.devRef .tc main_arg4) = m ((c : Thread nD τ).loc main_arg4) := (X19_of m c main_arg4 (by decide)).trans (X18_main_arg4 m c)
theorem X20_main_arg4 (c : Dev nD) : X20 m c (Proc.devRef .tc main_arg4) = m ((c : Thread nD τ).loc main_arg4) := (X20_of_ne m c main_arg4 (by decide)).trans (X19_main_arg4 m c)
theorem X0_main_arg5 (c : Dev nD) : X0 m c (Proc.devRef .tc main_arg5) = m ((c : Thread nD τ).loc main_arg5) := rfl
theorem X1_main_arg5 (c : Dev nD) : X1 m c (Proc.devRef .tc main_arg5) = m ((c : Thread nD τ).loc main_arg5) := (X1_of m c main_arg5 (by decide)).trans (X0_main_arg5 m c)
theorem X2_main_arg5 (c : Dev nD) : X2 m c (Proc.devRef .tc main_arg5) = m ((c : Thread nD τ).loc main_arg5) := (X2_of_ne m c main_arg5 (by decide)).trans (X1_main_arg5 m c)
theorem X3_main_arg5 (c : Dev nD) : X3 m c (Proc.devRef .tc main_arg5) = m ((c : Thread nD τ).loc main_arg5) := (X3_of m c main_arg5 (by decide)).trans (X2_main_arg5 m c)
theorem X4_main_arg5 (c : Dev nD) : X4 m c (Proc.devRef .tc main_arg5) = m ((c : Thread nD τ).loc main_arg5) := (X4_of_ne m c main_arg5 (by decide)).trans (X3_main_arg5 m c)
theorem X5_main_arg5 (c : Dev nD) : X5 m c (Proc.devRef .tc main_arg5) = m ((c : Thread nD τ).loc main_arg5) := (X5_of m c main_arg5 (by decide)).trans (X4_main_arg5 m c)
theorem X6_main_arg5 (c : Dev nD) : X6 m c (Proc.devRef .tc main_arg5) = m ((c : Thread nD τ).loc main_arg5) := (X6_of_ne m c main_arg5 (by decide)).trans (X5_main_arg5 m c)
theorem X7_main_arg5 (c : Dev nD) : X7 m c (Proc.devRef .tc main_arg5) = m ((c : Thread nD τ).loc main_arg5) := (X7_of m c main_arg5 (by decide)).trans (X6_main_arg5 m c)
theorem X8_main_arg5 (c : Dev nD) : X8 m c (Proc.devRef .tc main_arg5) = m ((c : Thread nD τ).loc main_arg5) := (X8_of_ne m c main_arg5 (by decide)).trans (X7_main_arg5 m c)
theorem X9_main_arg5 (c : Dev nD) : X9 m c (Proc.devRef .tc main_arg5) = m ((c : Thread nD τ).loc main_arg5) := (X9_of m c main_arg5 (by decide)).trans (X8_main_arg5 m c)
theorem X10_main_arg5 (c : Dev nD) : X10 m c (Proc.devRef .tc main_arg5) = m ((c : Thread nD τ).loc main_arg5) := (X10_of_ne m c main_arg5 (by decide)).trans (X9_main_arg5 m c)
theorem X11_main_arg5 (c : Dev nD) : X11 m c (Proc.devRef .tc main_arg5) = m ((c : Thread nD τ).loc main_arg5) := (X11_of m c main_arg5 (by decide)).trans (X10_main_arg5 m c)
theorem X12_main_arg5 (c : Dev nD) : X12 m c (Proc.devRef .tc main_arg5) = m ((c : Thread nD τ).loc main_arg5) := (X12_of_ne m c main_arg5 (by decide)).trans (X11_main_arg5 m c)
theorem X13_main_arg5 (c : Dev nD) : X13 m c (Proc.devRef .tc main_arg5) = m ((c : Thread nD τ).loc main_arg5) := (X13_of m c main_arg5 (by decide)).trans (X12_main_arg5 m c)
theorem X14_main_arg5 (c : Dev nD) : X14 m c (Proc.devRef .tc main_arg5) = m ((c : Thread nD τ).loc main_arg5) := (X14_of_ne m c main_arg5 (by decide)).trans (X13_main_arg5 m c)
theorem X15_main_arg5 (c : Dev nD) : X15 m c (Proc.devRef .tc main_arg5) = m ((c : Thread nD τ).loc main_arg5) := (X15_of m c main_arg5 (by decide)).trans (X14_main_arg5 m c)
theorem X16_main_arg5 (c : Dev nD) : X16 m c (Proc.devRef .tc main_arg5) = m ((c : Thread nD τ).loc main_arg5) := (X16_of_ne m c main_arg5 (by decide)).trans (X15_main_arg5 m c)
theorem X17_main_arg5 (c : Dev nD) : X17 m c (Proc.devRef .tc main_arg5) = m ((c : Thread nD τ).loc main_arg5) := (X17_of m c main_arg5 (by decide)).trans (X16_main_arg5 m c)
theorem X18_main_arg5 (c : Dev nD) : X18 m c (Proc.devRef .tc main_arg5) = m ((c : Thread nD τ).loc main_arg5) := (X18_of_ne m c main_arg5 (by decide)).trans (X17_main_arg5 m c)
theorem X19_main_arg5 (c : Dev nD) : X19 m c (Proc.devRef .tc main_arg5) = m ((c : Thread nD τ).loc main_arg5) := (X19_of m c main_arg5 (by decide)).trans (X18_main_arg5 m c)
theorem X20_main_arg5 (c : Dev nD) : X20 m c (Proc.devRef .tc main_arg5) = m ((c : Thread nD τ).loc main_arg5) := (X20_of_ne m c main_arg5 (by decide)).trans (X19_main_arg5 m c)
theorem X0_main_arg6 (c : Dev nD) : X0 m c (Proc.devRef .tc main_arg6) = m ((c : Thread nD τ).loc main_arg6) := rfl
theorem X1_main_arg6 (c : Dev nD) : X1 m c (Proc.devRef .tc main_arg6) = m ((c : Thread nD τ).loc main_arg6) := (X1_of m c main_arg6 (by decide)).trans (X0_main_arg6 m c)
theorem X2_main_arg6 (c : Dev nD) : X2 m c (Proc.devRef .tc main_arg6) = m ((c : Thread nD τ).loc main_arg6) := (X2_of_ne m c main_arg6 (by decide)).trans (X1_main_arg6 m c)
theorem X3_main_arg6 (c : Dev nD) : X3 m c (Proc.devRef .tc main_arg6) = m ((c : Thread nD τ).loc main_arg6) := (X3_of m c main_arg6 (by decide)).trans (X2_main_arg6 m c)
theorem X4_main_arg6 (c : Dev nD) : X4 m c (Proc.devRef .tc main_arg6) = m ((c : Thread nD τ).loc main_arg6) := (X4_of_ne m c main_arg6 (by decide)).trans (X3_main_arg6 m c)
theorem X5_main_arg6 (c : Dev nD) : X5 m c (Proc.devRef .tc main_arg6) = m ((c : Thread nD τ).loc main_arg6) := (X5_of m c main_arg6 (by decide)).trans (X4_main_arg6 m c)
theorem X6_main_arg6 (c : Dev nD) : X6 m c (Proc.devRef .tc main_arg6) = m ((c : Thread nD τ).loc main_arg6) := (X6_of_ne m c main_arg6 (by decide)).trans (X5_main_arg6 m c)
theorem X7_main_arg6 (c : Dev nD) : X7 m c (Proc.devRef .tc main_arg6) = m ((c : Thread nD τ).loc main_arg6) := (X7_of m c main_arg6 (by decide)).trans (X6_main_arg6 m c)
theorem X8_main_arg6 (c : Dev nD) : X8 m c (Proc.devRef .tc main_arg6) = m ((c : Thread nD τ).loc main_arg6) := (X8_of_ne m c main_arg6 (by decide)).trans (X7_main_arg6 m c)
theorem X9_main_arg6 (c : Dev nD) : X9 m c (Proc.devRef .tc main_arg6) = m ((c : Thread nD τ).loc main_arg6) := (X9_of m c main_arg6 (by decide)).trans (X8_main_arg6 m c)
theorem X10_main_arg6 (c : Dev nD) : X10 m c (Proc.devRef .tc main_arg6) = m ((c : Thread nD τ).loc main_arg6) := (X10_of_ne m c main_arg6 (by decide)).trans (X9_main_arg6 m c)
theorem X11_main_arg6 (c : Dev nD) : X11 m c (Proc.devRef .tc main_arg6) = m ((c : Thread nD τ).loc main_arg6) := (X11_of m c main_arg6 (by decide)).trans (X10_main_arg6 m c)
theorem X12_main_arg6 (c : Dev nD) : X12 m c (Proc.devRef .tc main_arg6) = m ((c : Thread nD τ).loc main_arg6) := (X12_of_ne m c main_arg6 (by decide)).trans (X11_main_arg6 m c)
theorem X13_main_arg6 (c : Dev nD) : X13 m c (Proc.devRef .tc main_arg6) = m ((c : Thread nD τ).loc main_arg6) := (X13_of m c main_arg6 (by decide)).trans (X12_main_arg6 m c)
theorem X14_main_arg6 (c : Dev nD) : X14 m c (Proc.devRef .tc main_arg6) = m ((c : Thread nD τ).loc main_arg6) := (X14_of_ne m c main_arg6 (by decide)).trans (X13_main_arg6 m c)
theorem X15_main_arg6 (c : Dev nD) : X15 m c (Proc.devRef .tc main_arg6) = m ((c : Thread nD τ).loc main_arg6) := (X15_of m c main_arg6 (by decide)).trans (X14_main_arg6 m c)
theorem X16_main_arg6 (c : Dev nD) : X16 m c (Proc.devRef .tc main_arg6) = m ((c : Thread nD τ).loc main_arg6) := (X16_of_ne m c main_arg6 (by decide)).trans (X15_main_arg6 m c)
theorem X17_main_arg6 (c : Dev nD) : X17 m c (Proc.devRef .tc main_arg6) = m ((c : Thread nD τ).loc main_arg6) := (X17_of m c main_arg6 (by decide)).trans (X16_main_arg6 m c)
theorem X18_main_arg6 (c : Dev nD) : X18 m c (Proc.devRef .tc main_arg6) = m ((c : Thread nD τ).loc main_arg6) := (X18_of_ne m c main_arg6 (by decide)).trans (X17_main_arg6 m c)
theorem X19_main_arg6 (c : Dev nD) : X19 m c (Proc.devRef .tc main_arg6) = m ((c : Thread nD τ).loc main_arg6) := (X19_of m c main_arg6 (by decide)).trans (X18_main_arg6 m c)
theorem X20_main_arg6 (c : Dev nD) : X20 m c (Proc.devRef .tc main_arg6) = m ((c : Thread nD τ).loc main_arg6) := (X20_of_ne m c main_arg6 (by decide)).trans (X19_main_arg6 m c)
theorem X0_main_arg7 (c : Dev nD) : X0 m c (Proc.devRef .tc main_arg7) = m ((c : Thread nD τ).loc main_arg7) := rfl
theorem X1_main_arg7 (c : Dev nD) : X1 m c (Proc.devRef .tc main_arg7) = m ((c : Thread nD τ).loc main_arg7) := (X1_of m c main_arg7 (by decide)).trans (X0_main_arg7 m c)
theorem X2_main_arg7 (c : Dev nD) : X2 m c (Proc.devRef .tc main_arg7) = m ((c : Thread nD τ).loc main_arg7) := (X2_of_ne m c main_arg7 (by decide)).trans (X1_main_arg7 m c)
theorem X3_main_arg7 (c : Dev nD) : X3 m c (Proc.devRef .tc main_arg7) = m ((c : Thread nD τ).loc main_arg7) := (X3_of m c main_arg7 (by decide)).trans (X2_main_arg7 m c)
theorem X4_main_arg7 (c : Dev nD) : X4 m c (Proc.devRef .tc main_arg7) = m ((c : Thread nD τ).loc main_arg7) := (X4_of_ne m c main_arg7 (by decide)).trans (X3_main_arg7 m c)
theorem X5_main_arg7 (c : Dev nD) : X5 m c (Proc.devRef .tc main_arg7) = m ((c : Thread nD τ).loc main_arg7) := (X5_of m c main_arg7 (by decide)).trans (X4_main_arg7 m c)
theorem X6_main_arg7 (c : Dev nD) : X6 m c (Proc.devRef .tc main_arg7) = m ((c : Thread nD τ).loc main_arg7) := (X6_of_ne m c main_arg7 (by decide)).trans (X5_main_arg7 m c)
theorem X7_main_arg7 (c : Dev nD) : X7 m c (Proc.devRef .tc main_arg7) = m ((c : Thread nD τ).loc main_arg7) := (X7_of m c main_arg7 (by decide)).trans (X6_main_arg7 m c)
theorem X8_main_arg7 (c : Dev nD) : X8 m c (Proc.devRef .tc main_arg7) = m ((c : Thread nD τ).loc main_arg7) := (X8_of_ne m c main_arg7 (by decide)).trans (X7_main_arg7 m c)
theorem X9_main_arg7 (c : Dev nD) : X9 m c (Proc.devRef .tc main_arg7) = m ((c : Thread nD τ).loc main_arg7) := (X9_of m c main_arg7 (by decide)).trans (X8_main_arg7 m c)
theorem X10_main_arg7 (c : Dev nD) : X10 m c (Proc.devRef .tc main_arg7) = m ((c : Thread nD τ).loc main_arg7) := (X10_of_ne m c main_arg7 (by decide)).trans (X9_main_arg7 m c)
theorem X11_main_arg7 (c : Dev nD) : X11 m c (Proc.devRef .tc main_arg7) = m ((c : Thread nD τ).loc main_arg7) := (X11_of m c main_arg7 (by decide)).trans (X10_main_arg7 m c)
theorem X12_main_arg7 (c : Dev nD) : X12 m c (Proc.devRef .tc main_arg7) = m ((c : Thread nD τ).loc main_arg7) := (X12_of_ne m c main_arg7 (by decide)).trans (X11_main_arg7 m c)
theorem X13_main_arg7 (c : Dev nD) : X13 m c (Proc.devRef .tc main_arg7) = m ((c : Thread nD τ).loc main_arg7) := (X13_of m c main_arg7 (by decide)).trans (X12_main_arg7 m c)
theorem X14_main_arg7 (c : Dev nD) : X14 m c (Proc.devRef .tc main_arg7) = m ((c : Thread nD τ).loc main_arg7) := (X14_of_ne m c main_arg7 (by decide)).trans (X13_main_arg7 m c)
theorem X15_main_arg7 (c : Dev nD) : X15 m c (Proc.devRef .tc main_arg7) = m ((c : Thread nD τ).loc main_arg7) := (X15_of m c main_arg7 (by decide)).trans (X14_main_arg7 m c)
theorem X16_main_arg7 (c : Dev nD) : X16 m c (Proc.devRef .tc main_arg7) = m ((c : Thread nD τ).loc main_arg7) := (X16_of_ne m c main_arg7 (by decide)).trans (X15_main_arg7 m c)
theorem X17_main_arg7 (c : Dev nD) : X17 m c (Proc.devRef .tc main_arg7) = m ((c : Thread nD τ).loc main_arg7) := (X17_of m c main_arg7 (by decide)).trans (X16_main_arg7 m c)
theorem X18_main_arg7 (c : Dev nD) : X18 m c (Proc.devRef .tc main_arg7) = m ((c : Thread nD τ).loc main_arg7) := (X18_of_ne m c main_arg7 (by decide)).trans (X17_main_arg7 m c)
theorem X19_main_arg7 (c : Dev nD) : X19 m c (Proc.devRef .tc main_arg7) = m ((c : Thread nD τ).loc main_arg7) := (X19_of m c main_arg7 (by decide)).trans (X18_main_arg7 m c)
theorem X20_main_arg7 (c : Dev nD) : X20 m c (Proc.devRef .tc main_arg7) = m ((c : Thread nD τ).loc main_arg7) := (X20_of_ne m c main_arg7 (by decide)).trans (X19_main_arg7 m c)
theorem X0_main_arg8 (c : Dev nD) : X0 m c (Proc.devRef .tc main_arg8) = m ((c : Thread nD τ).loc main_arg8) := rfl
theorem X1_main_arg8 (c : Dev nD) : X1 m c (Proc.devRef .tc main_arg8) = m ((c : Thread nD τ).loc main_arg8) := (X1_of m c main_arg8 (by decide)).trans (X0_main_arg8 m c)
theorem X2_main_arg8 (c : Dev nD) : X2 m c (Proc.devRef .tc main_arg8) = m ((c : Thread nD τ).loc main_arg8) := (X2_of_ne m c main_arg8 (by decide)).trans (X1_main_arg8 m c)
theorem X3_main_arg8 (c : Dev nD) : X3 m c (Proc.devRef .tc main_arg8) = m ((c : Thread nD τ).loc main_arg8) := (X3_of m c main_arg8 (by decide)).trans (X2_main_arg8 m c)
theorem X4_main_arg8 (c : Dev nD) : X4 m c (Proc.devRef .tc main_arg8) = m ((c : Thread nD τ).loc main_arg8) := (X4_of_ne m c main_arg8 (by decide)).trans (X3_main_arg8 m c)
theorem X5_main_arg8 (c : Dev nD) : X5 m c (Proc.devRef .tc main_arg8) = m ((c : Thread nD τ).loc main_arg8) := (X5_of m c main_arg8 (by decide)).trans (X4_main_arg8 m c)
theorem X6_main_arg8 (c : Dev nD) : X6 m c (Proc.devRef .tc main_arg8) = m ((c : Thread nD τ).loc main_arg8) := (X6_of_ne m c main_arg8 (by decide)).trans (X5_main_arg8 m c)
theorem X7_main_arg8 (c : Dev nD) : X7 m c (Proc.devRef .tc main_arg8) = m ((c : Thread nD τ).loc main_arg8) := (X7_of m c main_arg8 (by decide)).trans (X6_main_arg8 m c)
theorem X8_main_arg8 (c : Dev nD) : X8 m c (Proc.devRef .tc main_arg8) = m ((c : Thread nD τ).loc main_arg8) := (X8_of_ne m c main_arg8 (by decide)).trans (X7_main_arg8 m c)
theorem X9_main_arg8 (c : Dev nD) : X9 m c (Proc.devRef .tc main_arg8) = m ((c : Thread nD τ).loc main_arg8) := (X9_of m c main_arg8 (by decide)).trans (X8_main_arg8 m c)
theorem X10_main_arg8 (c : Dev nD) : X10 m c (Proc.devRef .tc main_arg8) = m ((c : Thread nD τ).loc main_arg8) := (X10_of_ne m c main_arg8 (by decide)).trans (X9_main_arg8 m c)
theorem X11_main_arg8 (c : Dev nD) : X11 m c (Proc.devRef .tc main_arg8) = m ((c : Thread nD τ).loc main_arg8) := (X11_of m c main_arg8 (by decide)).trans (X10_main_arg8 m c)
theorem X12_main_arg8 (c : Dev nD) : X12 m c (Proc.devRef .tc main_arg8) = m ((c : Thread nD τ).loc main_arg8) := (X12_of_ne m c main_arg8 (by decide)).trans (X11_main_arg8 m c)
theorem X13_main_arg8 (c : Dev nD) : X13 m c (Proc.devRef .tc main_arg8) = m ((c : Thread nD τ).loc main_arg8) := (X13_of m c main_arg8 (by decide)).trans (X12_main_arg8 m c)
theorem X14_main_arg8 (c : Dev nD) : X14 m c (Proc.devRef .tc main_arg8) = m ((c : Thread nD τ).loc main_arg8) := (X14_of_ne m c main_arg8 (by decide)).trans (X13_main_arg8 m c)
theorem X15_main_arg8 (c : Dev nD) : X15 m c (Proc.devRef .tc main_arg8) = m ((c : Thread nD τ).loc main_arg8) := (X15_of m c main_arg8 (by decide)).trans (X14_main_arg8 m c)
theorem X16_main_arg8 (c : Dev nD) : X16 m c (Proc.devRef .tc main_arg8) = m ((c : Thread nD τ).loc main_arg8) := (X16_of_ne m c main_arg8 (by decide)).trans (X15_main_arg8 m c)
theorem X17_main_arg8 (c : Dev nD) : X17 m c (Proc.devRef .tc main_arg8) = m ((c : Thread nD τ).loc main_arg8) := (X17_of m c main_arg8 (by decide)).trans (X16_main_arg8 m c)
theorem X18_main_arg8 (c : Dev nD) : X18 m c (Proc.devRef .tc main_arg8) = m ((c : Thread nD τ).loc main_arg8) := (X18_of_ne m c main_arg8 (by decide)).trans (X17_main_arg8 m c)
theorem X19_main_arg8 (c : Dev nD) : X19 m c (Proc.devRef .tc main_arg8) = m ((c : Thread nD τ).loc main_arg8) := (X19_of m c main_arg8 (by decide)).trans (X18_main_arg8 m c)
theorem X20_main_arg8 (c : Dev nD) : X20 m c (Proc.devRef .tc main_arg8) = m ((c : Thread nD τ).loc main_arg8) := (X20_of_ne m c main_arg8 (by decide)).trans (X19_main_arg8 m c)
theorem X0_main_arg9 (c : Dev nD) : X0 m c (Proc.devRef .tc main_arg9) = m ((c : Thread nD τ).loc main_arg9) := rfl
theorem X1_main_arg9 (c : Dev nD) : X1 m c (Proc.devRef .tc main_arg9) = m ((c : Thread nD τ).loc main_arg9) := (X1_of m c main_arg9 (by decide)).trans (X0_main_arg9 m c)
theorem X2_main_arg9 (c : Dev nD) : X2 m c (Proc.devRef .tc main_arg9) = m ((c : Thread nD τ).loc main_arg9) := (X2_of_ne m c main_arg9 (by decide)).trans (X1_main_arg9 m c)
theorem X3_main_arg9 (c : Dev nD) : X3 m c (Proc.devRef .tc main_arg9) = m ((c : Thread nD τ).loc main_arg9) := (X3_of m c main_arg9 (by decide)).trans (X2_main_arg9 m c)
theorem X4_main_arg9 (c : Dev nD) : X4 m c (Proc.devRef .tc main_arg9) = m ((c : Thread nD τ).loc main_arg9) := (X4_of_ne m c main_arg9 (by decide)).trans (X3_main_arg9 m c)
theorem X5_main_arg9 (c : Dev nD) : X5 m c (Proc.devRef .tc main_arg9) = m ((c : Thread nD τ).loc main_arg9) := (X5_of m c main_arg9 (by decide)).trans (X4_main_arg9 m c)
theorem X6_main_arg9 (c : Dev nD) : X6 m c (Proc.devRef .tc main_arg9) = m ((c : Thread nD τ).loc main_arg9) := (X6_of_ne m c main_arg9 (by decide)).trans (X5_main_arg9 m c)
theorem X7_main_arg9 (c : Dev nD) : X7 m c (Proc.devRef .tc main_arg9) = m ((c : Thread nD τ).loc main_arg9) := (X7_of m c main_arg9 (by decide)).trans (X6_main_arg9 m c)
theorem X8_main_arg9 (c : Dev nD) : X8 m c (Proc.devRef .tc main_arg9) = m ((c : Thread nD τ).loc main_arg9) := (X8_of_ne m c main_arg9 (by decide)).trans (X7_main_arg9 m c)
theorem X9_main_arg9 (c : Dev nD) : X9 m c (Proc.devRef .tc main_arg9) = m ((c : Thread nD τ).loc main_arg9) := (X9_of m c main_arg9 (by decide)).trans (X8_main_arg9 m c)
theorem X10_main_arg9 (c : Dev nD) : X10 m c (Proc.devRef .tc main_arg9) = m ((c : Thread nD τ).loc main_arg9) := (X10_of_ne m c main_arg9 (by decide)).trans (X9_main_arg9 m c)
theorem X11_main_arg9 (c : Dev nD) : X11 m c (Proc.devRef .tc main_arg9) = m ((c : Thread nD τ).loc main_arg9) := (X11_of m c main_arg9 (by decide)).trans (X10_main_arg9 m c)
theorem X12_main_arg9 (c : Dev nD) : X12 m c (Proc.devRef .tc main_arg9) = m ((c : Thread nD τ).loc main_arg9) := (X12_of_ne m c main_arg9 (by decide)).trans (X11_main_arg9 m c)
theorem X13_main_arg9 (c : Dev nD) : X13 m c (Proc.devRef .tc main_arg9) = m ((c : Thread nD τ).loc main_arg9) := (X13_of m c main_arg9 (by decide)).trans (X12_main_arg9 m c)
theorem X14_main_arg9 (c : Dev nD) : X14 m c (Proc.devRef .tc main_arg9) = m ((c : Thread nD τ).loc main_arg9) := (X14_of_ne m c main_arg9 (by decide)).trans (X13_main_arg9 m c)
theorem X15_main_arg9 (c : Dev nD) : X15 m c (Proc.devRef .tc main_arg9) = m ((c : Thread nD τ).loc main_arg9) := (X15_of m c main_arg9 (by decide)).trans (X14_main_arg9 m c)
theorem X16_main_arg9 (c : Dev nD) : X16 m c (Proc.devRef .tc main_arg9) = m ((c : Thread nD τ).loc main_arg9) := (X16_of_ne m c main_arg9 (by decide)).trans (X15_main_arg9 m c)
theorem X17_main_arg9 (c : Dev nD) : X17 m c (Proc.devRef .tc main_arg9) = m ((c : Thread nD τ).loc main_arg9) := (X17_of m c main_arg9 (by decide)).trans (X16_main_arg9 m c)
theorem X18_main_arg9 (c : Dev nD) : X18 m c (Proc.devRef .tc main_arg9) = m ((c : Thread nD τ).loc main_arg9) := (X18_of_ne m c main_arg9 (by decide)).trans (X17_main_arg9 m c)
theorem X19_main_arg9 (c : Dev nD) : X19 m c (Proc.devRef .tc main_arg9) = m ((c : Thread nD τ).loc main_arg9) := (X19_of m c main_arg9 (by decide)).trans (X18_main_arg9 m c)
theorem X20_main_arg9 (c : Dev nD) : X20 m c (Proc.devRef .tc main_arg9) = m ((c : Thread nD τ).loc main_arg9) := (X20_of_ne m c main_arg9 (by decide)).trans (X19_main_arg9 m c)

end Cert.KernelIdeal.Fr

end
-- ==== Proof.KiArgsB.lean ====
/-
  The argument arrays 10 to 19 hold their launch contents at every boundary: no host stretch writes an argument's
  buffer and no region changes it (the perceptron region reads its weights and biases through input windows, whose
  arrays the pipeline leaves as entered; every other region never touches an argument). One step per boundary, walking
  back to the launch.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X0_main_arg10 (c : Dev nD) : X0 m c (Proc.devRef .tc main_arg10) = m ((c : Thread nD τ).loc main_arg10) := rfl
theorem X1_main_arg10 (c : Dev nD) : X1 m c (Proc.devRef .tc main_arg10) = m ((c : Thread nD τ).loc main_arg10) := (X1_of m c main_arg10 (by decide)).trans (X0_main_arg10 m c)
theorem X2_main_arg10 (c : Dev nD) : X2 m c (Proc.devRef .tc main_arg10) = m ((c : Thread nD τ).loc main_arg10) := (X2_of_ne m c main_arg10 (by decide)).trans (X1_main_arg10 m c)
theorem X3_main_arg10 (c : Dev nD) : X3 m c (Proc.devRef .tc main_arg10) = m ((c : Thread nD τ).loc main_arg10) := (X3_of m c main_arg10 (by decide)).trans (X2_main_arg10 m c)
theorem X4_main_arg10 (c : Dev nD) : X4 m c (Proc.devRef .tc main_arg10) = m ((c : Thread nD τ).loc main_arg10) := (X4_of_ne m c main_arg10 (by decide)).trans (X3_main_arg10 m c)
theorem X5_main_arg10 (c : Dev nD) : X5 m c (Proc.devRef .tc main_arg10) = m ((c : Thread nD τ).loc main_arg10) := (X5_of m c main_arg10 (by decide)).trans (X4_main_arg10 m c)
theorem X6_main_arg10 (c : Dev nD) : X6 m c (Proc.devRef .tc main_arg10) = m ((c : Thread nD τ).loc main_arg10) := (X6_of_ne m c main_arg10 (by decide)).trans (X5_main_arg10 m c)
theorem X7_main_arg10 (c : Dev nD) : X7 m c (Proc.devRef .tc main_arg10) = m ((c : Thread nD τ).loc main_arg10) := (X7_of m c main_arg10 (by decide)).trans (X6_main_arg10 m c)
theorem X8_main_arg10 (c : Dev nD) : X8 m c (Proc.devRef .tc main_arg10) = m ((c : Thread nD τ).loc main_arg10) := (X8_of_ne m c main_arg10 (by decide)).trans (X7_main_arg10 m c)
theorem X9_main_arg10 (c : Dev nD) : X9 m c (Proc.devRef .tc main_arg10) = m ((c : Thread nD τ).loc main_arg10) := (X9_of m c main_arg10 (by decide)).trans (X8_main_arg10 m c)
theorem X10_main_arg10 (c : Dev nD) : X10 m c (Proc.devRef .tc main_arg10) = m ((c : Thread nD τ).loc main_arg10) := (X10_of_ne m c main_arg10 (by decide)).trans (X9_main_arg10 m c)
theorem X11_main_arg10 (c : Dev nD) : X11 m c (Proc.devRef .tc main_arg10) = m ((c : Thread nD τ).loc main_arg10) := (X11_of m c main_arg10 (by decide)).trans (X10_main_arg10 m c)
theorem X12_main_arg10 (c : Dev nD) : X12 m c (Proc.devRef .tc main_arg10) = m ((c : Thread nD τ).loc main_arg10) := (X12_of_ne m c main_arg10 (by decide)).trans (X11_main_arg10 m c)
theorem X13_main_arg10 (c : Dev nD) : X13 m c (Proc.devRef .tc main_arg10) = m ((c : Thread nD τ).loc main_arg10) := (X13_of m c main_arg10 (by decide)).trans (X12_main_arg10 m c)
theorem X14_main_arg10 (c : Dev nD) : X14 m c (Proc.devRef .tc main_arg10) = m ((c : Thread nD τ).loc main_arg10) := (X14_of_ne m c main_arg10 (by decide)).trans (X13_main_arg10 m c)
theorem X15_main_arg10 (c : Dev nD) : X15 m c (Proc.devRef .tc main_arg10) = m ((c : Thread nD τ).loc main_arg10) := (X15_of m c main_arg10 (by decide)).trans (X14_main_arg10 m c)
theorem X16_main_arg10 (c : Dev nD) : X16 m c (Proc.devRef .tc main_arg10) = m ((c : Thread nD τ).loc main_arg10) := (X16_of_ne m c main_arg10 (by decide)).trans (X15_main_arg10 m c)
theorem X17_main_arg10 (c : Dev nD) : X17 m c (Proc.devRef .tc main_arg10) = m ((c : Thread nD τ).loc main_arg10) := (X17_of m c main_arg10 (by decide)).trans (X16_main_arg10 m c)
theorem X18_main_arg10 (c : Dev nD) : X18 m c (Proc.devRef .tc main_arg10) = m ((c : Thread nD τ).loc main_arg10) := (X18_of_ne m c main_arg10 (by decide)).trans (X17_main_arg10 m c)
theorem X19_main_arg10 (c : Dev nD) : X19 m c (Proc.devRef .tc main_arg10) = m ((c : Thread nD τ).loc main_arg10) := (X19_of m c main_arg10 (by decide)).trans (X18_main_arg10 m c)
theorem X20_main_arg10 (c : Dev nD) : X20 m c (Proc.devRef .tc main_arg10) = m ((c : Thread nD τ).loc main_arg10) := (X20_of_ne m c main_arg10 (by decide)).trans (X19_main_arg10 m c)
theorem X0_main_arg11 (c : Dev nD) : X0 m c (Proc.devRef .tc main_arg11) = m ((c : Thread nD τ).loc main_arg11) := rfl
theorem X1_main_arg11 (c : Dev nD) : X1 m c (Proc.devRef .tc main_arg11) = m ((c : Thread nD τ).loc main_arg11) := (X1_of m c main_arg11 (by decide)).trans (X0_main_arg11 m c)
theorem X2_main_arg11 (c : Dev nD) : X2 m c (Proc.devRef .tc main_arg11) = m ((c : Thread nD τ).loc main_arg11) := (X2_of_ne m c main_arg11 (by decide)).trans (X1_main_arg11 m c)
theorem X3_main_arg11 (c : Dev nD) : X3 m c (Proc.devRef .tc main_arg11) = m ((c : Thread nD τ).loc main_arg11) := (X3_of m c main_arg11 (by decide)).trans (X2_main_arg11 m c)
theorem X4_main_arg11 (c : Dev nD) : X4 m c (Proc.devRef .tc main_arg11) = m ((c : Thread nD τ).loc main_arg11) := (X4_of_ne m c main_arg11 (by decide)).trans (X3_main_arg11 m c)
theorem X5_main_arg11 (c : Dev nD) : X5 m c (Proc.devRef .tc main_arg11) = m ((c : Thread nD τ).loc main_arg11) := (X5_of m c main_arg11 (by decide)).trans (X4_main_arg11 m c)
theorem X6_main_arg11 (c : Dev nD) : X6 m c (Proc.devRef .tc main_arg11) = m ((c : Thread nD τ).loc main_arg11) := (X6_of_ne m c main_arg11 (by decide)).trans (X5_main_arg11 m c)
theorem X7_main_arg11 (c : Dev nD) : X7 m c (Proc.devRef .tc main_arg11) = m ((c : Thread nD τ).loc main_arg11) := (X7_of m c main_arg11 (by decide)).trans (X6_main_arg11 m c)
theorem X8_main_arg11 (c : Dev nD) : X8 m c (Proc.devRef .tc main_arg11) = m ((c : Thread nD τ).loc main_arg11) := (X8_of_ne m c main_arg11 (by decide)).trans (X7_main_arg11 m c)
theorem X9_main_arg11 (c : Dev nD) : X9 m c (Proc.devRef .tc main_arg11) = m ((c : Thread nD τ).loc main_arg11) := (X9_of m c main_arg11 (by decide)).trans (X8_main_arg11 m c)
theorem X10_main_arg11 (c : Dev nD) : X10 m c (Proc.devRef .tc main_arg11) = m ((c : Thread nD τ).loc main_arg11) := (X10_of_ne m c main_arg11 (by decide)).trans (X9_main_arg11 m c)
theorem X11_main_arg11 (c : Dev nD) : X11 m c (Proc.devRef .tc main_arg11) = m ((c : Thread nD τ).loc main_arg11) := (X11_of m c main_arg11 (by decide)).trans (X10_main_arg11 m c)
theorem X12_main_arg11 (c : Dev nD) : X12 m c (Proc.devRef .tc main_arg11) = m ((c : Thread nD τ).loc main_arg11) := (X12_of_ne m c main_arg11 (by decide)).trans (X11_main_arg11 m c)
theorem X13_main_arg11 (c : Dev nD) : X13 m c (Proc.devRef .tc main_arg11) = m ((c : Thread nD τ).loc main_arg11) := (X13_of m c main_arg11 (by decide)).trans (X12_main_arg11 m c)
theorem X14_main_arg11 (c : Dev nD) : X14 m c (Proc.devRef .tc main_arg11) = m ((c : Thread nD τ).loc main_arg11) := (X14_of_ne m c main_arg11 (by decide)).trans (X13_main_arg11 m c)
theorem X15_main_arg11 (c : Dev nD) : X15 m c (Proc.devRef .tc main_arg11) = m ((c : Thread nD τ).loc main_arg11) := (X15_of m c main_arg11 (by decide)).trans (X14_main_arg11 m c)
theorem X16_main_arg11 (c : Dev nD) : X16 m c (Proc.devRef .tc main_arg11) = m ((c : Thread nD τ).loc main_arg11) := (X16_of_ne m c main_arg11 (by decide)).trans (X15_main_arg11 m c)
theorem X17_main_arg11 (c : Dev nD) : X17 m c (Proc.devRef .tc main_arg11) = m ((c : Thread nD τ).loc main_arg11) := (X17_of m c main_arg11 (by decide)).trans (X16_main_arg11 m c)
theorem X18_main_arg11 (c : Dev nD) : X18 m c (Proc.devRef .tc main_arg11) = m ((c : Thread nD τ).loc main_arg11) := (X18_of_ne m c main_arg11 (by decide)).trans (X17_main_arg11 m c)
theorem X19_main_arg11 (c : Dev nD) : X19 m c (Proc.devRef .tc main_arg11) = m ((c : Thread nD τ).loc main_arg11) := (X19_of m c main_arg11 (by decide)).trans (X18_main_arg11 m c)
theorem X20_main_arg11 (c : Dev nD) : X20 m c (Proc.devRef .tc main_arg11) = m ((c : Thread nD τ).loc main_arg11) := (X20_of_ne m c main_arg11 (by decide)).trans (X19_main_arg11 m c)
theorem X0_main_arg12 (c : Dev nD) : X0 m c (Proc.devRef .tc main_arg12) = m ((c : Thread nD τ).loc main_arg12) := rfl
theorem X1_main_arg12 (c : Dev nD) : X1 m c (Proc.devRef .tc main_arg12) = m ((c : Thread nD τ).loc main_arg12) := (X1_of m c main_arg12 (by decide)).trans (X0_main_arg12 m c)
theorem X2_main_arg12 (c : Dev nD) : X2 m c (Proc.devRef .tc main_arg12) = m ((c : Thread nD τ).loc main_arg12) := (X2_of_ne m c main_arg12 (by decide)).trans (X1_main_arg12 m c)
theorem X3_main_arg12 (c : Dev nD) : X3 m c (Proc.devRef .tc main_arg12) = m ((c : Thread nD τ).loc main_arg12) := (X3_of m c main_arg12 (by decide)).trans (X2_main_arg12 m c)
theorem X4_main_arg12 (c : Dev nD) : X4 m c (Proc.devRef .tc main_arg12) = m ((c : Thread nD τ).loc main_arg12) := (X4_of_ne m c main_arg12 (by decide)).trans (X3_main_arg12 m c)
theorem X5_main_arg12 (c : Dev nD) : X5 m c (Proc.devRef .tc main_arg12) = m ((c : Thread nD τ).loc main_arg12) := (X5_of m c main_arg12 (by decide)).trans (X4_main_arg12 m c)
theorem X6_main_arg12 (c : Dev nD) : X6 m c (Proc.devRef .tc main_arg12) = m ((c : Thread nD τ).loc main_arg12) := (X6_of_ne m c main_arg12 (by decide)).trans (X5_main_arg12 m c)
theorem X7_main_arg12 (c : Dev nD) : X7 m c (Proc.devRef .tc main_arg12) = m ((c : Thread nD τ).loc main_arg12) := (X7_of m c main_arg12 (by decide)).trans (X6_main_arg12 m c)
theorem X8_main_arg12 (c : Dev nD) : X8 m c (Proc.devRef .tc main_arg12) = m ((c : Thread nD τ).loc main_arg12) := (X8_of_ne m c main_arg12 (by decide)).trans (X7_main_arg12 m c)
theorem X9_main_arg12 (c : Dev nD) : X9 m c (Proc.devRef .tc main_arg12) = m ((c : Thread nD τ).loc main_arg12) := (X9_of m c main_arg12 (by decide)).trans (X8_main_arg12 m c)
theorem X10_main_arg12 (c : Dev nD) : X10 m c (Proc.devRef .tc main_arg12) = m ((c : Thread nD τ).loc main_arg12) := (X10_of_ne m c main_arg12 (by decide)).trans (X9_main_arg12 m c)
theorem X11_main_arg12 (c : Dev nD) : X11 m c (Proc.devRef .tc main_arg12) = m ((c : Thread nD τ).loc main_arg12) := (X11_of m c main_arg12 (by decide)).trans (X10_main_arg12 m c)
theorem X12_main_arg12 (c : Dev nD) : X12 m c (Proc.devRef .tc main_arg12) = m ((c : Thread nD τ).loc main_arg12) := (X12_of_ne m c main_arg12 (by decide)).trans (X11_main_arg12 m c)
theorem X13_main_arg12 (c : Dev nD) : X13 m c (Proc.devRef .tc main_arg12) = m ((c : Thread nD τ).loc main_arg12) := (X13_of m c main_arg12 (by decide)).trans (X12_main_arg12 m c)
theorem X14_main_arg12 (c : Dev nD) : X14 m c (Proc.devRef .tc main_arg12) = m ((c : Thread nD τ).loc main_arg12) := (X14_of_ne m c main_arg12 (by decide)).trans (X13_main_arg12 m c)
theorem X15_main_arg12 (c : Dev nD) : X15 m c (Proc.devRef .tc main_arg12) = m ((c : Thread nD τ).loc main_arg12) := (X15_of m c main_arg12 (by decide)).trans (X14_main_arg12 m c)
theorem X16_main_arg12 (c : Dev nD) : X16 m c (Proc.devRef .tc main_arg12) = m ((c : Thread nD τ).loc main_arg12) := (X16_of_ne m c main_arg12 (by decide)).trans (X15_main_arg12 m c)
theorem X17_main_arg12 (c : Dev nD) : X17 m c (Proc.devRef .tc main_arg12) = m ((c : Thread nD τ).loc main_arg12) := (X17_of m c main_arg12 (by decide)).trans (X16_main_arg12 m c)
theorem X18_main_arg12 (c : Dev nD) : X18 m c (Proc.devRef .tc main_arg12) = m ((c : Thread nD τ).loc main_arg12) := (X18_of_ne m c main_arg12 (by decide)).trans (X17_main_arg12 m c)
theorem X19_main_arg12 (c : Dev nD) : X19 m c (Proc.devRef .tc main_arg12) = m ((c : Thread nD τ).loc main_arg12) := (X19_of m c main_arg12 (by decide)).trans (X18_main_arg12 m c)
theorem X20_main_arg12 (c : Dev nD) : X20 m c (Proc.devRef .tc main_arg12) = m ((c : Thread nD τ).loc main_arg12) := ((X20_arr m c 1).trans (((dat9 (Y19 m) c).arrAt_in 1 rfl _).trans (A_eq9 (Y19 m) c 1))).trans (X19_main_arg12 m c)
theorem X0_main_arg13 (c : Dev nD) : X0 m c (Proc.devRef .tc main_arg13) = m ((c : Thread nD τ).loc main_arg13) := rfl
theorem X1_main_arg13 (c : Dev nD) : X1 m c (Proc.devRef .tc main_arg13) = m ((c : Thread nD τ).loc main_arg13) := (X1_of m c main_arg13 (by decide)).trans (X0_main_arg13 m c)
theorem X2_main_arg13 (c : Dev nD) : X2 m c (Proc.devRef .tc main_arg13) = m ((c : Thread nD τ).loc main_arg13) := (X2_of_ne m c main_arg13 (by decide)).trans (X1_main_arg13 m c)
theorem X3_main_arg13 (c : Dev nD) : X3 m c (Proc.devRef .tc main_arg13) = m ((c : Thread nD τ).loc main_arg13) := (X3_of m c main_arg13 (by decide)).trans (X2_main_arg13 m c)
theorem X4_main_arg13 (c : Dev nD) : X4 m c (Proc.devRef .tc main_arg13) = m ((c : Thread nD τ).loc main_arg13) := (X4_of_ne m c main_arg13 (by decide)).trans (X3_main_arg13 m c)
theorem X5_main_arg13 (c : Dev nD) : X5 m c (Proc.devRef .tc main_arg13) = m ((c : Thread nD τ).loc main_arg13) := (X5_of m c main_arg13 (by decide)).trans (X4_main_arg13 m c)
theorem X6_main_arg13 (c : Dev nD) : X6 m c (Proc.devRef .tc main_arg13) = m ((c : Thread nD τ).loc main_arg13) := (X6_of_ne m c main_arg13 (by decide)).trans (X5_main_arg13 m c)
theorem X7_main_arg13 (c : Dev nD) : X7 m c (Proc.devRef .tc main_arg13) = m ((c : Thread nD τ).loc main_arg13) := (X7_of m c main_arg13 (by decide)).trans (X6_main_arg13 m c)
theorem X8_main_arg13 (c : Dev nD) : X8 m c (Proc.devRef .tc main_arg13) = m ((c : Thread nD τ).loc main_arg13) := (X8_of_ne m c main_arg13 (by decide)).trans (X7_main_arg13 m c)
theorem X9_main_arg13 (c : Dev nD) : X9 m c (Proc.devRef .tc main_arg13) = m ((c : Thread nD τ).loc main_arg13) := (X9_of m c main_arg13 (by decide)).trans (X8_main_arg13 m c)
theorem X10_main_arg13 (c : Dev nD) : X10 m c (Proc.devRef .tc main_arg13) = m ((c : Thread nD τ).loc main_arg13) := (X10_of_ne m c main_arg13 (by decide)).trans (X9_main_arg13 m c)
theorem X11_main_arg13 (c : Dev nD) : X11 m c (Proc.devRef .tc main_arg13) = m ((c : Thread nD τ).loc main_arg13) := (X11_of m c main_arg13 (by decide)).trans (X10_main_arg13 m c)
theorem X12_main_arg13 (c : Dev nD) : X12 m c (Proc.devRef .tc main_arg13) = m ((c : Thread nD τ).loc main_arg13) := (X12_of_ne m c main_arg13 (by decide)).trans (X11_main_arg13 m c)
theorem X13_main_arg13 (c : Dev nD) : X13 m c (Proc.devRef .tc main_arg13) = m ((c : Thread nD τ).loc main_arg13) := (X13_of m c main_arg13 (by decide)).trans (X12_main_arg13 m c)
theorem X14_main_arg13 (c : Dev nD) : X14 m c (Proc.devRef .tc main_arg13) = m ((c : Thread nD τ).loc main_arg13) := (X14_of_ne m c main_arg13 (by decide)).trans (X13_main_arg13 m c)
theorem X15_main_arg13 (c : Dev nD) : X15 m c (Proc.devRef .tc main_arg13) = m ((c : Thread nD τ).loc main_arg13) := (X15_of m c main_arg13 (by decide)).trans (X14_main_arg13 m c)
theorem X16_main_arg13 (c : Dev nD) : X16 m c (Proc.devRef .tc main_arg13) = m ((c : Thread nD τ).loc main_arg13) := (X16_of_ne m c main_arg13 (by decide)).trans (X15_main_arg13 m c)
theorem X17_main_arg13 (c : Dev nD) : X17 m c (Proc.devRef .tc main_arg13) = m ((c : Thread nD τ).loc main_arg13) := (X17_of m c main_arg13 (by decide)).trans (X16_main_arg13 m c)
theorem X18_main_arg13 (c : Dev nD) : X18 m c (Proc.devRef .tc main_arg13) = m ((c : Thread nD τ).loc main_arg13) := (X18_of_ne m c main_arg13 (by decide)).trans (X17_main_arg13 m c)
theorem X19_main_arg13 (c : Dev nD) : X19 m c (Proc.devRef .tc main_arg13) = m ((c : Thread nD τ).loc main_arg13) := (X19_of m c main_arg13 (by decide)).trans (X18_main_arg13 m c)
theorem X20_main_arg13 (c : Dev nD) : X20 m c (Proc.devRef .tc main_arg13) = m ((c : Thread nD τ).loc main_arg13) := ((X20_arr m c 2).trans (((dat9 (Y19 m) c).arrAt_in 2 rfl _).trans (A_eq9 (Y19 m) c 2))).trans (X19_main_arg13 m c)
theorem X0_main_arg14 (c : Dev nD) : X0 m c (Proc.devRef .tc main_arg14) = m ((c : Thread nD τ).loc main_arg14) := rfl
theorem X1_main_arg14 (c : Dev nD) : X1 m c (Proc.devRef .tc main_arg14) = m ((c : Thread nD τ).loc main_arg14) := (X1_of m c main_arg14 (by decide)).trans (X0_main_arg14 m c)
theorem X2_main_arg14 (c : Dev nD) : X2 m c (Proc.devRef .tc main_arg14) = m ((c : Thread nD τ).loc main_arg14) := (X2_of_ne m c main_arg14 (by decide)).trans (X1_main_arg14 m c)
theorem X3_main_arg14 (c : Dev nD) : X3 m c (Proc.devRef .tc main_arg14) = m ((c : Thread nD τ).loc main_arg14) := (X3_of m c main_arg14 (by decide)).trans (X2_main_arg14 m c)
theorem X4_main_arg14 (c : Dev nD) : X4 m c (Proc.devRef .tc main_arg14) = m ((c : Thread nD τ).loc main_arg14) := (X4_of_ne m c main_arg14 (by decide)).trans (X3_main_arg14 m c)
theorem X5_main_arg14 (c : Dev nD) : X5 m c (Proc.devRef .tc main_arg14) = m ((c : Thread nD τ).loc main_arg14) := (X5_of m c main_arg14 (by decide)).trans (X4_main_arg14 m c)
theorem X6_main_arg14 (c : Dev nD) : X6 m c (Proc.devRef .tc main_arg14) = m ((c : Thread nD τ).loc main_arg14) := (X6_of_ne m c main_arg14 (by decide)).trans (X5_main_arg14 m c)
theorem X7_main_arg14 (c : Dev nD) : X7 m c (Proc.devRef .tc main_arg14) = m ((c : Thread nD τ).loc main_arg14) := (X7_of m c main_arg14 (by decide)).trans (X6_main_arg14 m c)
theorem X8_main_arg14 (c : Dev nD) : X8 m c (Proc.devRef .tc main_arg14) = m ((c : Thread nD τ).loc main_arg14) := (X8_of_ne m c main_arg14 (by decide)).trans (X7_main_arg14 m c)
theorem X9_main_arg14 (c : Dev nD) : X9 m c (Proc.devRef .tc main_arg14) = m ((c : Thread nD τ).loc main_arg14) := (X9_of m c main_arg14 (by decide)).trans (X8_main_arg14 m c)
theorem X10_main_arg14 (c : Dev nD) : X10 m c (Proc.devRef .tc main_arg14) = m ((c : Thread nD τ).loc main_arg14) := (X10_of_ne m c main_arg14 (by decide)).trans (X9_main_arg14 m c)
theorem X11_main_arg14 (c : Dev nD) : X11 m c (Proc.devRef .tc main_arg14) = m ((c : Thread nD τ).loc main_arg14) := (X11_of m c main_arg14 (by decide)).trans (X10_main_arg14 m c)
theorem X12_main_arg14 (c : Dev nD) : X12 m c (Proc.devRef .tc main_arg14) = m ((c : Thread nD τ).loc main_arg14) := (X12_of_ne m c main_arg14 (by decide)).trans (X11_main_arg14 m c)
theorem X13_main_arg14 (c : Dev nD) : X13 m c (Proc.devRef .tc main_arg14) = m ((c : Thread nD τ).loc main_arg14) := (X13_of m c main_arg14 (by decide)).trans (X12_main_arg14 m c)
theorem X14_main_arg14 (c : Dev nD) : X14 m c (Proc.devRef .tc main_arg14) = m ((c : Thread nD τ).loc main_arg14) := (X14_of_ne m c main_arg14 (by decide)).trans (X13_main_arg14 m c)
theorem X15_main_arg14 (c : Dev nD) : X15 m c (Proc.devRef .tc main_arg14) = m ((c : Thread nD τ).loc main_arg14) := (X15_of m c main_arg14 (by decide)).trans (X14_main_arg14 m c)
theorem X16_main_arg14 (c : Dev nD) : X16 m c (Proc.devRef .tc main_arg14) = m ((c : Thread nD τ).loc main_arg14) := (X16_of_ne m c main_arg14 (by decide)).trans (X15_main_arg14 m c)
theorem X17_main_arg14 (c : Dev nD) : X17 m c (Proc.devRef .tc main_arg14) = m ((c : Thread nD τ).loc main_arg14) := (X17_of m c main_arg14 (by decide)).trans (X16_main_arg14 m c)
theorem X18_main_arg14 (c : Dev nD) : X18 m c (Proc.devRef .tc main_arg14) = m ((c : Thread nD τ).loc main_arg14) := (X18_of_ne m c main_arg14 (by decide)).trans (X17_main_arg14 m c)
theorem X19_main_arg14 (c : Dev nD) : X19 m c (Proc.devRef .tc main_arg14) = m ((c : Thread nD τ).loc main_arg14) := (X19_of m c main_arg14 (by decide)).trans (X18_main_arg14 m c)
theorem X20_main_arg14 (c : Dev nD) : X20 m c (Proc.devRef .tc main_arg14) = m ((c : Thread nD τ).loc main_arg14) := ((X20_arr m c 3).trans (((dat9 (Y19 m) c).arrAt_in 3 rfl _).trans (A_eq9 (Y19 m) c 3))).trans (X19_main_arg14 m c)
theorem X0_main_arg15 (c : Dev nD) : X0 m c (Proc.devRef .tc main_arg15) = m ((c : Thread nD τ).loc main_arg15) := rfl
theorem X1_main_arg15 (c : Dev nD) : X1 m c (Proc.devRef .tc main_arg15) = m ((c : Thread nD τ).loc main_arg15) := (X1_of m c main_arg15 (by decide)).trans (X0_main_arg15 m c)
theorem X2_main_arg15 (c : Dev nD) : X2 m c (Proc.devRef .tc main_arg15) = m ((c : Thread nD τ).loc main_arg15) := (X2_of_ne m c main_arg15 (by decide)).trans (X1_main_arg15 m c)
theorem X3_main_arg15 (c : Dev nD) : X3 m c (Proc.devRef .tc main_arg15) = m ((c : Thread nD τ).loc main_arg15) := (X3_of m c main_arg15 (by decide)).trans (X2_main_arg15 m c)
theorem X4_main_arg15 (c : Dev nD) : X4 m c (Proc.devRef .tc main_arg15) = m ((c : Thread nD τ).loc main_arg15) := (X4_of_ne m c main_arg15 (by decide)).trans (X3_main_arg15 m c)
theorem X5_main_arg15 (c : Dev nD) : X5 m c (Proc.devRef .tc main_arg15) = m ((c : Thread nD τ).loc main_arg15) := (X5_of m c main_arg15 (by decide)).trans (X4_main_arg15 m c)
theorem X6_main_arg15 (c : Dev nD) : X6 m c (Proc.devRef .tc main_arg15) = m ((c : Thread nD τ).loc main_arg15) := (X6_of_ne m c main_arg15 (by decide)).trans (X5_main_arg15 m c)
theorem X7_main_arg15 (c : Dev nD) : X7 m c (Proc.devRef .tc main_arg15) = m ((c : Thread nD τ).loc main_arg15) := (X7_of m c main_arg15 (by decide)).trans (X6_main_arg15 m c)
theorem X8_main_arg15 (c : Dev nD) : X8 m c (Proc.devRef .tc main_arg15) = m ((c : Thread nD τ).loc main_arg15) := (X8_of_ne m c main_arg15 (by decide)).trans (X7_main_arg15 m c)
theorem X9_main_arg15 (c : Dev nD) : X9 m c (Proc.devRef .tc main_arg15) = m ((c : Thread nD τ).loc main_arg15) := (X9_of m c main_arg15 (by decide)).trans (X8_main_arg15 m c)
theorem X10_main_arg15 (c : Dev nD) : X10 m c (Proc.devRef .tc main_arg15) = m ((c : Thread nD τ).loc main_arg15) := (X10_of_ne m c main_arg15 (by decide)).trans (X9_main_arg15 m c)
theorem X11_main_arg15 (c : Dev nD) : X11 m c (Proc.devRef .tc main_arg15) = m ((c : Thread nD τ).loc main_arg15) := (X11_of m c main_arg15 (by decide)).trans (X10_main_arg15 m c)
theorem X12_main_arg15 (c : Dev nD) : X12 m c (Proc.devRef .tc main_arg15) = m ((c : Thread nD τ).loc main_arg15) := (X12_of_ne m c main_arg15 (by decide)).trans (X11_main_arg15 m c)
theorem X13_main_arg15 (c : Dev nD) : X13 m c (Proc.devRef .tc main_arg15) = m ((c : Thread nD τ).loc main_arg15) := (X13_of m c main_arg15 (by decide)).trans (X12_main_arg15 m c)
theorem X14_main_arg15 (c : Dev nD) : X14 m c (Proc.devRef .tc main_arg15) = m ((c : Thread nD τ).loc main_arg15) := (X14_of_ne m c main_arg15 (by decide)).trans (X13_main_arg15 m c)
theorem X15_main_arg15 (c : Dev nD) : X15 m c (Proc.devRef .tc main_arg15) = m ((c : Thread nD τ).loc main_arg15) := (X15_of m c main_arg15 (by decide)).trans (X14_main_arg15 m c)
theorem X16_main_arg15 (c : Dev nD) : X16 m c (Proc.devRef .tc main_arg15) = m ((c : Thread nD τ).loc main_arg15) := (X16_of_ne m c main_arg15 (by decide)).trans (X15_main_arg15 m c)
theorem X17_main_arg15 (c : Dev nD) : X17 m c (Proc.devRef .tc main_arg15) = m ((c : Thread nD τ).loc main_arg15) := (X17_of m c main_arg15 (by decide)).trans (X16_main_arg15 m c)
theorem X18_main_arg15 (c : Dev nD) : X18 m c (Proc.devRef .tc main_arg15) = m ((c : Thread nD τ).loc main_arg15) := (X18_of_ne m c main_arg15 (by decide)).trans (X17_main_arg15 m c)
theorem X19_main_arg15 (c : Dev nD) : X19 m c (Proc.devRef .tc main_arg15) = m ((c : Thread nD τ).loc main_arg15) := (X19_of m c main_arg15 (by decide)).trans (X18_main_arg15 m c)
theorem X20_main_arg15 (c : Dev nD) : X20 m c (Proc.devRef .tc main_arg15) = m ((c : Thread nD τ).loc main_arg15) := ((X20_arr m c 4).trans (((dat9 (Y19 m) c).arrAt_in 4 rfl _).trans (A_eq9 (Y19 m) c 4))).trans (X19_main_arg15 m c)
theorem X0_main_arg16 (c : Dev nD) : X0 m c (Proc.devRef .tc main_arg16) = m ((c : Thread nD τ).loc main_arg16) := rfl
theorem X1_main_arg16 (c : Dev nD) : X1 m c (Proc.devRef .tc main_arg16) = m ((c : Thread nD τ).loc main_arg16) := (X1_of m c main_arg16 (by decide)).trans (X0_main_arg16 m c)
theorem X2_main_arg16 (c : Dev nD) : X2 m c (Proc.devRef .tc main_arg16) = m ((c : Thread nD τ).loc main_arg16) := (X2_of_ne m c main_arg16 (by decide)).trans (X1_main_arg16 m c)
theorem X3_main_arg16 (c : Dev nD) : X3 m c (Proc.devRef .tc main_arg16) = m ((c : Thread nD τ).loc main_arg16) := (X3_of m c main_arg16 (by decide)).trans (X2_main_arg16 m c)
theorem X4_main_arg16 (c : Dev nD) : X4 m c (Proc.devRef .tc main_arg16) = m ((c : Thread nD τ).loc main_arg16) := (X4_of_ne m c main_arg16 (by decide)).trans (X3_main_arg16 m c)
theorem X5_main_arg16 (c : Dev nD) : X5 m c (Proc.devRef .tc main_arg16) = m ((c : Thread nD τ).loc main_arg16) := (X5_of m c main_arg16 (by decide)).trans (X4_main_arg16 m c)
theorem X6_main_arg16 (c : Dev nD) : X6 m c (Proc.devRef .tc main_arg16) = m ((c : Thread nD τ).loc main_arg16) := (X6_of_ne m c main_arg16 (by decide)).trans (X5_main_arg16 m c)
theorem X7_main_arg16 (c : Dev nD) : X7 m c (Proc.devRef .tc main_arg16) = m ((c : Thread nD τ).loc main_arg16) := (X7_of m c main_arg16 (by decide)).trans (X6_main_arg16 m c)
theorem X8_main_arg16 (c : Dev nD) : X8 m c (Proc.devRef .tc main_arg16) = m ((c : Thread nD τ).loc main_arg16) := (X8_of_ne m c main_arg16 (by decide)).trans (X7_main_arg16 m c)
theorem X9_main_arg16 (c : Dev nD) : X9 m c (Proc.devRef .tc main_arg16) = m ((c : Thread nD τ).loc main_arg16) := (X9_of m c main_arg16 (by decide)).trans (X8_main_arg16 m c)
theorem X10_main_arg16 (c : Dev nD) : X10 m c (Proc.devRef .tc main_arg16) = m ((c : Thread nD τ).loc main_arg16) := (X10_of_ne m c main_arg16 (by decide)).trans (X9_main_arg16 m c)
theorem X11_main_arg16 (c : Dev nD) : X11 m c (Proc.devRef .tc main_arg16) = m ((c : Thread nD τ).loc main_arg16) := (X11_of m c main_arg16 (by decide)).trans (X10_main_arg16 m c)
theorem X12_main_arg16 (c : Dev nD) : X12 m c (Proc.devRef .tc main_arg16) = m ((c : Thread nD τ).loc main_arg16) := (X12_of_ne m c main_arg16 (by decide)).trans (X11_main_arg16 m c)
theorem X13_main_arg16 (c : Dev nD) : X13 m c (Proc.devRef .tc main_arg16) = m ((c : Thread nD τ).loc main_arg16) := (X13_of m c main_arg16 (by decide)).trans (X12_main_arg16 m c)
theorem X14_main_arg16 (c : Dev nD) : X14 m c (Proc.devRef .tc main_arg16) = m ((c : Thread nD τ).loc main_arg16) := (X14_of_ne m c main_arg16 (by decide)).trans (X13_main_arg16 m c)
theorem X15_main_arg16 (c : Dev nD) : X15 m c (Proc.devRef .tc main_arg16) = m ((c : Thread nD τ).loc main_arg16) := (X15_of m c main_arg16 (by decide)).trans (X14_main_arg16 m c)
theorem X16_main_arg16 (c : Dev nD) : X16 m c (Proc.devRef .tc main_arg16) = m ((c : Thread nD τ).loc main_arg16) := (X16_of_ne m c main_arg16 (by decide)).trans (X15_main_arg16 m c)
theorem X17_main_arg16 (c : Dev nD) : X17 m c (Proc.devRef .tc main_arg16) = m ((c : Thread nD τ).loc main_arg16) := (X17_of m c main_arg16 (by decide)).trans (X16_main_arg16 m c)
theorem X18_main_arg16 (c : Dev nD) : X18 m c (Proc.devRef .tc main_arg16) = m ((c : Thread nD τ).loc main_arg16) := (X18_of_ne m c main_arg16 (by decide)).trans (X17_main_arg16 m c)
theorem X19_main_arg16 (c : Dev nD) : X19 m c (Proc.devRef .tc main_arg16) = m ((c : Thread nD τ).loc main_arg16) := (X19_of m c main_arg16 (by decide)).trans (X18_main_arg16 m c)
theorem X20_main_arg16 (c : Dev nD) : X20 m c (Proc.devRef .tc main_arg16) = m ((c : Thread nD τ).loc main_arg16) := ((X20_arr m c 5).trans (((dat9 (Y19 m) c).arrAt_in 5 rfl _).trans (A_eq9 (Y19 m) c 5))).trans (X19_main_arg16 m c)
theorem X0_main_arg17 (c : Dev nD) : X0 m c (Proc.devRef .tc main_arg17) = m ((c : Thread nD τ).loc main_arg17) := rfl
theorem X1_main_arg17 (c : Dev nD) : X1 m c (Proc.devRef .tc main_arg17) = m ((c : Thread nD τ).loc main_arg17) := (X1_of m c main_arg17 (by decide)).trans (X0_main_arg17 m c)
theorem X2_main_arg17 (c : Dev nD) : X2 m c (Proc.devRef .tc main_arg17) = m ((c : Thread nD τ).loc main_arg17) := (X2_of_ne m c main_arg17 (by decide)).trans (X1_main_arg17 m c)
theorem X3_main_arg17 (c : Dev nD) : X3 m c (Proc.devRef .tc main_arg17) = m ((c : Thread nD τ).loc main_arg17) := (X3_of m c main_arg17 (by decide)).trans (X2_main_arg17 m c)
theorem X4_main_arg17 (c : Dev nD) : X4 m c (Proc.devRef .tc main_arg17) = m ((c : Thread nD τ).loc main_arg17) := (X4_of_ne m c main_arg17 (by decide)).trans (X3_main_arg17 m c)
theorem X5_main_arg17 (c : Dev nD) : X5 m c (Proc.devRef .tc main_arg17) = m ((c : Thread nD τ).loc main_arg17) := (X5_of m c main_arg17 (by decide)).trans (X4_main_arg17 m c)
theorem X6_main_arg17 (c : Dev nD) : X6 m c (Proc.devRef .tc main_arg17) = m ((c : Thread nD τ).loc main_arg17) := (X6_of_ne m c main_arg17 (by decide)).trans (X5_main_arg17 m c)
theorem X7_main_arg17 (c : Dev nD) : X7 m c (Proc.devRef .tc main_arg17) = m ((c : Thread nD τ).loc main_arg17) := (X7_of m c main_arg17 (by decide)).trans (X6_main_arg17 m c)
theorem X8_main_arg17 (c : Dev nD) : X8 m c (Proc.devRef .tc main_arg17) = m ((c : Thread nD τ).loc main_arg17) := (X8_of_ne m c main_arg17 (by decide)).trans (X7_main_arg17 m c)
theorem X9_main_arg17 (c : Dev nD) : X9 m c (Proc.devRef .tc main_arg17) = m ((c : Thread nD τ).loc main_arg17) := (X9_of m c main_arg17 (by decide)).trans (X8_main_arg17 m c)
theorem X10_main_arg17 (c : Dev nD) : X10 m c (Proc.devRef .tc main_arg17) = m ((c : Thread nD τ).loc main_arg17) := (X10_of_ne m c main_arg17 (by decide)).trans (X9_main_arg17 m c)
theorem X11_main_arg17 (c : Dev nD) : X11 m c (Proc.devRef .tc main_arg17) = m ((c : Thread nD τ).loc main_arg17) := (X11_of m c main_arg17 (by decide)).trans (X10_main_arg17 m c)
theorem X12_main_arg17 (c : Dev nD) : X12 m c (Proc.devRef .tc main_arg17) = m ((c : Thread nD τ).loc main_arg17) := (X12_of_ne m c main_arg17 (by decide)).trans (X11_main_arg17 m c)
theorem X13_main_arg17 (c : Dev nD) : X13 m c (Proc.devRef .tc main_arg17) = m ((c : Thread nD τ).loc main_arg17) := (X13_of m c main_arg17 (by decide)).trans (X12_main_arg17 m c)
theorem X14_main_arg17 (c : Dev nD) : X14 m c (Proc.devRef .tc main_arg17) = m ((c : Thread nD τ).loc main_arg17) := (X14_of_ne m c main_arg17 (by decide)).trans (X13_main_arg17 m c)
theorem X15_main_arg17 (c : Dev nD) : X15 m c (Proc.devRef .tc main_arg17) = m ((c : Thread nD τ).loc main_arg17) := (X15_of m c main_arg17 (by decide)).trans (X14_main_arg17 m c)
theorem X16_main_arg17 (c : Dev nD) : X16 m c (Proc.devRef .tc main_arg17) = m ((c : Thread nD τ).loc main_arg17) := (X16_of_ne m c main_arg17 (by decide)).trans (X15_main_arg17 m c)
theorem X17_main_arg17 (c : Dev nD) : X17 m c (Proc.devRef .tc main_arg17) = m ((c : Thread nD τ).loc main_arg17) := (X17_of m c main_arg17 (by decide)).trans (X16_main_arg17 m c)
theorem X18_main_arg17 (c : Dev nD) : X18 m c (Proc.devRef .tc main_arg17) = m ((c : Thread nD τ).loc main_arg17) := (X18_of_ne m c main_arg17 (by decide)).trans (X17_main_arg17 m c)
theorem X19_main_arg17 (c : Dev nD) : X19 m c (Proc.devRef .tc main_arg17) = m ((c : Thread nD τ).loc main_arg17) := (X19_of m c main_arg17 (by decide)).trans (X18_main_arg17 m c)
theorem X20_main_arg17 (c : Dev nD) : X20 m c (Proc.devRef .tc main_arg17) = m ((c : Thread nD τ).loc main_arg17) := ((X20_arr m c 6).trans (((dat9 (Y19 m) c).arrAt_in 6 rfl _).trans (A_eq9 (Y19 m) c 6))).trans (X19_main_arg17 m c)
theorem X0_main_arg18 (c : Dev nD) : X0 m c (Proc.devRef .tc main_arg18) = m ((c : Thread nD τ).loc main_arg18) := rfl
theorem X1_main_arg18 (c : Dev nD) : X1 m c (Proc.devRef .tc main_arg18) = m ((c : Thread nD τ).loc main_arg18) := (X1_of m c main_arg18 (by decide)).trans (X0_main_arg18 m c)
theorem X2_main_arg18 (c : Dev nD) : X2 m c (Proc.devRef .tc main_arg18) = m ((c : Thread nD τ).loc main_arg18) := (X2_of_ne m c main_arg18 (by decide)).trans (X1_main_arg18 m c)
theorem X3_main_arg18 (c : Dev nD) : X3 m c (Proc.devRef .tc main_arg18) = m ((c : Thread nD τ).loc main_arg18) := (X3_of m c main_arg18 (by decide)).trans (X2_main_arg18 m c)
theorem X4_main_arg18 (c : Dev nD) : X4 m c (Proc.devRef .tc main_arg18) = m ((c : Thread nD τ).loc main_arg18) := (X4_of_ne m c main_arg18 (by decide)).trans (X3_main_arg18 m c)
theorem X5_main_arg18 (c : Dev nD) : X5 m c (Proc.devRef .tc main_arg18) = m ((c : Thread nD τ).loc main_arg18) := (X5_of m c main_arg18 (by decide)).trans (X4_main_arg18 m c)
theorem X6_main_arg18 (c : Dev nD) : X6 m c (Proc.devRef .tc main_arg18) = m ((c : Thread nD τ).loc main_arg18) := (X6_of_ne m c main_arg18 (by decide)).trans (X5_main_arg18 m c)
theorem X7_main_arg18 (c : Dev nD) : X7 m c (Proc.devRef .tc main_arg18) = m ((c : Thread nD τ).loc main_arg18) := (X7_of m c main_arg18 (by decide)).trans (X6_main_arg18 m c)
theorem X8_main_arg18 (c : Dev nD) : X8 m c (Proc.devRef .tc main_arg18) = m ((c : Thread nD τ).loc main_arg18) := (X8_of_ne m c main_arg18 (by decide)).trans (X7_main_arg18 m c)
theorem X9_main_arg18 (c : Dev nD) : X9 m c (Proc.devRef .tc main_arg18) = m ((c : Thread nD τ).loc main_arg18) := (X9_of m c main_arg18 (by decide)).trans (X8_main_arg18 m c)
theorem X10_main_arg18 (c : Dev nD) : X10 m c (Proc.devRef .tc main_arg18) = m ((c : Thread nD τ).loc main_arg18) := (X10_of_ne m c main_arg18 (by decide)).trans (X9_main_arg18 m c)
theorem X11_main_arg18 (c : Dev nD) : X11 m c (Proc.devRef .tc main_arg18) = m ((c : Thread nD τ).loc main_arg18) := (X11_of m c main_arg18 (by decide)).trans (X10_main_arg18 m c)
theorem X12_main_arg18 (c : Dev nD) : X12 m c (Proc.devRef .tc main_arg18) = m ((c : Thread nD τ).loc main_arg18) := (X12_of_ne m c main_arg18 (by decide)).trans (X11_main_arg18 m c)
theorem X13_main_arg18 (c : Dev nD) : X13 m c (Proc.devRef .tc main_arg18) = m ((c : Thread nD τ).loc main_arg18) := (X13_of m c main_arg18 (by decide)).trans (X12_main_arg18 m c)
theorem X14_main_arg18 (c : Dev nD) : X14 m c (Proc.devRef .tc main_arg18) = m ((c : Thread nD τ).loc main_arg18) := (X14_of_ne m c main_arg18 (by decide)).trans (X13_main_arg18 m c)
theorem X15_main_arg18 (c : Dev nD) : X15 m c (Proc.devRef .tc main_arg18) = m ((c : Thread nD τ).loc main_arg18) := (X15_of m c main_arg18 (by decide)).trans (X14_main_arg18 m c)
theorem X16_main_arg18 (c : Dev nD) : X16 m c (Proc.devRef .tc main_arg18) = m ((c : Thread nD τ).loc main_arg18) := (X16_of_ne m c main_arg18 (by decide)).trans (X15_main_arg18 m c)
theorem X17_main_arg18 (c : Dev nD) : X17 m c (Proc.devRef .tc main_arg18) = m ((c : Thread nD τ).loc main_arg18) := (X17_of m c main_arg18 (by decide)).trans (X16_main_arg18 m c)
theorem X18_main_arg18 (c : Dev nD) : X18 m c (Proc.devRef .tc main_arg18) = m ((c : Thread nD τ).loc main_arg18) := (X18_of_ne m c main_arg18 (by decide)).trans (X17_main_arg18 m c)
theorem X19_main_arg18 (c : Dev nD) : X19 m c (Proc.devRef .tc main_arg18) = m ((c : Thread nD τ).loc main_arg18) := (X19_of m c main_arg18 (by decide)).trans (X18_main_arg18 m c)
theorem X20_main_arg18 (c : Dev nD) : X20 m c (Proc.devRef .tc main_arg18) = m ((c : Thread nD τ).loc main_arg18) := (X20_of_ne m c main_arg18 (by decide)).trans (X19_main_arg18 m c)
theorem X0_main_arg19 (c : Dev nD) : X0 m c (Proc.devRef .tc main_arg19) = m ((c : Thread nD τ).loc main_arg19) := rfl
theorem X1_main_arg19 (c : Dev nD) : X1 m c (Proc.devRef .tc main_arg19) = m ((c : Thread nD τ).loc main_arg19) := (X1_of m c main_arg19 (by decide)).trans (X0_main_arg19 m c)
theorem X2_main_arg19 (c : Dev nD) : X2 m c (Proc.devRef .tc main_arg19) = m ((c : Thread nD τ).loc main_arg19) := (X2_of_ne m c main_arg19 (by decide)).trans (X1_main_arg19 m c)
theorem X3_main_arg19 (c : Dev nD) : X3 m c (Proc.devRef .tc main_arg19) = m ((c : Thread nD τ).loc main_arg19) := (X3_of m c main_arg19 (by decide)).trans (X2_main_arg19 m c)
theorem X4_main_arg19 (c : Dev nD) : X4 m c (Proc.devRef .tc main_arg19) = m ((c : Thread nD τ).loc main_arg19) := (X4_of_ne m c main_arg19 (by decide)).trans (X3_main_arg19 m c)
theorem X5_main_arg19 (c : Dev nD) : X5 m c (Proc.devRef .tc main_arg19) = m ((c : Thread nD τ).loc main_arg19) := (X5_of m c main_arg19 (by decide)).trans (X4_main_arg19 m c)
theorem X6_main_arg19 (c : Dev nD) : X6 m c (Proc.devRef .tc main_arg19) = m ((c : Thread nD τ).loc main_arg19) := (X6_of_ne m c main_arg19 (by decide)).trans (X5_main_arg19 m c)
theorem X7_main_arg19 (c : Dev nD) : X7 m c (Proc.devRef .tc main_arg19) = m ((c : Thread nD τ).loc main_arg19) := (X7_of m c main_arg19 (by decide)).trans (X6_main_arg19 m c)
theorem X8_main_arg19 (c : Dev nD) : X8 m c (Proc.devRef .tc main_arg19) = m ((c : Thread nD τ).loc main_arg19) := (X8_of_ne m c main_arg19 (by decide)).trans (X7_main_arg19 m c)
theorem X9_main_arg19 (c : Dev nD) : X9 m c (Proc.devRef .tc main_arg19) = m ((c : Thread nD τ).loc main_arg19) := (X9_of m c main_arg19 (by decide)).trans (X8_main_arg19 m c)
theorem X10_main_arg19 (c : Dev nD) : X10 m c (Proc.devRef .tc main_arg19) = m ((c : Thread nD τ).loc main_arg19) := (X10_of_ne m c main_arg19 (by decide)).trans (X9_main_arg19 m c)
theorem X11_main_arg19 (c : Dev nD) : X11 m c (Proc.devRef .tc main_arg19) = m ((c : Thread nD τ).loc main_arg19) := (X11_of m c main_arg19 (by decide)).trans (X10_main_arg19 m c)
theorem X12_main_arg19 (c : Dev nD) : X12 m c (Proc.devRef .tc main_arg19) = m ((c : Thread nD τ).loc main_arg19) := (X12_of_ne m c main_arg19 (by decide)).trans (X11_main_arg19 m c)
theorem X13_main_arg19 (c : Dev nD) : X13 m c (Proc.devRef .tc main_arg19) = m ((c : Thread nD τ).loc main_arg19) := (X13_of m c main_arg19 (by decide)).trans (X12_main_arg19 m c)
theorem X14_main_arg19 (c : Dev nD) : X14 m c (Proc.devRef .tc main_arg19) = m ((c : Thread nD τ).loc main_arg19) := (X14_of_ne m c main_arg19 (by decide)).trans (X13_main_arg19 m c)
theorem X15_main_arg19 (c : Dev nD) : X15 m c (Proc.devRef .tc main_arg19) = m ((c : Thread nD τ).loc main_arg19) := (X15_of m c main_arg19 (by decide)).trans (X14_main_arg19 m c)
theorem X16_main_arg19 (c : Dev nD) : X16 m c (Proc.devRef .tc main_arg19) = m ((c : Thread nD τ).loc main_arg19) := (X16_of_ne m c main_arg19 (by decide)).trans (X15_main_arg19 m c)
theorem X17_main_arg19 (c : Dev nD) : X17 m c (Proc.devRef .tc main_arg19) = m ((c : Thread nD τ).loc main_arg19) := (X17_of m c main_arg19 (by decide)).trans (X16_main_arg19 m c)
theorem X18_main_arg19 (c : Dev nD) : X18 m c (Proc.devRef .tc main_arg19) = m ((c : Thread nD τ).loc main_arg19) := (X18_of_ne m c main_arg19 (by decide)).trans (X17_main_arg19 m c)
theorem X19_main_arg19 (c : Dev nD) : X19 m c (Proc.devRef .tc main_arg19) = m ((c : Thread nD τ).loc main_arg19) := (X19_of m c main_arg19 (by decide)).trans (X18_main_arg19 m c)
theorem X20_main_arg19 (c : Dev nD) : X20 m c (Proc.devRef .tc main_arg19) = m ((c : Thread nD τ).loc main_arg19) := (X20_of_ne m c main_arg19 (by decide)).trans (X19_main_arg19 m c)

end Cert.KernelIdeal.Fr

end
-- ==== Proof.KiArgsC.lean ====
/-
  The argument arrays 20 to 29 hold their launch contents at every boundary: no host stretch writes an argument's
  buffer and no region changes it (the perceptron region reads its weights and biases through input windows, whose
  arrays the pipeline leaves as entered; every other region never touches an argument). One step per boundary, walking
  back to the launch.
-/
import proofs.«180909_j89275190215119_1_alg».proof.Proof.KiFold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X0_main_arg20 (c : Dev nD) : X0 m c (Proc.devRef .tc main_arg20) = m ((c : Thread nD τ).loc main_arg20) := rfl
theorem X1_main_arg20 (c : Dev nD) : X1 m c (Proc.devRef .tc main_arg20) = m ((c : Thread nD τ).loc main_arg20) := (X1_of m c main_arg20 (by decide)).trans (X0_main_arg20 m c)
theorem X2_main_arg20 (c : Dev nD) : X2 m c (Proc.devRef .tc main_arg20) = m ((c : Thread nD τ).loc main_arg20) := (X2_of_ne m c main_arg20 (by decide)).trans (X1_main_arg20 m c)
theorem X3_main_arg20 (c : Dev nD) : X3 m c (Proc.devRef .tc main_arg20) = m ((c : Thread nD τ).loc main_arg20) := (X3_of m c main_arg20 (by decide)).trans (X2_main_arg20 m c)
theorem X4_main_arg20 (c : Dev nD) : X4 m c (Proc.devRef .tc main_arg20) = m ((c : Thread nD τ).loc main_arg20) := (X4_of_ne m c main_arg20 (by decide)).trans (X3_main_arg20 m c)
theorem X5_main_arg20 (c : Dev nD) : X5 m c (Proc.devRef .tc main_arg20) = m ((c : Thread nD τ).loc main_arg20) := (X5_of m c main_arg20 (by decide)).trans (X4_main_arg20 m c)
theorem X6_main_arg20 (c : Dev nD) : X6 m c (Proc.devRef .tc main_arg20) = m ((c : Thread nD τ).loc main_arg20) := (X6_of_ne m c main_arg20 (by decide)).trans (X5_main_arg20 m c)
theorem X7_main_arg20 (c : Dev nD) : X7 m c (Proc.devRef .tc main_arg20) = m ((c : Thread nD τ).loc main_arg20) := (X7_of m c main_arg20 (by decide)).trans (X6_main_arg20 m c)
theorem X8_main_arg20 (c : Dev nD) : X8 m c (Proc.devRef .tc main_arg20) = m ((c : Thread nD τ).loc main_arg20) := (X8_of_ne m c main_arg20 (by decide)).trans (X7_main_arg20 m c)
theorem X9_main_arg20 (c : Dev nD) : X9 m c (Proc.devRef .tc main_arg20) = m ((c : Thread nD τ).loc main_arg20) := (X9_of m c main_arg20 (by decide)).trans (X8_main_arg20 m c)
theorem X10_main_arg20 (c : Dev nD) : X10 m c (Proc.devRef .tc main_arg20) = m ((c : Thread nD τ).loc main_arg20) := (X10_of_ne m c main_arg20 (by decide)).trans (X9_main_arg20 m c)
theorem X11_main_arg20 (c : Dev nD) : X11 m c (Proc.devRef .tc main_arg20) = m ((c : Thread nD τ).loc main_arg20) := (X11_of m c main_arg20 (by decide)).trans (X10_main_arg20 m c)
theorem X12_main_arg20 (c : Dev nD) : X12 m c (Proc.devRef .tc main_arg20) = m ((c : Thread nD τ).loc main_arg20) := (X12_of_ne m c main_arg20 (by decide)).trans (X11_main_arg20 m c)
theorem X13_main_arg20 (c : Dev nD) : X13 m c (Proc.devRef .tc main_arg20) = m ((c : Thread nD τ).loc main_arg20) := (X13_of m c main_arg20 (by decide)).trans (X12_main_arg20 m c)
theorem X14_main_arg20 (c : Dev nD) : X14 m c (Proc.devRef .tc main_arg20) = m ((c : Thread nD τ).loc main_arg20) := (X14_of_ne m c main_arg20 (by decide)).trans (X13_main_arg20 m c)
theorem X15_main_arg20 (c : Dev nD) : X15 m c (Proc.devRef .tc main_arg20) = m ((c : Thread nD τ).loc main_arg20) := (X15_of m c main_arg20 (by decide)).trans (X14_main_arg20 m c)
theorem X16_main_arg20 (c : Dev nD) : X16 m c (Proc.devRef .tc main_arg20) = m ((c : Thread nD τ).loc main_arg20) := (X16_of_ne m c main_arg20 (by decide)).trans (X15_main_arg20 m c)
theorem X17_main_arg20 (c : Dev nD) : X17 m c (Proc.devRef .tc main_arg20) = m ((c : Thread nD τ).loc main_arg20) := (X17_of m c main_arg20 (by decide)).trans (X16_main_arg20 m c)
theorem X18_main_arg20 (c : Dev nD) : X18 m c (Proc.devRef .tc main_arg20) = m ((c : Thread nD τ).loc main_arg20) := (X18_of_ne m c main_arg20 (by decide)).trans (X17_main_arg20 m c)
theorem X19_main_arg20 (c : Dev nD) : X19 m c (Proc.devRef .tc main_arg20) = m ((c : Thread nD τ).loc main_arg20) := (X19_of m c main_arg20 (by decide)).trans (X18_main_arg20 m c)
theorem X20_main_arg20 (c : Dev nD) : X20 m c (Proc.devRef .tc main_arg20) = m ((c : Thread nD τ).loc main_arg20) := (X20_of_ne m c main_arg20 (by decide)).trans (X19_main_arg20 m c)
theorem X0_main_arg21 (c : Dev nD) : X0 m c (Proc.devRef .tc main_arg21) = m ((c : Thread nD τ).loc main_arg21) := rfl
theorem X1_main_arg21 (c : Dev nD) : X1 m c (Proc.devRef .tc main_arg21) = m ((c : Thread nD τ).loc main_arg21) := (X1_of m c main_arg21 (by decide)).trans (X0_main_arg21 m c)
theorem X2_main_arg21 (c : Dev nD) : X2 m c (Proc.devRef .tc main_arg21) = m ((c : Thread nD τ).loc main_arg21) := (X2_of_ne m c main_arg21 (by decide)).trans (X1_main_arg21 m c)
theorem X3_main_arg21 (c : Dev nD) : X3 m c (Proc.devRef .tc main_arg21) = m ((c : Thread nD τ).loc main_arg21) := (X3_of m c main_arg21 (by decide)).trans (X2_main_arg21 m c)
theorem X4_main_arg21 (c : Dev nD) : X4 m c (Proc.devRef .tc main_arg21) = m ((c : Thread nD τ).loc main_arg21) := (X4_of_ne m c main_arg21 (by decide)).trans (X3_main_arg21 m c)
theorem X5_main_arg21 (c : Dev nD) : X5 m c (Proc.devRef .tc main_arg21) = m ((c : Thread nD τ).loc main_arg21) := (X5_of m c main_arg21 (by decide)).trans (X4_main_arg21 m c)
theorem X6_main_arg21 (c : Dev nD) : X6 m c (Proc.devRef .tc main_arg21) = m ((c : Thread nD τ).loc main_arg21) := (X6_of_ne m c main_arg21 (by decide)).trans (X5_main_arg21 m c)
theorem X7_main_arg21 (c : Dev nD) : X7 m c (Proc.devRef .tc main_arg21) = m ((c : Thread nD τ).loc main_arg21) := (X7_of m c main_arg21 (by decide)).trans (X6_main_arg21 m c)
theorem X8_main_arg21 (c : Dev nD) : X8 m c (Proc.devRef .tc main_arg21) = m ((c : Thread nD τ).loc main_arg21) := (X8_of_ne m c main_arg21 (by decide)).trans (X7_main_arg21 m c)
theorem X9_main_arg21 (c : Dev nD) : X9 m c (Proc.devRef .tc main_arg21) = m ((c : Thread nD τ).loc main_arg21) := (X9_of m c main_arg21 (by decide)).trans (X8_main_arg21 m c)
theorem X10_main_arg21 (c : Dev nD) : X10 m c (Proc.devRef .tc main_arg21) = m ((c : Thread nD τ).loc main_arg21) := (X10_of_ne m c main_arg21 (by decide)).trans (X9_main_arg21 m c)
theorem X11_main_arg21 (c : Dev nD) : X11 m c (Proc.devRef .tc main_arg21) = m ((c : Thread nD τ).loc main_arg21) := (X11_of m c main_arg21 (by decide)).trans (X10_main_arg21 m c)
theorem X12_main_arg21 (c : Dev nD) : X12 m c (Proc.devRef .tc main_arg21) = m ((c : Thread nD τ).loc main_arg21) := (X12_of_ne m c main_arg21 (by decide)).trans (X11_main_arg21 m c)
theorem X13_main_arg21 (c : Dev nD) : X13 m c (Proc.devRef .tc main_arg21) = m ((c : Thread nD τ).loc main_arg21) := (X13_of m c main_arg21 (by decide)).trans (X12_main_arg21 m c)
theorem X14_main_arg21 (c : Dev nD) : X14 m c (Proc.devRef .tc main_arg21) = m ((c : Thread nD τ).loc main_arg21) := (X14_of_ne m c main_arg21 (by decide)).trans (X13_main_arg21 m c)
theorem X15_main_arg21 (c : Dev nD) : X15 m c (Proc.devRef .tc main_arg21) = m ((c : Thread nD τ).loc main_arg21) := (X15_of m c main_arg21 (by decide)).trans (X14_main_arg21 m c)
theorem X16_main_arg21 (c : Dev nD) : X16 m c (Proc.devRef .tc main_arg21) = m ((c : Thread nD τ).loc main_arg21) := (X16_of_ne m c main_arg21 (by decide)).trans (X15_main_arg21 m c)
theorem X17_main_arg21 (c : Dev nD) : X17 m c (Proc.devRef .tc main_arg21) = m ((c : Thread nD τ).loc main_arg21) := (X17_of m c main_arg21 (by decide)).trans (X16_main_arg21 m c)
theorem X18_main_arg21 (c : Dev nD) : X18 m c (Proc.devRef .tc main_arg21) = m ((c : Thread nD τ).loc main_arg21) := (X18_of_ne m c main_arg21 (by decide)).trans (X17_main_arg21 m c)
theorem X19_main_arg21 (c : Dev nD) : X19 m c (Proc.devRef .tc main_arg21) = m ((c : Thread nD τ).loc main_arg21) := (X19_of m c main_arg21 (by decide)).trans (X18_main_arg21 m c)
theorem X20_main_arg21 (c : Dev nD) : X20 m c (Proc.devRef .tc main_arg21) = m ((c : Thread nD τ).loc main_arg21) := (X20_of_ne m c main_arg21 (by decide)).trans (X19_main_arg21 m c)
theorem X0_main_arg22 (c : Dev nD) : X0 m c (Proc.devRef .tc main_arg22) = m ((c : Thread nD τ).loc main_arg22) := rfl
theorem X1_main_arg22 (c : Dev nD) : X1 m c (Proc.devRef .tc main_arg22) = m ((c : Thread nD τ).loc main_arg22) := (X1_of m c main_arg22 (by decide)).trans (X0_main_arg22 m c)
theorem X2_main_arg22 (c : Dev nD) : X2 m c (Proc.devRef .tc main_arg22) = m ((c : Thread nD τ).loc main_arg22) := (X2_of_ne m c main_arg22 (by decide)).trans (X1_main_arg22 m c)
theorem X3_main_arg22 (c : Dev nD) : X3 m c (Proc.devRef .tc main_arg22) = m ((c : Thread nD τ).loc main_arg22) := (X3_of m c main_arg22 (by decide)).trans (X2_main_arg22 m c)
theorem X4_main_arg22 (c : Dev nD) : X4 m c (Proc.devRef .tc main_arg22) = m ((c : Thread nD τ).loc main_arg22) := (X4_of_ne m c main_arg22 (by decide)).trans (X3_main_arg22 m c)
theorem X5_main_arg22 (c : Dev nD) : X5 m c (Proc.devRef .tc main_arg22) = m ((c : Thread nD τ).loc main_arg22) := (X5_of m c main_arg22 (by decide)).trans (X4_main_arg22 m c)
theorem X6_main_arg22 (c : Dev nD) : X6 m c (Proc.devRef .tc main_arg22) = m ((c : Thread nD τ).loc main_arg22) := (X6_of_ne m c main_arg22 (by decide)).trans (X5_main_arg22 m c)
theorem X7_main_arg22 (c : Dev nD) : X7 m c (Proc.devRef .tc main_arg22) = m ((c : Thread nD τ).loc main_arg22) := (X7_of m c main_arg22 (by decide)).trans (X6_main_arg22 m c)
theorem X8_main_arg22 (c : Dev nD) : X8 m c (Proc.devRef .tc main_arg22) = m ((c : Thread nD τ).loc main_arg22) := (X8_of_ne m c main_arg22 (by decide)).trans (X7_main_arg22 m c)
theorem X9_main_arg22 (c : Dev nD) : X9 m c (Proc.devRef .tc main_arg22) = m ((c : Thread nD τ).loc main_arg22) := (X9_of m c main_arg22 (by decide)).trans (X8_main_arg22 m c)
theorem X10_main_arg22 (c : Dev nD) : X10 m c (Proc.devRef .tc main_arg22) = m ((c : Thread nD τ).loc main_arg22) := (X10_of_ne m c main_arg22 (by decide)).trans (X9_main_arg22 m c)
theorem X11_main_arg22 (c : Dev nD) : X11 m c (Proc.devRef .tc main_arg22) = m ((c : Thread nD τ).loc main_arg22) := (X11_of m c main_arg22 (by decide)).trans (X10_main_arg22 m c)
theorem X12_main_arg22 (c : Dev nD) : X12 m c (Proc.devRef .tc main_arg22) = m ((c : Thread nD τ).loc main_arg22) := (X12_of_ne m c main_arg22 (by decide)).trans (X11_main_arg22 m c)
theorem X13_main_arg22 (c : Dev nD) : X13 m c (Proc.devRef .tc main_arg22) = m ((c : Thread nD τ).loc main_arg22) := (X13_of m c main_arg22 (by decide)).trans (X12_main_arg22 m c)
theorem X14_main_arg22 (c : Dev nD) : X14 m c (Proc.devRef .tc main_arg22) = m ((c : Thread nD τ).loc main_arg22) := (X14_of_ne m c main_arg22 (by decide)).trans (X13_main_arg22 m c)
theorem X15_main_arg22 (c : Dev nD) : X15 m c (Proc.devRef .tc main_arg22) = m ((c : Thread nD τ).loc main_arg22) := (X15_of m c main_arg22 (by decide)).trans (X14_main_arg22 m c)
theorem X16_main_arg22 (c : Dev nD) : X16 m c (Proc.devRef .tc main_arg22) = m ((c : Thread nD τ).loc main_arg22) := (X16_of_ne m c main_arg22 (by decide)).trans (X15_main_arg22 m c)
theorem X17_main_arg22 (c : Dev nD) : X17 m c (Proc.devRef .tc main_arg22) = m ((c : Thread nD τ).loc main_arg22) := (X17_of m c main_arg22 (by decide)).trans (X16_main_arg22 m c)
theorem X18_main_arg22 (c : Dev nD) : X18 m c (Proc.devRef .tc main_arg22) = m ((c : Thread nD τ).loc main_arg22) := (X18_of_ne m c main_arg22 (by decide)).trans (X17_main_arg22 m c)
theorem X19_main_arg22 (c : Dev nD) : X19 m c (Proc.devRef .tc main_arg22) = m ((c : Thread nD τ).loc main_arg22) := (X19_of m c main_arg22 (by decide)).trans (X18_main_arg22 m c)
theorem X20_main_arg22 (c : Dev nD) : X20 m c (Proc.devRef .tc main_arg22) = m ((c : Thread nD τ).loc main_arg22) := (X20_of_ne m c main_arg22 (by decide)).trans (X19_main_arg22 m c)
theorem X0_main_arg23 (c : Dev nD) : X0 m c (Proc.devRef .tc main_arg23) = m ((c : Thread nD τ).loc main_arg23) := rfl
theorem X1_main_arg23 (c : Dev nD) : X1 m c (Proc.devRef .tc main_arg23) = m ((c : Thread nD τ).loc main_arg23) := (X1_of m c main_arg23 (by decide)).trans (X0_main_arg23 m c)
theorem X2_main_arg23 (c : Dev nD) : X2 m c (Proc.devRef .tc main_arg23) = m ((c : Thread nD τ).loc main_arg23) := (X2_of_ne m c main_arg23 (by decide)).trans (X1_main_arg23 m c)
theorem X3_main_arg23 (c : Dev nD) : X3 m c (Proc.devRef .tc main_arg23) = m ((c : Thread nD τ).loc main_arg23) := (X3_of m c main_arg23 (by decide)).trans (X2_main_arg23 m c)
theorem X4_main_arg23 (c : Dev nD) : X4 m c (Proc.devRef .tc main_arg23) = m ((c : Thread nD τ).loc main_arg23) := (X4_of_ne m c main_arg23 (by decide)).trans (X3_main_arg23 m c)
theorem X5_main_arg23 (c : Dev nD) : X5 m c (Proc.devRef .tc main_arg23) = m ((c : Thread nD τ).loc main_arg23) := (X5_of m c main_arg23 (by decide)).trans (X4_main_arg23 m c)
theorem X6_main_arg23 (c : Dev nD) : X6 m c (Proc.devRef .tc main_arg23) = m ((c : Thread nD τ).loc main_arg23) := (X6_of_ne m c main_arg23 (by decide)).trans (X5_main_arg23 m c)
theorem X7_main_arg23 (c : Dev nD) : X7 m c (Proc.devRef .tc main_arg23) = m ((c : Thread nD τ).loc main_arg23) := (X7_of m c main_arg23 (by decide)).trans (X6_main_arg23 m c)
theorem X8_main_arg23 (c : Dev nD) : X8 m c (Proc.devRef .tc main_arg23) = m ((c : Thread nD τ).loc main_arg23) := (X8_of_ne m c main_arg23 (by decide)).trans (X7_main_arg23 m c)
theorem X9_main_arg23 (c : Dev nD) : X9 m c (Proc.devRef .tc main_arg23) = m ((c : Thread nD τ).loc main_arg23) := (X9_of m c main_arg23 (by decide)).trans (X8_main_arg23 m c)
theorem X10_main_arg23 (c : Dev nD) : X10 m c (Proc.devRef .tc main_arg23) = m ((c : Thread nD τ).loc main_arg23) := (X10_of_ne m c main_arg23 (by decide)).trans (X9_main_arg23 m c)
theorem X11_main_arg23 (c : Dev nD) : X11 m c (Proc.devRef .tc main_arg23) = m ((c : Thread nD τ).loc main_arg23) := (X11_of m c main_arg23 (by decide)).trans (X10_main_arg23 m c)
theorem X12_main_arg23 (c : Dev nD) : X12 m c (Proc.devRef .tc main_arg23) = m ((c : Thread nD τ).loc main_arg23) := (X12_of_ne m c main_arg23 (by decide)).trans (X11_main_arg23 m c)
theorem X13_main_arg23 (c : Dev nD) : X13 m c (Proc.devRef .tc main_arg23) = m ((c : Thread nD τ).loc main_arg23) := (X13_of m c main_arg23 (by decide)).trans (X12_main_arg23 m c)
theorem X14_main_arg23 (c : Dev nD) : X14 m c (Proc.devRef .tc main_arg23) = m ((c : Thread nD τ).loc main_arg23) := (X14_of_ne m c main_arg23 (by decide)).trans (X13_main_arg23 m c)
theorem X15_main_arg23 (c : Dev nD) : X15 m c (Proc.devRef .tc main_arg23) = m ((c : Thread nD τ).loc main_arg23) := (X15_of m c main_arg23 (by decide)).trans (X14_main_arg23 m c)
theorem X16_main_arg23 (c : Dev nD) : X16 m c (Proc.devRef .tc main_arg23) = m ((c : Thread nD τ).loc main_arg23) := (X16_of_ne m c main_arg23 (by decide)).trans (X15_main_arg23 m c)
theorem X17_main_arg23 (c : Dev nD) : X17 m c (Proc.devRef .tc main_arg23) = m ((c : Thread nD τ).loc main_arg23) := (X17_of m c main_arg23 (by decide)).trans (X16_main_arg23 m c)
theorem X18_main_arg23 (c : Dev nD) : X18 m c (Proc.devRef .tc main_arg23) = m ((c : Thread nD τ).loc main_arg23) := (X18_of_ne m c main_arg23 (by decide)).trans (X17_main_arg23 m c)
theorem X19_main_arg23 (c : Dev nD) : X19 m c (Proc.devRef .tc main_arg23) = m ((c : Thread nD τ).loc main_arg23) := (X19_of m c main_arg23 (by decide)).trans (X18_main_arg23 m c)
theorem X20_main_arg23 (c : Dev nD) : X20 m c (Proc.devRef .tc main_arg23) = m ((c : Thread nD τ).loc main_arg23) := (X20_of_ne m c main_arg23 (by decide)).trans (X19_main_arg23 m c)
theorem X0_main_arg24 (c : Dev nD) : X0 m c (Proc.devRef .tc main_arg24) = m ((c : Thread nD τ).loc main_arg24) := rfl
theorem X1_main_arg24 (c : Dev nD) : X1 m c (Proc.devRef .tc main_arg24) = m ((c : Thread nD τ).loc main_arg24) := (X1_of m c main_arg24 (by decide)).trans (X0_main_arg24 m c)
theorem X2_main_arg24 (c : Dev nD) : X2 m c (Proc.devRef .tc main_arg24) = m ((c : Thread nD τ).loc main_arg24) := (X2_of_ne m c main_arg24 (by decide)).trans (X1_main_arg24 m c)
theorem X3_main_arg24 (c : Dev nD) : X3 m c (Proc.devRef .tc main_arg24) = m ((c : Thread nD τ).loc main_arg24) := (X3_of m c main_arg24 (by decide)).trans (X2_main_arg24 m c)
theorem X4_main_arg24 (c : Dev nD) : X4 m c (Proc.devRef .tc main_arg24) = m ((c : Thread nD τ).loc main_arg24) := (X4_of_ne m c main_arg24 (by decide)).trans (X3_main_arg24 m c)
theorem X5_main_arg24 (c : Dev nD) : X5 m c (Proc.devRef .tc main_arg24) = m ((c : Thread nD τ).loc main_arg24) := (X5_of m c main_arg24 (by decide)).trans (X4_main_arg24 m c)
theorem X6_main_arg24 (c : Dev nD) : X6 m c (Proc.devRef .tc main_arg24) = m ((c : Thread nD τ).loc main_arg24) := (X6_of_ne m c main_arg24 (by decide)).trans (X5_main_arg24 m c)
theorem X7_main_arg24 (c : Dev nD) : X7 m c (Proc.devRef .tc main_arg24) = m ((c : Thread nD τ).loc main_arg24) := (X7_of m c main_arg24 (by decide)).trans (X6_main_arg24 m c)
theorem X8_main_arg24 (c : Dev nD) : X8 m c (Proc.devRef .tc main_arg24) = m ((c : Thread nD τ).loc main_arg24) := (X8_of_ne m c main_arg24 (by decide)).trans (X7_main_arg24 m c)
theorem X9_main_arg24 (c : Dev nD) : X9 m c (Proc.devRef .tc main_arg24) = m ((c : Thread nD τ).loc main_arg24) := (X9_of m c main_arg24 (by decide)).trans (X8_main_arg24 m c)
theorem X10_main_arg24 (c : Dev nD) : X10 m c (Proc.devRef .tc main_arg24) = m ((c : Thread nD τ).loc main_arg24) := (X10_of_ne m c main_arg24 (by decide)).trans (X9_main_arg24 m c)
theorem X11_main_arg24 (c : Dev nD) : X11 m c (Proc.devRef .tc main_arg24) = m ((c : Thread nD τ).loc main_arg24) := (X11_of m c main_arg24 (by decide)).trans (X10_main_arg24 m c)
theorem X12_main_arg24 (c : Dev nD) : X12 m c (Proc.devRef .tc main_arg24) = m ((c : Thread nD τ).loc main_arg24) := (X12_of_ne m c main_arg24 (by decide)).trans (X11_main_arg24 m c)
theorem X13_main_arg24 (c : Dev nD) : X13 m c (Proc.devRef .tc main_arg24) = m ((c : Thread nD τ).loc main_arg24) := (X13_of m c main_arg24 (by decide)).trans (X12_main_arg24 m c)
theorem X14_main_arg24 (c : Dev nD) : X14 m c (Proc.devRef .tc main_arg24) = m ((c : Thread nD τ).loc main_arg24) := (X14_of_ne m c main_arg24 (by decide)).trans (X13_main_arg24 m c)
theorem X15_main_arg24 (c : Dev nD) : X15 m c (Proc.devRef .tc main_arg24) = m ((c : Thread nD τ).loc main_arg24) := (X15_of m c main_arg24 (by decide)).trans (X14_main_arg24 m c)
theorem X16_main_arg24 (c : Dev nD) : X16 m c (Proc.devRef .tc main_arg24) = m ((c : Thread nD τ).loc main_arg24) := (X16_of_ne m c main_arg24 (by decide)).trans (X15_main_arg24 m c)
theorem X17_main_arg24 (c : Dev nD) : X17 m c (Proc.devRef .tc main_arg24) = m ((c : Thread nD τ).loc main_arg24) := (X17_of m c main_arg24 (by decide)).trans (X16_main_arg24 m c)
theorem X18_main_arg24 (c : Dev nD) : X18 m c (Proc.devRef .tc main_arg24) = m ((c : Thread nD τ).loc main_arg24) := (X18_of_ne m c main_arg24 (by decide)).trans (X17_main_arg24 m c)
theorem X19_main_arg24 (c : Dev nD) : X19 m c (Proc.devRef .tc main_arg24) = m ((c : Thread nD τ).loc main_arg24) := (X19_of m c main_arg24 (by decide)).trans (X18_main_arg24 m c)
theorem X20_main_arg24 (c : Dev nD) : X20 m c (Proc.devRef .tc main_arg24) = m ((c : Thread nD τ).loc main_arg24) := (X20_of_ne m c main_arg24 (by decide)).trans (X19_main_arg24 m c)
theorem X0_main_arg25 (c : Dev nD) : X0 m c (Proc.devRef .tc main_arg25) = m ((c : Thread nD τ).loc main_arg25) := rfl
theorem X1_main_arg25 (c : Dev nD) : X1 m c (Proc.devRef .tc main_arg25) = m ((c : Thread nD τ).loc main_arg25) := (X1_of m c main_arg25 (by decide)).trans (X0_main_arg25 m c)
theorem X2_main_arg25 (c : Dev nD) : X2 m c (Proc.devRef .tc main_arg25) = m ((c : Thread nD τ).loc main_arg25) := (X2_of_ne m c main_arg25 (by decide)).trans (X1_main_arg25 m c)
theorem X3_main_arg25 (c : Dev nD) : X3 m c (Proc.devRef .tc main_arg25) = m ((c : Thread nD τ).loc main_arg25) := (X3_of m c main_arg25 (by decide)).trans (X2_main_arg25 m c)
theorem X4_main_arg25 (c : Dev nD) : X4 m c (Proc.devRef .tc main_arg25) = m ((c : Thread nD τ).loc main_arg25) := (X4_of_ne m c main_arg25 (by decide)).trans (X3_main_arg25 m c)
theorem X5_main_arg25 (c : Dev nD) : X5 m c (Proc.devRef .tc main_arg25) = m ((c : Thread nD τ).loc main_arg25) := (X5_of m c main_arg25 (by decide)).trans (X4_main_arg25 m c)
theorem X6_main_arg25 (c : Dev nD) : X6 m c (Proc.devRef .tc main_arg25) = m ((c : Thread nD τ).loc main_arg25) := (X6_of_ne m c main_arg25 (by decide)).trans (X5_main_arg25 m c)
theorem X7_main_arg25 (c : Dev nD) : X7 m c (Proc.devRef .tc main_arg25) = m ((c : Thread nD τ).loc main_arg25) := (X7_of m c main_arg25 (by decide)).trans (X6_main_arg25 m c)
theorem X8_main_arg25 (c : Dev nD) : X8 m c (Proc.devRef .tc main_arg25) = m ((c : Thread nD τ).loc main_arg25) := (X8_of_ne m c main_arg25 (by decide)).trans (X7_main_arg25 m c)
theorem X9_main_arg25 (c : Dev nD) : X9 m c (Proc.devRef .tc main_arg25) = m ((c : Thread nD τ).loc main_arg25) := (X9_of m c main_arg25 (by decide)).trans (X8_main_arg25 m c)
theorem X10_main_arg25 (c : Dev nD) : X10 m c (Proc.devRef .tc main_arg25) = m ((c : Thread nD τ).loc main_arg25) := (X10_of_ne m c main_arg25 (by decide)).trans (X9_main_arg25 m c)
theorem X11_main_arg25 (c : Dev nD) : X11 m c (Proc.devRef .tc main_arg25) = m ((c : Thread nD τ).loc main_arg25) := (X11_of m c main_arg25 (by decide)).trans (X10_main_arg25 m c)
theorem X12_main_arg25 (c : Dev nD) : X12 m c (Proc.devRef .tc main_arg25) = m ((c : Thread nD τ).loc main_arg25) := (X12_of_ne m c main_arg25 (by decide)).trans (X11_main_arg25 m c)
theorem X13_main_arg25 (c : Dev nD) : X13 m c (Proc.devRef .tc main_arg25) = m ((c : Thread nD τ).loc main_arg25) := (X13_of m c main_arg25 (by decide)).trans (X12_main_arg25 m c)
theorem X14_main_arg25 (c : Dev nD) : X14 m c (Proc.devRef .tc main_arg25) = m ((c : Thread nD τ).loc main_arg25) := (X14_of_ne m c main_arg25 (by decide)).trans (X13_main_arg25 m c)
theorem X15_main_arg25 (c : Dev nD) : X15 m c (Proc.devRef .tc main_arg25) = m ((c : Thread nD τ).loc main_arg25) := (X15_of m c main_arg25 (by decide)).trans (X14_main_arg25 m c)
theorem X16_main_arg25 (c : Dev nD) : X16 m c (Proc.devRef .tc main_arg25) = m ((c : Thread nD τ).loc main_arg25) := (X16_of_ne m c main_arg25 (by decide)).trans (X15_main_arg25 m c)
theorem X17_main_arg25 (c : Dev nD) : X17 m c (Proc.devRef .tc main_arg25) = m ((c : Thread nD τ).loc main_arg25) := (X17_of m c main_arg25 (by decide)).trans (X16_main_arg25 m c)
theorem X18_main_arg25 (c : Dev nD) : X18 m c (Proc.devRef .tc main_arg25) = m ((c : Thread nD τ).loc main_arg25) := (X18_of_ne m c main_arg25 (by decide)).trans (X17_main_arg25 m c)
theorem X19_main_arg25 (c : Dev nD) : X19 m c (Proc.devRef .tc main_arg25) = m ((c : Thread nD τ).loc main_arg25) := (X19_of m c main_arg25 (by decide)).trans (X18_main_arg25 m c)
theorem X20_main_arg25 (c : Dev nD) : X20 m c (Proc.devRef .tc main_arg25) = m ((c : Thread nD τ).loc main_arg25) := (X20_of_ne m c main_arg25 (by decide)).trans (X19_main_arg25 m c)
theorem X0_main_arg26 (c : Dev nD) : X0 m c (Proc.devRef .tc main_arg26) = m ((c : Thread nD τ).loc main_arg26) := rfl
theorem X1_main_arg26 (c : Dev nD) : X1 m c (Proc.devRef .tc main_arg26) = m ((c : Thread nD τ).loc main_arg26) := (X1_of m c main_arg26 (by decide)).trans (X0_main_arg26 m c)
theorem X2_main_arg26 (c : Dev nD) : X2 m c (Proc.devRef .tc main_arg26) = m ((c : Thread nD τ).loc main_arg26) := (X2_of_ne m c main_arg26 (by decide)).trans (X1_main_arg26 m c)
theorem X3_main_arg26 (c : Dev nD) : X3 m c (Proc.devRef .tc main_arg26) = m ((c : Thread nD τ).loc main_arg26) := (X3_of m c main_arg26 (by decide)).trans (X2_main_arg26 m c)
theorem X4_main_arg26 (c : Dev nD) : X4 m c (Proc.devRef .tc main_arg26) = m ((c : Thread nD τ).loc main_arg26) := (X4_of_ne m c main_arg26 (by decide)).trans (X3_main_arg26 m c)
theorem X5_main_arg26 (c : Dev nD) : X5 m c (Proc.devRef .tc main_arg26) = m ((c : Thread nD τ).loc main_arg26) := (X5_of m c main_arg26 (by decide)).trans (X4_main_arg26 m c)
theorem X6_main_arg26 (c : Dev nD) : X6 m c (Proc.devRef .tc main_arg26) = m ((c : Thread nD τ).loc main_arg26) := (X6_of_ne m c main_arg26 (by decide)).trans (X5_main_arg26 m c)
theorem X7_main_arg26 (c : Dev nD) : X7 m c (Proc.devRef .tc main_arg26) = m ((c : Thread nD τ).loc main_arg26) := (X7_of m c main_arg26 (by decide)).trans (X6_main_arg26 m c)
theorem X8_main_arg26 (c : Dev nD) : X8 m c (Proc.devRef .tc main_arg26) = m ((c : Thread nD τ).loc main_arg26) := (X8_of_ne m c main_arg26 (by decide)).trans (X7_main_arg26 m c)
theorem X9_main_arg26 (c : Dev nD) : X9 m c (Proc.devRef .tc main_arg26) = m ((c : Thread nD τ).loc main_arg26) := (X9_of m c main_arg26 (by decide)).trans (X8_main_arg26 m c)
theorem X10_main_arg26 (c : Dev nD) : X10 m c (Proc.devRef .tc main_arg26) = m ((c : Thread nD τ).loc main_arg26) := (X10_of_ne m c main_arg26 (by decide)).trans (X9_main_arg26 m c)
theorem X11_main_arg26 (c : Dev nD) : X11 m c (Proc.devRef .tc main_arg26) = m ((c : Thread nD τ).loc main_arg26) := (X11_of m c main_arg26 (by decide)).trans (X10_main_arg26 m c)
theorem X12_main_arg26 (c : Dev nD) : X12 m c (Proc.devRef .tc main_arg26) = m ((c : Thread nD τ).loc main_arg26) := (X12_of_ne m c main_arg26 (by decide)).trans (X11_main_arg26 m c)
theorem X13_main_arg26 (c : Dev nD) : X13 m c (Proc.devRef .tc main_arg26) = m ((c : Thread nD τ).loc main_arg26) := (X13_of m c main_arg26 (by decide)).trans (X12_main_arg26 m c)
theorem X14_main_arg26 (c : Dev nD) : X14 m c (Proc.devRef .tc main_arg26) = m ((c : Thread nD τ).loc main_arg26) := (X14_of_ne m c main_arg26 (by decide)).trans (X13_main_arg26 m c)
theorem X15_main_arg26 (c : Dev nD) : X15 m c (Proc.devRef .tc main_arg26) = m ((c : Thread nD τ).loc main_arg26) := (X15_of m c main_arg26 (by decide)).trans (X14_main_arg26 m c)
theorem X16_main_arg26 (c : Dev nD) : X16 m c (Proc.devRef .tc main_arg26) = m ((c : Thread nD τ).loc main_arg26) := (X16_of_ne m c main_arg26 (by decide)).trans (X15_main_arg26 m c)
theorem X17_main_arg26 (c : Dev nD) : X17 m c (Proc.devRef .tc main_arg26) = m ((c : Thread nD τ).loc main_arg26) := (X17_of m c main_arg26 (by decide)).trans (X16_main_arg26 m c)
theorem X18_main_arg26 (c : Dev nD) : X18 m c (Proc.devRef .tc main_arg26) = m ((c : Thread nD τ).loc main_arg26) := (X18_of_ne m c main_arg26 (by decide)).trans (X17_main_arg26 m c)
theorem X19_main_arg26 (c : Dev nD) : X19 m c (Proc.devRef .tc main_arg26) = m ((c : Thread nD τ).loc main_arg26) := (X19_of m c main_arg26 (by decide)).trans (X18_main_arg26 m c)
theorem X20_main_arg26 (c : Dev nD) : X20 m c (Proc.devRef .tc main_arg26) = m ((c : Thread nD τ).loc main_arg26) := (X20_of_ne m c main_arg26 (by decide)).trans (X19_main_arg26 m c)
theorem X0_main_arg27 (c : Dev nD) : X0 m c (Proc.devRef .tc main_arg27) = m ((c : Thread nD τ).loc main_arg27) := rfl
theorem X1_main_arg27 (c : Dev nD) : X1 m c (Proc.devRef .tc main_arg27) = m ((c : Thread nD τ).loc main_arg27) := (X1_of m c main_arg27 (by decide)).trans (X0_main_arg27 m c)
theorem X2_main_arg27 (c : Dev nD) : X2 m c (Proc.devRef .tc main_arg27) = m ((c : Thread nD τ).loc main_arg27) := (X2_of_ne m c main_arg27 (by decide)).trans (X1_main_arg27 m c)
theorem X3_main_arg27 (c : Dev nD) : X3 m c (Proc.devRef .tc main_arg27) = m ((c : Thread nD τ).loc main_arg27) := (X3_of m c main_arg27 (by decide)).trans (X2_main_arg27 m c)
theorem X4_main_arg27 (c : Dev nD) : X4 m c (Proc.devRef .tc main_arg27) = m ((c : Thread nD τ).loc main_arg27) := (X4_of_ne m c main_arg27 (by decide)).trans (X3_main_arg27 m c)
theorem X5_main_arg27 (c : Dev nD) : X5 m c (Proc.devRef .tc main_arg27) = m ((c : Thread nD τ).loc main_arg27) := (X5_of m c main_arg27 (by decide)).trans (X4_main_arg27 m c)
theorem X6_main_arg27 (c : Dev nD) : X6 m c (Proc.devRef .tc main_arg27) = m ((c : Thread nD τ).loc main_arg27) := (X6_of_ne m c main_arg27 (by decide)).trans (X5_main_arg27 m c)
theorem X7_main_arg27 (c : Dev nD) : X7 m c (Proc.devRef .tc main_arg27) = m ((c : Thread nD τ).loc main_arg27) := (X7_of m c main_arg27 (by decide)).trans (X6_main_arg27 m c)
theorem X8_main_arg27 (c : Dev nD) : X8 m c (Proc.devRef .tc main_arg27) = m ((c : Thread nD τ).loc main_arg27) := (X8_of_ne m c main_arg27 (by decide)).trans (X7_main_arg27 m c)
theorem X9_main_arg27 (c : Dev nD) : X9 m c (Proc.devRef .tc main_arg27) = m ((c : Thread nD τ).loc main_arg27) := (X9_of m c main_arg27 (by decide)).trans (X8_main_arg27 m c)
theorem X10_main_arg27 (c : Dev nD) : X10 m c (Proc.devRef .tc main_arg27) = m ((c : Thread nD τ).loc main_arg27) := (X10_of_ne m c main_arg27 (by decide)).trans (X9_main_arg27 m c)
theorem X11_main_arg27 (c : Dev nD) : X11 m c (Proc.devRef .tc main_arg27) = m ((c : Thread nD τ).loc main_arg27) := (X11_of m c main_arg27 (by decide)).trans (X10_main_arg27 m c)
theorem X12_main_arg27 (c : Dev nD) : X12 m c (Proc.devRef .tc main_arg27) = m ((c : Thread nD τ).loc main_arg27) := (X12_of_ne m c main_arg27 (by decide)).trans (X11_main_arg27 m c)
theorem X13_main_arg27 (c : Dev nD) : X13 m c (Proc.devRef .tc main_arg27) = m ((c : Thread nD τ).loc main_arg27) := (X13_of m c main_arg27 (by decide)).trans (X12_main_arg27 m c)
theorem X14_main_arg27 (c : Dev nD) : X14 m c (Proc.devRef .tc main_arg27) = m ((c : Thread nD τ).loc main_arg27) := (X14_of_ne m c main_arg27 (by decide)).trans (X13_main_arg27 m c)
theorem X15_main_arg27 (c : Dev nD) : X15 m c (Proc.devRef .tc main_arg27) = m ((c : Thread nD τ).loc main_arg27) := (X15_of m c main_arg27 (by decide)).trans (X14_main_arg27 m c)
theorem X16_main_arg27 (c : Dev nD) : X16 m c (Proc.devRef .tc main_arg27) = m ((c : Thread nD τ).loc main_arg27) := (X16_of_ne m c main_arg27 (by decide)).trans (X15_main_arg27 m c)
theorem X17_main_arg27 (c : Dev nD) : X17 m c (Proc.devRef .tc main_arg27) = m ((c : Thread nD τ).loc main_arg27) := (X17_of m c main_arg27 (by decide)).trans (X16_main_arg27 m c)
theorem X18_main_arg27 (c : Dev nD) : X18 m c (Proc.devRef .tc main_arg27) = m ((c : Thread nD τ).loc main_arg27) := (X18_of_ne m c main_arg27 (by decide)).trans (X17_main_arg27 m c)
theorem X19_main_arg27 (c : Dev nD) : X19 m c (Proc.devRef .tc main_arg27) = m ((c : Thread nD τ).loc main_arg27) := (X19_of m c main_arg27 (by decide)).trans (X18_main_arg27 m c)
theorem X20_main_arg27 (c : Dev nD) : X20 m c (Proc.devRef .tc main_arg27) = m ((c : Thread nD τ).loc main_arg27) := (X20_of_ne m c main_arg27 (by decide)).trans (X19_main_arg27 m c)
theorem X0_main_arg28 (c : Dev nD) : X0 m c (Proc.devRef .tc main_arg28) = m ((c : Thread nD τ).loc main_arg28) := rfl
theorem X1_main_arg28 (c : Dev nD) : X1 m c (Proc.devRef .tc main_arg28) = m ((c : Thread nD τ).loc main_arg28) := (X1_of m c main_arg28 (by decide)).trans (X0_main_arg28 m c)
theorem X2_main_arg28 (c : Dev nD) : X2 m c (Proc.devRef .tc main_arg28) = m ((c : Thread nD τ).loc main_arg28) := (X2_of_ne m c main_arg28 (by decide)).trans (X1_main_arg28 m c)
theorem X3_main_arg28 (c : Dev nD) : X3 m c (Proc.devRef .tc main_arg28) = m ((c : Thread nD τ).loc main_arg28) := (X3_of m c main_arg28 (by decide)).trans (X2_main_arg28 m c)
theorem X4_main_arg28 (c : Dev nD) : X4 m c (Proc.devRef .tc main_arg28) = m ((c : Thread nD τ).loc main_arg28) := (X4_of_ne m c main_arg28 (by decide)).trans (X3_main_arg28 m c)
theorem X5_main_arg28 (c : Dev nD) : X5 m c (Proc.devRef .tc main_arg28) = m ((c : Thread nD τ).loc main_arg28) := (X5_of m c main_arg28 (by decide)).trans (X4_main_arg28 m c)
theorem X6_main_arg28 (c : Dev nD) : X6 m c (Proc.devRef .tc main_arg28) = m ((c : Thread nD τ).loc main_arg28) := (X6_of_ne m c main_arg28 (by decide)).trans (X5_main_arg28 m c)
theorem X7_main_arg28 (c : Dev nD) : X7 m c (Proc.devRef .tc main_arg28) = m ((c : Thread nD τ).loc main_arg28) := (X7_of m c main_arg28 (by decide)).trans (X6_main_arg28 m c)
theorem X8_main_arg28 (c : Dev nD) : X8 m c (Proc.devRef .tc main_arg28) = m ((c : Thread nD τ).loc main_arg28) := (X8_of_ne m c main_arg28 (by decide)).trans (X7_main_arg28 m c)
theorem X9_main_arg28 (c : Dev nD) : X9 m c (Proc.devRef .tc main_arg28) = m ((c : Thread nD τ).loc main_arg28) := (X9_of m c main_arg28 (by decide)).trans (X8_main_arg28 m c)
theorem X10_main_arg28 (c : Dev nD) : X10 m c (Proc.devRef .tc main_arg28) = m ((c : Thread nD τ).loc main_arg28) := (X10_of_ne m c main_arg28 (by decide)).trans (X9_main_arg28 m c)
theorem X11_main_arg28 (c : Dev nD) : X11 m c (Proc.devRef .tc main_arg28) = m ((c : Thread nD τ).loc main_arg28) := (X11_of m c main_arg28 (by decide)).trans (X10_main_arg28 m c)
theorem X12_main_arg28 (c : Dev nD) : X12 m c (Proc.devRef .tc main_arg28) = m ((c : Thread nD τ).loc main_arg28) := (X12_of_ne m c main_arg28 (by decide)).trans (X11_main_arg28 m c)
theorem X13_main_arg28 (c : Dev nD) : X13 m c (Proc.devRef .tc main_arg28) = m ((c : Thread nD τ).loc main_arg28) := (X13_of m c main_arg28 (by decide)).trans (X12_main_arg28 m c)
theorem X14_main_arg28 (c : Dev nD) : X14 m c (Proc.devRef .tc main_arg28) = m ((c : Thread nD τ).loc main_arg28) := (X14_of_ne m c main_arg28 (by decide)).trans (X13_main_arg28 m c)
theorem X15_main_arg28 (c : Dev nD) : X15 m c (Proc.devRef .tc main_arg28) = m ((c : Thread nD τ).loc main_arg28) := (X15_of m c main_arg28 (by decide)).trans (X14_main_arg28 m c)
theorem X16_main_arg28 (c : Dev nD) : X16 m c (Proc.devRef .tc main_arg28) = m ((c : Thread nD τ).loc main_arg28) := (X16_of_ne m c main_arg28 (by decide)).trans (X15_main_arg28 m c)
theorem X17_main_arg28 (c : Dev nD) : X17 m c (Proc.devRef .tc main_arg28) = m ((c : Thread nD τ).loc main_arg28) := (X17_of m c main_arg28 (by decide)).trans (X16_main_arg28 m c)
theorem X18_main_arg28 (c : Dev nD) : X18 m c (Proc.devRef .tc main_arg28) = m ((c : Thread nD τ).loc main_arg28) := (X18_of_ne m c main_arg28 (by decide)).trans (X17_main_arg28 m c)
theorem X19_main_arg28 (c : Dev nD) : X19 m c (Proc.devRef .tc main_arg28) = m ((c : Thread nD τ).loc main_arg28) := (X19_of m c main_arg28 (by decide)).trans (X18_main_arg28 m c)
theorem X20_main_arg28 (c : Dev nD) : X20 m c (Proc.devRef .tc main_arg28) = m ((c : Thread nD τ).loc main_arg28) := (X20_of_ne m c main_arg28 (by decide)).trans (X19_main_arg28 m c)
theorem X0_main_arg29 (c : Dev nD) : X0 m c (Proc.devRef .tc main_arg29) = m ((c : Thread nD τ).loc main_arg29) := rfl
theorem X1_main_arg29 (c : Dev nD) : X1 m c (Proc.devRef .tc main_arg29) = m ((c : Thread nD τ).loc main_arg29) := (X1_of m c main_arg29 (by decide)).trans (X0_main_arg29 m c)
theorem X2_main_arg29 (c : Dev nD) : X2 m c (Proc.devRef .tc main_arg29) = m ((c : Thread nD τ).loc main_arg29) := (X2_of_ne m c main_arg29 (by decide)).trans (X1_main_arg29 m c)
theorem X3_main_arg29 (c : Dev nD) : X3 m c (Proc.devRef .tc main_arg29) = m ((c : Thread nD τ).loc main_arg29) := (X3_of m c main_arg29 (by decide)).trans (X2_main_arg29 m c)
theorem X4_main_arg29 (c : Dev nD) : X4 m c (Proc.devRef .tc main_arg29) = m ((c : Thread nD τ).loc main_arg29) := (X4_of_ne m c main_arg29 (by decide)).trans (X3_main_arg29 m c)
theorem X5_main_arg29 (c : Dev nD) : X5 m c (Proc.devRef .tc main_arg29) = m ((c : Thread nD τ).loc main_arg29) := (X5_of m c main_arg29 (by decide)).trans (X4_main_arg29 m c)
theorem X6_main_arg29 (c : Dev nD) : X6 m c (Proc.devRef .tc main_arg29) = m ((c : Thread nD τ).loc main_arg29) := (X6_of_ne m c main_arg29 (by decide)).trans (X5_main_arg29 m c)
theorem X7_main_arg29 (c : Dev nD) : X7 m c (Proc.devRef .tc main_arg29) = m ((c : Thread nD τ).loc main_arg29) := (X7_of m c main_arg29 (by decide)).trans (X6_main_arg29 m c)
theorem X8_main_arg29 (c : Dev nD) : X8 m c (Proc.devRef .tc main_arg29) = m ((c : Thread nD τ).loc main_arg29) := (X8_of_ne m c main_arg29 (by decide)).trans (X7_main_arg29 m c)
theorem X9_main_arg29 (c : Dev nD) : X9 m c (Proc.devRef .tc main_arg29) = m ((c : Thread nD τ).loc main_arg29) := (X9_of m c main_arg29 (by decide)).trans (X8_main_arg29 m c)
theorem X10_main_arg29 (c : Dev nD) : X10 m c (Proc.devRef .tc main_arg29) = m ((c : Thread nD τ).loc main_arg29) := (X10_of_ne m c main_arg29 (by decide)).trans (X9_main_arg29 m c)
theorem X11_main_arg29 (c : Dev nD) : X11 m c (Proc.devRef .tc main_arg29) = m ((c : Thread nD τ).loc main_arg29) := (X11_of m c main_arg29 (by decide)).trans (X10_main_arg29 m c)
theorem X12_main_arg29 (c : Dev nD) : X12 m c (Proc.devRef .tc main_arg29) = m ((c : Thread nD τ).loc main_arg29) := (X12_of_ne m c main_arg29 (by decide)).trans (X11_main_arg29 m c)
theorem X13_main_arg29 (c : Dev nD) : X13 m c (Proc.devRef .tc main_arg29) = m ((c : Thread nD τ).loc main_arg29) := (X13_of m c main_arg29 (by decide)).trans (X12_main_arg29 m c)
theorem X14_main_arg29 (c : Dev nD) : X14 m c (Proc.devRef .tc main_arg29) = m ((c : Thread nD τ).loc main_arg29) := (X14_of_ne m c main_arg29 (by decide)).trans (X13_main_arg29 m c)
theorem X15_main_arg29 (c : Dev nD) : X15 m c (Proc.devRef .tc main_arg29) = m ((c : Thread nD τ).loc main_arg29) := (X15_of m c main_arg29 (by decide)).trans (X14_main_arg29 m c)
theorem X16_main_arg29 (c : Dev nD) : X16 m c (Proc.devRef .tc main_arg29) = m ((c : Thread nD τ).loc main_arg29) := (X16_of_ne m c main_arg29 (by decide)).trans (X15_main_arg29 m c)
theorem X17_main_arg29 (c : Dev nD) : X17 m c (Proc.devRef .tc main_arg29) = m ((c : Thread nD τ).loc main_arg29) := (X17_of m c main_arg29 (by decide)).trans (X16_main_arg29 m c)
theorem X18_main_arg29 (c : Dev nD) : X18 m c (Proc.devRef .tc main_arg29) = m ((c : Thread nD τ).loc main_arg29) := (X18_of_ne m c main_arg29 (by decide)).trans (X17_main_arg29 m c)
theorem X19_main_arg29 (c : Dev nD) : X19 m c (Proc.devRef .tc main_arg29) = m ((c : Thread nD τ).loc main_arg29) := (X19_of m c main_arg29 (by decide)).trans (X18_main_arg29 m c)
theorem X20_main_arg29 (c : Dev nD) : X20 m c (Proc.devRef .tc main_arg29) = m ((c : Thread nD τ).loc main_arg29) := (X20_of_ne m c main_arg29 (by decide)).trans (X19_main_arg29 m c)

end Cert.KernelIdeal.Fr

end
-- ==== Proof.Spec.lean ====
/-
  The specification both programs are compared with, index by index, over the extended reals.
  * `poolA x`: the mean over the 100 sequence positions of a gathered tensor `x` of shape [1024, 100, 512]:
    entry (b, j) is (Σ_k x[b, k, j]) / 100.
  * `mlpA X W1 b1 W2 b2 W3 b3`: the three-layer perceptron applied to every row of `X` ([1024, 6144]):
    h1 = max(X·W1 + b1, 0), h2 = max(h1·W2 + b2, 0), out = h2·W3 + b3, each matrix product written as the plain sum
    over the contracted coordinate.
  The two float literals (100.0 and 0.0) are kept as their words: the same word stands on both sides of every equation
  they meet, so they are never evaluated.
-/
import Idealize.ShloMosaic.PureOps.Ideal
import Idealize.ShloMosaic.Lib.ValueIdx

noncomputable section

namespace Cert.Spec

open Idealize.ShloMosaic Idealize.ShloMosaic.ValueIdx

/-- 100.0 and 0.0 as extended reals. -/
abbrev hundred : EReal := Ideal.ofBits .f32 0x42C80000#32
abbrev zero : EReal := Ideal.ofBits .f32 0x00000000#32

/-- Entry (b, j) of the mean pool of `x`. -/
def pool (x : (⟨3, ![1024, 100, 512]⟩ : Shape).Idx → EReal) (b : Fin 1024) (j : Fin 512) : EReal :=
  Ideal.div (∑ k : Fin 100, x (ix3 b k j)) hundred

/-- The mean pool as an array. -/
def poolA (x : (⟨3, ![1024, 100, 512]⟩ : Shape).Idx → EReal) : (⟨2, ![1024, 512]⟩ : Shape).Idx → EReal :=
  fun i => pool x (i 0) (i 1)

section Mlp

variable (X : (⟨2, ![1024, 6144]⟩ : Shape).Idx → EReal)
  (W1 : (⟨2, ![6144, 512]⟩ : Shape).Idx → EReal) (b1 : (⟨1, ![512]⟩ : Shape).Idx → EReal)
  (W2 : (⟨2, ![512, 256]⟩ : Shape).Idx → EReal) (b2 : (⟨1, ![256]⟩ : Shape).Idx → EReal)
  (W3 : (⟨2, ![256, 128]⟩ : Shape).Idx → EReal) (b3 : (⟨1, ![128]⟩ : Shape).Idx → EReal)

/-- First hidden layer, row r, unit j. -/
def layer1 (r : Fin 1024) (j : Fin 512) : EReal :=
  max ((∑ k : Fin 6144, X (ix2 r k) * W1 (ix2 k j)) + b1 (ix1 j)) zero

/-- Second hidden layer, row r, unit j. -/
def layer2 (r : Fin 1024) (j : Fin 256) : EReal :=
  max ((∑ k : Fin 512, layer1 X W1 b1 r k * W2 (ix2 k j)) + b2 (ix1 j)) zero

/-- The output layer (no activation), row r, unit j. -/
def mlp (r : Fin 1024) (j : Fin 128) : EReal :=
  (∑ k : Fin 256, layer2 X W1 b1 W2 b2 r k * W3 (ix2 k j)) + b3 (ix1 j)

/-- The perceptron's output as an array. -/
def mlpA : (⟨2, ![1024, 128]⟩ : Shape).Idx → EReal :=
  fun i => mlp X W1 b1 W2 b2 W3 b3 (i 0) (i 1)

end Mlp

end Cert.Spec

end
-- ==== Proof.KiPoolPay.lean ====
/-
  The arithmetic of the mean-pool kernels at one entry of a block, over the extended reals.
  A pool kernel's body loads a block `x` of 64 rows × 100 positions × 512 features, adds up the 100 positions
  (a sum that starts from nothing) and divides by the word 100.0.  So entry (r, j) of what it stores is
  (Σ_k x[r, k, j]) / 100  (`pool_entry`).  When the block is rows 64q … 64q+63 of an array `A` of 1024 rows, that is
  entry (64q + r, j) of the mean pool of `A` (`pool_block`).  The nine pool kernels have the same body.
-/
import proofs.«180909_j89275190215119_1_alg».proof.Proof.Gen.KernelIdeal.Skeleton
import proofs.«180909_j89275190215119_1_alg».proof.Proof.Spec
import Idealize.ShloMosaic.PureOps.Ideal.Laws
import Idealize.ShloMosaic.Lib.ValueIdx
import Idealize.ShloMosaic.Lib.Pipeline.Value

noncomputable section

namespace Cert.KernelIdeal.PoolVal

open Cert.KernelIdeal Cert.KernelIdeal.Gen
open Idealize.ShloMosaic Idealize.ShloMosaic.ValueIdx

/-- The zero offsets of a whole-block access, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The index of the block over the result's index (r, j) with position k put back on the summed axis is (r, k, j). -/
theorem lift_eq (h : S64x100x512.Reduces [1] S64x512) (r : Fin 64) (j : Fin 512) (k : Fin 100) :
    h.lift (ix2 r j) k = ix3 r k j :=
  funext fun a => Fin.ext (by match a with | ⟨0, _⟩ => rfl | ⟨1, _⟩ => rfl | ⟨2, _⟩ => rfl)

/-- Entry (r, j) of the body's result: the sum over the 100 positions of the block, divided by 100. -/
theorem pool_entry (x : Vec Ideal S64x100x512 .f32) (r : Fin 64) (j : Fin 512) :
    k0_pay1 (F := Ideal) x (ix2 r j) = Ideal.div (∑ k : Fin 100, x (ix3 r k j)) Cert.Spec.hundred := by
  unfold k0_pay1
  dsimp only
  rw [divf_apply, broadcast_apply]
  refine congrArg (fun s => Ideal.div s Cert.Spec.hundred) ?_
  refine (Ideal.multiReduction_add_single (φ := .f32) _ 0x00000000#32 reduces_S64x100x512_S64x512 (.inl rfl) rfl (ix2 r j)).trans ?_
  refine Finset.sum_congr rfl fun k _ => ?_
  rw [shapeCast_self]
  exact congrArg x (lift_eq reduces_S64x100x512_S64x512 r j k)

/-- The same entry when the block is rows 64q … 64q+63 of an array `A` of 1024 rows: entry (64q + r, j) of the
    mean pool of `A`. -/
theorem pool_block_entry (x : Vec Ideal S64x100x512 .f32) (A : S1024x100x512.Idx → EReal) (q : Nat)
    (hx : ∀ (r : Fin 64) (k : Fin 100) (j : Fin 512) (b : Fin 1024), b.val = q * 64 + r.val → x (ix3 r k j) = A (ix3 b k j))
    (r : Fin 64) (j : Fin 512) (b : Fin 1024) (hb : b.val = q * 64 + r.val) :
    k0_pay1 (F := Ideal) x (ix2 r j) = Cert.Spec.poolA A (ix2 b j) := by
  rw [pool_entry]
  show _ = Ideal.div (∑ k : Fin 100, A (ix3 b k j)) Cert.Spec.hundred
  exact congrArg (fun s => Ideal.div s Cert.Spec.hundred) (Finset.sum_congr rfl fun k _ => hx r k j b hb)

/-- The same, at any index `y` of the block and the index `i` of the array it sits at. -/
theorem pool_block (x : Vec Ideal S64x100x512 .f32) (A : S1024x100x512.Idx → EReal) (q : Nat)
    (hx : ∀ (r : Fin 64) (k : Fin 100) (j : Fin 512) (b : Fin 1024), b.val = q * 64 + r.val → x (ix3 r k j) = A (ix3 b k j))
    (y : S64x512.Idx) (i : S1024x512.Idx) (h0 : (i 0).val = q * 64 + (y 0).val) (h1 : (i 1).val = (y 1).val) :
    k0_pay1 (F := Ideal) x y = Cert.Spec.poolA A i := by
  obtain ⟨r, j, rfl⟩ : ∃ (r : Fin 64) (j : Fin 512), y = ix2 r j := ⟨y 0, y 1, eq_ix2 y⟩
  obtain ⟨b, j', rfl⟩ : ∃ (b : Fin 1024) (j' : Fin 512), i = ix2 b j' := ⟨i 0, i 1, eq_ix2 i⟩
  obtain rfl : j' = j := Fin.ext h1
  exact pool_block_entry x A q hx r j' b h0

/-- The nine pool kernels' bodies are one function. -/
theorem k1_pay1_eq (x : Vec Ideal S64x100x512 .f32) : k1_pay1 (F := Ideal) x = k0_pay1 (F := Ideal) x := rfl
theorem k2_pay1_eq (x : Vec Ideal S64x100x512 .f32) : k2_pay1 (F := Ideal) x = k0_pay1 (F := Ideal) x := rfl
theorem k3_pay1_eq (x : Vec Ideal S64x100x512 .f32) : k3_pay1 (F := Ideal) x = k0_pay1 (F := Ideal) x := rfl
theorem k4_pay1_eq (x : Vec Ideal S64x100x512 .f32) : k4_pay1 (F := Ideal) x = k0_pay1 (F := Ideal) x := rfl
theorem k5_pay1_eq (x : Vec Ideal S64x100x512 .f32) : k5_pay1 (F := Ideal) x = k0_pay1 (F := Ideal) x := rfl
theorem k6_pay1_eq (x : Vec Ideal S64x100x512 .f32) : k6_pay1 (F := Ideal) x = k0_pay1 (F := Ideal) x := rfl
theorem k7_pay1_eq (x : Vec Ideal S64x100x512 .f32) : k7_pay1 (F := Ideal) x = k0_pay1 (F := Ideal) x := rfl
theorem k8_pay1_eq (x : Vec Ideal S64x100x512 .f32) : k8_pay1 (F := Ideal) x = k0_pay1 (F := Ideal) x := rfl

end Cert.KernelIdeal.PoolVal

end
-- ==== Proof.KiPoolVal0.lean ====
/-
  The value of pool region 0: after its 16 grid points the output array `main_v28` holds the mean pool of the input
  array `main_v27` as the region finds it.
  Grid point t stages rows 64t … 64t+63 of the input (all 100 positions, all 512 features), the body stores the pool of
  that block, and the write-back puts it at rows 64t … 64t+63 of the output (all 512 columns).  So what point t writes
  back is block t of the array's mean pool, and the 16 blocks of 64 rows fill the 1024 rows.
-/
import proofs.«180909_j89275190215119_1_alg».proof.Proof.KiPool0
import proofs.«180909_j89275190215119_1_alg».proof.Proof.KiPoolPay
import Idealize.ShloMosaic.Lib.Pipeline.Value

set_option maxRecDepth 16384

noncomputable section

namespace Cert.KernelIdeal.PoolVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: point t's input block is block (t, 0, 0), its output block is block (t, 0). -/
theorem idx_facts0 : ∀ t : Fin cfg0.N, win0_0.index t (0 : Fin 3) = t.val
    ∧ win0_0.index t (1 : Fin 3) = 0
    ∧ win0_0.index t (2 : Fin 3) = 0
    ∧ win0_1.index t (0 : Fin 2) = t.val
    ∧ win0_1.index t (1 : Fin 2) = 0 :=
  (by decide +kernel : ∀ t : Fin grid0.N, _)

/-- Every one of the 16 row blocks of the output is some point's. -/
theorem idx_onto0 : ∀ q : Fin 16, ∃ t : Fin cfg0.N, win0_1.index t (0 : Fin 2) = q.val ∧ win0_1.index t (1 : Fin 2) = 0 :=
  (by decide +kernel : ∀ q : Fin 16, ∃ t : Fin grid0.N, win0_1.index t (0 : Fin 2) = q.val ∧ win0_1.index t (1 : Fin 2) = 0)

/-- The input block at point t is rows 64t … 64t+63 of the input array. -/
theorem iblk_entry0 (c : Dev nD) (t : Fin cfg0.N) (r : Fin 64) (k : Fin 100) (j : Fin 512) (b : Fin 1024)
    (hb : b.val = t.val * 64 + r.val) :
    (Fr.iblk0 V c 0 t : Vec Ideal S64x100x512 .f32) (ix3 r k j) = (V c main_v27 : S1024x100x512.Idx → EReal) (ix3 b k j) := by
  obtain ⟨e0, e1, e2, -, -⟩ := idx_facts0 t
  show V c main_v27 (((cfg0.win 0).blk t).view.emb (ix3 r k j)) = V c main_v27 (ix3 b k j)
  refine congrArg (V c main_v27) (funext fun a => Fin.ext ?_)
  match a with
  | ⟨0, _⟩ => show win0_0.index t (0 : Fin 3) * 64 + 1 * r.val = b.val; omega
  | ⟨1, _⟩ => show win0_0.index t (1 : Fin 3) * 100 + 1 * k.val = k.val; omega
  | ⟨2, _⟩ => show win0_0.index t (2 : Fin 3) * 512 + 1 * j.val = j.val; omega

/-- What point t writes back is block t of the mean pool of the input array. -/
theorem flushed_eq0 (c : Dev nD) (t : Fin cfg0.N) :
    (Fr.dat0 V c).flushed 1 t = ((cfg0.win 1).blk t).view.read (Elt Ideal) (Cert.Spec.poolA (V c main_v27 : S1024x100x512.Idx → EReal)) := by
  show (cfg0.win 1).cut (grid0.coords t) ((Fr.dat0 V c).after 1 t) = _
  rw [Fr.after0_1]
  unfold Fr.out0_1
  rw [View.canon_unit_zero hz2]
  simp only [View.ld_unit_zero (S := S64x100x512) hz3]
  obtain ⟨-, -, -, e3, e4⟩ := idx_facts0 t
  funext y
  show k0_pay1 (F := Ideal) (Fr.iblk0 V c 0 t) ((cfg0.win 1).xinj (grid0.coords t) y)
    = Cert.Spec.poolA (V c main_v27 : S1024x100x512.Idx → EReal) (((cfg0.win 1).blk t).view.emb y)
  refine pool_block (Fr.iblk0 V c 0 t) (V c main_v27) t.val (iblk_entry0 V c t)
    ((cfg0.win 1).xinj (grid0.coords t) y) (((cfg0.win 1).blk t).view.emb y) ?_ ?_
  · show win0_1.index t (0 : Fin 2) * 64 + 1 * (y 0).val = t.val * 64 + (y 0).val; omega
  · show win0_1.index t (1 : Fin 2) * 512 + 1 * (y 1).val = (y 1).val; omega

/-- An index of the output array is in point t's block iff each coordinate is in the block's range on its axis. -/
theorem mem_blk0 (t : Fin cfg0.N) (i : S1024x512.Idx) :
    i ∈ ((cfg0.win 1).blk t).view.set ↔ ∀ a : Fin 2, win0_1.index t a * S64x512.size a ≤ (i a).val ∧ (i a).val < win0_1.index t a * S64x512.size a + S64x512.size a := by
  show i ∈ ((View.whole main_v28).slice (win0_1.rect t)).set ↔ _
  rw [View.set_slice_whole, Rect.mem_set_unit]
  exact Iff.rfl

/-- Every index of the output array is in some point's block: row i is in block i / 64. -/
theorem cover0 (i : S1024x512.Idx) : ∃ t : Fin cfg0.N, (cfg0.win 1).flush t = true ∧ i ∈ ((cfg0.win 1).blk t).view.set := by
  have hi0 : (i 0).val < 1024 := (i 0).isLt
  have hi1 : (i 1).val < 512 := (i 1).isLt
  obtain ⟨t, q0, q1⟩ := idx_onto0 ⟨(i 0).val / 64, by omega⟩
  have q0' : win0_1.index t (0 : Fin 2) = (i 0).val / 64 := q0
  refine ⟨t, flush0_1 t, ?_⟩
  rw [mem_blk0]
  intro a
  match a with
  | ⟨0, _⟩ => show win0_1.index t (0 : Fin 2) * 64 ≤ (i 0).val ∧ (i 0).val < win0_1.index t (0 : Fin 2) * 64 + 64; omega
  | ⟨1, _⟩ => show win0_1.index t (1 : Fin 2) * 512 ≤ (i 1).val ∧ (i 1).val < win0_1.index t (1 : Fin 2) * 512 + 512; omega

/-- The output array after the region's run is the mean pool of the input array. -/
theorem pool_val0 (c : Dev nD) :
    ((Fr.dat0 V c).arrAt 1 cfg0.N : S1024x512.Idx → EReal) = Cert.Spec.poolA (V c main_v27 : S1024x100x512.Idx → EReal) :=
  (Fr.dat0 V c).arrAt_eq_of_cover 1 (Cert.Spec.poolA (V c main_v27 : S1024x100x512.Idx → EReal))
    (fun t _ => flushed_eq0 V c t) cover0

end Cert.KernelIdeal.PoolVal

end
-- ==== Proof.KiPoolVal1.lean ====
/-
  The value of pool region 1: after its 16 grid points the output array `main_v36` holds the mean pool of the input
  array `main_v35` as the region finds it.
  Grid point t stages rows 64t … 64t+63 of the input (all 100 positions, all 512 features), the body stores the pool of
  that block, and the write-back puts it at rows 64t … 64t+63 of the output (all 512 columns).  So what point t writes
  back is block t of the array's mean pool, and the 16 blocks of 64 rows fill the 1024 rows.
-/
import proofs.«180909_j89275190215119_1_alg».proof.Proof.KiPool1
import proofs.«180909_j89275190215119_1_alg».proof.Proof.KiPoolPay
import Idealize.ShloMosaic.Lib.Pipeline.Value

set_option maxRecDepth 16384

noncomputable section

namespace Cert.KernelIdeal.PoolVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: point t's input block is block (t, 0, 0), its output block is block (t, 0). -/
theorem idx_facts1 : ∀ t : Fin cfg1.N, win1_0.index t (0 : Fin 3) = t.val
    ∧ win1_0.index t (1 : Fin 3) = 0
    ∧ win1_0.index t (2 : Fin 3) = 0
    ∧ win1_1.index t (0 : Fin 2) = t.val
    ∧ win1_1.index t (1 : Fin 2) = 0 :=
  (by decide +kernel : ∀ t : Fin grid1.N, _)

/-- Every one of the 16 row blocks of the output is some point's. -/
theorem idx_onto1 : ∀ q : Fin 16, ∃ t : Fin cfg1.N, win1_1.index t (0 : Fin 2) = q.val ∧ win1_1.index t (1 : Fin 2) = 0 :=
  (by decide +kernel : ∀ q : Fin 16, ∃ t : Fin grid1.N, win1_1.index t (0 : Fin 2) = q.val ∧ win1_1.index t (1 : Fin 2) = 0)

/-- The input block at point t is rows 64t … 64t+63 of the input array. -/
theorem iblk_entry1 (c : Dev nD) (t : Fin cfg1.N) (r : Fin 64) (k : Fin 100) (j : Fin 512) (b : Fin 1024)
    (hb : b.val = t.val * 64 + r.val) :
    (Fr.iblk1 V c 0 t : Vec Ideal S64x100x512 .f32) (ix3 r k j) = (V c main_v35 : S1024x100x512.Idx → EReal) (ix3 b k j) := by
  obtain ⟨e0, e1, e2, -, -⟩ := idx_facts1 t
  show V c main_v35 (((cfg1.win 0).blk t).view.emb (ix3 r k j)) = V c main_v35 (ix3 b k j)
  refine congrArg (V c main_v35) (funext fun a => Fin.ext ?_)
  match a with
  | ⟨0, _⟩ => show win1_0.index t (0 : Fin 3) * 64 + 1 * r.val = b.val; omega
  | ⟨1, _⟩ => show win1_0.index t (1 : Fin 3) * 100 + 1 * k.val = k.val; omega
  | ⟨2, _⟩ => show win1_0.index t (2 : Fin 3) * 512 + 1 * j.val = j.val; omega

/-- What point t writes back is block t of the mean pool of the input array. -/
theorem flushed_eq1 (c : Dev nD) (t : Fin cfg1.N) :
    (Fr.dat1 V c).flushed 1 t = ((cfg1.win 1).blk t).view.read (Elt Ideal) (Cert.Spec.poolA (V c main_v35 : S1024x100x512.Idx → EReal)) := by
  show (cfg1.win 1).cut (grid1.coords t) ((Fr.dat1 V c).after 1 t) = _
  rw [Fr.after1_1]
  unfold Fr.out1_1
  rw [View.canon_unit_zero hz2]
  simp only [View.ld_unit_zero (S := S64x100x512) hz3]
  obtain ⟨-, -, -, e3, e4⟩ := idx_facts1 t
  funext y
  show k1_pay1 (F := Ideal) (Fr.iblk1 V c 0 t) ((cfg1.win 1).xinj (grid1.coords t) y)
    = Cert.Spec.poolA (V c main_v35 : S1024x100x512.Idx → EReal) (((cfg1.win 1).blk t).view.emb y)
  rw [k1_pay1_eq]
  refine pool_block (Fr.iblk1 V c 0 t) (V c main_v35) t.val (iblk_entry1 V c t)
    ((cfg1.win 1).xinj (grid1.coords t) y) (((cfg1.win 1).blk t).view.emb y) ?_ ?_
  · show win1_1.index t (0 : Fin 2) * 64 + 1 * (y 0).val = t.val * 64 + (y 0).val; omega
  · show win1_1.index t (1 : Fin 2) * 512 + 1 * (y 1).val = (y 1).val; omega

/-- An index of the output array is in point t's block iff each coordinate is in the block's range on its axis. -/
theorem mem_blk1 (t : Fin cfg1.N) (i : S1024x512.Idx) :
    i ∈ ((cfg1.win 1).blk t).view.set ↔ ∀ a : Fin 2, win1_1.index t a * S64x512.size a ≤ (i a).val ∧ (i a).val < win1_1.index t a * S64x512.size a + S64x512.size a := by
  show i ∈ ((View.whole main_v36).slice (win1_1.rect t)).set ↔ _
  rw [View.set_slice_whole, Rect.mem_set_unit]
  exact Iff.rfl

/-- Every index of the output array is in some point's block: row i is in block i / 64. -/
theorem cover1 (i : S1024x512.Idx) : ∃ t : Fin cfg1.N, (cfg1.win 1).flush t = true ∧ i ∈ ((cfg1.win 1).blk t).view.set := by
  have hi0 : (i 0).val < 1024 := (i 0).isLt
  have hi1 : (i 1).val < 512 := (i 1).isLt
  obtain ⟨t, q0, q1⟩ := idx_onto1 ⟨(i 0).val / 64, by omega⟩
  have q0' : win1_1.index t (0 : Fin 2) = (i 0).val / 64 := q0
  refine ⟨t, flush1_1 t, ?_⟩
  rw [mem_blk1]
  intro a
  match a with
  | ⟨0, _⟩ => show win1_1.index t (0 : Fin 2) * 64 ≤ (i 0).val ∧ (i 0).val < win1_1.index t (0 : Fin 2) * 64 + 64; omega
  | ⟨1, _⟩ => show win1_1.index t (1 : Fin 2) * 512 ≤ (i 1).val ∧ (i 1).val < win1_1.index t (1 : Fin 2) * 512 + 512; omega

/-- The output array after the region's run is the mean pool of the input array. -/
theorem pool_val1 (c : Dev nD) :
    ((Fr.dat1 V c).arrAt 1 cfg1.N : S1024x512.Idx → EReal) = Cert.Spec.poolA (V c main_v35 : S1024x100x512.Idx → EReal) :=
  (Fr.dat1 V c).arrAt_eq_of_cover 1 (Cert.Spec.poolA (V c main_v35 : S1024x100x512.Idx → EReal))
    (fun t _ => flushed_eq1 V c t) cover1

end Cert.KernelIdeal.PoolVal

end
-- ==== Proof.KiPoolVal2.lean ====
/-
  The value of pool region 2: after its 16 grid points the output array `main_v44` holds the mean pool of the input
  array `main_v43` as the region finds it.
  Grid point t stages rows 64t … 64t+63 of the input (all 100 positions, all 512 features), the body stores the pool of
  that block, and the write-back puts it at rows 64t … 64t+63 of the output (all 512 columns).  So what point t writes
  back is block t of the array's mean pool, and the 16 blocks of 64 rows fill the 1024 rows.
-/
import proofs.«180909_j89275190215119_1_alg».proof.Proof.KiPool2
import proofs.«180909_j89275190215119_1_alg».proof.Proof.KiPoolPay
import Idealize.ShloMosaic.Lib.Pipeline.Value

set_option maxRecDepth 16384

noncomputable section

namespace Cert.KernelIdeal.PoolVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: point t's input block is block (t, 0, 0), its output block is block (t, 0). -/
theorem idx_facts2 : ∀ t : Fin cfg2.N, win2_0.index t (0 : Fin 3) = t.val
    ∧ win2_0.index t (1 : Fin 3) = 0
    ∧ win2_0.index t (2 : Fin 3) = 0
    ∧ win2_1.index t (0 : Fin 2) = t.val
    ∧ win2_1.index t (1 : Fin 2) = 0 :=
  (by decide +kernel : ∀ t : Fin grid2.N, _)

/-- Every one of the 16 row blocks of the output is some point's. -/
theorem idx_onto2 : ∀ q : Fin 16, ∃ t : Fin cfg2.N, win2_1.index t (0 : Fin 2) = q.val ∧ win2_1.index t (1 : Fin 2) = 0 :=
  (by decide +kernel : ∀ q : Fin 16, ∃ t : Fin grid2.N, win2_1.index t (0 : Fin 2) = q.val ∧ win2_1.index t (1 : Fin 2) = 0)

/-- The input block at point t is rows 64t … 64t+63 of the input array. -/
theorem iblk_entry2 (c : Dev nD) (t : Fin cfg2.N) (r : Fin 64) (k : Fin 100) (j : Fin 512) (b : Fin 1024)
    (hb : b.val = t.val * 64 + r.val) :
    (Fr.iblk2 V c 0 t : Vec Ideal S64x100x512 .f32) (ix3 r k j) = (V c main_v43 : S1024x100x512.Idx → EReal) (ix3 b k j) := by
  obtain ⟨e0, e1, e2, -, -⟩ := idx_facts2 t
  show V c main_v43 (((cfg2.win 0).blk t).view.emb (ix3 r k j)) = V c main_v43 (ix3 b k j)
  refine congrArg (V c main_v43) (funext fun a => Fin.ext ?_)
  match a with
  | ⟨0, _⟩ => show win2_0.index t (0 : Fin 3) * 64 + 1 * r.val = b.val; omega
  | ⟨1, _⟩ => show win2_0.index t (1 : Fin 3) * 100 + 1 * k.val = k.val; omega
  | ⟨2, _⟩ => show win2_0.index t (2 : Fin 3) * 512 + 1 * j.val = j.val; omega

/-- What point t writes back is block t of the mean pool of the input array. -/
theorem flushed_eq2 (c : Dev nD) (t : Fin cfg2.N) :
    (Fr.dat2 V c).flushed 1 t = ((cfg2.win 1).blk t).view.read (Elt Ideal) (Cert.Spec.poolA (V c main_v43 : S1024x100x512.Idx → EReal)) := by
  show (cfg2.win 1).cut (grid2.coords t) ((Fr.dat2 V c).after 1 t) = _
  rw [Fr.after2_1]
  unfold Fr.out2_1
  rw [View.canon_unit_zero hz2]
  simp only [View.ld_unit_zero (S := S64x100x512) hz3]
  obtain ⟨-, -, -, e3, e4⟩ := idx_facts2 t
  funext y
  show k2_pay1 (F := Ideal) (Fr.iblk2 V c 0 t) ((cfg2.win 1).xinj (grid2.coords t) y)
    = Cert.Spec.poolA (V c main_v43 : S1024x100x512.Idx → EReal) (((cfg2.win 1).blk t).view.emb y)
  rw [k2_pay1_eq]
  refine pool_block (Fr.iblk2 V c 0 t) (V c main_v43) t.val (iblk_entry2 V c t)
    ((cfg2.win 1).xinj (grid2.coords t) y) (((cfg2.win 1).blk t).view.emb y) ?_ ?_
  · show win2_1.index t (0 : Fin 2) * 64 + 1 * (y 0).val = t.val * 64 + (y 0).val; omega
  · show win2_1.index t (1 : Fin 2) * 512 + 1 * (y 1).val = (y 1).val; omega

/-- An index of the output array is in point t's block iff each coordinate is in the block's range on its axis. -/
theorem mem_blk2 (t : Fin cfg2.N) (i : S1024x512.Idx) :
    i ∈ ((cfg2.win 1).blk t).view.set ↔ ∀ a : Fin 2, win2_1.index t a * S64x512.size a ≤ (i a).val ∧ (i a).val < win2_1.index t a * S64x512.size a + S64x512.size a := by
  show i ∈ ((View.whole main_v44).slice (win2_1.rect t)).set ↔ _
  rw [View.set_slice_whole, Rect.mem_set_unit]
  exact Iff.rfl

/-- Every index of the output array is in some point's block: row i is in block i / 64. -/
theorem cover2 (i : S1024x512.Idx) : ∃ t : Fin cfg2.N, (cfg2.win 1).flush t = true ∧ i ∈ ((cfg2.win 1).blk t).view.set := by
  have hi0 : (i 0).val < 1024 := (i 0).isLt
  have hi1 : (i 1).val < 512 := (i 1).isLt
  obtain ⟨t, q0, q1⟩ := idx_onto2 ⟨(i 0).val / 64, by omega⟩
  have q0' : win2_1.index t (0 : Fin 2) = (i 0).val / 64 := q0
  refine ⟨t, flush2_1 t, ?_⟩
  rw [mem_blk2]
  intro a
  match a with
  | ⟨0, _⟩ => show win2_1.index t (0 : Fin 2) * 64 ≤ (i 0).val ∧ (i 0).val < win2_1.index t (0 : Fin 2) * 64 + 64; omega
  | ⟨1, _⟩ => show win2_1.index t (1 : Fin 2) * 512 ≤ (i 1).val ∧ (i 1).val < win2_1.index t (1 : Fin 2) * 512 + 512; omega

/-- The output array after the region's run is the mean pool of the input array. -/
theorem pool_val2 (c : Dev nD) :
    ((Fr.dat2 V c).arrAt 1 cfg2.N : S1024x512.Idx → EReal) = Cert.Spec.poolA (V c main_v43 : S1024x100x512.Idx → EReal) :=
  (Fr.dat2 V c).arrAt_eq_of_cover 1 (Cert.Spec.poolA (V c main_v43 : S1024x100x512.Idx → EReal))
    (fun t _ => flushed_eq2 V c t) cover2

end Cert.KernelIdeal.PoolVal

end
-- ==== Proof.KiPoolVal3.lean ====
/-
  The value of pool region 3: after its 16 grid points the output array `main_v52` holds the mean pool of the input
  array `main_v51` as the region finds it.
  Grid point t stages rows 64t … 64t+63 of the input (all 100 positions, all 512 features), the body stores the pool of
  that block, and the write-back puts it at rows 64t … 64t+63 of the output (all 512 columns).  So what point t writes
  back is block t of the array's mean pool, and the 16 blocks of 64 rows fill the 1024 rows.
-/
import proofs.«180909_j89275190215119_1_alg».proof.Proof.KiPool3
import proofs.«180909_j89275190215119_1_alg».proof.Proof.KiPoolPay
import Idealize.ShloMosaic.Lib.Pipeline.Value

set_option maxRecDepth 16384

noncomputable section

namespace Cert.KernelIdeal.PoolVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: point t's input block is block (t, 0, 0), its output block is block (t, 0). -/
theorem idx_facts3 : ∀ t : Fin cfg3.N, win3_0.index t (0 : Fin 3) = t.val
    ∧ win3_0.index t (1 : Fin 3) = 0
    ∧ win3_0.index t (2 : Fin 3) = 0
    ∧ win3_1.index t (0 : Fin 2) = t.val
    ∧ win3_1.index t (1 : Fin 2) = 0 :=
  (by decide +kernel : ∀ t : Fin grid3.N, _)

/-- Every one of the 16 row blocks of the output is some point's. -/
theorem idx_onto3 : ∀ q : Fin 16, ∃ t : Fin cfg3.N, win3_1.index t (0 : Fin 2) = q.val ∧ win3_1.index t (1 : Fin 2) = 0 :=
  (by decide +kernel : ∀ q : Fin 16, ∃ t : Fin grid3.N, win3_1.index t (0 : Fin 2) = q.val ∧ win3_1.index t (1 : Fin 2) = 0)

/-- The input block at point t is rows 64t … 64t+63 of the input array. -/
theorem iblk_entry3 (c : Dev nD) (t : Fin cfg3.N) (r : Fin 64) (k : Fin 100) (j : Fin 512) (b : Fin 1024)
    (hb : b.val = t.val * 64 + r.val) :
    (Fr.iblk3 V c 0 t : Vec Ideal S64x100x512 .f32) (ix3 r k j) = (V c main_v51 : S1024x100x512.Idx → EReal) (ix3 b k j) := by
  obtain ⟨e0, e1, e2, -, -⟩ := idx_facts3 t
  show V c main_v51 (((cfg3.win 0).blk t).view.emb (ix3 r k j)) = V c main_v51 (ix3 b k j)
  refine congrArg (V c main_v51) (funext fun a => Fin.ext ?_)
  match a with
  | ⟨0, _⟩ => show win3_0.index t (0 : Fin 3) * 64 + 1 * r.val = b.val; omega
  | ⟨1, _⟩ => show win3_0.index t (1 : Fin 3) * 100 + 1 * k.val = k.val; omega
  | ⟨2, _⟩ => show win3_0.index t (2 : Fin 3) * 512 + 1 * j.val = j.val; omega

/-- What point t writes back is block t of the mean pool of the input array. -/
theorem flushed_eq3 (c : Dev nD) (t : Fin cfg3.N) :
    (Fr.dat3 V c).flushed 1 t = ((cfg3.win 1).blk t).view.read (Elt Ideal) (Cert.Spec.poolA (V c main_v51 : S1024x100x512.Idx → EReal)) := by
  show (cfg3.win 1).cut (grid3.coords t) ((Fr.dat3 V c).after 1 t) = _
  rw [Fr.after3_1]
  unfold Fr.out3_1
  rw [View.canon_unit_zero hz2]
  simp only [View.ld_unit_zero (S := S64x100x512) hz3]
  obtain ⟨-, -, -, e3, e4⟩ := idx_facts3 t
  funext y
  show k3_pay1 (F := Ideal) (Fr.iblk3 V c 0 t) ((cfg3.win 1).xinj (grid3.coords t) y)
    = Cert.Spec.poolA (V c main_v51 : S1024x100x512.Idx → EReal) (((cfg3.win 1).blk t).view.emb y)
  rw [k3_pay1_eq]
  refine pool_block (Fr.iblk3 V c 0 t) (V c main_v51) t.val (iblk_entry3 V c t)
    ((cfg3.win 1).xinj (grid3.coords t) y) (((cfg3.win 1).blk t).view.emb y) ?_ ?_
  · show win3_1.index t (0 : Fin 2) * 64 + 1 * (y 0).val = t.val * 64 + (y 0).val; omega
  · show win3_1.index t (1 : Fin 2) * 512 + 1 * (y 1).val = (y 1).val; omega

/-- An index of the output array is in point t's block iff each coordinate is in the block's range on its axis. -/
theorem mem_blk3 (t : Fin cfg3.N) (i : S1024x512.Idx) :
    i ∈ ((cfg3.win 1).blk t).view.set ↔ ∀ a : Fin 2, win3_1.index t a * S64x512.size a ≤ (i a).val ∧ (i a).val < win3_1.index t a * S64x512.size a + S64x512.size a := by
  show i ∈ ((View.whole main_v52).slice (win3_1.rect t)).set ↔ _
  rw [View.set_slice_whole, Rect.mem_set_unit]
  exact Iff.rfl

/-- Every index of the output array is in some point's block: row i is in block i / 64. -/
theorem cover3 (i : S1024x512.Idx) : ∃ t : Fin cfg3.N, (cfg3.win 1).flush t = true ∧ i ∈ ((cfg3.win 1).blk t).view.set := by
  have hi0 : (i 0).val < 1024 := (i 0).isLt
  have hi1 : (i 1).val < 512 := (i 1).isLt
  obtain ⟨t, q0, q1⟩ := idx_onto3 ⟨(i 0).val / 64, by omega⟩
  have q0' : win3_1.index t (0 : Fin 2) = (i 0).val / 64 := q0
  refine ⟨t, flush3_1 t, ?_⟩
  rw [mem_blk3]
  intro a
  match a with
  | ⟨0, _⟩ => show win3_1.index t (0 : Fin 2) * 64 ≤ (i 0).val ∧ (i 0).val < win3_1.index t (0 : Fin 2) * 64 + 64; omega
  | ⟨1, _⟩ => show win3_1.index t (1 : Fin 2) * 512 ≤ (i 1).val ∧ (i 1).val < win3_1.index t (1 : Fin 2) * 512 + 512; omega

/-- The output array after the region's run is the mean pool of the input array. -/
theorem pool_val3 (c : Dev nD) :
    ((Fr.dat3 V c).arrAt 1 cfg3.N : S1024x512.Idx → EReal) = Cert.Spec.poolA (V c main_v51 : S1024x100x512.Idx → EReal) :=
  (Fr.dat3 V c).arrAt_eq_of_cover 1 (Cert.Spec.poolA (V c main_v51 : S1024x100x512.Idx → EReal))
    (fun t _ => flushed_eq3 V c t) cover3

end Cert.KernelIdeal.PoolVal

end
-- ==== Proof.KiPoolVal4.lean ====
/-
  The value of pool region 4: after its 16 grid points the output array `main_v60` holds the mean pool of the input
  array `main_v59` as the region finds it.
  Grid point t stages rows 64t … 64t+63 of the input (all 100 positions, all 512 features), the body stores the pool of
  that block, and the write-back puts it at rows 64t … 64t+63 of the output (all 512 columns).  So what point t writes
  back is block t of the array's mean pool, and the 16 blocks of 64 rows fill the 1024 rows.
-/
import proofs.«180909_j89275190215119_1_alg».proof.Proof.KiPool4
import proofs.«180909_j89275190215119_1_alg».proof.Proof.KiPoolPay
import Idealize.ShloMosaic.Lib.Pipeline.Value

set_option maxRecDepth 16384

noncomputable section

namespace Cert.KernelIdeal.PoolVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: point t's input block is block (t, 0, 0), its output block is block (t, 0). -/
theorem idx_facts4 : ∀ t : Fin cfg4.N, win4_0.index t (0 : Fin 3) = t.val
    ∧ win4_0.index t (1 : Fin 3) = 0
    ∧ win4_0.index t (2 : Fin 3) = 0
    ∧ win4_1.index t (0 : Fin 2) = t.val
    ∧ win4_1.index t (1 : Fin 2) = 0 :=
  (by decide +kernel : ∀ t : Fin grid4.N, _)

/-- Every one of the 16 row blocks of the output is some point's. -/
theorem idx_onto4 : ∀ q : Fin 16, ∃ t : Fin cfg4.N, win4_1.index t (0 : Fin 2) = q.val ∧ win4_1.index t (1 : Fin 2) = 0 :=
  (by decide +kernel : ∀ q : Fin 16, ∃ t : Fin grid4.N, win4_1.index t (0 : Fin 2) = q.val ∧ win4_1.index t (1 : Fin 2) = 0)

/-- The input block at point t is rows 64t … 64t+63 of the input array. -/
theorem iblk_entry4 (c : Dev nD) (t : Fin cfg4.N) (r : Fin 64) (k : Fin 100) (j : Fin 512) (b : Fin 1024)
    (hb : b.val = t.val * 64 + r.val) :
    (Fr.iblk4 V c 0 t : Vec Ideal S64x100x512 .f32) (ix3 r k j) = (V c main_v59 : S1024x100x512.Idx → EReal) (ix3 b k j) := by
  obtain ⟨e0, e1, e2, -, -⟩ := idx_facts4 t
  show V c main_v59 (((cfg4.win 0).blk t).view.emb (ix3 r k j)) = V c main_v59 (ix3 b k j)
  refine congrArg (V c main_v59) (funext fun a => Fin.ext ?_)
  match a with
  | ⟨0, _⟩ => show win4_0.index t (0 : Fin 3) * 64 + 1 * r.val = b.val; omega
  | ⟨1, _⟩ => show win4_0.index t (1 : Fin 3) * 100 + 1 * k.val = k.val; omega
  | ⟨2, _⟩ => show win4_0.index t (2 : Fin 3) * 512 + 1 * j.val = j.val; omega

/-- What point t writes back is block t of the mean pool of the input array. -/
theorem flushed_eq4 (c : Dev nD) (t : Fin cfg4.N) :
    (Fr.dat4 V c).flushed 1 t = ((cfg4.win 1).blk t).view.read (Elt Ideal) (Cert.Spec.poolA (V c main_v59 : S1024x100x512.Idx → EReal)) := by
  show (cfg4.win 1).cut (grid4.coords t) ((Fr.dat4 V c).after 1 t) = _
  rw [Fr.after4_1]
  unfold Fr.out4_1
  rw [View.canon_unit_zero hz2]
  simp only [View.ld_unit_zero (S := S64x100x512) hz3]
  obtain ⟨-, -, -, e3, e4⟩ := idx_facts4 t
  funext y
  show k4_pay1 (F := Ideal) (Fr.iblk4 V c 0 t) ((cfg4.win 1).xinj (grid4.coords t) y)
    = Cert.Spec.poolA (V c main_v59 : S1024x100x512.Idx → EReal) (((cfg4.win 1).blk t).view.emb y)
  rw [k4_pay1_eq]
  refine pool_block (Fr.iblk4 V c 0 t) (V c main_v59) t.val (iblk_entry4 V c t)
    ((cfg4.win 1).xinj (grid4.coords t) y) (((cfg4.win 1).blk t).view.emb y) ?_ ?_
  · show win4_1.index t (0 : Fin 2) * 64 + 1 * (y 0).val = t.val * 64 + (y 0).val; omega
  · show win4_1.index t (1 : Fin 2) * 512 + 1 * (y 1).val = (y 1).val; omega

/-- An index of the output array is in point t's block iff each coordinate is in the block's range on its axis. -/
theorem mem_blk4 (t : Fin cfg4.N) (i : S1024x512.Idx) :
    i ∈ ((cfg4.win 1).blk t).view.set ↔ ∀ a : Fin 2, win4_1.index t a * S64x512.size a ≤ (i a).val ∧ (i a).val < win4_1.index t a * S64x512.size a + S64x512.size a := by
  show i ∈ ((View.whole main_v60).slice (win4_1.rect t)).set ↔ _
  rw [View.set_slice_whole, Rect.mem_set_unit]
  exact Iff.rfl

/-- Every index of the output array is in some point's block: row i is in block i / 64. -/
theorem cover4 (i : S1024x512.Idx) : ∃ t : Fin cfg4.N, (cfg4.win 1).flush t = true ∧ i ∈ ((cfg4.win 1).blk t).view.set := by
  have hi0 : (i 0).val < 1024 := (i 0).isLt
  have hi1 : (i 1).val < 512 := (i 1).isLt
  obtain ⟨t, q0, q1⟩ := idx_onto4 ⟨(i 0).val / 64, by omega⟩
  have q0' : win4_1.index t (0 : Fin 2) = (i 0).val / 64 := q0
  refine ⟨t, flush4_1 t, ?_⟩
  rw [mem_blk4]
  intro a
  match a with
  | ⟨0, _⟩ => show win4_1.index t (0 : Fin 2) * 64 ≤ (i 0).val ∧ (i 0).val < win4_1.index t (0 : Fin 2) * 64 + 64; omega
  | ⟨1, _⟩ => show win4_1.index t (1 : Fin 2) * 512 ≤ (i 1).val ∧ (i 1).val < win4_1.index t (1 : Fin 2) * 512 + 512; omega

/-- The output array after the region's run is the mean pool of the input array. -/
theorem pool_val4 (c : Dev nD) :
    ((Fr.dat4 V c).arrAt 1 cfg4.N : S1024x512.Idx → EReal) = Cert.Spec.poolA (V c main_v59 : S1024x100x512.Idx → EReal) :=
  (Fr.dat4 V c).arrAt_eq_of_cover 1 (Cert.Spec.poolA (V c main_v59 : S1024x100x512.Idx → EReal))
    (fun t _ => flushed_eq4 V c t) cover4

end Cert.KernelIdeal.PoolVal

end
-- ==== Proof.KiPoolVal5.lean ====
/-
  The value of pool region 5: after its 16 grid points the output array `main_v68` holds the mean pool of the input
  array `main_v67` as the region finds it.
  Grid point t stages rows 64t … 64t+63 of the input (all 100 positions, all 512 features), the body stores the pool of
  that block, and the write-back puts it at rows 64t … 64t+63 of the output (all 512 columns).  So what point t writes
  back is block t of the array's mean pool, and the 16 blocks of 64 rows fill the 1024 rows.
-/
import proofs.«180909_j89275190215119_1_alg».proof.Proof.KiPool5
import proofs.«180909_j89275190215119_1_alg».proof.Proof.KiPoolPay
import Idealize.ShloMosaic.Lib.Pipeline.Value

set_option maxRecDepth 16384

noncomputable section

namespace Cert.KernelIdeal.PoolVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: point t's input block is block (t, 0, 0), its output block is block (t, 0). -/
theorem idx_facts5 : ∀ t : Fin cfg5.N, win5_0.index t (0 : Fin 3) = t.val
    ∧ win5_0.index t (1 : Fin 3) = 0
    ∧ win5_0.index t (2 : Fin 3) = 0
    ∧ win5_1.index t (0 : Fin 2) = t.val
    ∧ win5_1.index t (1 : Fin 2) = 0 :=
  (by decide +kernel : ∀ t : Fin grid5.N, _)

/-- Every one of the 16 row blocks of the output is some point's. -/
theorem idx_onto5 : ∀ q : Fin 16, ∃ t : Fin cfg5.N, win5_1.index t (0 : Fin 2) = q.val ∧ win5_1.index t (1 : Fin 2) = 0 :=
  (by decide +kernel : ∀ q : Fin 16, ∃ t : Fin grid5.N, win5_1.index t (0 : Fin 2) = q.val ∧ win5_1.index t (1 : Fin 2) = 0)

/-- The input block at point t is rows 64t … 64t+63 of the input array. -/
theorem iblk_entry5 (c : Dev nD) (t : Fin cfg5.N) (r : Fin 64) (k : Fin 100) (j : Fin 512) (b : Fin 1024)
    (hb : b.val = t.val * 64 + r.val) :
    (Fr.iblk5 V c 0 t : Vec Ideal S64x100x512 .f32) (ix3 r k j) = (V c main_v67 : S1024x100x512.Idx → EReal) (ix3 b k j) := by
  obtain ⟨e0, e1, e2, -, -⟩ := idx_facts5 t
  show V c main_v67 (((cfg5.win 0).blk t).view.emb (ix3 r k j)) = V c main_v67 (ix3 b k j)
  refine congrArg (V c main_v67) (funext fun a => Fin.ext ?_)
  match a with
  | ⟨0, _⟩ => show win5_0.index t (0 : Fin 3) * 64 + 1 * r.val = b.val; omega
  | ⟨1, _⟩ => show win5_0.index t (1 : Fin 3) * 100 + 1 * k.val = k.val; omega
  | ⟨2, _⟩ => show win5_0.index t (2 : Fin 3) * 512 + 1 * j.val = j.val; omega

/-- What point t writes back is block t of the mean pool of the input array. -/
theorem flushed_eq5 (c : Dev nD) (t : Fin cfg5.N) :
    (Fr.dat5 V c).flushed 1 t = ((cfg5.win 1).blk t).view.read (Elt Ideal) (Cert.Spec.poolA (V c main_v67 : S1024x100x512.Idx → EReal)) := by
  show (cfg5.win 1).cut (grid5.coords t) ((Fr.dat5 V c).after 1 t) = _
  rw [Fr.after5_1]
  unfold Fr.out5_1
  rw [View.canon_unit_zero hz2]
  simp only [View.ld_unit_zero (S := S64x100x512) hz3]
  obtain ⟨-, -, -, e3, e4⟩ := idx_facts5 t
  funext y
  show k5_pay1 (F := Ideal) (Fr.iblk5 V c 0 t) ((cfg5.win 1).xinj (grid5.coords t) y)
    = Cert.Spec.poolA (V c main_v67 : S1024x100x512.Idx → EReal) (((cfg5.win 1).blk t).view.emb y)
  rw [k5_pay1_eq]
  refine pool_block (Fr.iblk5 V c 0 t) (V c main_v67) t.val (iblk_entry5 V c t)
    ((cfg5.win 1).xinj (grid5.coords t) y) (((cfg5.win 1).blk t).view.emb y) ?_ ?_
  · show win5_1.index t (0 : Fin 2) * 64 + 1 * (y 0).val = t.val * 64 + (y 0).val; omega
  · show win5_1.index t (1 : Fin 2) * 512 + 1 * (y 1).val = (y 1).val; omega

/-- An index of the output array is in point t's block iff each coordinate is in the block's range on its axis. -/
theorem mem_blk5 (t : Fin cfg5.N) (i : S1024x512.Idx) :
    i ∈ ((cfg5.win 1).blk t).view.set ↔ ∀ a : Fin 2, win5_1.index t a * S64x512.size a ≤ (i a).val ∧ (i a).val < win5_1.index t a * S64x512.size a + S64x512.size a := by
  show i ∈ ((View.whole main_v68).slice (win5_1.rect t)).set ↔ _
  rw [View.set_slice_whole, Rect.mem_set_unit]
  exact Iff.rfl

/-- Every index of the output array is in some point's block: row i is in block i / 64. -/
theorem cover5 (i : S1024x512.Idx) : ∃ t : Fin cfg5.N, (cfg5.win 1).flush t = true ∧ i ∈ ((cfg5.win 1).blk t).view.set := by
  have hi0 : (i 0).val < 1024 := (i 0).isLt
  have hi1 : (i 1).val < 512 := (i 1).isLt
  obtain ⟨t, q0, q1⟩ := idx_onto5 ⟨(i 0).val / 64, by omega⟩
  have q0' : win5_1.index t (0 : Fin 2) = (i 0).val / 64 := q0
  refine ⟨t, flush5_1 t, ?_⟩
  rw [mem_blk5]
  intro a
  match a with
  | ⟨0, _⟩ => show win5_1.index t (0 : Fin 2) * 64 ≤ (i 0).val ∧ (i 0).val < win5_1.index t (0 : Fin 2) * 64 + 64; omega
  | ⟨1, _⟩ => show win5_1.index t (1 : Fin 2) * 512 ≤ (i 1).val ∧ (i 1).val < win5_1.index t (1 : Fin 2) * 512 + 512; omega

/-- The output array after the region's run is the mean pool of the input array. -/
theorem pool_val5 (c : Dev nD) :
    ((Fr.dat5 V c).arrAt 1 cfg5.N : S1024x512.Idx → EReal) = Cert.Spec.poolA (V c main_v67 : S1024x100x512.Idx → EReal) :=
  (Fr.dat5 V c).arrAt_eq_of_cover 1 (Cert.Spec.poolA (V c main_v67 : S1024x100x512.Idx → EReal))
    (fun t _ => flushed_eq5 V c t) cover5

end Cert.KernelIdeal.PoolVal

end
-- ==== Proof.KiPoolVal6.lean ====
/-
  The value of pool region 6: after its 16 grid points the output array `main_v76` holds the mean pool of the input
  array `main_v75` as the region finds it.
  Grid point t stages rows 64t … 64t+63 of the input (all 100 positions, all 512 features), the body stores the pool of
  that block, and the write-back puts it at rows 64t … 64t+63 of the output (all 512 columns).  So what point t writes
  back is block t of the array's mean pool, and the 16 blocks of 64 rows fill the 1024 rows.
-/
import proofs.«180909_j89275190215119_1_alg».proof.Proof.KiPool6
import proofs.«180909_j89275190215119_1_alg».proof.Proof.KiPoolPay
import Idealize.ShloMosaic.Lib.Pipeline.Value

set_option maxRecDepth 16384

noncomputable section

namespace Cert.KernelIdeal.PoolVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: point t's input block is block (t, 0, 0), its output block is block (t, 0). -/
theorem idx_facts6 : ∀ t : Fin cfg6.N, win6_0.index t (0 : Fin 3) = t.val
    ∧ win6_0.index t (1 : Fin 3) = 0
    ∧ win6_0.index t (2 : Fin 3) = 0
    ∧ win6_1.index t (0 : Fin 2) = t.val
    ∧ win6_1.index t (1 : Fin 2) = 0 :=
  (by decide +kernel : ∀ t : Fin grid6.N, _)

/-- Every one of the 16 row blocks of the output is some point's. -/
theorem idx_onto6 : ∀ q : Fin 16, ∃ t : Fin cfg6.N, win6_1.index t (0 : Fin 2) = q.val ∧ win6_1.index t (1 : Fin 2) = 0 :=
  (by decide +kernel : ∀ q : Fin 16, ∃ t : Fin grid6.N, win6_1.index t (0 : Fin 2) = q.val ∧ win6_1.index t (1 : Fin 2) = 0)

/-- The input block at point t is rows 64t … 64t+63 of the input array. -/
theorem iblk_entry6 (c : Dev nD) (t : Fin cfg6.N) (r : Fin 64) (k : Fin 100) (j : Fin 512) (b : Fin 1024)
    (hb : b.val = t.val * 64 + r.val) :
    (Fr.iblk6 V c 0 t : Vec Ideal S64x100x512 .f32) (ix3 r k j) = (V c main_v75 : S1024x100x512.Idx → EReal) (ix3 b k j) := by
  obtain ⟨e0, e1, e2, -, -⟩ := idx_facts6 t
  show V c main_v75 (((cfg6.win 0).blk t).view.emb (ix3 r k j)) = V c main_v75 (ix3 b k j)
  refine congrArg (V c main_v75) (funext fun a => Fin.ext ?_)
  match a with
  | ⟨0, _⟩ => show win6_0.index t (0 : Fin 3) * 64 + 1 * r.val = b.val; omega
  | ⟨1, _⟩ => show win6_0.index t (1 : Fin 3) * 100 + 1 * k.val = k.val; omega
  | ⟨2, _⟩ => show win6_0.index t (2 : Fin 3) * 512 + 1 * j.val = j.val; omega

/-- What point t writes back is block t of the mean pool of the input array. -/
theorem flushed_eq6 (c : Dev nD) (t : Fin cfg6.N) :
    (Fr.dat6 V c).flushed 1 t = ((cfg6.win 1).blk t).view.read (Elt Ideal) (Cert.Spec.poolA (V c main_v75 : S1024x100x512.Idx → EReal)) := by
  show (cfg6.win 1).cut (grid6.coords t) ((Fr.dat6 V c).after 1 t) = _
  rw [Fr.after6_1]
  unfold Fr.out6_1
  rw [View.canon_unit_zero hz2]
  simp only [View.ld_unit_zero (S := S64x100x512) hz3]
  obtain ⟨-, -, -, e3, e4⟩ := idx_facts6 t
  funext y
  show k6_pay1 (F := Ideal) (Fr.iblk6 V c 0 t) ((cfg6.win 1).xinj (grid6.coords t) y)
    = Cert.Spec.poolA (V c main_v75 : S1024x100x512.Idx → EReal) (((cfg6.win 1).blk t).view.emb y)
  rw [k6_pay1_eq]
  refine pool_block (Fr.iblk6 V c 0 t) (V c main_v75) t.val (iblk_entry6 V c t)
    ((cfg6.win 1).xinj (grid6.coords t) y) (((cfg6.win 1).blk t).view.emb y) ?_ ?_
  · show win6_1.index t (0 : Fin 2) * 64 + 1 * (y 0).val = t.val * 64 + (y 0).val; omega
  · show win6_1.index t (1 : Fin 2) * 512 + 1 * (y 1).val = (y 1).val; omega

/-- An index of the output array is in point t's block iff each coordinate is in the block's range on its axis. -/
theorem mem_blk6 (t : Fin cfg6.N) (i : S1024x512.Idx) :
    i ∈ ((cfg6.win 1).blk t).view.set ↔ ∀ a : Fin 2, win6_1.index t a * S64x512.size a ≤ (i a).val ∧ (i a).val < win6_1.index t a * S64x512.size a + S64x512.size a := by
  show i ∈ ((View.whole main_v76).slice (win6_1.rect t)).set ↔ _
  rw [View.set_slice_whole, Rect.mem_set_unit]
  exact Iff.rfl

/-- Every index of the output array is in some point's block: row i is in block i / 64. -/
theorem cover6 (i : S1024x512.Idx) : ∃ t : Fin cfg6.N, (cfg6.win 1).flush t = true ∧ i ∈ ((cfg6.win 1).blk t).view.set := by
  have hi0 : (i 0).val < 1024 := (i 0).isLt
  have hi1 : (i 1).val < 512 := (i 1).isLt
  obtain ⟨t, q0, q1⟩ := idx_onto6 ⟨(i 0).val / 64, by omega⟩
  have q0' : win6_1.index t (0 : Fin 2) = (i 0).val / 64 := q0
  refine ⟨t, flush6_1 t, ?_⟩
  rw [mem_blk6]
  intro a
  match a with
  | ⟨0, _⟩ => show win6_1.index t (0 : Fin 2) * 64 ≤ (i 0).val ∧ (i 0).val < win6_1.index t (0 : Fin 2) * 64 + 64; omega
  | ⟨1, _⟩ => show win6_1.index t (1 : Fin 2) * 512 ≤ (i 1).val ∧ (i 1).val < win6_1.index t (1 : Fin 2) * 512 + 512; omega

/-- The output array after the region's run is the mean pool of the input array. -/
theorem pool_val6 (c : Dev nD) :
    ((Fr.dat6 V c).arrAt 1 cfg6.N : S1024x512.Idx → EReal) = Cert.Spec.poolA (V c main_v75 : S1024x100x512.Idx → EReal) :=
  (Fr.dat6 V c).arrAt_eq_of_cover 1 (Cert.Spec.poolA (V c main_v75 : S1024x100x512.Idx → EReal))
    (fun t _ => flushed_eq6 V c t) cover6

end Cert.KernelIdeal.PoolVal

end
-- ==== Proof.KiPoolVal7.lean ====
/-
  The value of pool region 7: after its 16 grid points the output array `main_v84` holds the mean pool of the input
  array `main_v83` as the region finds it.
  Grid point t stages rows 64t … 64t+63 of the input (all 100 positions, all 512 features), the body stores the pool of
  that block, and the write-back puts it at rows 64t … 64t+63 of the output (all 512 columns).  So what point t writes
  back is block t of the array's mean pool, and the 16 blocks of 64 rows fill the 1024 rows.
-/
import proofs.«180909_j89275190215119_1_alg».proof.Proof.KiPool7
import proofs.«180909_j89275190215119_1_alg».proof.Proof.KiPoolPay
import Idealize.ShloMosaic.Lib.Pipeline.Value

set_option maxRecDepth 16384

noncomputable section

namespace Cert.KernelIdeal.PoolVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: point t's input block is block (t, 0, 0), its output block is block (t, 0). -/
theorem idx_facts7 : ∀ t : Fin cfg7.N, win7_0.index t (0 : Fin 3) = t.val
    ∧ win7_0.index t (1 : Fin 3) = 0
    ∧ win7_0.index t (2 : Fin 3) = 0
    ∧ win7_1.index t (0 : Fin 2) = t.val
    ∧ win7_1.index t (1 : Fin 2) = 0 :=
  (by decide +kernel : ∀ t : Fin grid7.N, _)

/-- Every one of the 16 row blocks of the output is some point's. -/
theorem idx_onto7 : ∀ q : Fin 16, ∃ t : Fin cfg7.N, win7_1.index t (0 : Fin 2) = q.val ∧ win7_1.index t (1 : Fin 2) = 0 :=
  (by decide +kernel : ∀ q : Fin 16, ∃ t : Fin grid7.N, win7_1.index t (0 : Fin 2) = q.val ∧ win7_1.index t (1 : Fin 2) = 0)

/-- The input block at point t is rows 64t … 64t+63 of the input array. -/
theorem iblk_entry7 (c : Dev nD) (t : Fin cfg7.N) (r : Fin 64) (k : Fin 100) (j : Fin 512) (b : Fin 1024)
    (hb : b.val = t.val * 64 + r.val) :
    (Fr.iblk7 V c 0 t : Vec Ideal S64x100x512 .f32) (ix3 r k j) = (V c main_v83 : S1024x100x512.Idx → EReal) (ix3 b k j) := by
  obtain ⟨e0, e1, e2, -, -⟩ := idx_facts7 t
  show V c main_v83 (((cfg7.win 0).blk t).view.emb (ix3 r k j)) = V c main_v83 (ix3 b k j)
  refine congrArg (V c main_v83) (funext fun a => Fin.ext ?_)
  match a with
  | ⟨0, _⟩ => show win7_0.index t (0 : Fin 3) * 64 + 1 * r.val = b.val; omega
  | ⟨1, _⟩ => show win7_0.index t (1 : Fin 3) * 100 + 1 * k.val = k.val; omega
  | ⟨2, _⟩ => show win7_0.index t (2 : Fin 3) * 512 + 1 * j.val = j.val; omega

/-- What point t writes back is block t of the mean pool of the input array. -/
theorem flushed_eq7 (c : Dev nD) (t : Fin cfg7.N) :
    (Fr.dat7 V c).flushed 1 t = ((cfg7.win 1).blk t).view.read (Elt Ideal) (Cert.Spec.poolA (V c main_v83 : S1024x100x512.Idx → EReal)) := by
  show (cfg7.win 1).cut (grid7.coords t) ((Fr.dat7 V c).after 1 t) = _
  rw [Fr.after7_1]
  unfold Fr.out7_1
  rw [View.canon_unit_zero hz2]
  simp only [View.ld_unit_zero (S := S64x100x512) hz3]
  obtain ⟨-, -, -, e3, e4⟩ := idx_facts7 t
  funext y
  show k7_pay1 (F := Ideal) (Fr.iblk7 V c 0 t) ((cfg7.win 1).xinj (grid7.coords t) y)
    = Cert.Spec.poolA (V c main_v83 : S1024x100x512.Idx → EReal) (((cfg7.win 1).blk t).view.emb y)
  rw [k7_pay1_eq]
  refine pool_block (Fr.iblk7 V c 0 t) (V c main_v83) t.val (iblk_entry7 V c t)
    ((cfg7.win 1).xinj (grid7.coords t) y) (((cfg7.win 1).blk t).view.emb y) ?_ ?_
  · show win7_1.index t (0 : Fin 2) * 64 + 1 * (y 0).val = t.val * 64 + (y 0).val; omega
  · show win7_1.index t (1 : Fin 2) * 512 + 1 * (y 1).val = (y 1).val; omega

/-- An index of the output array is in point t's block iff each coordinate is in the block's range on its axis. -/
theorem mem_blk7 (t : Fin cfg7.N) (i : S1024x512.Idx) :
    i ∈ ((cfg7.win 1).blk t).view.set ↔ ∀ a : Fin 2, win7_1.index t a * S64x512.size a ≤ (i a).val ∧ (i a).val < win7_1.index t a * S64x512.size a + S64x512.size a := by
  show i ∈ ((View.whole main_v84).slice (win7_1.rect t)).set ↔ _
  rw [View.set_slice_whole, Rect.mem_set_unit]
  exact Iff.rfl

/-- Every index of the output array is in some point's block: row i is in block i / 64. -/
theorem cover7 (i : S1024x512.Idx) : ∃ t : Fin cfg7.N, (cfg7.win 1).flush t = true ∧ i ∈ ((cfg7.win 1).blk t).view.set := by
  have hi0 : (i 0).val < 1024 := (i 0).isLt
  have hi1 : (i 1).val < 512 := (i 1).isLt
  obtain ⟨t, q0, q1⟩ := idx_onto7 ⟨(i 0).val / 64, by omega⟩
  have q0' : win7_1.index t (0 : Fin 2) = (i 0).val / 64 := q0
  refine ⟨t, flush7_1 t, ?_⟩
  rw [mem_blk7]
  intro a
  match a with
  | ⟨0, _⟩ => show win7_1.index t (0 : Fin 2) * 64 ≤ (i 0).val ∧ (i 0).val < win7_1.index t (0 : Fin 2) * 64 + 64; omega
  | ⟨1, _⟩ => show win7_1.index t (1 : Fin 2) * 512 ≤ (i 1).val ∧ (i 1).val < win7_1.index t (1 : Fin 2) * 512 + 512; omega

/-- The output array after the region's run is the mean pool of the input array. -/
theorem pool_val7 (c : Dev nD) :
    ((Fr.dat7 V c).arrAt 1 cfg7.N : S1024x512.Idx → EReal) = Cert.Spec.poolA (V c main_v83 : S1024x100x512.Idx → EReal) :=
  (Fr.dat7 V c).arrAt_eq_of_cover 1 (Cert.Spec.poolA (V c main_v83 : S1024x100x512.Idx → EReal))
    (fun t _ => flushed_eq7 V c t) cover7

end Cert.KernelIdeal.PoolVal

end
-- ==== Proof.KiPoolVal8.lean ====
/-
  The value of pool region 8: after its 16 grid points the output array `main_v92` holds the mean pool of the input
  array `main_v91` as the region finds it.
  Grid point t stages rows 64t … 64t+63 of the input (all 100 positions, all 512 features), the body stores the pool of
  that block, and the write-back puts it at rows 64t … 64t+63 of the output (all 512 columns).  So what point t writes
  back is block t of the array's mean pool, and the 16 blocks of 64 rows fill the 1024 rows.
-/
import proofs.«180909_j89275190215119_1_alg».proof.Proof.KiPool8
import proofs.«180909_j89275190215119_1_alg».proof.Proof.KiPoolPay
import Idealize.ShloMosaic.Lib.Pipeline.Value

set_option maxRecDepth 16384

noncomputable section

namespace Cert.KernelIdeal.PoolVal

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: point t's input block is block (t, 0, 0), its output block is block (t, 0). -/
theorem idx_facts8 : ∀ t : Fin cfg8.N, win8_0.index t (0 : Fin 3) = t.val
    ∧ win8_0.index t (1 : Fin 3) = 0
    ∧ win8_0.index t (2 : Fin 3) = 0
    ∧ win8_1.index t (0 : Fin 2) = t.val
    ∧ win8_1.index t (1 : Fin 2) = 0 :=
  (by decide +kernel : ∀ t : Fin grid8.N, _)

/-- Every one of the 16 row blocks of the output is some point's. -/
theorem idx_onto8 : ∀ q : Fin 16, ∃ t : Fin cfg8.N, win8_1.index t (0 : Fin 2) = q.val ∧ win8_1.index t (1 : Fin 2) = 0 :=
  (by decide +kernel : ∀ q : Fin 16, ∃ t : Fin grid8.N, win8_1.index t (0 : Fin 2) = q.val ∧ win8_1.index t (1 : Fin 2) = 0)

/-- The input block at point t is rows 64t … 64t+63 of the input array. -/
theorem iblk_entry8 (c : Dev nD) (t : Fin cfg8.N) (r : Fin 64) (k : Fin 100) (j : Fin 512) (b : Fin 1024)
    (hb : b.val = t.val * 64 + r.val) :
    (Fr.iblk8 V c 0 t : Vec Ideal S64x100x512 .f32) (ix3 r k j) = (V c main_v91 : S1024x100x512.Idx → EReal) (ix3 b k j) := by
  obtain ⟨e0, e1, e2, -, -⟩ := idx_facts8 t
  show V c main_v91 (((cfg8.win 0).blk t).view.emb (ix3 r k j)) = V c main_v91 (ix3 b k j)
  refine congrArg (V c main_v91) (funext fun a => Fin.ext ?_)
  match a with
  | ⟨0, _⟩ => show win8_0.index t (0 : Fin 3) * 64 + 1 * r.val = b.val; omega
  | ⟨1, _⟩ => show win8_0.index t (1 : Fin 3) * 100 + 1 * k.val = k.val; omega
  | ⟨2, _⟩ => show win8_0.index t (2 : Fin 3) * 512 + 1 * j.val = j.val; omega

/-- What point t writes back is block t of the mean pool of the input array. -/
theorem flushed_eq8 (c : Dev nD) (t : Fin cfg8.N) :
    (Fr.dat8 V c).flushed 1 t = ((cfg8.win 1).blk t).view.read (Elt Ideal) (Cert.Spec.poolA (V c main_v91 : S1024x100x512.Idx → EReal)) := by
  show (cfg8.win 1).cut (grid8.coords t) ((Fr.dat8 V c).after 1 t) = _
  rw [Fr.after8_1]
  unfold Fr.out8_1
  rw [View.canon_unit_zero hz2]
  simp only [View.ld_unit_zero (S := S64x100x512) hz3]
  obtain ⟨-, -, -, e3, e4⟩ := idx_facts8 t
  funext y
  show k8_pay1 (F := Ideal) (Fr.iblk8 V c 0 t) ((cfg8.win 1).xinj (grid8.coords t) y)
    = Cert.Spec.poolA (V c main_v91 : S1024x100x512.Idx → EReal) (((cfg8.win 1).blk t).view.emb y)
  rw [k8_pay1_eq]
  refine pool_block (Fr.iblk8 V c 0 t) (V c main_v91) t.val (iblk_entry8 V c t)
    ((cfg8.win 1).xinj (grid8.coords t) y) (((cfg8.win 1).blk t).view.emb y) ?_ ?_
  · show win8_1.index t (0 : Fin 2) * 64 + 1 * (y 0).val = t.val * 64 + (y 0).val; omega
  · show win8_1.index t (1 : Fin 2) * 512 + 1 * (y 1).val = (y 1).val; omega

/-- An index of the output array is in point t's block iff each coordinate is in the block's range on its axis. -/
theorem mem_blk8 (t : Fin cfg8.N) (i : S1024x512.Idx) :
    i ∈ ((cfg8.win 1).blk t).view.set ↔ ∀ a : Fin 2, win8_1.index t a * S64x512.size a ≤ (i a).val ∧ (i a).val < win8_1.index t a * S64x512.size a + S64x512.size a := by
  show i ∈ ((View.whole main_v92).slice (win8_1.rect t)).set ↔ _
  rw [View.set_slice_whole, Rect.mem_set_unit]
  exact Iff.rfl

/-- Every index of the output array is in some point's block: row i is in block i / 64. -/
theorem cover8 (i : S1024x512.Idx) : ∃ t : Fin cfg8.N, (cfg8.win 1).flush t = true ∧ i ∈ ((cfg8.win 1).blk t).view.set := by
  have hi0 : (i 0).val < 1024 := (i 0).isLt
  have hi1 : (i 1).val < 512 := (i 1).isLt
  obtain ⟨t, q0, q1⟩ := idx_onto8 ⟨(i 0).val / 64, by omega⟩
  have q0' : win8_1.index t (0 : Fin 2) = (i 0).val / 64 := q0
  refine ⟨t, flush8_1 t, ?_⟩
  rw [mem_blk8]
  intro a
  match a with
  | ⟨0, _⟩ => show win8_1.index t (0 : Fin 2) * 64 ≤ (i 0).val ∧ (i 0).val < win8_1.index t (0 : Fin 2) * 64 + 64; omega
  | ⟨1, _⟩ => show win8_1.index t (1 : Fin 2) * 512 ≤ (i 1).val ∧ (i 1).val < win8_1.index t (1 : Fin 2) * 512 + 512; omega

/-- The output array after the region's run is the mean pool of the input array. -/
theorem pool_val8 (c : Dev nD) :
    ((Fr.dat8 V c).arrAt 1 cfg8.N : S1024x512.Idx → EReal) = Cert.Spec.poolA (V c main_v91 : S1024x100x512.Idx → EReal) :=
  (Fr.dat8 V c).arrAt_eq_of_cover 1 (Cert.Spec.poolA (V c main_v91 : S1024x100x512.Idx → EReal))
    (fun t _ => flushed_eq8 V c t) cover8

end Cert.KernelIdeal.PoolVal

end
-- ==== Proof.KiMlpPay.lean ====
/-
  The perceptron body's arithmetic, read entry by entry over the extended reals.
  The body takes a block x of 128 rows of the input (128 × 6144), the three weight matrices and the three bias vectors,
  and computes h1 = max(x·W1 + b1, 0), h2 = max(h1·W2 + b2, 0), out = h2·W3 + b3. Over the extended reals a change of
  float format is the identity, a matrix product accumulated from zero is the plain sum over the contracted
  coordinate, a bias vector reshaped to one row and repeated down the rows reads the vector at the column, and the
  maximum with the constant 0.0 is taken entry by entry. So entry (r, j) of the body's result is the three nested sums
  of the specification, taken over the block's row r.
-/
import proofs.«180909_j89275190215119_1_alg».proof.Proof.Gen.KernelIdeal.Skeleton
import proofs.«180909_j89275190215119_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.MlpVal

open Cert.KernelIdeal Cert.KernelIdeal.Gen Idealize.ShloMosaic Idealize.ShloMosaic.ValueIdx

/-! ## A bias vector as a block: one row, repeated -/

/-- A vector of length b reshaped to one row and repeated over a rows reads, at (p, q), the vector at q. -/
theorem bias_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-! ## The three matrix products -/

/-! ### The product of a [128, 6144] block with a [6144, 512] matrix -/

theorem mm1_lhs0 (i : S128x512.Idx) (q : dot_S128x6144_S6144x512_S128x512_1_0_0_1_n_n.contr.Idx) :
    (dot_S128x6144_S6144x512_S128x512_1_0_0_1_n_n.lhsIdx i q 0).val = (i 0).val := by
  unfold DotDims.lhsIdx
  rw [dif_neg (show ¬(0 : Fin S128x6144.rank) ∈ dot_S128x6144_S6144x512_S128x512_1_0_0_1_n_n.lhsBatch by decide), dif_pos (show (0 : Fin S128x6144.rank) ∈ dot_S128x6144_S6144x512_S128x512_1_0_0_1_n_n.lhsNonContracting by decide)]
  rfl
theorem mm1_lhs1 (i : S128x512.Idx) (q : dot_S128x6144_S6144x512_S128x512_1_0_0_1_n_n.contr.Idx) :
    (dot_S128x6144_S6144x512_S128x512_1_0_0_1_n_n.lhsIdx i q 1).val = (q ⟨0, by decide⟩).val :=
  dot_S128x6144_S6144x512_S128x512_1_0_0_1_n_n.lhsIdx_val_of_single rfl i q
theorem mm1_rhs0 (i : S128x512.Idx) (q : dot_S128x6144_S6144x512_S128x512_1_0_0_1_n_n.contr.Idx) :
    (dot_S128x6144_S6144x512_S128x512_1_0_0_1_n_n.rhsIdx i q 0).val = (q ⟨0, by decide⟩).val :=
  dot_S128x6144_S6144x512_S128x512_1_0_0_1_n_n.rhsIdx_val_of_single rfl i q
theorem mm1_rhs1 (i : S128x512.Idx) (q : dot_S128x6144_S6144x512_S128x512_1_0_0_1_n_n.contr.Idx) :
    (dot_S128x6144_S6144x512_S128x512_1_0_0_1_n_n.rhsIdx i q 1).val = (i 1).val := by
  unfold DotDims.rhsIdx
  rw [dif_neg (show ¬(1 : Fin S6144x512.rank) ∈ dot_S128x6144_S6144x512_S128x512_1_0_0_1_n_n.rhsBatch by decide), dif_pos (show (1 : Fin S6144x512.rank) ∈ dot_S128x6144_S6144x512_S128x512_1_0_0_1_n_n.rhsNonContracting by decide)]
  rfl

/-- Entry (p, q) of the product, accumulated from zero, is the sum over the 6144 contracted positions of the products of
    row p of the left factor with column q of the right one. -/
theorem mm1_apply {φ₁ φ₂ : FTy} (l : FVec Ideal S128x6144 φ₁) (r : FVec Ideal S6144x512 φ₂) (p : Fin 128) (q : Fin 512) :
    matmul dot_S128x6144_S6144x512_S128x512_1_0_0_1_n_n none l r (constant S128x512 .f32 0x00000000#32) (ix2 p q)
      = ∑ k : Fin 6144, l (ix2 p k) * r (ix2 k q) := by
  refine (Ideal.matmul_constant_zero_apply dot_S128x6144_S6144x512_S128x512_1_0_0_1_n_n none l r (ix2 p q)).trans ?_
  rw [← Equiv.sum_comp (contrEquiv1 dot_S128x6144_S6144x512_S128x512_1_0_0_1_n_n 6144 rfl rfl).symm]
  refine Finset.sum_congr rfl fun k _ => ?_
  have hk := contrEquiv1_symm_val dot_S128x6144_S6144x512_S128x512_1_0_0_1_n_n 6144 rfl rfl k
  have el : dot_S128x6144_S6144x512_S128x512_1_0_0_1_n_n.lhsIdx (ix2 p q) ((contrEquiv1 dot_S128x6144_S6144x512_S128x512_1_0_0_1_n_n 6144 rfl rfl).symm k) = ix2 p k := funext fun a => Fin.ext (by
    match a with
    | ⟨0, _⟩ => exact mm1_lhs0 _ _
    | ⟨1, _⟩ => exact (mm1_lhs1 _ _).trans hk)
  have er : dot_S128x6144_S6144x512_S128x512_1_0_0_1_n_n.rhsIdx (ix2 p q) ((contrEquiv1 dot_S128x6144_S6144x512_S128x512_1_0_0_1_n_n 6144 rfl rfl).symm k) = ix2 k q := funext fun a => Fin.ext (by
    match a with
    | ⟨0, _⟩ => exact (mm1_rhs0 _ _).trans hk
    | ⟨1, _⟩ => exact mm1_rhs1 _ _)
  rw [el, er]

/-! ### The product of a [128, 512] block with a [512, 256] matrix -/

theorem mm2_lhs0 (i : S128x256.Idx) (q : dot_S128x512_S512x256_S128x256_1_0_0_1_n_n.contr.Idx) :
    (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide), dif_pos (show (0 : Fin S128x512.rank) ∈ dot_S128x512_S512x256_S128x256_1_0_0_1_n_n.lhsNonContracting by decide)]
  rfl
theorem mm2_lhs1 (i : S128x256.Idx) (q : dot_S128x512_S512x256_S128x256_1_0_0_1_n_n.contr.Idx) :
    (dot_S128x512_S512x256_S128x256_1_0_0_1_n_n.lhsIdx i q 1).val = (q ⟨0, by decide⟩).val :=
  dot_S128x512_S512x256_S128x256_1_0_0_1_n_n.lhsIdx_val_of_single rfl i q
theorem mm2_rhs0 (i : S128x256.Idx) (q : dot_S128x512_S512x256_S128x256_1_0_0_1_n_n.contr.Idx) :
    (dot_S128x512_S512x256_S128x256_1_0_0_1_n_n.rhsIdx i q 0).val = (q ⟨0, by decide⟩).val :=
  dot_S128x512_S512x256_S128x256_1_0_0_1_n_n.rhsIdx_val_of_single rfl i q
theorem mm2_rhs1 (i : S128x256.Idx) (q : dot_S128x512_S512x256_S128x256_1_0_0_1_n_n.contr.Idx) :
    (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide), dif_pos (show (1 : Fin S512x256.rank) ∈ dot_S128x512_S512x256_S128x256_1_0_0_1_n_n.rhsNonContracting by decide)]
  rfl

/-- Entry (p, q) of the product, accumulated from zero, is the sum over the 512 contracted positions of the products of
    row p of the left factor with column q of the right one. -/
theorem mm2_apply {φ₁ φ₂ : FTy} (l : FVec Ideal S128x512 φ₁) (r : FVec Ideal S512x256 φ₂) (p : Fin 128) (q : Fin 256) :
    matmul dot_S128x512_S512x256_S128x256_1_0_0_1_n_n none l r (constant S128x256 .f32 0x00000000#32) (ix2 p q)
      = ∑ k : Fin 512, l (ix2 p k) * r (ix2 k q) := by
  refine (Ideal.matmul_constant_zero_apply dot_S128x512_S512x256_S128x256_1_0_0_1_n_n none l r (ix2 p q)).trans ?_
  rw [← Equiv.sum_comp (contrEquiv1 dot_S128x512_S512x256_S128x256_1_0_0_1_n_n 512 rfl rfl).symm]
  refine Finset.sum_congr rfl fun k _ => ?_
  have hk := contrEquiv1_symm_val dot_S128x512_S512x256_S128x256_1_0_0_1_n_n 512 rfl rfl k
  have el : dot_S128x512_S512x256_S128x256_1_0_0_1_n_n.lhsIdx (ix2 p q) ((contrEquiv1 dot_S128x512_S512x256_S128x256_1_0_0_1_n_n 512 rfl rfl).symm k) = ix2 p k := funext fun a => Fin.ext (by
    match a with
    | ⟨0, _⟩ => exact mm2_lhs0 _ _
    | ⟨1, _⟩ => exact (mm2_lhs1 _ _).trans hk)
  have er : dot_S128x512_S512x256_S128x256_1_0_0_1_n_n.rhsIdx (ix2 p q) ((contrEquiv1 dot_S128x512_S512x256_S128x256_1_0_0_1_n_n 512 rfl rfl).symm k) = ix2 k q := funext fun a => Fin.ext (by
    match a with
    | ⟨0, _⟩ => exact (mm2_rhs0 _ _).trans hk
    | ⟨1, _⟩ => exact mm2_rhs1 _ _)
  rw [el, er]

/-! ### The product of a [128, 256] block with a [256, 128] matrix -/

theorem mm3_lhs0 (i : S128x128.Idx) (q : dot_S128x256_S256x128_S128x128_1_0_0_1_n_n.contr.Idx) :
    (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide), dif_pos (show (0 : Fin S128x256.rank) ∈ dot_S128x256_S256x128_S128x128_1_0_0_1_n_n.lhsNonContracting by decide)]
  rfl
theorem mm3_lhs1 (i : S128x128.Idx) (q : dot_S128x256_S256x128_S128x128_1_0_0_1_n_n.contr.Idx) :
    (dot_S128x256_S256x128_S128x128_1_0_0_1_n_n.lhsIdx i q 1).val = (q ⟨0, by decide⟩).val :=
  dot_S128x256_S256x128_S128x128_1_0_0_1_n_n.lhsIdx_val_of_single rfl i q
theorem mm3_rhs0 (i : S128x128.Idx) (q : dot_S128x256_S256x128_S128x128_1_0_0_1_n_n.contr.Idx) :
    (dot_S128x256_S256x128_S128x128_1_0_0_1_n_n.rhsIdx i q 0).val = (q ⟨0, by decide⟩).val :=
  dot_S128x256_S256x128_S128x128_1_0_0_1_n_n.rhsIdx_val_of_single rfl i q
theorem mm3_rhs1 (i : S128x128.Idx) (q : dot_S128x256_S256x128_S128x128_1_0_0_1_n_n.contr.Idx) :
    (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide), dif_pos (show (1 : Fin S256x128.rank) ∈ dot_S128x256_S256x128_S128x128_1_0_0_1_n_n.rhsNonContracting by decide)]
  rfl

/-- Entry (p, q) of the product, accumulated from zero, is the sum over the 256 contracted positions of the products of
    row p of the left factor with column q of the right one. -/
theorem mm3_apply {φ₁ φ₂ : FTy} (l : FVec Ideal S128x256 φ₁) (r : FVec Ideal S256x128 φ₂) (p : Fin 128) (q : Fin 128) :
    matmul dot_S128x256_S256x128_S128x128_1_0_0_1_n_n none l r (constant S128x128 .f32 0x00000000#32) (ix2 p q)
      = ∑ k : Fin 256, l (ix2 p k) * r (ix2 k q) := by
  refine (Ideal.matmul_constant_zero_apply dot_S128x256_S256x128_S128x128_1_0_0_1_n_n none l r (ix2 p q)).trans ?_
  rw [← Equiv.sum_comp (contrEquiv1 dot_S128x256_S256x128_S128x128_1_0_0_1_n_n 256 rfl rfl).symm]
  refine Finset.sum_congr rfl fun k _ => ?_
  have hk := contrEquiv1_symm_val dot_S128x256_S256x128_S128x128_1_0_0_1_n_n 256 rfl rfl k
  have el : dot_S128x256_S256x128_S128x128_1_0_0_1_n_n.lhsIdx (ix2 p q) ((contrEquiv1 dot_S128x256_S256x128_S128x128_1_0_0_1_n_n 256 rfl rfl).symm k) = ix2 p k := funext fun a => Fin.ext (by
    match a with
    | ⟨0, _⟩ => exact mm3_lhs0 _ _
    | ⟨1, _⟩ => exact (mm3_lhs1 _ _).trans hk)
  have er : dot_S128x256_S256x128_S128x128_1_0_0_1_n_n.rhsIdx (ix2 p q) ((contrEquiv1 dot_S128x256_S256x128_S128x128_1_0_0_1_n_n 256 rfl rfl).symm k) = ix2 k q := funext fun a => Fin.ext (by
    match a with
    | ⟨0, _⟩ => exact (mm3_rhs0 _ _).trans hk
    | ⟨1, _⟩ => exact mm3_rhs1 _ _)
  rw [el, er]

/-! ## The three layers -/

/-- First hidden layer on a block of 128 rows. -/
def hidden1 (x : Vec Ideal S128x6144 .f32) (w1 : Vec Ideal S6144x512 .f32) (b1 : Vec Ideal S512 .f32) : FVec Ideal S128x512 .f32 :=
  maximumf
    (addf
      (matmul dot_S128x6144_S6144x512_S128x512_1_0_0_1_n_n none
        (truncf .bf16 (shapeCast S128x6144 x shapeCasts_S128x6144_S128x6144) bitsLt_bf16_f32)
        (truncf .bf16 w1 bitsLt_bf16_f32) (constant S128x512 .f32 0x00000000#32))
      (broadcastTo S128x512 (shapeCast S1x512 b1 shapeCasts_S512_S1x512) broadcasts_S1x512_S128x512))
    (broadcast S128x512 (Scalar.ofBits (F := Ideal) .f32 0x00000000#32))

/-- Second hidden layer, from the first. -/
def hidden2 (h : FVec Ideal S128x512 .f32) (w2 : Vec Ideal S512x256 .f32) (b2 : Vec Ideal S256 .f32) : FVec Ideal S128x256 .f32 :=
  maximumf
    (addf
      (matmul dot_S128x512_S512x256_S128x256_1_0_0_1_n_n none
        (truncf .bf16 h bitsLt_bf16_f32) (truncf .bf16 w2 bitsLt_bf16_f32) (constant S128x256 .f32 0x00000000#32))
      (broadcastTo S128x256 (shapeCast S1x256 b2 shapeCasts_S256_S1x256) broadcasts_S1x256_S128x256))
    (broadcast S128x256 (Scalar.ofBits (F := Ideal) .f32 0x00000000#32))

/-- Output layer (no activation), from the second hidden layer. -/
def outLayer (h : FVec Ideal S128x256 .f32) (w3 : Vec Ideal S256x128 .f32) (b3 : Vec Ideal S128 .f32) : FVec Ideal S128x128 .f32 :=
  addf
    (matmul dot_S128x256_S256x128_S128x128_1_0_0_1_n_n none
      (truncf .bf16 h bitsLt_bf16_f32) (truncf .bf16 w3 bitsLt_bf16_f32) (constant S128x128 .f32 0x00000000#32))
    (broadcastTo S128x128 (shapeCast S1x128 b3 shapeCasts_S128_S1x128) broadcasts_S1x128_S128x128)

/-- The body's arithmetic is the three layers composed. -/
theorem k9_pay1_eq (x : Vec Ideal S128x6144 .f32) (w1 : Vec Ideal S6144x512 .f32) (b1 : Vec Ideal S512 .f32)
    (w2 : Vec Ideal S512x256 .f32) (b2 : Vec Ideal S256 .f32) (w3 : Vec Ideal S256x128 .f32) (b3 : Vec Ideal S128 .f32) :
    k9_pay1 x w1 b1 w2 b2 w3 b3 = outLayer (hidden2 (hidden1 x w1 b1) w2 b2) w3 b3 := rfl

/-- Entry (p, q) of the first hidden layer. -/
theorem hidden1_apply (x : Vec Ideal S128x6144 .f32) (w1 : Vec Ideal S6144x512 .f32) (b1 : Vec Ideal S512 .f32)
    (p : Fin 128) (q : Fin 512) :
    hidden1 x w1 b1 (ix2 p q)
      = max ((∑ k : Fin 6144, (x : S128x6144.Idx → EReal) (ix2 p k) * (w1 : S6144x512.Idx → EReal) (ix2 k q))
          + (b1 : S512.Idx → EReal) (ix1 q)) Spec.zero := by
  unfold hidden1
  rw [maximumf_apply, addf_apply, mm1_apply, bias_apply, shapeCast_self]
  rfl

/-- Entry (p, q) of the second hidden layer. -/
theorem hidden2_apply (h : FVec Ideal S128x512 .f32) (w2 : Vec Ideal S512x256 .f32) (b2 : Vec Ideal S256 .f32)
    (p : Fin 128) (q : Fin 256) :
    hidden2 h w2 b2 (ix2 p q)
      = max ((∑ k : Fin 512, (h : S128x512.Idx → EReal) (ix2 p k) * (w2 : S512x256.Idx → EReal) (ix2 k q))
          + (b2 : S256.Idx → EReal) (ix1 q)) Spec.zero := by
  unfold hidden2
  rw [maximumf_apply, addf_apply, mm2_apply, bias_apply]
  rfl

/-- Entry (p, q) of the output layer. -/
theorem outLayer_apply (h : FVec Ideal S128x256 .f32) (w3 : Vec Ideal S256x128 .f32) (b3 : Vec Ideal S128 .f32)
    (p : Fin 128) (q : Fin 128) :
    outLayer h w3 b3 (ix2 p q)
      = (∑ k : Fin 256, (h : S128x256.Idx → EReal) (ix2 p k) * (w3 : S256x128.Idx → EReal) (ix2 k q))
          + (b3 : S128.Idx → EReal) (ix1 q) := by
  unfold outLayer
  rw [addf_apply, mm3_apply, bias_apply]
  rfl

/-! ## The body's result at an entry -/

/-- Entry (r, j) of the body's result: the perceptron of the specification on row r of the block. -/
theorem k9_pay1_apply (x : Vec Ideal S128x6144 .f32) (w1 : Vec Ideal S6144x512 .f32) (b1 : Vec Ideal S512 .f32)
    (w2 : Vec Ideal S512x256 .f32) (b2 : Vec Ideal S256 .f32) (w3 : Vec Ideal S256x128 .f32) (b3 : Vec Ideal S128 .f32)
    (r : Fin 128) (j : Fin 128) :
    k9_pay1 x w1 b1 w2 b2 w3 b3 (ix2 r j)
      = (∑ k : Fin 256,
          max ((∑ k' : Fin 512,
              max ((∑ k'' : Fin 6144, (x : S128x6144.Idx → EReal) (ix2 r k'') * (w1 : S6144x512.Idx → EReal) (ix2 k'' k'))
                + (b1 : S512.Idx → EReal) (ix1 k')) Spec.zero
              * (w2 : S512x256.Idx → EReal) (ix2 k' k))
            + (b2 : S256.Idx → EReal) (ix1 k)) Spec.zero
          * (w3 : S256x128.Idx → EReal) (ix2 k j))
        + (b3 : S128.Idx → EReal) (ix1 j) := by
  rw [k9_pay1_eq, outLayer_apply]
  refine congrArg (· + (b3 : S128.Idx → EReal) (ix1 j)) (Finset.sum_congr rfl fun k _ => ?_)
  refine congrArg (· * (w3 : S256x128.Idx → EReal) (ix2 k j)) ?_
  rw [hidden2_apply]
  refine congrArg (fun s => max (s + (b2 : S256.Idx → EReal) (ix1 k)) Spec.zero) (Finset.sum_congr rfl fun k' _ => ?_)
  refine congrArg (· * (w2 : S512x256.Idx → EReal) (ix2 k' k)) ?_
  exact hidden1_apply x w1 b1 r k'

end Cert.KernelIdeal.MlpVal

end
-- ==== Proof.KiMlpVal.lean ====
/-
  From the perceptron region's blocks to its output array, over the extended reals.
  The region runs the body at 8 grid points. At point t the body reads rows 128t … 128t + 127 of the input X (all 6144
  columns) and the whole of each weight matrix and bias vector, and its result, a 128 × 128 block, is written back to
  rows 128t … 128t + 127 of the output. The body's entry (r, j) is the perceptron of the specification on row r of the
  block (the payload reading), and row r of block t of X is row 128t + r of X; so what point t writes back is block t of
  the specification's array. The 8 blocks of 128 rows fill the 1024 rows, so the output array ends holding the
  specification's array.
-/
import proofs.«180909_j89275190215119_1_alg».proof.Proof.KiMlp
import proofs.«180909_j89275190215119_1_alg».proof.Proof.KiMlpPay
import Idealize.ShloMosaic.Lib.Pipeline.Value

noncomputable section

namespace Cert.KernelIdeal.MlpVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The body's one store -/

/-- The body loads each buffer whole and stores its result over the whole output block: what it leaves there is the
    arithmetic of the loaded blocks. -/
theorem out_eq_pay (x0 : Vec Ideal S128x6144 .f32) (x1 : Vec Ideal S6144x512 .f32) (x2 : Vec Ideal S512 .f32)
    (x3 : Vec Ideal S512x256 .f32) (x4 : Vec Ideal S256 .f32) (x5 : Vec Ideal S256x128 .f32) (x6 : Vec Ideal S128 .f32) :
    Fr.out9_7 x0 x1 x2 x3 x4 x5 x6 = k9_pay1 x0 x1 x2 x3 x4 x5 x6 := by
  unfold Fr.out9_7
  rw [View.canon_unit_zero hz2]
  simp only [View.ld_unit_zero (S := S128x6144) hz2, View.ld_unit_zero (S := S6144x512) hz2, View.ld_unit_zero (S := S512) hz1,
    View.ld_unit_zero (S := S512x256) hz2, View.ld_unit_zero (S := S256) hz1, View.ld_unit_zero (S := S256x128) hz2,
    View.ld_unit_zero (S := S128) hz1]

/-! ## Where the blocks sit -/

/-- The block index of every window at every grid point: the input X and the output move down one block of 128 rows
    per point; the weights and biases stay at block 0. -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 1) = 0
    ∧ win9_3.index t (0 : Fin 2) = 0 ∧ win9_3.index t (1 : Fin 2) = 0
    ∧ win9_4.index t (0 : Fin 1) = 0
    ∧ win9_5.index t (0 : Fin 2) = 0 ∧ win9_5.index t (1 : Fin 2) = 0
    ∧ win9_6.index t (0 : Fin 1) = 0
    ∧ win9_7.index t (0 : Fin 2) = t.val ∧ win9_7.index t (1 : Fin 2) = 0 :=
  (by decide +kernel : ∀ t : Fin grid9.N, _)

/-- A grid point is one of 8. -/
theorem point_lt (t : Fin cfg9.N) : t.val < 8 := by
  have h : t.val < grid9.N := t.isLt
  rw [N_9] at h
  exact h

/-- Row r of X's block at point t is row 128t + r of X. -/
theorem xblock_apply (c : Dev nD) (t : Fin cfg9.N) (r : Fin 128) (k : Fin 6144) (R : Fin 1024)
    (hR : R.val = 128 * t.val + r.val) :
    (Fr.iblk9 V c 0 t : Vec Ideal S128x6144 .f32) (ix2 r k) = (V c main_v93 : S1024x6144.Idx → EReal) (ix2 R k) := by
  obtain ⟨e00, e01, e10, e11, e20, e30, e31, e40, e50, e51, e60, e70, e71⟩ := idx_facts t
  unfold Fr.iblk9
  rw [View.read_apply]
  show V c main_v93 _ = V c main_v93 _
  congr 1
  funext a
  apply Fin.ext
  match a with
  | ⟨0, _⟩ => show win9_0.index t (0 : Fin 2) * 128 + 1 * r.val = R.val; rw [e00, hR]; omega
  | ⟨1, _⟩ => show win9_0.index t (1 : Fin 2) * 6144 + 1 * k.val = k.val; rw [e01]; omega

/-- Window 1's block at every point is its whole array: its block index is 0 on every axis. -/
theorem wblock1 (c : Dev nD) (t : Fin cfg9.N) :
    (Fr.iblk9 V c 1 t : Vec Ideal S6144x512 .f32) = (V c main_arg12 : S6144x512.Idx → EReal) := by
  obtain ⟨e00, e01, e10, e11, e20, e30, e31, e40, e50, e51, e60, e70, e71⟩ := idx_facts t
  funext y
  unfold Fr.iblk9
  rw [View.read_apply]
  show V c main_arg12 _ = V c main_arg12 y
  congr 1
  funext a
  apply Fin.ext
  match a with
  | ⟨0, _⟩ => show win9_1.index t (0 : Fin 2) * 6144 + 1 * (y 0).val = (y 0).val; rw [e10]; omega
  | ⟨1, _⟩ => show win9_1.index t (1 : Fin 2) * 512 + 1 * (y 1).val = (y 1).val; rw [e11]; omega

/-- Window 2's block at every point is its whole array: its block index is 0 on every axis. -/
theorem wblock2 (c : Dev nD) (t : Fin cfg9.N) :
    (Fr.iblk9 V c 2 t : Vec Ideal S512 .f32) = (V c main_arg13 : S512.Idx → EReal) := by
  obtain ⟨e00, e01, e10, e11, e20, e30, e31, e40, e50, e51, e60, e70, e71⟩ := idx_facts t
  funext y
  unfold Fr.iblk9
  rw [View.read_apply]
  show V c main_arg13 _ = V c main_arg13 y
  congr 1
  funext a
  apply Fin.ext
  match a with
  | ⟨0, _⟩ => show win9_2.index t (0 : Fin 1) * 512 + 1 * (y 0).val = (y 0).val; rw [e20]; omega

/-- Window 3's block at every point is its whole array: its block index is 0 on every axis. -/
theorem wblock3 (c : Dev nD) (t : Fin cfg9.N) :
    (Fr.iblk9 V c 3 t : Vec Ideal S512x256 .f32) = (V c main_arg14 : S512x256.Idx → EReal) := by
  obtain ⟨e00, e01, e10, e11, e20, e30, e31, e40, e50, e51, e60, e70, e71⟩ := idx_facts t
  funext y
  unfold Fr.iblk9
  rw [View.read_apply]
  show V c main_arg14 _ = V c main_arg14 y
  congr 1
  funext a
  apply Fin.ext
  match a with
  | ⟨0, _⟩ => show win9_3.index t (0 : Fin 2) * 512 + 1 * (y 0).val = (y 0).val; rw [e30]; omega
  | ⟨1, _⟩ => show win9_3.index t (1 : Fin 2) * 256 + 1 * (y 1).val = (y 1).val; rw [e31]; omega

/-- Window 4's block at every point is its whole array: its block index is 0 on every axis. -/
theorem wblock4 (c : Dev nD) (t : Fin cfg9.N) :
    (Fr.iblk9 V c 4 t : Vec Ideal S256 .f32) = (V c main_arg15 : S256.Idx → EReal) := by
  obtain ⟨e00, e01, e10, e11, e20, e30, e31, e40, e50, e51, e60, e70, e71⟩ := idx_facts t
  funext y
  unfold Fr.iblk9
  rw [View.read_apply]
  show V c main_arg15 _ = V c main_arg15 y
  congr 1
  funext a
  apply Fin.ext
  match a with
  | ⟨0, _⟩ => show win9_4.index t (0 : Fin 1) * 256 + 1 * (y 0).val = (y 0).val; rw [e40]; omega

/-- Window 5's block at every point is its whole array: its block index is 0 on every axis. -/
theorem wblock5 (c : Dev nD) (t : Fin cfg9.N) :
    (Fr.iblk9 V c 5 t : Vec Ideal S256x128 .f32) = (V c main_arg16 : S256x128.Idx → EReal) := by
  obtain ⟨e00, e01, e10, e11, e20, e30, e31, e40, e50, e51, e60, e70, e71⟩ := idx_facts t
  funext y
  unfold Fr.iblk9
  rw [View.read_apply]
  show V c main_arg16 _ = V c main_arg16 y
  congr 1
  funext a
  apply Fin.ext
  match a with
  | ⟨0, _⟩ => show win9_5.index t (0 : Fin 2) * 256 + 1 * (y 0).val = (y 0).val; rw [e50]; omega
  | ⟨1, _⟩ => show win9_5.index t (1 : Fin 2) * 128 + 1 * (y 1).val = (y 1).val; rw [e51]; omega

/-- Window 6's block at every point is its whole array: its block index is 0 on every axis. -/
theorem wblock6 (c : Dev nD) (t : Fin cfg9.N) :
    (Fr.iblk9 V c 6 t : Vec Ideal S128 .f32) = (V c main_arg17 : S128.Idx → EReal) := by
  obtain ⟨e00, e01, e10, e11, e20, e30, e31, e40, e50, e51, e60, e70, e71⟩ := idx_facts t
  funext y
  unfold Fr.iblk9
  rw [View.read_apply]
  show V c main_arg17 _ = V c main_arg17 y
  congr 1
  funext a
  apply Fin.ext
  match a with
  | ⟨0, _⟩ => show win9_6.index t (0 : Fin 1) * 128 + 1 * (y 0).val = (y 0).val; rw [e60]; omega

/-- Entry (r, q) of the output's block at point t sits at (128t + r, q) of the output array. -/
theorem out_emb (t : Fin cfg9.N) (r q : Fin 128) (R : Fin 1024) (hR : R.val = 128 * t.val + r.val) :
    (((cfg9.win 7).blk t).view.emb (ix2 r q) : S1024x128.Idx) = ix2 R q := by
  obtain ⟨e00, e01, e10, e11, e20, e30, e31, e40, e50, e51, e60, e70, e71⟩ := idx_facts t
  funext a
  apply Fin.ext
  match a with
  | ⟨0, _⟩ => show win9_7.index t (0 : Fin 2) * 128 + 1 * r.val = R.val; rw [e70, hR]; omega
  | ⟨1, _⟩ => show win9_7.index t (1 : Fin 2) * 128 + 1 * q.val = q.val; rw [e71]; omega

/-! ## What a point writes back -/

/-- The body's entry (r, j) on a block whose row r is row R of X, with the weights and biases whole, is the
    specification's perceptron at (R, j). -/
theorem pay_eq_mlp (X : S1024x6144.Idx → EReal) (W1 : S6144x512.Idx → EReal) (B1 : S512.Idx → EReal)
    (W2 : S512x256.Idx → EReal) (B2 : S256.Idx → EReal) (W3 : S256x128.Idx → EReal) (B3 : S128.Idx → EReal)
    (x : Vec Ideal S128x6144 .f32) (w1 : Vec Ideal S6144x512 .f32) (b1 : Vec Ideal S512 .f32)
    (w2 : Vec Ideal S512x256 .f32) (b2 : Vec Ideal S256 .f32) (w3 : Vec Ideal S256x128 .f32) (b3 : Vec Ideal S128 .f32)
    (R : Fin 1024) (r j : Fin 128)
    (hx : ∀ k : Fin 6144, (x : S128x6144.Idx → EReal) (ix2 r k) = X (ix2 R k))
    (h1 : w1 = W1) (h2 : b1 = B1) (h3 : w2 = W2) (h4 : b2 = B2) (h5 : w3 = W3) (h6 : b3 = B3) :
    k9_pay1 x w1 b1 w2 b2 w3 b3 (ix2 r j) = Spec.mlp X W1 B1 W2 B2 W3 B3 R j := by
  subst h1 h2 h3 h4 h5 h6
  refine (k9_pay1_apply x w1 b1 w2 b2 w3 b3 r j).trans ?_
  unfold Spec.mlp Spec.layer2 Spec.layer1
  simp only [hx]

/-- What point t writes back is block t of the specification's array. -/
theorem flushed_eq (c : Dev nD) (t : Fin cfg9.N) :
    (Fr.dat9 V c).flushed 7 t = ((cfg9.win 7).blk t).view.read (Elt Ideal)
      (Spec.mlpA (V c main_v93) (V c main_arg12) (V c main_arg13) (V c main_arg14) (V c main_arg15) (V c main_arg16) (V c main_arg17)) := by
  show (cfg9.win 7).cut (grid9.coords t) ((Fr.dat9 V c).after 7 t) = _
  rw [Fr.after9_7]
  rw [out_eq_pay (Fr.iblk9 V c 0 t) (Fr.iblk9 V c 1 t) (Fr.iblk9 V c 2 t) (Fr.iblk9 V c 3 t) (Fr.iblk9 V c 4 t) (Fr.iblk9 V c 5 t) (Fr.iblk9 V c 6 t)]
  have ht := point_lt t
  funext j
  obtain ⟨r, q, rfl⟩ : ∃ (r : Fin 128) (q : Fin 128), j = ix2 r q := ⟨j 0, j 1, eq_ix2 j⟩
  rw [View.read_apply]
  show k9_pay1 (Fr.iblk9 V c 0 t) (Fr.iblk9 V c 1 t) (Fr.iblk9 V c 2 t) (Fr.iblk9 V c 3 t) (Fr.iblk9 V c 4 t) (Fr.iblk9 V c 5 t) (Fr.iblk9 V c 6 t) (ix2 r q)
    = Spec.mlpA (V c main_v93) (V c main_arg12) (V c main_arg13) (V c main_arg14) (V c main_arg15) (V c main_arg16) (V c main_arg17)
        (((cfg9.win 7).blk t).view.emb (ix2 r q) : S1024x128.Idx)
  rw [out_emb t r q ⟨128 * t.val + r.val, by have := r.isLt; omega⟩ rfl]
  exact pay_eq_mlp (V c main_v93) (V c main_arg12) (V c main_arg13) (V c main_arg14) (V c main_arg15) (V c main_arg16) (V c main_arg17)
    (Fr.iblk9 V c 0 t) (Fr.iblk9 V c 1 t) (Fr.iblk9 V c 2 t) (Fr.iblk9 V c 3 t) (Fr.iblk9 V c 4 t) (Fr.iblk9 V c 5 t) (Fr.iblk9 V c 6 t)
    ⟨128 * t.val + r.val, by have := r.isLt; omega⟩ r q
    (fun k => xblock_apply V c t r k _ rfl)
    (wblock1 V c t) (wblock2 V c t) (wblock3 V c t) (wblock4 V c t) (wblock5 V c t) (wblock6 V c t)

/-! ## The blocks fill the array -/

/-- An index of the output array is in point t's block iff each coordinate is in the block's range on its axis. -/
theorem mem_blk (t : Fin cfg9.N) (i : S1024x128.Idx) :
    i ∈ ((cfg9.win 7).blk t).view.set ↔ ∀ a : Fin 2, win9_7.index t a * S128x128.size a ≤ (i a).val ∧ (i a).val < win9_7.index t a * S128x128.size a + S128x128.size a := by
  show i ∈ ((View.whole main_v94).slice (win9_7.rect t)).set ↔ _
  rw [View.set_slice_whole, Rect.mem_set_unit]
  exact Iff.rfl

/-- Row i of the output lies in the block of point i / 128: the 8 blocks of 128 rows fill the 1024 rows. -/
theorem cover (i : S1024x128.Idx) :
    ∃ t : Fin cfg9.N, (cfg9.win 7).flush t = true ∧ i ∈ ((cfg9.win 7).blk t).view.set := by
  have hi0 : (i 0).val < 1024 := (i 0).isLt
  have hi1 : (i 1).val < 128 := (i 1).isLt
  have hlt : (i 0).val / 128 < grid9.N := by rw [N_9]; omega
  obtain ⟨e00, e01, e10, e11, e20, e30, e31, e40, e50, e51, e60, e70, e71⟩ := idx_facts ⟨(i 0).val / 128, hlt⟩
  have e70' : win9_7.index ⟨(i 0).val / 128, hlt⟩ (0 : Fin 2) = (i 0).val / 128 := e70
  refine ⟨⟨(i 0).val / 128, hlt⟩, flush9_7 _, ?_⟩
  rw [mem_blk]
  intro a
  match a with
  | ⟨0, _⟩ => show win9_7.index ⟨(i 0).val / 128, hlt⟩ (0 : Fin 2) * 128 ≤ (i 0).val ∧ (i 0).val < win9_7.index ⟨(i 0).val / 128, hlt⟩ (0 : Fin 2) * 128 + 128; rw [e70']; omega
  | ⟨1, _⟩ => show win9_7.index ⟨(i 0).val / 128, hlt⟩ (1 : Fin 2) * 128 ≤ (i 1).val ∧ (i 1).val < win9_7.index ⟨(i 0).val / 128, hlt⟩ (1 : Fin 2) * 128 + 128; rw [e71]; omega

/-! ## The output array after the region -/

/-- After the region's 8 points the output array holds the specification's perceptron of the arrays the region found. -/
theorem mlp_val (c : Dev nD) :
    ((Fr.dat9 V c).arrAt 7 cfg9.N : S1024x128.Idx → EReal)
      = Spec.mlpA (V c main_v93) (V c main_arg12) (V c main_arg13) (V c main_arg14) (V c main_arg15) (V c main_arg16) (V c main_arg17) :=
  (Fr.dat9 V c).arrAt_eq_of_cover 7
    (Spec.mlpA (V c main_v93) (V c main_arg12) (V c main_arg13) (V c main_arg14) (V c main_arg15) (V c main_arg16) (V c main_arg17))
    (fun t _ => flushed_eq V c t) cover

end Cert.KernelIdeal.MlpVal

end
-- ==== Proof.RefValPool.lean ====
/-
  The reference's nine mean pools are the specification's `poolA`.

  Each pool of the reference is three host operations on a gathered tensor `x` of shape [1024, 100, 512]: the sum
  over axis 1 started from the word 0.0, a broadcast of the word 100.0 to [1024, 512], and the quotient of the two.
  Entry (b, j) of the result is therefore (0.0 + Σ_k x[b, k, j]) / 100.0. The word 0.0 is the real zero, so the entry is
  (Σ_k x[b, k, j]) / 100.0, which is `Spec.pool x b j`; the word 100.0 stands on both sides and is never evaluated.
  The gathered tensor is never opened: it enters every proof as a variable.
-/
import proofs.«180909_j89275190215119_1_alg».proof.Proof.Gen.ReferenceIdeal.Read
import proofs.«180909_j89275190215119_1_alg».proof.Proof.Spec

noncomputable section

namespace Cert.ReferenceIdeal.RefValue

open Cert.ReferenceIdeal Cert.ReferenceIdeal.Read Idealize.ShloMosaic Idealize.ShloMosaic.ValueIdx

/-- An array whose entry (b, j) is (0.0 + Σ_k x[b, k, j]) / 100.0 is the mean pool of `x`. -/
theorem poolA_of_entries (x : (⟨3, ![1024, 100, 512]⟩ : Shape).Idx → EReal)
    (q : (⟨2, ![1024, 512]⟩ : Shape).Idx → EReal)
    (hq : ∀ (b : Fin 1024) (j : Fin 512), q (ix2 b j) =
      Ideal.div (Ideal.ofBits .f32 0x00000000#32 + ∑ k : Fin 100, x (ix3 b k j)) (Ideal.ofBits .f32 0x42C80000#32)) :
    q = Cert.Spec.poolA x := by
  funext i
  obtain ⟨b, j, rfl⟩ : ∃ (b : Fin 1024) (j : Fin 512), i = ix2 b j := ⟨i 0, i 1, eq_ix2 i⟩
  rw [hq, Ideal.ofBits_zero_f32, zero_add]
  rfl

/-- The first pool: the gathered tensor is `val_main_v27`. -/
theorem pool_ref0 (x3 : (⟨S50001x512, .f32⟩ : BufTy).Contents (Elt Ideal))
    (x21 : (⟨S1024x100, .i32⟩ : BufTy).Contents (Elt Ideal)) :
    val_main_v30 (F := Ideal) x3 x21 = Cert.Spec.poolA (val_main_v27 (F := Ideal) x3 x21) := by
  refine poolA_of_entries _ _ fun b j => ?_
  rw [val_main_v30_apply, val_main_v28_apply, val_main_v29_apply, val_main_cst_apply, val_main_cst_7_apply]
  generalize val_main_v27 (F := Ideal) x3 x21 = x
  have hs : ∑ k : Fin 100, x (idx_main_v28 (ix2 b j) k) = ∑ k : Fin 100, x (ix3 b k j) :=
    Finset.sum_congr rfl fun k _ => congrArg x (funext fun a => Fin.ext (by
      match a with | ⟨0, _⟩ => rfl | ⟨1, _⟩ => rfl | ⟨2, _⟩ => rfl))
  rw [hs]
  rfl

/-- The second pool: the gathered tensor is `val_main_v37`. -/
theorem pool_ref1 (x4 : (⟨S100001x512, .f32⟩ : BufTy).Contents (Elt Ideal))
    (x22 : (⟨S1024x100, .i32⟩ : BufTy).Contents (Elt Ideal)) :
    val_main_v40 (F := Ideal) x4 x22 = Cert.Spec.poolA (val_main_v37 (F := Ideal) x4 x22) := by
  refine poolA_of_entries _ _ fun b j => ?_
  rw [val_main_v40_apply, val_main_v38_apply, val_main_v39_apply, val_main_cst_10_apply, val_main_cst_11_apply]
  generalize val_main_v37 (F := Ideal) x4 x22 = x
  have hs : ∑ k : Fin 100, x (idx_main_v38 (ix2 b j) k) = ∑ k : Fin 100, x (ix3 b k j) :=
    Finset.sum_congr rfl fun k _ => congrArg x (funext fun a => Fin.ext (by
      match a with | ⟨0, _⟩ => rfl | ⟨1, _⟩ => rfl | ⟨2, _⟩ => rfl))
  rw [hs]
  rfl

/-- The third pool: the gathered tensor is `val_main_v47`. -/
theorem pool_ref2 (x5 : (⟨S50001x512, .f32⟩ : BufTy).Contents (Elt Ideal))
    (x23 : (⟨S1024x100, .i32⟩ : BufTy).Contents (Elt Ideal)) :
    val_main_v50 (F := Ideal) x5 x23 = Cert.Spec.poolA (val_main_v47 (F := Ideal) x5 x23) := by
  refine poolA_of_entries _ _ fun b j => ?_
  rw [val_main_v50_apply, val_main_v48_apply, val_main_v49_apply, val_main_cst_14_apply, val_main_cst_15_apply]
  generalize val_main_v47 (F := Ideal) x5 x23 = x
  have hs : ∑ k : Fin 100, x (idx_main_v48 (ix2 b j) k) = ∑ k : Fin 100, x (ix3 b k j) :=
    Finset.sum_congr rfl fun k _ => congrArg x (funext fun a => Fin.ext (by
      match a with | ⟨0, _⟩ => rfl | ⟨1, _⟩ => rfl | ⟨2, _⟩ => rfl))
  rw [hs]
  rfl

/-- The fourth pool: the gathered tensor is `val_main_v57`. -/
theorem pool_ref3 (x6 : (⟨S21x512, .f32⟩ : BufTy).Contents (Elt Ideal))
    (x24 : (⟨S1024x100, .i32⟩ : BufTy).Contents (Elt Ideal)) :
    val_main_v60 (F := Ideal) x6 x24 = Cert.Spec.poolA (val_main_v57 (F := Ideal) x6 x24) := by
  refine poolA_of_entries _ _ fun b j => ?_
  rw [val_main_v60_apply, val_main_v58_apply, val_main_v59_apply, val_main_cst_18_apply, val_main_cst_19_apply]
  generalize val_main_v57 (F := Ideal) x6 x24 = x
  have hs : ∑ k : Fin 100, x (idx_main_v58 (ix2 b j) k) = ∑ k : Fin 100, x (ix3 b k j) :=
    Finset.sum_congr rfl fun k _ => congrArg x (funext fun a => Fin.ext (by
      match a with | ⟨0, _⟩ => rfl | ⟨1, _⟩ => rfl | ⟨2, _⟩ => rfl))
  rw [hs]
  rfl

/-- The fifth pool: the gathered tensor is `val_main_v67`. -/
theorem pool_ref4 (x7 : (⟨S100001x512, .f32⟩ : BufTy).Contents (Elt Ideal))
    (x25 : (⟨S1024x100, .i32⟩ : BufTy).Contents (Elt Ideal)) :
    val_main_v70 (F := Ideal) x7 x25 = Cert.Spec.poolA (val_main_v67 (F := Ideal) x7 x25) := by
  refine poolA_of_entries _ _ fun b j => ?_
  rw [val_main_v70_apply, val_main_v68_apply, val_main_v69_apply, val_main_cst_22_apply, val_main_cst_23_apply]
  generalize val_main_v67 (F := Ideal) x7 x25 = x
  have hs : ∑ k : Fin 100, x (idx_main_v68 (ix2 b j) k) = ∑ k : Fin 100, x (ix3 b k j) :=
    Finset.sum_congr rfl fun k _ => congrArg x (funext fun a => Fin.ext (by
      match a with | ⟨0, _⟩ => rfl | ⟨1, _⟩ => rfl | ⟨2, _⟩ => rfl))
  rw [hs]
  rfl

/-- The sixth pool: the gathered tensor is `val_main_v77`. -/
theorem pool_ref5 (x8 : (⟨S21x512, .f32⟩ : BufTy).Contents (Elt Ideal))
    (x26 : (⟨S1024x100, .i32⟩ : BufTy).Contents (Elt Ideal)) :
    val_main_v80 (F := Ideal) x8 x26 = Cert.Spec.poolA (val_main_v77 (F := Ideal) x8 x26) := by
  refine poolA_of_entries _ _ fun b j => ?_
  rw [val_main_v80_apply, val_main_v78_apply, val_main_v79_apply, val_main_cst_26_apply, val_main_cst_27_apply]
  generalize val_main_v77 (F := Ideal) x8 x26 = x
  have hs : ∑ k : Fin 100, x (idx_main_v78 (ix2 b j) k) = ∑ k : Fin 100, x (ix3 b k j) :=
    Finset.sum_congr rfl fun k _ => congrArg x (funext fun a => Fin.ext (by
      match a with | ⟨0, _⟩ => rfl | ⟨1, _⟩ => rfl | ⟨2, _⟩ => rfl))
  rw [hs]
  rfl

/-- The seventh pool: the gathered tensor is `val_main_v87`. -/
theorem pool_ref6 (x9 : (⟨S21x512, .f32⟩ : BufTy).Contents (Elt Ideal))
    (x27 : (⟨S1024x100, .i32⟩ : BufTy).Contents (Elt Ideal)) :
    val_main_v90 (F := Ideal) x9 x27 = Cert.Spec.poolA (val_main_v87 (F := Ideal) x9 x27) := by
  refine poolA_of_entries _ _ fun b j => ?_
  rw [val_main_v90_apply, val_main_v88_apply, val_main_v89_apply, val_main_cst_30_apply, val_main_cst_31_apply]
  generalize val_main_v87 (F := Ideal) x9 x27 = x
  have hs : ∑ k : Fin 100, x (idx_main_v88 (ix2 b j) k) = ∑ k : Fin 100, x (ix3 b k j) :=
    Finset.sum_congr rfl fun k _ => congrArg x (funext fun a => Fin.ext (by
      match a with | ⟨0, _⟩ => rfl | ⟨1, _⟩ => rfl | ⟨2, _⟩ => rfl))
  rw [hs]
  rfl

/-- The eighth pool: the gathered tensor is `val_main_v97`. -/
theorem pool_ref7 (x10 : (⟨S21x512, .f32⟩ : BufTy).Contents (Elt Ideal))
    (x28 : (⟨S1024x100, .i32⟩ : BufTy).Contents (Elt Ideal)) :
    val_main_v100 (F := Ideal) x10 x28 = Cert.Spec.poolA (val_main_v97 (F := Ideal) x10 x28) := by
  refine poolA_of_entries _ _ fun b j => ?_
  rw [val_main_v100_apply, val_main_v98_apply, val_main_v99_apply, val_main_cst_34_apply, val_main_cst_35_apply]
  generalize val_main_v97 (F := Ideal) x10 x28 = x
  have hs : ∑ k : Fin 100, x (idx_main_v98 (ix2 b j) k) = ∑ k : Fin 100, x (ix3 b k j) :=
    Finset.sum_congr rfl fun k _ => congrArg x (funext fun a => Fin.ext (by
      match a with | ⟨0, _⟩ => rfl | ⟨1, _⟩ => rfl | ⟨2, _⟩ => rfl))
  rw [hs]
  rfl

/-- The ninth pool: the gathered tensor is `val_main_v107`. -/
theorem pool_ref8 (x11 : (⟨S50001x512, .f32⟩ : BufTy).Contents (Elt Ideal))
    (x29 : (⟨S1024x100, .i32⟩ : BufTy).Contents (Elt Ideal)) :
    val_main_v110 (F := Ideal) x11 x29 = Cert.Spec.poolA (val_main_v107 (F := Ideal) x11 x29) := by
  refine poolA_of_entries _ _ fun b j => ?_
  rw [val_main_v110_apply, val_main_v108_apply, val_main_v109_apply, val_main_cst_38_apply, val_main_cst_39_apply]
  generalize val_main_v107 (F := Ideal) x11 x29 = x
  have hs : ∑ k : Fin 100, x (idx_main_v108 (ix2 b j) k) = ∑ k : Fin 100, x (ix3 b k j) :=
    Finset.sum_congr rfl fun k _ => congrArg x (funext fun a => Fin.ext (by
      match a with | ⟨0, _⟩ => rfl | ⟨1, _⟩ => rfl | ⟨2, _⟩ => rfl))
  rw [hs]
  rfl

end Cert.ReferenceIdeal.RefValue

end
-- ==== Proof.RefValMlp.lean ====
/-
  The reference's perceptron is the specification's `mlpA` of the concatenated array.

  With X the concatenated array [1024, 6144] (never opened: it enters every proof as a variable), the reference computes
  relu(X·W1 + b1), then relu(·W2 + b2), then ·W3 + b3. Each matrix product read at an entry (r, j) is the plain sum over
  the contracted coordinate k of left[r, k] * right[k, j]; each bias is broadcast along the rows, so its entry (r, j) is
  b[j]; relu is the maximum with a broadcast of the word 0.0. Layer by layer, entry (r, j) of the reference's array is
  `Spec.layer1`, `Spec.layer2`, `Spec.mlp` at (r, j): the word 0.0 stands on both sides and is never evaluated.
-/
import proofs.«180909_j89275190215119_1_alg».proof.Proof.Gen.ReferenceIdeal.Read
import proofs.«180909_j89275190215119_1_alg».proof.Proof.Spec

noncomputable section

namespace Cert.ReferenceIdeal.RefValue

open Cert.ReferenceIdeal Cert.ReferenceIdeal.Read Idealize.ShloMosaic Idealize.ShloMosaic.ValueIdx

variable (x0 : (⟨S100001x512, .f32⟩ : BufTy).Contents (Elt Ideal)) (x1 : (⟨S4x512, .f32⟩ : BufTy).Contents (Elt Ideal))
  (x2 : (⟨S100001x512, .f32⟩ : BufTy).Contents (Elt Ideal)) (x3 : (⟨S50001x512, .f32⟩ : BufTy).Contents (Elt Ideal))
  (x4 : (⟨S100001x512, .f32⟩ : BufTy).Contents (Elt Ideal)) (x5 : (⟨S50001x512, .f32⟩ : BufTy).Contents (Elt Ideal))
  (x6 : (⟨S21x512, .f32⟩ : BufTy).Contents (Elt Ideal)) (x7 : (⟨S100001x512, .f32⟩ : BufTy).Contents (Elt Ideal))
  (x8 x9 x10 : (⟨S21x512, .f32⟩ : BufTy).Contents (Elt Ideal)) (x11 : (⟨S50001x512, .f32⟩ : BufTy).Contents (Elt Ideal))
  (x12 : (⟨S6144x512, .f32⟩ : BufTy).Contents (Elt Ideal)) (x13 : (⟨S512, .f32⟩ : BufTy).Contents (Elt Ideal))
  (x14 : (⟨S512x256, .f32⟩ : BufTy).Contents (Elt Ideal)) (x15 : (⟨S256, .f32⟩ : BufTy).Contents (Elt Ideal))
  (x16 : (⟨S256x128, .f32⟩ : BufTy).Contents (Elt Ideal)) (x17 : (⟨S128, .f32⟩ : BufTy).Contents (Elt Ideal))
  (x18 x19 x20 : (⟨S1024, .i32⟩ : BufTy).Contents (Elt Ideal))
  (x21 x22 x23 x24 x25 x26 x27 x28 x29 : (⟨S1024x100, .i32⟩ : BufTy).Contents (Elt Ideal))

/-- The first hidden layer: entry (r, j) of relu(X·W1 + b1). -/
theorem layer1_ref (r : Fin 1024) (j : Fin 512) :
    val_main_v116 (F := Ideal) x0 x1 x2 x3 x4 x5 x6 x7 x8 x9 x10 x11 x12 x13 x18 x19 x20 x21 x22 x23 x24 x25 x26 x27 x28 x29 (ix2 r j)
      = Cert.Spec.layer1 (val_main_v111 (F := Ideal) x0 x1 x2 x3 x4 x5 x6 x7 x8 x9 x10 x11 x18 x19 x20 x21 x22 x23 x24 x25 x26 x27 x28 x29) x12 x13 r j := by
  rw [val_main_v116_apply, val_main_v115_apply, val_main_v112_apply, val_main_v114_apply, val_main_v113_apply,
    val_main_call0_v0_apply, val_main_call0_cst_apply]
  generalize val_main_v111 (F := Ideal) x0 x1 x2 x3 x4 x5 x6 x7 x8 x9 x10 x11 x18 x19 x20 x21 x22 x23 x24 x25 x26 x27 x28 x29 = X
  have hs : (∑ k : Fin 6144, X (lidx_main_v112 (ix2 r j) k) * x12 (ridx_main_v112 (ix2 r j) k))
      = ∑ k : Fin 6144, X (ix2 r k) * x12 (ix2 k j) :=
    Finset.sum_congr rfl fun k _ => by
      rw [show lidx_main_v112 (ix2 r j) k = ix2 r k from
            funext fun a => Fin.ext (by match a with | ⟨0, _⟩ => rfl | ⟨1, _⟩ => rfl),
          show ridx_main_v112 (ix2 r j) k = ix2 k j from
            funext fun a => Fin.ext (by match a with | ⟨0, _⟩ => rfl | ⟨1, _⟩ => rfl)]
  have hb : idx_main_v113 (idx_main_v114 (ix2 r j)) = ix1 j :=
    funext fun a => Fin.ext (by match a with | ⟨0, _⟩ => rfl)
  rw [hs, hb]
  rfl

/-- The second hidden layer: entry (r, j) of relu(h1·W2 + b2), h1 the first hidden layer. -/
theorem layer2_ref (r : Fin 1024) (j : Fin 256) :
    val_main_v121 (F := Ideal) x0 x1 x2 x3 x4 x5 x6 x7 x8 x9 x10 x11 x12 x13 x14 x15 x18 x19 x20 x21 x22 x23 x24 x25 x26 x27 x28 x29 (ix2 r j)
      = Cert.Spec.layer2 (val_main_v111 (F := Ideal) x0 x1 x2 x3 x4 x5 x6 x7 x8 x9 x10 x11 x18 x19 x20 x21 x22 x23 x24 x25 x26 x27 x28 x29) x12 x13 x14 x15 r j := by
  rw [val_main_v121_apply, val_main_v120_apply, val_main_v117_apply, val_main_v119_apply, val_main_v118_apply,
    val_main_call1_v0_apply, val_main_call1_cst_apply]
  have hs : (∑ k : Fin 512, val_main_v116 (F := Ideal) x0 x1 x2 x3 x4 x5 x6 x7 x8 x9 x10 x11 x12 x13 x18 x19 x20 x21 x22 x23 x24 x25 x26 x27 x28 x29 (lidx_main_v117 (ix2 r j) k)
        * x14 (ridx_main_v117 (ix2 r j) k))
      = ∑ k : Fin 512, Cert.Spec.layer1 (val_main_v111 (F := Ideal) x0 x1 x2 x3 x4 x5 x6 x7 x8 x9 x10 x11 x18 x19 x20 x21 x22 x23 x24 x25 x26 x27 x28 x29) x12 x13 r k * x14 (ix2 k j) :=
    Finset.sum_congr rfl fun k _ => by
      rw [show lidx_main_v117 (ix2 r j) k = ix2 r k from
            funext fun a => Fin.ext (by match a with | ⟨0, _⟩ => rfl | ⟨1, _⟩ => rfl),
          show ridx_main_v117 (ix2 r j) k = ix2 k j from
            funext fun a => Fin.ext (by match a with | ⟨0, _⟩ => rfl | ⟨1, _⟩ => rfl),
          layer1_ref]
  have hb : idx_main_v118 (idx_main_v119 (ix2 r j)) = ix1 j :=
    funext fun a => Fin.ext (by match a with | ⟨0, _⟩ => rfl)
  rw [hs, hb]
  generalize val_main_v111 (F := Ideal) x0 x1 x2 x3 x4 x5 x6 x7 x8 x9 x10 x11 x18 x19 x20 x21 x22 x23 x24 x25 x26 x27 x28 x29 = X
  rfl

/-- The reference's result is the specification's perceptron of the concatenated array. -/
theorem mlp_ref :
    val_main_v125 (F := Ideal) x0 x1 x2 x3 x4 x5 x6 x7 x8 x9 x10 x11 x12 x13 x14 x15 x16 x17 x18 x19 x20 x21 x22 x23 x24 x25 x26 x27 x28 x29
      = Cert.Spec.mlpA (val_main_v111 (F := Ideal) x0 x1 x2 x3 x4 x5 x6 x7 x8 x9 x10 x11 x18 x19 x20 x21 x22 x23 x24 x25 x26 x27 x28 x29) x12 x13 x14 x15 x16 x17 := by
  funext i
  obtain ⟨r, j, rfl⟩ : ∃ (r : Fin 1024) (j : Fin 128), i = ix2 r j := ⟨i 0, i 1, eq_ix2 i⟩
  rw [val_main_v125_apply, val_main_v122_apply, val_main_v124_apply, val_main_v123_apply]
  have hs : (∑ k : Fin 256, val_main_v121 (F := Ideal) x0 x1 x2 x3 x4 x5 x6 x7 x8 x9 x10 x11 x12 x13 x14 x15 x18 x19 x20 x21 x22 x23 x24 x25 x26 x27 x28 x29 (lidx_main_v122 (ix2 r j) k)
        * x16 (ridx_main_v122 (ix2 r j) k))
      = ∑ k : Fin 256, Cert.Spec.layer2 (val_main_v111 (F := Ideal) x0 x1 x2 x3 x4 x5 x6 x7 x8 x9 x10 x11 x18 x19 x20 x21 x22 x23 x24 x25 x26 x27 x28 x29) x12 x13 x14 x15 r k * x16 (ix2 k j) :=
    Finset.sum_congr rfl fun k _ => by
      rw [show lidx_main_v122 (ix2 r j) k = ix2 r k from
            funext fun a => Fin.ext (by match a with | ⟨0, _⟩ => rfl | ⟨1, _⟩ => rfl),
          show ridx_main_v122 (ix2 r j) k = ix2 k j from
            funext fun a => Fin.ext (by match a with | ⟨0, _⟩ => rfl | ⟨1, _⟩ => rfl),
          layer2_ref]
  have hb : idx_main_v123 (idx_main_v124 (ix2 r j)) = ix1 j :=
    funext fun a => Fin.ext (by match a with | ⟨0, _⟩ => rfl)
  rw [hs, hb]
  generalize val_main_v111 (F := Ideal) x0 x1 x2 x3 x4 x5 x6 x7 x8 x9 x10 x11 x18 x19 x20 x21 x22 x23 x24 x25 x26 x27 x28 x29 = X
  rfl

end Cert.ReferenceIdeal.RefValue

end
-- ==== Proof.RefVal.lean ====
/-
  The reference is the specification: its nine mean pools are `Spec.poolA` of the gathered tensors (`pool_ref0` …
  `pool_ref8`) and its result is `Spec.mlpA` of the concatenated array (`mlp_ref`).
-/
import proofs.«180909_j89275190215119_1_alg».proof.Proof.RefValPool
import proofs.«180909_j89275190215119_1_alg».proof.Proof.RefValMlp
-- ==== Proof.KiHostVal.lean ====
/-
  What the kernel program's host stretches and regions leave, as the reference's own stage functions of the launch
  contents. Both programs apply the SAME host operations to the same arguments (the index normalisation and the row
  gathers; the concatenation of the twelve [1024, 512] pieces): those are carried as they are, never opened. A pool region's
  output array is the specification's mean pool of its gathered input, which is also what the reference's sum and quotient
  compute; the perceptron region's output array is the specification's perceptron of the concatenated rows and the
  weights, which is also what the reference's three products, biases and activations compute. So the kernel program's
  result is the reference's result term.
-/
import proofs.«180909_j89275190215119_1_alg».proof.Proof.KiFold
import proofs.«180909_j89275190215119_1_alg».proof.Proof.KiArgsA
import proofs.«180909_j89275190215119_1_alg».proof.Proof.KiArgsB
import proofs.«180909_j89275190215119_1_alg».proof.Proof.KiArgsC
import proofs.«180909_j89275190215119_1_alg».proof.Proof.KiPoolVal0
import proofs.«180909_j89275190215119_1_alg».proof.Proof.KiPoolVal1
import proofs.«180909_j89275190215119_1_alg».proof.Proof.KiPoolVal2
import proofs.«180909_j89275190215119_1_alg».proof.Proof.KiPoolVal3
import proofs.«180909_j89275190215119_1_alg».proof.Proof.KiPoolVal4
import proofs.«180909_j89275190215119_1_alg».proof.Proof.KiPoolVal5
import proofs.«180909_j89275190215119_1_alg».proof.Proof.KiPoolVal6
import proofs.«180909_j89275190215119_1_alg».proof.Proof.KiPoolVal7
import proofs.«180909_j89275190215119_1_alg».proof.Proof.KiPoolVal8
import proofs.«180909_j89275190215119_1_alg».proof.Proof.KiMlpVal
import proofs.«180909_j89275190215119_1_alg».proof.Proof.RefVal
import proofs.«180909_j89275190215119_1_alg».proof.Proof.Gen.ReferenceIdeal.Read
import Idealize.ShloMosaic.Lib.StableHlo.Run

set_option maxRecDepth 16384

noncomputable section

namespace Cert.KernelIdeal.HostVal

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ)

/-! ## The three plain gathers, computed by the first host stretch and never touched again -/

set_option maxHeartbeats 2000000 in
theorem at1_main_v6 (c : Dev nD) : (X1 m c (Proc.devRef .tc main_v6) : S1024x512.Idx → EReal) = Cert.ReferenceIdeal.Read.val_main_v6 (F := Ideal) (m ((c : Thread nD τ).loc main_arg0)) (m ((c : Thread nD τ).loc main_arg18)) := by
  show StableHlo.after hostOps0 (X0 m c) (Proc.devRef .tc main_v6) = _
  after_results_simp <;> rfl
theorem at18_main_v6 (c : Dev nD) : (X18 m c (Proc.devRef .tc main_v6) : S1024x512.Idx → EReal) = Cert.ReferenceIdeal.Read.val_main_v6 (F := Ideal) (m ((c : Thread nD τ).loc main_arg0)) (m ((c : Thread nD τ).loc main_arg18)) :=
  (X18_of_ne m c main_v6 (by decide)).trans <|
  (X17_of m c main_v6 (by decide)).trans <|
  (X16_of_ne m c main_v6 (by decide)).trans <|
  (X15_of m c main_v6 (by decide)).trans <|
  (X14_of_ne m c main_v6 (by decide)).trans <|
  (X13_of m c main_v6 (by decide)).trans <|
  (X12_of_ne m c main_v6 (by decide)).trans <|
  (X11_of m c main_v6 (by decide)).trans <|
  (X10_of_ne m c main_v6 (by decide)).trans <|
  (X9_of m c main_v6 (by decide)).trans <|
  (X8_of_ne m c main_v6 (by decide)).trans <|
  (X7_of m c main_v6 (by decide)).trans <|
  (X6_of_ne m c main_v6 (by decide)).trans <|
  (X5_of m c main_v6 (by decide)).trans <|
  (X4_of_ne m c main_v6 (by decide)).trans <|
  (X3_of m c main_v6 (by decide)).trans <|
  (X2_of_ne m c main_v6 (by decide)).trans (at1_main_v6 m c)

set_option maxHeartbeats 2000000 in
theorem at1_main_v13 (c : Dev nD) : (X1 m c (Proc.devRef .tc main_v13) : S1024x512.Idx → EReal) = Cert.ReferenceIdeal.Read.val_main_v13 (F := Ideal) (m ((c : Thread nD τ).loc main_arg1)) (m ((c : Thread nD τ).loc main_arg19)) := by
  show StableHlo.after hostOps0 (X0 m c) (Proc.devRef .tc main_v13) = _
  after_results_simp <;> rfl
theorem at18_main_v13 (c : Dev nD) : (X18 m c (Proc.devRef .tc main_v13) : S1024x512.Idx → EReal) = Cert.ReferenceIdeal.Read.val_main_v13 (F := Ideal) (m ((c : Thread nD τ).loc main_arg1)) (m ((c : Thread nD τ).loc main_arg19)) :=
  (X18_of_ne m c main_v13 (by decide)).trans <|
  (X17_of m c main_v13 (by decide)).trans <|
  (X16_of_ne m c main_v13 (by decide)).trans <|
  (X15_of m c main_v13 (by decide)).trans <|
  (X14_of_ne m c main_v13 (by decide)).trans <|
  (X13_of m c main_v13 (by decide)).trans <|
  (X12_of_ne m c main_v13 (by decide)).trans <|
  (X11_of m c main_v13 (by decide)).trans <|
  (X10_of_ne m c main_v13 (by decide)).trans <|
  (X9_of m c main_v13 (by decide)).trans <|
  (X8_of_ne m c main_v13 (by decide)).trans <|
  (X7_of m c main_v13 (by decide)).trans <|
  (X6_of_ne m c main_v13 (by decide)).trans <|
  (X5_of m c main_v13 (by decide)).trans <|
  (X4_of_ne m c main_v13 (by decide)).trans <|
  (X3_of m c main_v13 (by decide)).trans <|
  (X2_of_ne m c main_v13 (by decide)).trans (at1_main_v13 m c)

set_option maxHeartbeats 2000000 in
theorem at1_main_v20 (c : Dev nD) : (X1 m c (Proc.devRef .tc main_v20) : S1024x512.Idx → EReal) = Cert.ReferenceIdeal.Read.val_main_v20 (F := Ideal) (m ((c : Thread nD τ).loc main_arg2)) (m ((c : Thread nD τ).loc main_arg20)) := by
  show StableHlo.after hostOps0 (X0 m c) (Proc.devRef .tc main_v20) = _
  after_results_simp <;> rfl
theorem at18_main_v20 (c : Dev nD) : (X18 m c (Proc.devRef .tc main_v20) : S1024x512.Idx → EReal) = Cert.ReferenceIdeal.Read.val_main_v20 (F := Ideal) (m ((c : Thread nD τ).loc main_arg2)) (m ((c : Thread nD τ).loc main_arg20)) :=
  (X18_of_ne m c main_v20 (by decide)).trans <|
  (X17_of m c main_v20 (by decide)).trans <|
  (X16_of_ne m c main_v20 (by decide)).trans <|
  (X15_of m c main_v20 (by decide)).trans <|
  (X14_of_ne m c main_v20 (by decide)).trans <|
  (X13_of m c main_v20 (by decide)).trans <|
  (X12_of_ne m c main_v20 (by decide)).trans <|
  (X11_of m c main_v20 (by decide)).trans <|
  (X10_of_ne m c main_v20 (by decide)).trans <|
  (X9_of m c main_v20 (by decide)).trans <|
  (X8_of_ne m c main_v20 (by decide)).trans <|
  (X7_of m c main_v20 (by decide)).trans <|
  (X6_of_ne m c main_v20 (by decide)).trans <|
  (X5_of m c main_v20 (by decide)).trans <|
  (X4_of_ne m c main_v20 (by decide)).trans <|
  (X3_of m c main_v20 (by decide)).trans <|
  (X2_of_ne m c main_v20 (by decide)).trans (at1_main_v20 m c)

/-! ## The nine pooled pieces -/

set_option maxHeartbeats 2000000 in
/-- Region 0's input: the gather of the host stretch before it. -/
theorem in_pool0 (c : Dev nD) : (Y1 m c main_v27 : S1024x100x512.Idx → EReal) = Cert.ReferenceIdeal.Read.val_main_v27 (F := Ideal) (m ((c : Thread nD τ).loc main_arg3)) (m ((c : Thread nD τ).loc main_arg21)) := by
  show StableHlo.after hostOps0 (X0 m c) (Proc.devRef .tc main_v27) = _
  after_results_simp <;> rfl
/-- Region 0's output array: the reference's pooled stage. -/
theorem out_pool0 (c : Dev nD) : (X2 m c (Proc.devRef .tc main_v28) : S1024x512.Idx → EReal) = Cert.ReferenceIdeal.Read.val_main_v30 (F := Ideal) (m ((c : Thread nD τ).loc main_arg3)) (m ((c : Thread nD τ).loc main_arg21)) := by
  rw [Cert.ReferenceIdeal.RefValue.pool_ref0, ← in_pool0 m c]
  exact (X2_arr m c 1).trans (Cert.KernelIdeal.PoolVal.pool_val0 (Y1 m) c)
theorem at18_main_v28 (c : Dev nD) : (X18 m c (Proc.devRef .tc main_v28) : S1024x512.Idx → EReal) = Cert.ReferenceIdeal.Read.val_main_v30 (F := Ideal) (m ((c : Thread nD τ).loc main_arg3)) (m ((c : Thread nD τ).loc main_arg21)) :=
  (X18_of_ne m c main_v28 (by decide)).trans <|
  (X17_of m c main_v28 (by decide)).trans <|
  (X16_of_ne m c main_v28 (by decide)).trans <|
  (X15_of m c main_v28 (by decide)).trans <|
  (X14_of_ne m c main_v28 (by decide)).trans <|
  (X13_of m c main_v28 (by decide)).trans <|
  (X12_of_ne m c main_v28 (by decide)).trans <|
  (X11_of m c main_v28 (by decide)).trans <|
  (X10_of_ne m c main_v28 (by decide)).trans <|
  (X9_of m c main_v28 (by decide)).trans <|
  (X8_of_ne m c main_v28 (by decide)).trans <|
  (X7_of m c main_v28 (by decide)).trans <|
  (X6_of_ne m c main_v28 (by decide)).trans <|
  (X5_of m c main_v28 (by decide)).trans <|
  (X4_of_ne m c main_v28 (by decide)).trans <|
  (X3_of m c main_v28 (by decide)).trans (out_pool0 m c)

/-- Region 1's input: the gather of the host stretch before it. -/
theorem in_pool1 (c : Dev nD) : (Y3 m c main_v35 : S1024x100x512.Idx → EReal) = Cert.ReferenceIdeal.Read.val_main_v37 (F := Ideal) (m ((c : Thread nD τ).loc main_arg4)) (m ((c : Thread nD τ).loc main_arg22)) := by
  show StableHlo.after hostOps1 (X2 m c) (Proc.devRef .tc main_v35) = _
  after_results
  rw [X2_main_arg4 m c, X2_main_arg22 m c]
  rfl
/-- Region 1's output array: the reference's pooled stage. -/
theorem out_pool1 (c : Dev nD) : (X4 m c (Proc.devRef .tc main_v36) : S1024x512.Idx → EReal) = Cert.ReferenceIdeal.Read.val_main_v40 (F := Ideal) (m ((c : Thread nD τ).loc main_arg4)) (m ((c : Thread nD τ).loc main_arg22)) := by
  rw [Cert.ReferenceIdeal.RefValue.pool_ref1, ← in_pool1 m c]
  exact (X4_arr m c 1).trans (Cert.KernelIdeal.PoolVal.pool_val1 (Y3 m) c)
theorem at18_main_v36 (c : Dev nD) : (X18 m c (Proc.devRef .tc main_v36) : S1024x512.Idx → EReal) = Cert.ReferenceIdeal.Read.val_main_v40 (F := Ideal) (m ((c : Thread nD τ).loc main_arg4)) (m ((c : Thread nD τ).loc main_arg22)) :=
  (X18_of_ne m c main_v36 (by decide)).trans <|
  (X17_of m c main_v36 (by decide)).trans <|
  (X16_of_ne m c main_v36 (by decide)).trans <|
  (X15_of m c main_v36 (by decide)).trans <|
  (X14_of_ne m c main_v36 (by decide)).trans <|
  (X13_of m c main_v36 (by decide)).trans <|
  (X12_of_ne m c main_v36 (by decide)).trans <|
  (X11_of m c main_v36 (by decide)).trans <|
  (X10_of_ne m c main_v36 (by decide)).trans <|
  (X9_of m c main_v36 (by decide)).trans <|
  (X8_of_ne m c main_v36 (by decide)).trans <|
  (X7_of m c main_v36 (by decide)).trans <|
  (X6_of_ne m c main_v36 (by decide)).trans <|
  (X5_of m c main_v36 (by decide)).trans (out_pool1 m c)

/-- Region 2's input: the gather of the host stretch before it. -/
theorem in_pool2 (c : Dev nD) : (Y5 m c main_v43 : S1024x100x512.Idx → EReal) = Cert.ReferenceIdeal.Read.val_main_v47 (F := Ideal) (m ((c : Thread nD τ).loc main_arg5)) (m ((c : Thread nD τ).loc main_arg23)) := by
  show StableHlo.after hostOps2 (X4 m c) (Proc.devRef .tc main_v43) = _
  after_results
  rw [X4_main_arg5 m c, X4_main_arg23 m c]
  rfl
/-- Region 2's output array: the reference's pooled stage. -/
theorem out_pool2 (c : Dev nD) : (X6 m c (Proc.devRef .tc main_v44) : S1024x512.Idx → EReal) = Cert.ReferenceIdeal.Read.val_main_v50 (F := Ideal) (m ((c : Thread nD τ).loc main_arg5)) (m ((c : Thread nD τ).loc main_arg23)) := by
  rw [Cert.ReferenceIdeal.RefValue.pool_ref2, ← in_pool2 m c]
  exact (X6_arr m c 1).trans (Cert.KernelIdeal.PoolVal.pool_val2 (Y5 m) c)
theorem at18_main_v44 (c : Dev nD) : (X18 m c (Proc.devRef .tc main_v44) : S1024x512.Idx → EReal) = Cert.ReferenceIdeal.Read.val_main_v50 (F := Ideal) (m ((c : Thread nD τ).loc main_arg5)) (m ((c : Thread nD τ).loc main_arg23)) :=
  (X18_of_ne m c main_v44 (by decide)).trans <|
  (X17_of m c main_v44 (by decide)).trans <|
  (X16_of_ne m c main_v44 (by decide)).trans <|
  (X15_of m c main_v44 (by decide)).trans <|
  (X14_of_ne m c main_v44 (by decide)).trans <|
  (X13_of m c main_v44 (by decide)).trans <|
  (X12_of_ne m c main_v44 (by decide)).trans <|
  (X11_of m c main_v44 (by decide)).trans <|
  (X10_of_ne m c main_v44 (by decide)).trans <|
  (X9_of m c main_v44 (by decide)).trans <|
  (X8_of_ne m c main_v44 (by decide)).trans <|
  (X7_of m c main_v44 (by decide)).trans (out_pool2 m c)

/-- Region 3's input: the gather of the host stretch before it. -/
theorem in_pool3 (c : Dev nD) : (Y7 m c main_v51 : S1024x100x512.Idx → EReal) = Cert.ReferenceIdeal.Read.val_main_v57 (F := Ideal) (m ((c : Thread nD τ).loc main_arg6)) (m ((c : Thread nD τ).loc main_arg24)) := by
  show StableHlo.after hostOps3 (X6 m c) (Proc.devRef .tc main_v51) = _
  after_results
  rw [X6_main_arg6 m c, X6_main_arg24 m c]
  rfl
/-- Region 3's output array: the reference's pooled stage. -/
theorem out_pool3 (c : Dev nD) : (X8 m c (Proc.devRef .tc main_v52) : S1024x512.Idx → EReal) = Cert.ReferenceIdeal.Read.val_main_v60 (F := Ideal) (m ((c : Thread nD τ).loc main_arg6)) (m ((c : Thread nD τ).loc main_arg24)) := by
  rw [Cert.ReferenceIdeal.RefValue.pool_ref3, ← in_pool3 m c]
  exact (X8_arr m c 1).trans (Cert.KernelIdeal.PoolVal.pool_val3 (Y7 m) c)
theorem at18_main_v52 (c : Dev nD) : (X18 m c (Proc.devRef .tc main_v52) : S1024x512.Idx → EReal) = Cert.ReferenceIdeal.Read.val_main_v60 (F := Ideal) (m ((c : Thread nD τ).loc main_arg6)) (m ((c : Thread nD τ).loc main_arg24)) :=
  (X18_of_ne m c main_v52 (by decide)).trans <|
  (X17_of m c main_v52 (by decide)).trans <|
  (X16_of_ne m c main_v52 (by decide)).trans <|
  (X15_of m c main_v52 (by decide)).trans <|
  (X14_of_ne m c main_v52 (by decide)).trans <|
  (X13_of m c main_v52 (by decide)).trans <|
  (X12_of_ne m c main_v52 (by decide)).trans <|
  (X11_of m c main_v52 (by decide)).trans <|
  (X10_of_ne m c main_v52 (by decide)).trans <|
  (X9_of m c main_v52 (by decide)).trans (out_pool3 m c)

/-- Region 4's input: the gather of the host stretch before it. -/
theorem in_pool4 (c : Dev nD) : (Y9 m c main_v59 : S1024x100x512.Idx → EReal) = Cert.ReferenceIdeal.Read.val_main_v67 (F := Ideal) (m ((c : Thread nD τ).loc main_arg7)) (m ((c : Thread nD τ).loc main_arg25)) := by
  show StableHlo.after hostOps4 (X8 m c) (Proc.devRef .tc main_v59) = _
  after_results
  rw [X8_main_arg7 m c, X8_main_arg25 m c]
  rfl
/-- Region 4's output array: the reference's pooled stage. -/
theorem out_pool4 (c : Dev nD) : (X10 m c (Proc.devRef .tc main_v60) : S1024x512.Idx → EReal) = Cert.ReferenceIdeal.Read.val_main_v70 (F := Ideal) (m ((c : Thread nD τ).loc main_arg7)) (m ((c : Thread nD τ).loc main_arg25)) := by
  rw [Cert.ReferenceIdeal.RefValue.pool_ref4, ← in_pool4 m c]
  exact (X10_arr m c 1).trans (Cert.KernelIdeal.PoolVal.pool_val4 (Y9 m) c)
theorem at18_main_v60 (c : Dev nD) : (X18 m c (Proc.devRef .tc main_v60) : S1024x512.Idx → EReal) = Cert.ReferenceIdeal.Read.val_main_v70 (F := Ideal) (m ((c : Thread nD τ).loc main_arg7)) (m ((c : Thread nD τ).loc main_arg25)) :=
  (X18_of_ne m c main_v60 (by decide)).trans <|
  (X17_of m c main_v60 (by decide)).trans <|
  (X16_of_ne m c main_v60 (by decide)).trans <|
  (X15_of m c main_v60 (by decide)).trans <|
  (X14_of_ne m c main_v60 (by decide)).trans <|
  (X13_of m c main_v60 (by decide)).trans <|
  (X12_of_ne m c main_v60 (by decide)).trans <|
  (X11_of m c main_v60 (by decide)).trans (out_pool4 m c)

/-- Region 5's input: the gather of the host stretch before it. -/
theorem in_pool5 (c : Dev nD) : (Y11 m c main_v67 : S1024x100x512.Idx → EReal) = Cert.ReferenceIdeal.Read.val_main_v77 (F := Ideal) (m ((c : Thread nD τ).loc main_arg8)) (m ((c : Thread nD τ).loc main_arg26)) := by
  show StableHlo.after hostOps5 (X10 m c) (Proc.devRef .tc main_v67) = _
  after_results
  rw [X10_main_arg8 m c, X10_main_arg26 m c]
  rfl
/-- Region 5's output array: the reference's pooled stage. -/
theorem out_pool5 (c : Dev nD) : (X12 m c (Proc.devRef .tc main_v68) : S1024x512.Idx → EReal) = Cert.ReferenceIdeal.Read.val_main_v80 (F := Ideal) (m ((c : Thread nD τ).loc main_arg8)) (m ((c : Thread nD τ).loc main_arg26)) := by
  rw [Cert.ReferenceIdeal.RefValue.pool_ref5, ← in_pool5 m c]
  exact (X12_arr m c 1).trans (Cert.KernelIdeal.PoolVal.pool_val5 (Y11 m) c)
theorem at18_main_v68 (c : Dev nD) : (X18 m c (Proc.devRef .tc main_v68) : S1024x512.Idx → EReal) = Cert.ReferenceIdeal.Read.val_main_v80 (F := Ideal) (m ((c : Thread nD τ).loc main_arg8)) (m ((c : Thread nD τ).loc main_arg26)) :=
  (X18_of_ne m c main_v68 (by decide)).trans <|
  (X17_of m c main_v68 (by decide)).trans <|
  (X16_of_ne m c main_v68 (by decide)).trans <|
  (X15_of m c main_v68 (by decide)).trans <|
  (X14_of_ne m c main_v68 (by decide)).trans <|
  (X13_of m c main_v68 (by decide)).trans (out_pool5 m c)

/-- Region 6's input: the gather of the host stretch before it. -/
theorem in_pool6 (c : Dev nD) : (Y13 m c main_v75 : S1024x100x512.Idx → EReal) = Cert.ReferenceIdeal.Read.val_main_v87 (F := Ideal) (m ((c : Thread nD τ).loc main_arg9)) (m ((c : Thread nD τ).loc main_arg27)) := by
  show StableHlo.after hostOps6 (X12 m c) (Proc.devRef .tc main_v75) = _
  after_results
  rw [X12_main_arg9 m c, X12_main_arg27 m c]
  rfl
/-- Region 6's output array: the reference's pooled stage. -/
theorem out_pool6 (c : Dev nD) : (X14 m c (Proc.devRef .tc main_v76) : S1024x512.Idx → EReal) = Cert.ReferenceIdeal.Read.val_main_v90 (F := Ideal) (m ((c : Thread nD τ).loc main_arg9)) (m ((c : Thread nD τ).loc main_arg27)) := by
  rw [Cert.ReferenceIdeal.RefValue.pool_ref6, ← in_pool6 m c]
  exact (X14_arr m c 1).trans (Cert.KernelIdeal.PoolVal.pool_val6 (Y13 m) c)
theorem at18_main_v76 (c : Dev nD) : (X18 m c (Proc.devRef .tc main_v76) : S1024x512.Idx → EReal) = Cert.ReferenceIdeal.Read.val_main_v90 (F := Ideal) (m ((c : Thread nD τ).loc main_arg9)) (m ((c : Thread nD τ).loc main_arg27)) :=
  (X18_of_ne m c main_v76 (by decide)).trans <|
  (X17_of m c main_v76 (by decide)).trans <|
  (X16_of_ne m c main_v76 (by decide)).trans <|
  (X15_of m c main_v76 (by decide)).trans (out_pool6 m c)

/-- Region 7's input: the gather of the host stretch before it. -/
theorem in_pool7 (c : Dev nD) : (Y15 m c main_v83 : S1024x100x512.Idx → EReal) = Cert.ReferenceIdeal.Read.val_main_v97 (F := Ideal) (m ((c : Thread nD τ).loc main_arg10)) (m ((c : Thread nD τ).loc main_arg28)) := by
  show StableHlo.after hostOps7 (X14 m c) (Proc.devRef .tc main_v83) = _
  after_results
  rw [X14_main_arg10 m c, X14_main_arg28 m c]
  rfl
/-- Region 7's output array: the reference's pooled stage. -/
theorem out_pool7 (c : Dev nD) : (X16 m c (Proc.devRef .tc main_v84) : S1024x512.Idx → EReal) = Cert.ReferenceIdeal.Read.val_main_v100 (F := Ideal) (m ((c : Thread nD τ).loc main_arg10)) (m ((c : Thread nD τ).loc main_arg28)) := by
  rw [Cert.ReferenceIdeal.RefValue.pool_ref7, ← in_pool7 m c]
  exact (X16_arr m c 1).trans (Cert.KernelIdeal.PoolVal.pool_val7 (Y15 m) c)
theorem at18_main_v84 (c : Dev nD) : (X18 m c (Proc.devRef .tc main_v84) : S1024x512.Idx → EReal) = Cert.ReferenceIdeal.Read.val_main_v100 (F := Ideal) (m ((c : Thread nD τ).loc main_arg10)) (m ((c : Thread nD τ).loc main_arg28)) :=
  (X18_of_ne m c main_v84 (by decide)).trans <|
  (X17_of m c main_v84 (by decide)).trans (out_pool7 m c)

/-- Region 8's input: the gather of the host stretch before it. -/
theorem in_pool8 (c : Dev nD) : (Y17 m c main_v91 : S1024x100x512.Idx → EReal) = Cert.ReferenceIdeal.Read.val_main_v107 (F := Ideal) (m ((c : Thread nD τ).loc main_arg11)) (m ((c : Thread nD τ).loc main_arg29)) := by
  show StableHlo.after hostOps8 (X16 m c) (Proc.devRef .tc main_v91) = _
  after_results
  rw [X16_main_arg11 m c, X16_main_arg29 m c]
  rfl
/-- Region 8's output array: the reference's pooled stage. -/
theorem out_pool8 (c : Dev nD) : (X18 m c (Proc.devRef .tc main_v92) : S1024x512.Idx → EReal) = Cert.ReferenceIdeal.Read.val_main_v110 (F := Ideal) (m ((c : Thread nD τ).loc main_arg11)) (m ((c : Thread nD τ).loc main_arg29)) := by
  rw [Cert.ReferenceIdeal.RefValue.pool_ref8, ← in_pool8 m c]
  exact (X18_arr m c 1).trans (Cert.KernelIdeal.PoolVal.pool_val8 (Y17 m) c)
theorem at18_main_v92 (c : Dev nD) : (X18 m c (Proc.devRef .tc main_v92) : S1024x512.Idx → EReal) = Cert.ReferenceIdeal.Read.val_main_v110 (F := Ideal) (m ((c : Thread nD τ).loc main_arg11)) (m ((c : Thread nD τ).loc main_arg29)) :=
  (out_pool8 m c)

/-! ## The concatenated rows and the result -/

/-- The perceptron region's input: the concatenation of the twelve pieces, the reference's concatenated stage. -/
theorem in_mlp (c : Dev nD) : (Y19 m c main_v93 : S1024x6144.Idx → EReal) = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) := by
  show StableHlo.after hostOps9 (X18 m c) (Proc.devRef .tc main_v93) = _
  after_results
  unfold Cert.ReferenceIdeal.Read.val_main_v111
  rw [← at18_main_v6 m c, ← at18_main_v13 m c, ← at18_main_v20 m c, ← at18_main_v28 m c, ← at18_main_v36 m c, ← at18_main_v44 m c, ← at18_main_v52 m c, ← at18_main_v60 m c, ← at18_main_v68 m c, ← at18_main_v76 m c, ← at18_main_v84 m c, ← at18_main_v92 m c]
  rfl

/-- THE KERNEL PROGRAM'S RESULT is the reference's result term of the launch contents. -/
theorem result (c : Dev nD) : (X20 m c (Proc.devRef .tc main_v94) : S1024x128.Idx → EReal) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) := by
  rw [Cert.ReferenceIdeal.RefValue.mlp_ref, ← in_mlp m c]
  refine (X20_arr m c 7).trans ((Cert.KernelIdeal.MlpVal.mlp_val (Y19 m) c).trans ?_)
  show Cert.Spec.mlpA (X19 m c (Proc.devRef .tc main_v93)) (X19 m c (Proc.devRef .tc main_arg12)) (X19 m c (Proc.devRef .tc main_arg13)) (X19 m c (Proc.devRef .tc main_arg14)) (X19 m c (Proc.devRef .tc main_arg15)) (X19 m c (Proc.devRef .tc main_arg16)) (X19 m c (Proc.devRef .tc main_arg17)) = _
  rw [X19_main_arg12 m c, X19_main_arg13 m c, X19_main_arg14 m c, X19_main_arg15 m c, X19_main_arg16 m c, X19_main_arg17 m c]

end Cert.KernelIdeal.HostVal

end
-- ==== Proof.Claims.lean ====
/-
  The five claims. The two kernel programs' frames are the run of their twenty items read at the argument arrays; the
  reference's frame is its run with the result dropped; nothing was rewritten by the idealization, so there is nothing
  to preserve; and the two idealized programs end with the same result: the kernel program's result array is the
  reference's result term of the launch contents, and the two launch memories agree on the arguments.
-/
import proofs.«180909_j89275190215119_1_alg».proof.Defs
import proofs.«180909_j89275190215119_1_alg».proof.Proof.KbRun
import proofs.«180909_j89275190215119_1_alg».proof.Proof.KbArgsA
import proofs.«180909_j89275190215119_1_alg».proof.Proof.KbArgsB
import proofs.«180909_j89275190215119_1_alg».proof.Proof.KbArgsC
import proofs.«180909_j89275190215119_1_alg».proof.Proof.KiRun
import proofs.«180909_j89275190215119_1_alg».proof.Proof.KiArgsA
import proofs.«180909_j89275190215119_1_alg».proof.Proof.KiArgsB
import proofs.«180909_j89275190215119_1_alg».proof.Proof.KiArgsC
import proofs.«180909_j89275190215119_1_alg».proof.Proof.KiHostVal
import proofs.«180909_j89275190215119_1_alg».proof.Proof.Gen.Kernel
import proofs.«180909_j89275190215119_1_alg».proof.Proof.Gen.KernelIdeal
import proofs.«180909_j89275190215119_1_alg».proof.Proof.Gen.ReferenceIdeal
import proofs.«180909_j89275190215119_1_alg».proof.Proof.Gen.Pre_finite_inputs
import proofs.«180909_j89275190215119_1_alg».proof.Proof.Gen.ReferenceIdeal.Run
import proofs.«180909_j89275190215119_1_alg».proof.Proof.Gen.ReferenceIdeal.Read

set_option maxRecDepth 16384

noncomputable section

namespace Cert.Proof.Claims

open Idealize.ShloMosaic Idealize.ShloMosaic.TcCoe Idealize.SL.Sem

theorem frame_k : Cert.frame_Kernel := fun m ρ _ =>
  (θ_run Cert.Kernel.defs _ _).mono (fun r h c =>
    ⟨(h c _ (Cert.Kernel.Fr.mem_uc Cert.Kernel.main_arg0 (by decide))).trans (Cert.Kernel.Fr.X20_main_arg0 m c),
      (h c _ (Cert.Kernel.Fr.mem_uc Cert.Kernel.main_arg1 (by decide))).trans (Cert.Kernel.Fr.X20_main_arg1 m c),
      (h c _ (Cert.Kernel.Fr.mem_uc Cert.Kernel.main_arg2 (by decide))).trans (Cert.Kernel.Fr.X20_main_arg2 m c),
      (h c _ (Cert.Kernel.Fr.mem_uc Cert.Kernel.main_arg3 (by decide))).trans (Cert.Kernel.Fr.X20_main_arg3 m c),
      (h c _ (Cert.Kernel.Fr.mem_uc Cert.Kernel.main_arg4 (by decide))).trans (Cert.Kernel.Fr.X20_main_arg4 m c),
      (h c _ (Cert.Kernel.Fr.mem_uc Cert.Kernel.main_arg5 (by decide))).trans (Cert.Kernel.Fr.X20_main_arg5 m c),
      (h c _ (Cert.Kernel.Fr.mem_uc Cert.Kernel.main_arg6 (by decide))).trans (Cert.Kernel.Fr.X20_main_arg6 m c),
      (h c _ (Cert.Kernel.Fr.mem_uc Cert.Kernel.main_arg7 (by decide))).trans (Cert.Kernel.Fr.X20_main_arg7 m c),
      (h c _ (Cert.Kernel.Fr.mem_uc Cert.Kernel.main_arg8 (by decide))).trans (Cert.Kernel.Fr.X20_main_arg8 m c),
      (h c _ (Cert.Kernel.Fr.mem_uc Cert.Kernel.main_arg9 (by decide))).trans (Cert.Kernel.Fr.X20_main_arg9 m c),
      (h c _ (Cert.Kernel.Fr.mem_uc Cert.Kernel.main_arg10 (by decide))).trans (Cert.Kernel.Fr.X20_main_arg10 m c),
      (h c _ (Cert.Kernel.Fr.mem_uc Cert.Kernel.main_arg11 (by decide))).trans (Cert.Kernel.Fr.X20_main_arg11 m c),
      (h c _ (Cert.Kernel.Fr.mem_uc Cert.Kernel.main_arg12 (by decide))).trans (Cert.Kernel.Fr.X20_main_arg12 m c),
      (h c _ (Cert.Kernel.Fr.mem_uc Cert.Kernel.main_arg13 (by decide))).trans (Cert.Kernel.Fr.X20_main_arg13 m c),
      (h c _ (Cert.Kernel.Fr.mem_uc Cert.Kernel.main_arg14 (by decide))).trans (Cert.Kernel.Fr.X20_main_arg14 m c),
      (h c _ (Cert.Kernel.Fr.mem_uc Cert.Kernel.main_arg15 (by decide))).trans (Cert.Kernel.Fr.X20_main_arg15 m c),
      (h c _ (Cert.Kernel.Fr.mem_uc Cert.Kernel.main_arg16 (by decide))).trans (Cert.Kernel.Fr.X20_main_arg16 m c),
      (h c _ (Cert.Kernel.Fr.mem_uc Cert.Kernel.main_arg17 (by decide))).trans (Cert.Kernel.Fr.X20_main_arg17 m c),
      (h c _ (Cert.Kernel.Fr.mem_uc Cert.Kernel.main_arg18 (by decide))).trans (Cert.Kernel.Fr.X20_main_arg18 m c),
      (h c _ (Cert.Kernel.Fr.mem_uc Cert.Kernel.main_arg19 (by decide))).trans (Cert.Kernel.Fr.X20_main_arg19 m c),
      (h c _ (Cert.Kernel.Fr.mem_uc Cert.Kernel.main_arg20 (by decide))).trans (Cert.Kernel.Fr.X20_main_arg20 m c),
      (h c _ (Cert.Kernel.Fr.mem_uc Cert.Kernel.main_arg21 (by decide))).trans (Cert.Kernel.Fr.X20_main_arg21 m c),
      (h c _ (Cert.Kernel.Fr.mem_uc Cert.Kernel.main_arg22 (by decide))).trans (Cert.Kernel.Fr.X20_main_arg22 m c),
      (h c _ (Cert.Kernel.Fr.mem_uc Cert.Kernel.main_arg23 (by decide))).trans (Cert.Kernel.Fr.X20_main_arg23 m c),
      (h c _ (Cert.Kernel.Fr.mem_uc Cert.Kernel.main_arg24 (by decide))).trans (Cert.Kernel.Fr.X20_main_arg24 m c),
      (h c _ (Cert.Kernel.Fr.mem_uc Cert.Kernel.main_arg25 (by decide))).trans (Cert.Kernel.Fr.X20_main_arg25 m c),
      (h c _ (Cert.Kernel.Fr.mem_uc Cert.Kernel.main_arg26 (by decide))).trans (Cert.Kernel.Fr.X20_main_arg26 m c),
      (h c _ (Cert.Kernel.Fr.mem_uc Cert.Kernel.main_arg27 (by decide))).trans (Cert.Kernel.Fr.X20_main_arg27 m c),
      (h c _ (Cert.Kernel.Fr.mem_uc Cert.Kernel.main_arg28 (by decide))).trans (Cert.Kernel.Fr.X20_main_arg28 m c),
      (h c _ (Cert.Kernel.Fr.mem_uc Cert.Kernel.main_arg29 (by decide))).trans (Cert.Kernel.Fr.X20_main_arg29 m c)⟩) (Cert.Kernel.Fr.run_all m ρ)

theorem frame_ki : Cert.frame_KernelIdeal := fun m ρ _ =>
  (θ_run Cert.KernelIdeal.defs _ _).mono (fun r h c =>
    ⟨(h c _ (Cert.KernelIdeal.Fr.mem_uc Cert.KernelIdeal.main_arg0 (by decide))).trans (Cert.KernelIdeal.Fr.X20_main_arg0 m c),
      (h c _ (Cert.KernelIdeal.Fr.mem_uc Cert.KernelIdeal.main_arg1 (by decide))).trans (Cert.KernelIdeal.Fr.X20_main_arg1 m c),
      (h c _ (Cert.KernelIdeal.Fr.mem_uc Cert.KernelIdeal.main_arg2 (by decide))).trans (Cert.KernelIdeal.Fr.X20_main_arg2 m c),
      (h c _ (Cert.KernelIdeal.Fr.mem_uc Cert.KernelIdeal.main_arg3 (by decide))).trans (Cert.KernelIdeal.Fr.X20_main_arg3 m c),
      (h c _ (Cert.KernelIdeal.Fr.mem_uc Cert.KernelIdeal.main_arg4 (by decide))).trans (Cert.KernelIdeal.Fr.X20_main_arg4 m c),
      (h c _ (Cert.KernelIdeal.Fr.mem_uc Cert.KernelIdeal.main_arg5 (by decide))).trans (Cert.KernelIdeal.Fr.X20_main_arg5 m c),
      (h c _ (Cert.KernelIdeal.Fr.mem_uc Cert.KernelIdeal.main_arg6 (by decide))).trans (Cert.KernelIdeal.Fr.X20_main_arg6 m c),
      (h c _ (Cert.KernelIdeal.Fr.mem_uc Cert.KernelIdeal.main_arg7 (by decide))).trans (Cert.KernelIdeal.Fr.X20_main_arg7 m c),
      (h c _ (Cert.KernelIdeal.Fr.mem_uc Cert.KernelIdeal.main_arg8 (by decide))).trans (Cert.KernelIdeal.Fr.X20_main_arg8 m c),
      (h c _ (Cert.KernelIdeal.Fr.mem_uc Cert.KernelIdeal.main_arg9 (by decide))).trans (Cert.KernelIdeal.Fr.X20_main_arg9 m c),
      (h c _ (Cert.KernelIdeal.Fr.mem_uc Cert.KernelIdeal.main_arg10 (by decide))).trans (Cert.KernelIdeal.Fr.X20_main_arg10 m c),
      (h c _ (Cert.KernelIdeal.Fr.mem_uc Cert.KernelIdeal.main_arg11 (by decide))).trans (Cert.KernelIdeal.Fr.X20_main_arg11 m c),
      (h c _ (Cert.KernelIdeal.Fr.mem_uc Cert.KernelIdeal.main_arg12 (by decide))).trans (Cert.KernelIdeal.Fr.X20_main_arg12 m c),
      (h c _ (Cert.KernelIdeal.Fr.mem_uc Cert.KernelIdeal.main_arg13 (by decide))).trans (Cert.KernelIdeal.Fr.X20_main_arg13 m c),
      (h c _ (Cert.KernelIdeal.Fr.mem_uc Cert.KernelIdeal.main_arg14 (by decide))).trans (Cert.KernelIdeal.Fr.X20_main_arg14 m c),
      (h c _ (Cert.KernelIdeal.Fr.mem_uc Cert.KernelIdeal.main_arg15 (by decide))).trans (Cert.KernelIdeal.Fr.X20_main_arg15 m c),
      (h c _ (Cert.KernelIdeal.Fr.mem_uc Cert.KernelIdeal.main_arg16 (by decide))).trans (Cert.KernelIdeal.Fr.X20_main_arg16 m c),
      (h c _ (Cert.KernelIdeal.Fr.mem_uc Cert.KernelIdeal.main_arg17 (by decide))).trans (Cert.KernelIdeal.Fr.X20_main_arg17 m c),
      (h c _ (Cert.KernelIdeal.Fr.mem_uc Cert.KernelIdeal.main_arg18 (by decide))).trans (Cert.KernelIdeal.Fr.X20_main_arg18 m c),
      (h c _ (Cert.KernelIdeal.Fr.mem_uc Cert.KernelIdeal.main_arg19 (by decide))).trans (Cert.KernelIdeal.Fr.X20_main_arg19 m c),
      (h c _ (Cert.KernelIdeal.Fr.mem_uc Cert.KernelIdeal.main_arg20 (by decide))).trans (Cert.KernelIdeal.Fr.X20_main_arg20 m c),
      (h c _ (Cert.KernelIdeal.Fr.mem_uc Cert.KernelIdeal.main_arg21 (by decide))).trans (Cert.KernelIdeal.Fr.X20_main_arg21 m c),
      (h c _ (Cert.KernelIdeal.Fr.mem_uc Cert.KernelIdeal.main_arg22 (by decide))).trans (Cert.KernelIdeal.Fr.X20_main_arg22 m c),
      (h c _ (Cert.KernelIdeal.Fr.mem_uc Cert.KernelIdeal.main_arg23 (by decide))).trans (Cert.KernelIdeal.Fr.X20_main_arg23 m c),
      (h c _ (Cert.KernelIdeal.Fr.mem_uc Cert.KernelIdeal.main_arg24 (by decide))).trans (Cert.KernelIdeal.Fr.X20_main_arg24 m c),
      (h c _ (Cert.KernelIdeal.Fr.mem_uc Cert.KernelIdeal.main_arg25 (by decide))).trans (Cert.KernelIdeal.Fr.X20_main_arg25 m c),
      (h c _ (Cert.KernelIdeal.Fr.mem_uc Cert.KernelIdeal.main_arg26 (by decide))).trans (Cert.KernelIdeal.Fr.X20_main_arg26 m c),
      (h c _ (Cert.KernelIdeal.Fr.mem_uc Cert.KernelIdeal.main_arg27 (by decide))).trans (Cert.KernelIdeal.Fr.X20_main_arg27 m c),
      (h c _ (Cert.KernelIdeal.Fr.mem_uc Cert.KernelIdeal.main_arg28 (by decide))).trans (Cert.KernelIdeal.Fr.X20_main_arg28 m c),
      (h c _ (Cert.KernelIdeal.Fr.mem_uc Cert.KernelIdeal.main_arg29 (by decide))).trans (Cert.KernelIdeal.Fr.X20_main_arg29 m c)⟩) (Cert.KernelIdeal.Fr.run_all m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)), ?_, ?_⟩
  · exact (θ_run Cert.KernelIdeal.defs _ _).mono (fun r h c =>
      ⟨(h c _ (Cert.KernelIdeal.Fr.mem_uc Cert.KernelIdeal.main_v94 (by decide))).trans (Cert.KernelIdeal.HostVal.result m c),
      (h c _ (Cert.KernelIdeal.Fr.mem_uc Cert.KernelIdeal.main_arg0 (by decide))).trans (Cert.KernelIdeal.Fr.X20_main_arg0 m c),
      (h c _ (Cert.KernelIdeal.Fr.mem_uc Cert.KernelIdeal.main_arg1 (by decide))).trans (Cert.KernelIdeal.Fr.X20_main_arg1 m c),
      (h c _ (Cert.KernelIdeal.Fr.mem_uc Cert.KernelIdeal.main_arg2 (by decide))).trans (Cert.KernelIdeal.Fr.X20_main_arg2 m c),
      (h c _ (Cert.KernelIdeal.Fr.mem_uc Cert.KernelIdeal.main_arg3 (by decide))).trans (Cert.KernelIdeal.Fr.X20_main_arg3 m c),
      (h c _ (Cert.KernelIdeal.Fr.mem_uc Cert.KernelIdeal.main_arg4 (by decide))).trans (Cert.KernelIdeal.Fr.X20_main_arg4 m c),
      (h c _ (Cert.KernelIdeal.Fr.mem_uc Cert.KernelIdeal.main_arg5 (by decide))).trans (Cert.KernelIdeal.Fr.X20_main_arg5 m c),
      (h c _ (Cert.KernelIdeal.Fr.mem_uc Cert.KernelIdeal.main_arg6 (by decide))).trans (Cert.KernelIdeal.Fr.X20_main_arg6 m c),
      (h c _ (Cert.KernelIdeal.Fr.mem_uc Cert.KernelIdeal.main_arg7 (by decide))).trans (Cert.KernelIdeal.Fr.X20_main_arg7 m c),
      (h c _ (Cert.KernelIdeal.Fr.mem_uc Cert.KernelIdeal.main_arg8 (by decide))).trans (Cert.KernelIdeal.Fr.X20_main_arg8 m c),
      (h c _ (Cert.KernelIdeal.Fr.mem_uc Cert.KernelIdeal.main_arg9 (by decide))).trans (Cert.KernelIdeal.Fr.X20_main_arg9 m c),
      (h c _ (Cert.KernelIdeal.Fr.mem_uc Cert.KernelIdeal.main_arg10 (by decide))).trans (Cert.KernelIdeal.Fr.X20_main_arg10 m c),
      (h c _ (Cert.KernelIdeal.Fr.mem_uc Cert.KernelIdeal.main_arg11 (by decide))).trans (Cert.KernelIdeal.Fr.X20_main_arg11 m c),
      (h c _ (Cert.KernelIdeal.Fr.mem_uc Cert.KernelIdeal.main_arg12 (by decide))).trans (Cert.KernelIdeal.Fr.X20_main_arg12 m c),
      (h c _ (Cert.KernelIdeal.Fr.mem_uc Cert.KernelIdeal.main_arg13 (by decide))).trans (Cert.KernelIdeal.Fr.X20_main_arg13 m c),
      (h c _ (Cert.KernelIdeal.Fr.mem_uc Cert.KernelIdeal.main_arg14 (by decide))).trans (Cert.KernelIdeal.Fr.X20_main_arg14 m c),
      (h c _ (Cert.KernelIdeal.Fr.mem_uc Cert.KernelIdeal.main_arg15 (by decide))).trans (Cert.KernelIdeal.Fr.X20_main_arg15 m c),
      (h c _ (Cert.KernelIdeal.Fr.mem_uc Cert.KernelIdeal.main_arg16 (by decide))).trans (Cert.KernelIdeal.Fr.X20_main_arg16 m c),
      (h c _ (Cert.KernelIdeal.Fr.mem_uc Cert.KernelIdeal.main_arg17 (by decide))).trans (Cert.KernelIdeal.Fr.X20_main_arg17 m c),
      (h c _ (Cert.KernelIdeal.Fr.mem_uc Cert.KernelIdeal.main_arg18 (by decide))).trans (Cert.KernelIdeal.Fr.X20_main_arg18 m c),
      (h c _ (Cert.KernelIdeal.Fr.mem_uc Cert.KernelIdeal.main_arg19 (by decide))).trans (Cert.KernelIdeal.Fr.X20_main_arg19 m c),
      (h c _ (Cert.KernelIdeal.Fr.mem_uc Cert.KernelIdeal.main_arg20 (by decide))).trans (Cert.KernelIdeal.Fr.X20_main_arg20 m c),
      (h c _ (Cert.KernelIdeal.Fr.mem_uc Cert.KernelIdeal.main_arg21 (by decide))).trans (Cert.KernelIdeal.Fr.X20_main_arg21 m c),
      (h c _ (Cert.KernelIdeal.Fr.mem_uc Cert.KernelIdeal.main_arg22 (by decide))).trans (Cert.KernelIdeal.Fr.X20_main_arg22 m c),
      (h c _ (Cert.KernelIdeal.Fr.mem_uc Cert.KernelIdeal.main_arg23 (by decide))).trans (Cert.KernelIdeal.Fr.X20_main_arg23 m c),
      (h c _ (Cert.KernelIdeal.Fr.mem_uc Cert.KernelIdeal.main_arg24 (by decide))).trans (Cert.KernelIdeal.Fr.X20_main_arg24 m c),
      (h c _ (Cert.KernelIdeal.Fr.mem_uc Cert.KernelIdeal.main_arg25 (by decide))).trans (Cert.KernelIdeal.Fr.X20_main_arg25 m c),
      (h c _ (Cert.KernelIdeal.Fr.mem_uc Cert.KernelIdeal.main_arg26 (by decide))).trans (Cert.KernelIdeal.Fr.X20_main_arg26 m c),
      (h c _ (Cert.KernelIdeal.Fr.mem_uc Cert.KernelIdeal.main_arg27 (by decide))).trans (Cert.KernelIdeal.Fr.X20_main_arg27 m c),
      (h c _ (Cert.KernelIdeal.Fr.mem_uc Cert.KernelIdeal.main_arg28 (by decide))).trans (Cert.KernelIdeal.Fr.X20_main_arg28 m c),
      (h c _ (Cert.KernelIdeal.Fr.mem_uc Cert.KernelIdeal.main_arg29 (by decide))).trans (Cert.KernelIdeal.Fr.X20_main_arg29 m c)⟩)
      (Cert.KernelIdeal.Fr.run_all m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24, e25, e26, e27, e28, e29⟩ := hagree c
    rw [Cert.ReferenceIdeal.Read.val_main_v125_eq, e0, e1, e2, e3, e4, e5, e6, e7, e8, e9, e10, e11, e12, e13, e14, e15, e16, e17, e18, e19, e20, e21, e22, e23, e24, e25, e26, e27, e28, e29]

end Cert.Proof.Claims

end
-- ==== Proof.lean ====
/-
  The certificate of the playlist-tower kernel against its plain reference: twelve embedding lookups (three single rows,
  nine mean pools over 100 gathered rows, each pool one kernel region), their concatenation, and a three-layer perceptron
  (one kernel region). At the ideal instance every float is an extended real and every operation exact, so a pool region
  computes (Σ_k x[b,k,j]) / 100 exactly as the reference's sum and quotient do, and the perceptron region computes the
  same three products, biases and maxima with zero as the reference, a product being the plain sum over the contracted
  coordinate on both sides; the gathers and the concatenation are the same host operations in both programs. The claims
  are proved in Proof/Claims.lean.
-/
import proofs.«180909_j89275190215119_1_alg».proof.Defs
import proofs.«180909_j89275190215119_1_alg».proof.Proof.Gen.Kernel
import proofs.«180909_j89275190215119_1_alg».proof.Proof.Gen.KernelIdeal
import proofs.«180909_j89275190215119_1_alg».proof.Proof.Gen.ReferenceIdeal
import proofs.«180909_j89275190215119_1_alg».proof.Proof.Gen.Pre_finite_inputs
import proofs.«180909_j89275190215119_1_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
